-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x24 : Shape := ⟨2, ![500000, 24]⟩
abbrev S2x4000000 : Shape := ⟨2, ![2, 4000000]⟩
abbrev S6x24x64 : Shape := ⟨3, ![6, 24, 64]⟩
abbrev S64 : Shape := ⟨1, ![64]⟩
abbrev S1x64x6 : Shape := ⟨3, ![1, 64, 6]⟩
abbrev S6 : Shape := ⟨1, ![6]⟩
abbrev S_ : Shape := ⟨0, ![]⟩

class Facts : Prop where
  bcast_S_S500000x24 : S_.BroadcastsInDim S500000x24 (![] : Fin 0 → Fin S500000x24.rank)
  reducesTo_S500000x24_S_d0_1 : S500000x24.ReducesTo [0, 1] S_
  h_S_ : 0 < S_.numel
  bcast_S_S6x24x64 : S_.BroadcastsInDim S6x24x64 (![] : Fin 0 → Fin S6x24x64.rank)
  reducesTo_S6x24x64_S_d0_1_2 : S6x24x64.ReducesTo [0, 1, 2] S_
  bcast_S_S64 : S_.BroadcastsInDim S64 (![] : Fin 0 → Fin S64.rank)
  reducesTo_S64_S_d0 : S64.ReducesTo [0] S_
  bcast_S_S1x64x6 : S_.BroadcastsInDim S1x64x6 (![] : Fin 0 → Fin S1x64x6.rank)
  reducesTo_S1x64x6_S_d0_1_2 : S1x64x6.ReducesTo [0, 1, 2] S_
  bcast_S_S6 : S_.BroadcastsInDim S6 (![] : Fin 0 → Fin S6.rank)
  reducesTo_S6_S_d0 : S6.ReducesTo [0] S_

variable [Facts]

def fn_part1 {F : FTy → Type} [FloatOps F] (main_arg5 : FVec F S64 .f32) (main_arg6 : FVec F S1x64x6 .f32) (main_arg7 : FVec F S6 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64x6 .f32 := Host.absf main_arg6
  let main_cst_8 : FVec F S_ .f32 := constant S_ .f32 0x7F800000#32
  let main_v25 : FVec F S1x64x6 .f32 := broadcastInDim S1x64x6 ![] bcast_S_S1x64x6 main_cst_8
  let main_v26 : IVec S1x64x6 1 := cmpf .olt main_v24 main_v25
  let main_c_9 : IVec S_ 1 := constantI S_ 1 1#1
  let main_v27 : IVec S_ 1 := (fun x v => Host.reduce IntOp.andi x v reducesTo_S1x64x6_S_d0_1_2 h_S_) main_v26 main_c_9
  let main_v28 : IVec S_ 1 := andi main_v23 main_v27
  let main_v29 : FVec F S6 .f32 := Host.absf main_arg7
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S500000x24 .f32) (main_arg1 : IVec S2x4000000 32) (main_arg2 : FVec F S6x24x64 .f32) (main_arg3 : FVec F S64 .f32) (main_arg4 : FVec F S64 .f32) (main_arg5 : FVec F S64 .f32) (main_arg6 : FVec F S1x64x6 .f32) (main_arg7 : FVec F S6 .f32) : IVec S_ 1 :=
  let main_v0 : FVec F S500000x24 .f32 := Host.absf main_arg0
  let main_cst : FVec F S_ .f32 := constant S_ .f32 0x7F800000#32
  let main_v1 : FVec F S500000x24 .f32 := broadcastInDim S500000x24 ![] bcast_S_S500000x24 main_cst
  let main_v2 : IVec S500000x24 1 := cmpf .olt main_v0 main_v1
  let main_c : IVec S_ 1 := constantI S_ 1 1#1
  let main_v3 : IVec S_ 1 := (fun x v => Host.reduce IntOp.andi x v reducesTo_S500000x24_S_d0_1 h_S_) main_v2 main_c
  let main_v4 : FVec F S6x24x64 .f32 := Host.absf main_arg2
  let main_cst_0 : FVec F S_ .f32 := constant S_ .f32 0x7F800000#32
  let main_v5 : FVec F S6x24x64 .f32 := broadcastInDim S6x24x64 ![] bcast_S_S6x24x64 main_cst_0
  let main_v6 : IVec S6x24x64 1 := cmpf .olt main_v4 main_v5
  let main_c_1 : IVec S_ 1 := constantI S_ 1 1#1
  let main_v7 : IVec S_ 1 := (fun x v => Host.reduce IntOp.andi x v reducesTo_S6x24x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S500000x24 : Shape := ⟨2, ![500000, 24]⟩
abbrev S2x4000000 : Shape := ⟨2, ![2, 4000000]⟩
abbrev S6x24x64 : Shape := ⟨3, ![6, 24, 64]⟩
abbrev S64 : Shape := ⟨1, ![64]⟩
abbrev S1x64x6 : Shape := ⟨3, ![1, 64, 6]⟩
abbrev S6 : Shape := ⟨1, ![6]⟩
abbrev S1x4000000 : Shape := ⟨2, ![1, 4000000]⟩
abbrev S4000000 : Shape := ⟨1, ![4000000]⟩
abbrev S_ : Shape := ⟨0, ![]⟩
abbrev S500000 : Shape := ⟨1, ![500000]⟩
abbrev S4000000x1 : Shape := ⟨2, ![4000000, 1]⟩
abbrev S4000000x24 : Shape := ⟨2, ![4000000, 24]⟩
abbrev S1x500000x24 : Shape := ⟨3, ![1, 500000, 24]⟩
abbrev S6x500000x24 : Shape := ⟨3, ![6, 500000, 24]⟩
abbrev S1x64 : Shape := ⟨2, ![1, 64]⟩
abbrev S500000x64 : Shape := ⟨2, ![500000, 64]⟩
abbrev S250x2x64 : Shape := ⟨3, ![250, 2, 64]⟩
abbrev S6x2000x24 : Shape := ⟨3, ![6, 2000, 24]⟩
abbrev S2000x64 : Shape := ⟨2, ![2000, 64]⟩
abbrev S1x2x64 : Shape := ⟨3, ![1, 2, 64]⟩
abbrev S1x2000x24 : Shape := ⟨3, ![1, 2000, 24]⟩
abbrev S2000x24 : Shape := ⟨2, ![2000, 24]⟩
abbrev S1x24x64 : Shape := ⟨3, ![1, 24, 64]⟩
abbrev S24x64 : Shape := ⟨2, ![24, 64]⟩
abbrev S2x64 : Shape := ⟨2, ![2, 64]⟩
abbrev S64x6 : Shape := ⟨2, ![64, 6]⟩
abbrev S1x6 : Shape := ⟨2, ![1, 6]⟩
abbrev S500000x6 : Shape := ⟨2, ![500000, 6]⟩
abbrev S10000x64 : Shape := ⟨2, ![10000, 64]⟩
abbrev S10000x6 : Shape := ⟨2, ![10000, 6]⟩

abbrev nBuf : Space → Nat
  | .hbm => 176
  | .vmem => 18
  | .smem => 0
  | _ => 0

abbrev hbmTy0_0 (i : Nat) : BufTy := match i % 128 with
  | 0 => ⟨S500000x24, .f32⟩
  | 1 => ⟨S2x4000000, .i32⟩
  | 2 => ⟨S6x24x64, .f32⟩
  | 3 => ⟨S64, .f32⟩
  | 4 => ⟨S64, .f32⟩
  | 5 => ⟨S64, .f32⟩
  | 6 => ⟨S1x64x6, .f32⟩
  | 7 => ⟨S6, .f32⟩
  | 8 => ⟨S1x4000000, .i32⟩
  | 9 => ⟨S4000000, .i32⟩
  | 10 => ⟨S1x4000000, .i32⟩
  | 11 => ⟨S4000000, .i32⟩
  | 12 => ⟨S_, .f32⟩
  | 13 => ⟨S4000000, .f32⟩
  | 14 => ⟨S_, .f32⟩
  | 15 => ⟨S500000, .f32⟩
  | 16 => ⟨S4000000x1, .i32⟩
  | 17 => ⟨S500000, .f32⟩
  | 18 => ⟨S_, .f32⟩
  | 19 => ⟨S500000, .f32⟩
  | 20 => ⟨S500000, .i1⟩
  | 21 => ⟨S_, .f32⟩
  | 22 => ⟨S500000, .f32⟩
  | 23 => ⟨S500000, .f32⟩
  | 24 => ⟨S500000, .f32⟩
  | 25 => ⟨S_, .f32⟩
  | 26 => ⟨S_, .f32⟩
  | 27 => ⟨S500000, .f32⟩
  | 28 => ⟨S500000, .f32⟩
  | 29 => ⟨S_, .i32⟩
  | 30 => ⟨S4000000, .i32⟩
  | 31 => ⟨S4000000, .i1⟩
  | 32 => ⟨S_, .i32⟩
  | 33 => ⟨S4000000, .i32⟩
  | 34 => ⟨S4000000, .i32⟩
  | 35 => ⟨S4000000, .i32⟩
  | 36 => ⟨S4000000x1, .i32⟩
  | 37 => ⟨S4000000, .f32⟩
  | 38 => ⟨S_, .i32⟩
  | 39 => ⟨S4000000, .i32⟩
  | 40 => ⟨S4000000, .i1⟩
  | 41 => ⟨S_, .i32⟩
  | 42 => ⟨S4000000, .i32⟩
  | 43 => ⟨S4000000, .i32⟩
  | 44 => ⟨S4000000, .i32⟩
  | 45 => ⟨S4000000x1, .i32⟩
  | 46 => ⟨S4000000, .f32⟩
  | 47 => ⟨S4000000, .f32⟩
  | 48 => ⟨S4000000, .f32⟩
  | 49 => ⟨S4000000x1, .f32⟩
  | 50 => ⟨S_, .i32⟩
  | 51 => ⟨S4000000, .i32⟩
  | 52 => ⟨S4000000, .i1⟩
  | 53 => ⟨S_, .i32⟩
  | 54 => ⟨S4000000, .i32⟩
  | 55 => ⟨S4000000, .i32⟩
  | 56 => ⟨S4000000, .i32⟩
  | 57 => ⟨S4000000x1, .i32⟩
  | 58 => ⟨S4000000x24, .f32⟩
  | 59 => ⟨S4000000x24, .f32⟩
  | 60 => ⟨S4000000x24, .f32⟩
  | 61 => ⟨S_, .f32⟩
  | 62 => ⟨S500000x24, .f32⟩
  | 63 => ⟨S4000000x1, .i32⟩
  | 64 => ⟨S500000x24, .f32⟩
  | 65 => ⟨S4000000x1, .f32⟩
  | 66 => ⟨S_, .i32⟩
  | 67 => ⟨S4000000, .i32⟩
  | 68 => ⟨S4000000, .i1⟩
  | 69 => ⟨S_, .i32⟩
  | 70 => ⟨S4000000, .i32⟩
  | 71 => ⟨S4000000, .i32⟩
  | 72 => ⟨S4000000, .i32⟩
  | 73 => ⟨S4000000x1, .i32⟩
  | 74 => ⟨S4000000x24, .f32⟩
  | 75 => ⟨S4000000x24, .f32⟩
  | 76 => ⟨S4000000x24, .f32⟩
  | 77 => ⟨S_, .f32⟩
  | 78 => ⟨S500000x24, .f32⟩
  | 79 => ⟨S4000000x1, .i32⟩
  | 80 => ⟨S500000x24, .f32⟩
  | 81 => ⟨S_, .f32⟩
  | 82 => ⟨S500000x24, .f32⟩
  | 83 => ⟨S500000x24, .f32⟩
  | 84 => ⟨S500000x24, .f32⟩
  | 85 => ⟨S4000000x1, .f32⟩
  | 86 => ⟨S_, .i32⟩
  | 87 => ⟨S4000000, .i32⟩
  | 88 => ⟨S4000000, .i1⟩
  | 89 => ⟨S_, .i32⟩
  | 90 => ⟨S4000000, .i32⟩
  | 91 => ⟨S4000000, .i32⟩
  | 92 => ⟨S4000000, .i32⟩
  | 93 => ⟨S4000000x1, .i32⟩
  | 94 => ⟨S4000000x24, .f32⟩
  | 95 => ⟨S4000000x24, .f32⟩
  | 96 => ⟨S4000000x24, .f32⟩
  | 97 => ⟨S_, .f32⟩
  | 98 => ⟨S500000x24, .f32⟩
  | 99 => ⟨S4000000x1, .i32⟩
  | 100 => ⟨S500000x24, .f32⟩
  | 101 => ⟨S_, .f32⟩
  | 102 => ⟨S500000x24, .f32⟩
  | 103 => ⟨S500000x24, .f32⟩
  | 104 => ⟨S500000x24, .f32⟩
  | 105 => ⟨S4000000x1, .f32⟩
  | 106 => ⟨S_, .i32⟩
  | 107 => ⟨S4000000, .i32⟩
  | 108 => ⟨S4000000, .i1⟩
  | 109 => ⟨S_, .i32⟩
  | 110 => ⟨S4000000, .i32⟩
  | 111 => ⟨S4000000, .i32⟩
  | 112 => ⟨S4000000, .i32⟩
  | 113 => ⟨S4000000x1, .i32⟩
  | 114 => ⟨S4000000x24, .f32⟩
  | 115 => ⟨S4000000x24, .f32⟩
  | 116 => ⟨S4000000x24, .f32⟩
  | 117 => ⟨S_, .f32⟩
  | 118 => ⟨S500000x24, .f32⟩
  | 119 => ⟨S4000000x1, .i32⟩
  | 120 => ⟨S500000x24, .f32⟩
  | 121 => ⟨S_, .f32⟩
  | 122 => ⟨S500000x24, .f32⟩
  | 123 => ⟨S500000x24, .f32⟩
  | 124 => ⟨S500000x24, .f32⟩
  | 125 => ⟨S4000000x1, .f32⟩
  | 126 => ⟨S_, .i32⟩
  | 127 => ⟨S4000000, .i32⟩
  | _ => ⟨S500000x24, .f32⟩

abbrev hbmTy0_1 (i : Nat) : BufTy := match i % 128 with
  | 0 => ⟨S4000000, .i1⟩
  | 1 => ⟨S_, .i32⟩
  | 2 => ⟨S4000000, .i32⟩
  | 3 => ⟨S4000000, .i32⟩
  | 4 => ⟨S4000000, .i32⟩
  | 5 => ⟨S4000000x1, .i32⟩
  | 6 => ⟨S4000000x24, .f32⟩
  | 7 => ⟨S4000000x24, .f32⟩
  | 8 => ⟨S4000000x24, .f32⟩
  | 9 => ⟨S_, .f32⟩
  | 10 => ⟨S500000x24, .f32⟩
  | 11 => ⟨S4000000x1, .i32⟩
  | 12 => ⟨S500000x24, .f32⟩
  | 13 => ⟨S_, .f32⟩
  | 14 => ⟨S500000x24, .f32⟩
  | 15 => ⟨S500000x24, .f32⟩
  | 16 => ⟨S500000x24, .f32⟩
  | 17 => ⟨S1x500000x24, .f32⟩
  | 18 => ⟨S1x500000x24, .f32⟩
  | 19 => ⟨S1x500000x24, .f32⟩
  | 20 => ⟨S1x500000x24, .f32⟩
  | 21 => ⟨S1x500000x24, .f32⟩
  | 22 => ⟨S1x500000x24, .f32⟩
  | 23 => ⟨S6x500000x24, .f32⟩
  | 24 => ⟨S1x64, .f32⟩
  | 25 => ⟨S500000x64, .f32⟩
  | 26 => ⟨S250x2x64, .f32⟩
  | 27 => ⟨S_, .f32⟩
  | 28 => ⟨S2x64, .f32⟩
  | 29 => ⟨S1x64, .f32⟩
  | 30 => ⟨S64, .f32⟩
  | 31 => ⟨S_, .f32⟩
  | 32 => ⟨S64, .f32⟩
  | 33 => ⟨S64, .f32⟩
  | 34 => ⟨S1x64, .f32⟩
  | 35 => ⟨S64, .f32⟩
  | 36 => ⟨S_, .f32⟩
  | 37 => ⟨S64, .f32⟩
  | 38 => ⟨S64, .f32⟩
  | 39 => ⟨S64, .f32⟩
  | 40 => ⟨S64, .f32⟩
  | 41 => ⟨S1x64, .f32⟩
  | 42 => ⟨S1x64, .f32⟩
  | 43 => ⟨S1x64, .f32⟩
  | 44 => ⟨S1x64, .f32⟩
  | 45 => ⟨S64x6, .f32⟩
  | 46 => ⟨S1x6, .f32⟩
  | 47 => ⟨S500000x6, .f32⟩
  | _ => ⟨S500000x24, .f32⟩

abbrev hbmTy (i : Nat) : BufTy := match i / 128 with
  | 0 => hbmTy0_0 i
  | 1 => hbmTy0_1 i
  | _ => ⟨S500000x24, .f32⟩

abbrev bufTy : (tb : Table) → Fin (tcTables nBuf tb) → BufTy
  | .hbm, ⟨i, _⟩ => hbmTy i
  | .local _ .vmem, ⟨0, _⟩ => ⟨S6x2000x24, .f32⟩
  | .local _ .vmem, ⟨1, _⟩ => ⟨S6x2000x24, .f32⟩
  | .local _ .vmem, ⟨2, _⟩ => ⟨S6x24x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S1x2x64, .f32⟩
  | .local _ .vmem, ⟨7, _⟩ => ⟨S1x2x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x6, .f32⟩
  | .local _ .vmem, ⟨15, _⟩ => ⟨S1x6, .f32⟩
  | .local _ .vmem, ⟨16, _⟩ => ⟨S10000x6, .f32⟩
  | .local _ .vmem, ⟨17, _⟩ => ⟨S10000x6, .f32⟩
  | _, _ => ⟨S500000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_c_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_21 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_c_23 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_24 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_25 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115_0 : Ref sig .tc := ⟨.hbm, 153, rfl⟩
abbrev main_v115_1 : Ref sig .tc := ⟨.hbm, 154, rfl⟩
abbrev main_cst_26 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_27 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_28 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6x2000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x24x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x6 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x6 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x6 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S500000 : S_.BroadcastsInDim S500000 (![] : Fin 0 → Fin S500000.rank)
  bcast_S4000000_S4000000x1_0 : S4000000.BroadcastsInDim S4000000x1 (![0] : Fin 1 → Fin S4000000x1.rank)
  bcast_S4000000x1_S4000000x24_0_1 : S4000000x1.BroadcastsInDim S4000000x24 (![0, 1] : Fin 2 → Fin S4000000x24.rank)
  bcast_S_S500000x24 : S_.BroadcastsInDim S500000x24 (![] : Fin 0 → Fin S500000x24.rank)
  bcast_S500000x24_S1x500000x24_1_2 : S500000x24.BroadcastsInDim S1x500000x24 (![1, 2] : Fin 2 → Fin S1x500000x24.rank)
  concatenates_S1x500000x24_S1x500000x24_S1x500000x24_S1x500000x24_S1x500000x24_S1x500000x24_S6x500000x24_d0 : Shape.Concatenates [S1x500000x24, S1x500000x24, S1x500000x24, S1x500000x24, S1x500000x24, S1x500000x24] S6x500000x24 0
  shapeCasts_S64_S1x64 : S64.ShapeCasts S1x64
  inb_S6x2000x24_S1x2000x24_0_0_0 : ∀ a, (![0, 0, 0] : Fin 3 → Nat) a + S1x2000x24.size a ≤ S6x2000x24.size a
  h_S1x2000x24 : 0 < S1x2000x24.numel
  shapeCasts_S1x2000x24_S2000x24 : S1x2000x24.ShapeCasts S2000x24
  bitsLt_bf16_f32 : FTy.bits .bf16 < FTy.bits .f32
  inb_S6x24x64_S1x24x64_0_0_0 : ∀ a, (![0, 0, 0] : Fin 3 → Nat) a + S1x24x64.size a ≤ S6x24x64.size a
  h_S1x24x64 : 0 < S1x24x64.numel
  shapeCasts_S1x24x64_S24x64 : S1x24x64.ShapeCasts S24x64
  inb_S6x2000x24_S1x2000x24_1_0_0 : ∀ a, (![1, 0, 0] : Fin 3 → Nat) a + S1x2000x24.size a ≤ S6x2000x24.size a
  inb_S6x24x64_S1x24x64_1_0_0 : ∀ a, (![1, 0, 0] : Fin 3 → Nat) a + S1x24x64.size a ≤ S6x24x64.size a
  inb_S6x2000x24_S1x2000x24_2_0_0 : ∀ a, (![2, 0, 0] : Fin 3 → Nat) a + S1x2000x24.size a ≤ S6x2000x24.size a
  inb_S6x24x64_S1x24x64_2_0_0 : ∀ a, (![2, 0, 0] : Fin 3 → Nat) a + S1x24x64.size a ≤ S6x24x64.size a
  inb_S6x2000x24_S1x2000x24_3_0_0 : ∀ a, (![3, 0, 0] : Fin 3 → Nat) a + S1x2000x24.size a ≤ S6x2000x24.size a
  inb_S6x24x64_S1x24x64_3_0_0 : ∀ a, (![3, 0, 0] : Fin 3 → Nat) a + S1x24x64.size a ≤ S6x24x64.size a
  inb_S6x2000x24_S1x2000x24_4_0_0 : ∀ a, (![4, 0, 0] : Fin 3 → Nat) a + S1x2000x24.size a ≤ S6x2000x24.size a
  inb_S6x24x64_S1x24x64_4_0_0 : ∀ a, (![4, 0, 0] : Fin 3 → Nat) a + S1x24x64.size a ≤ S6x24x64.size a
  inb_S6x2000x24_S1x2000x24_5_0_0 : ∀ a, (![5, 0, 0] : Fin 3 → Nat) a + S1x2000x24.size a ≤ S6x2000x24.size a
  inb_S6x24x64_S1x24x64_5_0_0 : ∀ a, (![5, 0, 0] : Fin 3 → Nat) a + S1x24x64.size a ≤ S6x24x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  reduces_S2000x64_S64 : S2000x64.Reduces [0] S64
  concatenates_S1x64_S1x64_S2x64_d0 : Shape.Concatenates [S1x64, S1x64] S2x64 0
  shapeCasts_S2x64_S1x2x64 : S2x64.ShapeCasts S1x2x64
  inb_S1x2x64_S1x2x64_0_0_0 : ∀ a, (![0, 0, 0] : Fin 3 → Nat) a + S1x2x64.size a ≤ S1x2x64.size a
  h_S1x2x64 : 0 < S1x2x64.numel
  reducesTo_S250x2x64_S2x64_d0 : S250x2x64.ReducesTo [0] S2x64
  h_S_ : 0 < S_.numel
  slices_S2x64_S1x64_0_0 : S2x64.Slices ![0, 0] S1x64
  shapeCasts_S1x64_S64 : S1x64.ShapeCasts S64
  bcast_S_S64 : S_.BroadcastsInDim S64 (![] : Fin 0 → Fin S64.rank)
  slices_S2x64_S1x64_1_0 : S2x64.Slices ![1, 0] S1x64
  shapeCasts_S1x64x6_S64x6 : S1x64x6.ShapeCasts S64x6
  shapeCasts_S6_S1x6 : S6.ShapeCasts S1x6
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  inb_S64x6_S64x6_0_0 : ∀ a, (![0, 0] : Fin 2 → Nat) a + S64x6.size a ≤ S64x6.size a
  h_S64x6 : 0 < S64x6.numel
  shapeCasts_S64x6_S64x6 : S64x6.ShapeCasts S64x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S10000x6 : S1x6.Broadcasts S10000x6
  inb_S10000x6_S10000x6_0_0 : ∀ a, (![0, 0] : Fin 2 → Nat) a + S10000x6.size a ≤ S10000x6.size a
  h_S10000x6 : 0 < S10000x6.numel
  scatter_S500000_S4000000x1_S4000000_n_0_0_1_wf : ScatterDims.WF S500000 S4000000x1 S4000000 [] [0] [0] 1
  gather_S500000_S4000000x1_S4000000_n_0_n_n_0_1_1_wf : GatherDims.WF S500000 S4000000x1 S4000000 [] [0] [] [0] [] 1 ![1]
  gather_S500000x24_S4000000x1_S4000000x24_1_0_n_n_0_1_124_wf : GatherDims.WF S500000x24 S4000000x1 S4000000x24 [1] [0] [] [0] [] 1 ![1, 24]
  scatter_S500000x24_S4000000x1_S4000000x24_1_0_0_1_wf : ScatterDims.WF S500000x24 S4000000x1 S4000000x24 [1] [0] [0] 1
  dot_S2000x24_S24x64_S2000x64_1_0_0_1_n_n_wf : DotDims.WF S2000x24 S24x64 S2000x64 [1] [0] [0] [1] [] []
  dot_S10000x64_S64x6_S10000x6_1_0_0_1_n_n_wf : DotDims.WF S10000x64 S64x6 S10000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x2000x24.size a ≤ S6x500000x24.size a
  hwx0_0 : ∀ i : grid0.Coords, EltTy.bits .f32 = 32 ∨ (Rect.block (s := S6x500000x24) S6x2000x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x24x64.size a ≤ S6x24x64.size a
  hwx0_1 : ∀ i : grid0.Coords, EltTy.bits .f32 = 32 ∨ (Rect.block (s := S6x24x64) S6x24x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S500000x64.size a
  hwx0_3 : ∀ i : grid0.Coords, EltTy.bits .f32 = 32 ∨ (Rect.block (s := S500000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x64.size a ≤ S250x2x64.size a
  hwx0_4 : ∀ i : grid0.Coords, EltTy.bits .f32 = 32 ∨ (Rect.block (s := S250x2x64) S1x2x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S500000x64.size a
  hwx1_0 : ∀ i : grid1.Coords, EltTy.bits .f32 = 32 ∨ (Rect.block (s := S500000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x6.size a ≤ S64x6.size a
  hwx1_5 : ∀ i : grid1.Coords, EltTy.bits .f32 = 32 ∨ (Rect.block (s := S64x6) S64x6.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x6.size a ≤ S1x6.size a
  hwx1_6 : ∀ i : grid1.Coords, EltTy.bits .f32 = 32 ∨ (Rect.block (s := S1x6) S1x6.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x6.size a ≤ S500000x6.size a
  hwx1_7 : ∀ i : grid1.Coords, EltTy.bits .f32 = 32 ∨ (Rect.block (s := S500000x6) S10000x6.size (cc1_transform_7 i) (hinb1_7 i)).WholeWords (EltTy.packing .f32)

variable [Facts₀]

def scatter_S500000_S4000000x1_S4000000_n_0_0_1 : ScatterDims S500000 S4000000x1 S4000000 where
  updateWindowDims := []
  insertedWindowDims := [0]
  scatterDimsToOperandDims := [0]
  indexVectorDim := 1
  wf := scatter_S500000_S4000000x1_S4000000_n_0_0_1_wf
def gather_S500000_S4000000x1_S4000000_n_0_n_n_0_1_1 : GatherDims S500000 S4000000x1 S4000000 where
  offsetDims := []
  collapsedSliceDims := [0]
  operandBatchingDims := []
  startIndicesBatchingDims := []
  startIndexMap := [0]
  indexVectorDim := 1
  sliceSizes := ![1]
  wf := gather_S500000_S4000000x1_S4000000_n_0_n_n_0_1_1_wf
def gather_S500000x24_S4000000x1_S4000000x24_1_0_n_n_0_1_124 : GatherDims S500000x24 S4000000x1 S4000000x24 where
  offsetDims := [1]
  collapsedSliceDims := [0]
  operandBatchingDims := []
  startIndicesBatchingDims := []
  startIndexMap := [0]
  indexVectorDim := 1
  sliceSizes := ![1, 24]
  wf := gather_S500000x24_S4000000x1_S4000000x24_1_0_n_n_0_1_124_wf
def scatter_S500000x24_S4000000x1_S4000000x24_1_0_0_1 : ScatterDims S500000x24 S4000000x1 S4000000x24 where
  updateWindowDims := [1]
  insertedWindowDims := [0]
  scatterDimsToOperandDims := [0]
  indexVectorDim := 1
  wf := scatter_S500000x24_S4000000x1_S4000000x24_1_0_0_1_wf
def dot_S2000x24_S24x64_S2000x64_1_0_0_1_n_n : DotDims S2000x24 S24x64 S2000x64 where
  lhsContracting := [1]
  rhsContracting := [0]
  lhsNonContracting := [0]
  rhsNonContracting := [1]
  lhsBatch := []
  rhsBatch := []
  wf := dot_S2000x24_S24x64_S2000x64_1_0_0_1_n_n_wf
def dot_S10000x64_S64x6_S10000x6_1_0_0_1_n_n : DotDims S10000x64 S64x6 S10000x6 where
  lhsContracting := [1]
  rhsContracting := [0]
  lhsNonContracting := [0]
  rhsNonContracting := [1]
  lhsBatch := []
  rhsBatch := []
  wf := dot_S10000x64_S64x6_S10000x6_1_0_0_1_n_n_wf

abbrev win0_0 : Pipeline.Window sig grid0 :=
  Pipeline.Window.ofSpec (Memref.whole main_v113) S6x2000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x24x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v114) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v115_0) S2000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v115_1) S1x2x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v115_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v127) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v128) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v129) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v130) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v131) S64x6.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v132) S1x6.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v133) S10000x6.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S500000x24 : Shape := ⟨2, ![500000, 24]⟩
abbrev S2x4000000 : Shape := ⟨2, ![2, 4000000]⟩
abbrev S6x24x64 : Shape := ⟨3, ![6, 24, 64]⟩
abbrev S64 : Shape := ⟨1, ![64]⟩
abbrev S1x64x6 : Shape := ⟨3, ![1, 64, 6]⟩
abbrev S6 : Shape := ⟨1, ![6]⟩
abbrev S1x4000000 : Shape := ⟨2, ![1, 4000000]⟩
abbrev S4000000 : Shape := ⟨1, ![4000000]⟩
abbrev S_ : Shape := ⟨0, ![]⟩
abbrev S500000 : Shape := ⟨1, ![500000]⟩
abbrev S4000000x1 : Shape := ⟨2, ![4000000, 1]⟩
abbrev S1x24x64 : Shape := ⟨3, ![1, 24, 64]⟩
abbrev S24x64 : Shape := ⟨2, ![24, 64]⟩
abbrev S500000x64 : Shape := ⟨2, ![500000, 64]⟩
abbrev S4000000x24 : Shape := ⟨2, ![4000000, 24]⟩
abbrev S1x64 : Shape := ⟨2, ![1, 64]⟩
abbrev S64x6 : Shape := ⟨2, ![64, 6]⟩
abbrev S500000x6 : Shape := ⟨2, ![500000, 6]⟩
abbrev S1x6 : Shape := ⟨2, ![1, 6]⟩

abbrev nBuf : Space → Nat
  | .hbm => 209
  | .vmem => 0
  | .smem => 0
  | _ => 0

abbrev hbmTy0_0 (i : Nat) : BufTy := match i % 128 with
  | 0 => ⟨S500000x24, .f32⟩
  | 1 => ⟨S2x4000000, .i32⟩
  | 2 => ⟨S6x24x64, .f32⟩
  | 3 => ⟨S64, .f32⟩
  | 4 => ⟨S64, .f32⟩
  | 5 => ⟨S64, .f32⟩
  | 6 => ⟨S1x64x6, .f32⟩
  | 7 => ⟨S6, .f32⟩
  | 8 => ⟨S1x4000000, .i32⟩
  | 9 => ⟨S4000000, .i32⟩
  | 10 => ⟨S1x4000000, .i32⟩
  | 11 => ⟨S4000000, .i32⟩
  | 12 => ⟨S_, .f32⟩
  | 13 => ⟨S4000000, .f32⟩
  | 14 => ⟨S_, .f32⟩
  | 15 => ⟨S500000, .f32⟩
  | 16 => ⟨S4000000x1, .i32⟩
  | 17 => ⟨S500000, .f32⟩
  | 18 => ⟨S_, .f32⟩
  | 19 => ⟨S500000, .f32⟩
  | 20 => ⟨S500000, .i1⟩
  | 21 => ⟨S_, .f32⟩
  | 22 => ⟨S500000, .f32⟩
  | 23 => ⟨S500000, .f32⟩
  | 24 => ⟨S500000, .f32⟩
  | 25 => ⟨S_, .f32⟩
  | 26 => ⟨S_, .f32⟩
  | 27 => ⟨S500000, .f32⟩
  | 28 => ⟨S500000, .f32⟩
  | 29 => ⟨S_, .i32⟩
  | 30 => ⟨S4000000, .i32⟩
  | 31 => ⟨S4000000, .i1⟩
  | 32 => ⟨S_, .i32⟩
  | 33 => ⟨S4000000, .i32⟩
  | 34 => ⟨S4000000, .i32⟩
  | 35 => ⟨S4000000, .i32⟩
  | 36 => ⟨S4000000x1, .i32⟩
  | 37 => ⟨S4000000, .f32⟩
  | 38 => ⟨S_, .i32⟩
  | 39 => ⟨S4000000, .i32⟩
  | 40 => ⟨S4000000, .i1⟩
  | 41 => ⟨S_, .i32⟩
  | 42 => ⟨S4000000, .i32⟩
  | 43 => ⟨S4000000, .i32⟩
  | 44 => ⟨S4000000, .i32⟩
  | 45 => ⟨S4000000x1, .i32⟩
  | 46 => ⟨S4000000, .f32⟩
  | 47 => ⟨S4000000, .f32⟩
  | 48 => ⟨S4000000, .f32⟩
  | 49 => ⟨S1x24x64, .f32⟩
  | 50 => ⟨S24x64, .f32⟩
  | 51 => ⟨S500000x64, .f32⟩
  | 52 => ⟨S4000000x1, .f32⟩
  | 53 => ⟨S_, .i32⟩
  | 54 => ⟨S4000000, .i32⟩
  | 55 => ⟨S4000000, .i1⟩
  | 56 => ⟨S_, .i32⟩
  | 57 => ⟨S4000000, .i32⟩
  | 58 => ⟨S4000000, .i32⟩
  | 59 => ⟨S4000000, .i32⟩
  | 60 => ⟨S4000000x1, .i32⟩
  | 61 => ⟨S4000000x24, .f32⟩
  | 62 => ⟨S4000000x24, .f32⟩
  | 63 => ⟨S4000000x24, .f32⟩
  | 64 => ⟨S_, .f32⟩
  | 65 => ⟨S500000x24, .f32⟩
  | 66 => ⟨S4000000x1, .i32⟩
  | 67 => ⟨S500000x24, .f32⟩
  | 68 => ⟨S1x24x64, .f32⟩
  | 69 => ⟨S24x64, .f32⟩
  | 70 => ⟨S500000x64, .f32⟩
  | 71 => ⟨S500000x64, .f32⟩
  | 72 => ⟨S4000000x1, .f32⟩
  | 73 => ⟨S_, .i32⟩
  | 74 => ⟨S4000000, .i32⟩
  | 75 => ⟨S4000000, .i1⟩
  | 76 => ⟨S_, .i32⟩
  | 77 => ⟨S4000000, .i32⟩
  | 78 => ⟨S4000000, .i32⟩
  | 79 => ⟨S4000000, .i32⟩
  | 80 => ⟨S4000000x1, .i32⟩
  | 81 => ⟨S4000000x24, .f32⟩
  | 82 => ⟨S4000000x24, .f32⟩
  | 83 => ⟨S4000000x24, .f32⟩
  | 84 => ⟨S_, .f32⟩
  | 85 => ⟨S500000x24, .f32⟩
  | 86 => ⟨S4000000x1, .i32⟩
  | 87 => ⟨S500000x24, .f32⟩
  | 88 => ⟨S_, .f32⟩
  | 89 => ⟨S500000x24, .f32⟩
  | 90 => ⟨S500000x24, .f32⟩
  | 91 => ⟨S500000x24, .f32⟩
  | 92 => ⟨S1x24x64, .f32⟩
  | 93 => ⟨S24x64, .f32⟩
  | 94 => ⟨S500000x64, .f32⟩
  | 95 => ⟨S500000x64, .f32⟩
  | 96 => ⟨S4000000x1, .f32⟩
  | 97 => ⟨S_, .i32⟩
  | 98 => ⟨S4000000, .i32⟩
  | 99 => ⟨S4000000, .i1⟩
  | 100 => ⟨S_, .i32⟩
  | 101 => ⟨S4000000, .i32⟩
  | 102 => ⟨S4000000, .i32⟩
  | 103 => ⟨S4000000, .i32⟩
  | 104 => ⟨S4000000x1, .i32⟩
  | 105 => ⟨S4000000x24, .f32⟩
  | 106 => ⟨S4000000x24, .f32⟩
  | 107 => ⟨S4000000x24, .f32⟩
  | 108 => ⟨S_, .f32⟩
  | 109 => ⟨S500000x24, .f32⟩
  | 110 => ⟨S4000000x1, .i32⟩
  | 111 => ⟨S500000x24, .f32⟩
  | 112 => ⟨S_, .f32⟩
  | 113 => ⟨S500000x24, .f32⟩
  | 114 => ⟨S500000x24, .f32⟩
  | 115 => ⟨S500000x24, .f32⟩
  | 116 => ⟨S1x24x64, .f32⟩
  | 117 => ⟨S24x64, .f32⟩
  | 118 => ⟨S500000x64, .f32⟩
  | 119 => ⟨S500000x64, .f32⟩
  | 120 => ⟨S4000000x1, .f32⟩
  | 121 => ⟨S_, .i32⟩
  | 122 => ⟨S4000000, .i32⟩
  | 123 => ⟨S4000000, .i1⟩
  | 124 => ⟨S_, .i32⟩
  | 125 => ⟨S4000000, .i32⟩
  | 126 => ⟨S4000000, .i32⟩
  | 127 => ⟨S4000000, .i32⟩
  | _ => ⟨S500000x24, .f32⟩

abbrev hbmTy0_1 (i : Nat) : BufTy := match i % 128 with
  | 0 => ⟨S4000000x1, .i32⟩
  | 1 => ⟨S4000000x24, .f32⟩
  | 2 => ⟨S4000000x24, .f32⟩
  | 3 => ⟨S4000000x24, .f32⟩
  | 4 => ⟨S_, .f32⟩
  | 5 => ⟨S500000x24, .f32⟩
  | 6 => ⟨S4000000x1, .i32⟩
  | 7 => ⟨S500000x24, .f32⟩
  | 8 => ⟨S_, .f32⟩
  | 9 => ⟨S500000x24, .f32⟩
  | 10 => ⟨S500000x24, .f32⟩
  | 11 => ⟨S500000x24, .f32⟩
  | 12 => ⟨S1x24x64, .f32⟩
  | 13 => ⟨S24x64, .f32⟩
  | 14 => ⟨S500000x64, .f32⟩
  | 15 => ⟨S500000x64, .f32⟩
  | 16 => ⟨S4000000x1, .f32⟩
  | 17 => ⟨S_, .i32⟩
  | 18 => ⟨S4000000, .i32⟩
  | 19 => ⟨S4000000, .i1⟩
  | 20 => ⟨S_, .i32⟩
  | 21 => ⟨S4000000, .i32⟩
  | 22 => ⟨S4000000, .i32⟩
  | 23 => ⟨S4000000, .i32⟩
  | 24 => ⟨S4000000x1, .i32⟩
  | 25 => ⟨S4000000x24, .f32⟩
  | 26 => ⟨S4000000x24, .f32⟩
  | 27 => ⟨S4000000x24, .f32⟩
  | 28 => ⟨S_, .f32⟩
  | 29 => ⟨S500000x24, .f32⟩
  | 30 => ⟨S4000000x1, .i32⟩
  | 31 => ⟨S500000x24, .f32⟩
  | 32 => ⟨S_, .f32⟩
  | 33 => ⟨S500000x24, .f32⟩
  | 34 => ⟨S500000x24, .f32⟩
  | 35 => ⟨S500000x24, .f32⟩
  | 36 => ⟨S1x24x64, .f32⟩
  | 37 => ⟨S24x64, .f32⟩
  | 38 => ⟨S500000x64, .f32⟩
  | 39 => ⟨S500000x64, .f32⟩
  | 40 => ⟨S1x64, .f32⟩
  | 41 => ⟨S500000x64, .f32⟩
  | 42 => ⟨S500000x64, .f32⟩
  | 43 => ⟨S_, .f32⟩
  | 44 => ⟨S64, .f32⟩
  | 45 => ⟨S_, .f32⟩
  | 46 => ⟨S64, .f32⟩
  | 47 => ⟨S64, .f32⟩
  | 48 => ⟨S1x64, .f32⟩
  | 49 => ⟨S500000x64, .f32⟩
  | 50 => ⟨S500000x64, .f32⟩
  | 51 => ⟨S500000x64, .f32⟩
  | 52 => ⟨S_, .f32⟩
  | 53 => ⟨S64, .f32⟩
  | 54 => ⟨S_, .f32⟩
  | 55 => ⟨S64, .f32⟩
  | 56 => ⟨S64, .f32⟩
  | 57 => ⟨S1x64, .f32⟩
  | 58 => ⟨S500000x64, .f32⟩
  | 59 => ⟨S500000x64, .f32⟩
  | 60 => ⟨S_, .f32⟩
  | 61 => ⟨S64, .f32⟩
  | 62 => ⟨S64, .f32⟩
  | 63 => ⟨S64, .f32⟩
  | 64 => ⟨S1x64, .f32⟩
  | 65 => ⟨S500000x64, .f32⟩
  | 66 => ⟨S500000x64, .f32⟩
  | 67 => ⟨S1x64, .f32⟩
  | 68 => ⟨S500000x64, .f32⟩
  | 69 => ⟨S500000x64, .f32⟩
  | 70 => ⟨S1x64, .f32⟩
  | 71 => ⟨S500000x64, .f32⟩
  | 72 => ⟨S500000x64, .f32⟩
  | 73 => ⟨S_, .f32⟩
  | 74 => ⟨S500000x64, .f32⟩
  | 75 => ⟨S500000x64, .f32⟩
  | 76 => ⟨S64x6, .f32⟩
  | 77 => ⟨S500000x6, .f32⟩
  | 78 => ⟨S1x6, .f32⟩
  | 79 => ⟨S500000x6, .f32⟩
  | 80 => ⟨S500000x6, .f32⟩
  | _ => ⟨S500000x24, .f32⟩

abbrev hbmTy (i : Nat) : BufTy := match i / 128 with
  | 0 => hbmTy0_0 i
  | 1 => hbmTy0_1 i
  | _ => ⟨S500000x24, .f32⟩

abbrev bufTy : (tb : Table) → Fin (tcTables nBuf tb) → BufTy
  | .hbm, ⟨i, _⟩ => hbmTy i
  | _, _ => ⟨S500000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_18 : Ref sig .tc := ⟨.hbm, 121, rfl⟩
abbrev main_v91 : Ref sig .tc := ⟨.hbm, 122, rfl⟩
abbrev main_v92 : Ref sig .tc := ⟨.hbm, 123, rfl⟩
abbrev main_c_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_21 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_c_22 : Ref sig .tc := ⟨.hbm, 145, rfl⟩
abbrev main_v111 : Ref sig .tc := ⟨.hbm, 146, rfl⟩
abbrev main_v112 : Ref sig .tc := ⟨.hbm, 147, rfl⟩
abbrev main_c_23 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_24 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_25 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_26 : Ref sig .tc := ⟨.hbm, 171, rfl⟩
abbrev main_v133 : Ref sig .tc := ⟨.hbm, 172, rfl⟩
abbrev main_cst_27 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_28 : Ref sig .tc := ⟨.hbm, 180, rfl⟩
abbrev main_v140 : Ref sig .tc := ⟨.hbm, 181, rfl⟩
abbrev main_cst_29 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_30 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_call1_cst : Ref sig .tc := ⟨.hbm, 201, rfl⟩
abbrev main_call1_v0 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S500000 : S_.BroadcastsInDim S500000 (![] : Fin 0 → Fin S500000.rank)
  bcast_S4000000_S4000000x1_0 : S4000000.BroadcastsInDim S4000000x1 (![0] : Fin 1 → Fin S4000000x1.rank)
  slices_S6x24x64_S1x24x64_0_0_0 : S6x24x64.Slices ![0, 0, 0] S1x24x64
  shapeCasts_S1x24x64_S24x64 : S1x24x64.ShapeCasts S24x64
  bcast_S4000000x1_S4000000x24_0_1 : S4000000x1.BroadcastsInDim S4000000x24 (![0, 1] : Fin 2 → Fin S4000000x24.rank)
  bcast_S_S500000x24 : S_.BroadcastsInDim S500000x24 (![] : Fin 0 → Fin S500000x24.rank)
  slices_S6x24x64_S1x24x64_1_0_0 : S6x24x64.Slices ![1, 0, 0] S1x24x64
  slices_S6x24x64_S1x24x64_2_0_0 : S6x24x64.Slices ![2, 0, 0] S1x24x64
  slices_S6x24x64_S1x24x64_3_0_0 : S6x24x64.Slices ![3, 0, 0] S1x24x64
  slices_S6x24x64_S1x24x64_4_0_0 : S6x24x64.Slices ![4, 0, 0] S1x24x64
  slices_S6x24x64_S1x24x64_5_0_0 : S6x24x64.Slices ![5, 0, 0] S1x24x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  reducesTo_S500000x64_S64_d0 : S500000x64.ReducesTo [0] S64
  h_S_ : 0 < S_.numel
  bcast_S_S64 : S_.BroadcastsInDim S64 (![] : Fin 0 → Fin S64.rank)
  bcast_S_S500000x64 : S_.BroadcastsInDim S500000x64 (![] : Fin 0 → Fin S500000x64.rank)
  shapeCasts_S1x64x6_S64x6 : S1x64x6.ShapeCasts S64x6
  bcast_S6_S1x6_1 : S6.BroadcastsInDim S1x6 (![1] : Fin 1 → Fin S1x6.rank)
  bcast_S1x6_S500000x6_0_1 : S1x6.BroadcastsInDim S500000x6 (![0, 1] : Fin 2 → Fin S500000x6.rank)
  scatter_S500000_S4000000x1_S4000000_n_0_0_1_wf : ScatterDims.WF S500000 S4000000x1 S4000000 [] [0] [0] 1
  gather_S500000_S4000000x1_S4000000_n_0_n_n_0_1_1_wf : GatherDims.WF S500000 S4000000x1 S4000000 [] [0] [] [0] [] 1 ![1]
  dot_S500000x24_S24x64_S500000x64_1_0_0_1_n_n_wf : DotDims.WF S500000x24 S24x64 S500000x64 [1] [0] [0] [1] [] []
  gather_S500000x24_S4000000x1_S4000000x24_1_0_n_n_0_1_124_wf : GatherDims.WF S500000x24 S4000000x1 S4000000x24 [1] [0] [] [0] [] 1 ![1, 24]
  scatter_S500000x24_S4000000x1_S4000000x24_1_0_0_1_wf : ScatterDims.WF S500000x24 S4000000x1 S4000000x24 [1] [0] [0] 1
  dot_S500000x64_S64x6_S500000x6_1_0_0_1_n_n_wf : DotDims.WF S500000x64 S64x6 S500000x6 [1] [0] [0] [1] [] []

variable [Facts₀]

def scatter_S500000_S4000000x1_S4000000_n_0_0_1 : ScatterDims S500000 S4000000x1 S4000000 where
  updateWindowDims := []
  insertedWindowDims := [0]
  scatterDimsToOperandDims := [0]
  indexVectorDim := 1
  wf := scatter_S500000_S4000000x1_S4000000_n_0_0_1_wf
def gather_S500000_S4000000x1_S4000000_n_0_n_n_0_1_1 : GatherDims S500000 S4000000x1 S4000000 where
  offsetDims := []
  collapsedSliceDims := [0]
  operandBatchingDims := []
  startIndicesBatchingDims := []
  startIndexMap := [0]
  indexVectorDim := 1
  sliceSizes := ![1]
  wf := gather_S500000_S4000000x1_S4000000_n_0_n_n_0_1_1_wf
def dot_S500000x24_S24x64_S500000x64_1_0_0_1_n_n : DotDims S500000x24 S24x64 S500000x64 where
  lhsContracting := [1]
  rhsContracting := [0]
  lhsNonContracting := [0]
  rhsNonContracting := [1]
  lhsBatch := []
  rhsBatch := []
  wf := dot_S500000x24_S24x64_S500000x64_1_0_0_1_n_n_wf
def gather_S500000x24_S4000000x1_S4000000x24_1_0_n_n_0_1_124 : GatherDims S500000x24 S4000000x1 S4000000x24 where
  offsetDims := [1]
  collapsedSliceDims := [0]
  operandBatchingDims := []
  startIndicesBatchingDims := []
  startIndexMap := [0]
  indexVectorDim := 1
  sliceSizes := ![1, 24]
  wf := gather_S500000x24_S4000000x1_S4000000x24_1_0_n_n_0_1_124_wf
def scatter_S500000x24_S4000000x1_S4000000x24_1_0_0_1 : ScatterDims S500000x24 S4000000x1 S4000000x24 where
  updateWindowDims := [1]
  insertedWindowDims := [0]
  scatterDimsToOperandDims := [0]
  indexVectorDim := 1
  wf := scatter_S500000x24_S4000000x1_S4000000x24_1_0_0_1_wf
def dot_S500000x64_S64x6_S500000x6_1_0_0_1_n_n : DotDims S500000x64 S64x6 S500000x6 where
  lhsContracting := [1]
  rhsContracting := [0]
  lhsNonContracting := [0]
  rhsNonContracting := [1]
  lhsBatch := []
  rhsBatch := []
  wf := dot_S500000x64_S64x6_S500000x6_1_0_0_1_n_n_wf

class Facts : Prop extends Facts₀ where

variable [Facts]
-- ==== Proof.KernelBodies.lean ====
/-
  The two kernel bodies of `Kernel`, each at an arbitrary valuation `V` of the core's buffers at the moment its region is entered.

  Region 0 (grid of 250 points) reads, at point `t`, rows `2000 t … 2000 t + 1999` of the six stacked Chebyshev bases
  (a block of shape 6 × 2000 × 24), all of the weights (6 × 24 × 64) and the bias row (1 × 64); it writes the block of
  hidden rows `h = Σ_k T_k · W_k + b` (2000 × 64) and, for the same rows, the pair (column sums of `h`, column sums of
  `h²`) as a block 1 × 2 × 64.  Region 1 (grid of 50 points) reads 10000 rows of `h`, the four 1 × 64 rows
  (scale, shift, mean, variance), the 64 × 6 mixing matrix and its 1 × 6 bias, and writes 10000 rows of the output.

  For each region: what block of each operand a point sees, what the body leaves in each output buffer as a function of
  the input blocks (the body's stores, over the named arithmetic of the skeleton), the body's Hoare triple, the proof data
  the launch theorem asks for, and the per-point obligation.
-/
import proofs.«105403_j78039555768470_2_alg».proof.Proof.Gen.Kernel.Launch
import proofs.«105403_j78039555768470_2_alg».proof.Proof.Gen.Kernel.Skeleton
import proofs.«105403_j78039555768470_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Bodies

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the Chebyshev mix and the per-tile moments -/

/-- The block of operand `w` that grid point `t` of region 0 sees, read off the operand's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input operand's staging buffer holds that operand's block at every point, whether the point fetched it or not,
    for any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body reads and writes: slab `k` of the bases' block and of the weights, and three whole buffers -/

abbrev rT0 : Rect S6x2000x24 := Rect.unit (s := S6x2000x24) ![0, 0, 0] S1x2000x24.size inb_S6x2000x24_S1x2000x24_0_0_0
abbrev rT1 : Rect S6x2000x24 := Rect.unit (s := S6x2000x24) ![1, 0, 0] S1x2000x24.size inb_S6x2000x24_S1x2000x24_1_0_0
abbrev rT2 : Rect S6x2000x24 := Rect.unit (s := S6x2000x24) ![2, 0, 0] S1x2000x24.size inb_S6x2000x24_S1x2000x24_2_0_0
abbrev rT3 : Rect S6x2000x24 := Rect.unit (s := S6x2000x24) ![3, 0, 0] S1x2000x24.size inb_S6x2000x24_S1x2000x24_3_0_0
abbrev rT4 : Rect S6x2000x24 := Rect.unit (s := S6x2000x24) ![4, 0, 0] S1x2000x24.size inb_S6x2000x24_S1x2000x24_4_0_0
abbrev rT5 : Rect S6x2000x24 := Rect.unit (s := S6x2000x24) ![5, 0, 0] S1x2000x24.size inb_S6x2000x24_S1x2000x24_5_0_0
abbrev rW0 : Rect S6x24x64 := Rect.unit (s := S6x24x64) ![0, 0, 0] S1x24x64.size inb_S6x24x64_S1x24x64_0_0_0
abbrev rW1 : Rect S6x24x64 := Rect.unit (s := S6x24x64) ![1, 0, 0] S1x24x64.size inb_S6x24x64_S1x24x64_1_0_0
abbrev rW2 : Rect S6x24x64 := Rect.unit (s := S6x24x64) ![2, 0, 0] S1x24x64.size inb_S6x24x64_S1x24x64_2_0_0
abbrev rW3 : Rect S6x24x64 := Rect.unit (s := S6x24x64) ![3, 0, 0] S1x24x64.size inb_S6x24x64_S1x24x64_3_0_0
abbrev rW4 : Rect S6x24x64 := Rect.unit (s := S6x24x64) ![4, 0, 0] S1x24x64.size inb_S6x24x64_S1x24x64_4_0_0
abbrev rW5 : Rect S6x24x64 := Rect.unit (s := S6x24x64) ![5, 0, 0] S1x24x64.size inb_S6x24x64_S1x24x64_5_0_0
abbrev rBias : Rect S1x64 := Rect.unit (s := S1x64) ![0, 0] S1x64.size inb_S1x64_S1x64_0_0
abbrev rHid : Rect S2000x64 := Rect.unit (s := S2000x64) ![0, 0] S2000x64.size inb_S2000x64_S2000x64_0_0
abbrev rMom : Rect S1x2x64 := Rect.unit (s := S1x2x64) ![0, 0, 0] S1x2x64.size inb_S1x2x64_S1x2x64_0_0_0

/-! ## What the body leaves in the two output buffers -/

/-- The hidden rows of a tile, from the tile's block of bases `x0`, the weights `x1` and the bias row `x2`: the body's
    one store into that buffer, its value the skeleton's sum of six products plus the bias. -/
def hidOut (x0 : Vec F S6x2000x24 .f32) (x1 : Vec F S6x24x64 .f32) (x2 : Vec F S1x64 .f32) : Vec F S2000x64 .f32 :=
  View.canon [⟨rHid, k0_pay1 (k0_pay3 (View.ld x0 rT0) (View.ld x1 rW0) (View.ld x0 rT1) (View.ld x1 rW1) (View.ld x0 rT2) (View.ld x1 rW2))
    (k0_pay4 (View.ld x0 rT3)) (k0_pay5 (View.ld x1 rW3)) (View.ld x0 rT4) (View.ld x1 rW4) (View.ld x0 rT5) (View.ld x1 rW5) (View.ld x2 rBias)⟩]

/-- The tile's two moments (column sums of `h` and of `h²`), from the same blocks. -/
def momOut (x0 : Vec F S6x2000x24 .f32) (x1 : Vec F S6x24x64 .f32) (x2 : Vec F S1x64 .f32) : Vec F S1x2x64 .f32 :=
  View.canon [⟨rMom, k0_pay2 (k0_pay3 (View.ld x0 rT0) (View.ld x1 rW0) (View.ld x0 rT1) (View.ld x1 rW1) (View.ld x0 rT2) (View.ld x1 rW2))
    (k0_pay4 (View.ld x0 rT3)) (k0_pay5 (View.ld x1 rW3)) (View.ld x0 rT4) (View.ld x1 rW4) (View.ld x0 rT5) (View.ld x1 rW5) (View.ld x2 rBias)⟩]

/-- Each store fills its buffer. -/
theorem coverHid (p0 : Vec F S2000x64 .f32) (y : S2000x64.Idx) :
    ∃ pc ∈ ([⟨rHid, p0⟩] : List (View.Piece (Elt F) S2000x64 .f32)), y ∈ pc.1.set :=
  View.cover_of_tiled [⟨rHid, p0⟩] S2000x64.size (by rfl) y
theorem coverMom (p0 : Vec F S1x2x64 .f32) (y : S1x2x64.Idx) :
    ∃ pc ∈ ([⟨rMom, p0⟩] : List (View.Piece (Elt F) S1x2x64 .f32)), y ∈ pc.1.set :=
  View.cover_of_tiled [⟨rMom, p0⟩] S1x2x64.size (by rfl) y

/-! ## The body's triple -/

set_option maxHeartbeats 4000000 in
/-- Run on whole staging buffers, the three inputs' at contents `x0 x1 x2` and the two outputs' at anything, the body
    reaches its continuation with the inputs as they were and the outputs at `hidOut` and `momOut` of the inputs. -/
theorem sound_kernel0 (c : Dev nD) (E : Set ℕ) (i : grid0.Coords)
    (arg1 : Memref sig .tc .vmem S6x2000x24 .f32) (harg1 : arg1.IsWhole) (arg2 : Memref sig .tc .vmem S6x24x64 .f32) (harg2 : arg2.IsWhole)
    (arg3 : Memref sig .tc .vmem S1x64 .f32) (harg3 : arg3.IsWhole) (arg4 : Memref sig .tc .vmem S2000x64 .f32) (harg4 : arg4.IsWhole)
    (arg5 : Memref sig .tc .vmem S1x2x64 .f32) (harg5 : arg5.IsWhole)
    (x0 : Vec F S6x2000x24 .f32) (x1 : Vec F S6x24x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hidOut x0 x1 x2) ∗ owns (c : Thread nD τ) arg5 fullShare (momOut x0 x1 x2)) -∗ K ⟨⟩))
      ⊢ wp frame (wpE (defs₀ (F := F)) Variants.none c none) E (cc0__cheb_mix_kernel i arg1 harg1 arg2 harg2 arg3 harg3 arg4 harg4 arg5 harg5) K := by
  simp only [cc0__cheb_mix_kernel_eq_skeleton]; unfold cc0__cheb_mix_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverHid _)
  iexists _; isplitr
  swap; · iexact H4
  ipureintro
  exact View.read_writes_eq_canon _ _ _ (coverMom _)

/-! ## The proof data of region 0 -/

/-- On core `c`: the arrays as the region finds them; after the body at point `t` each input buffer still holds its block
    and each output buffer holds `hidOut` / `momOut` of the three input blocks; the invariant is the untouched rest. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => hidOut (blk0 V c 0 t) (blk0 V c 1 t) (blk0 V c 2 t)
    | ⟨4, _⟩ => momOut (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = hidOut (blk0 V c 0 t) (blk0 V c 1 t) (blk0 V c 2 t) := by dsimp only [dat0]
theorem after0_4 (c : Dev nD) (t : Fin cfg0.N) :
    (dat0 V c).after 4 t = momOut (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-! ## The per-point obligation of region 0 -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the triple applies; the invariant passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

/-! # Region 1: normalise, rectify, mix -/

/-- The block of operand `w` that grid point `t` of region 1 sees. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

abbrev rRows : Rect S10000x64 := Rect.unit (s := S10000x64) ![0, 0] S10000x64.size inb_S10000x64_S10000x64_0_0
abbrev rRow64 : Rect S1x64 := Rect.unit (s := S1x64) ![0, 0] S1x64.size inb_S1x64_S1x64_0_0
abbrev rMix : Rect S64x6 := Rect.unit (s := S64x6) ![0, 0] S64x6.size inb_S64x6_S64x6_0_0
abbrev rRow6 : Rect S1x6 := Rect.unit (s := S1x6) ![0, 0] S1x6.size inb_S1x6_S1x6_0_0
abbrev rOut : Rect S10000x6 := Rect.unit (s := S10000x6) ![0, 0] S10000x6.size inb_S10000x6_S10000x6_0_0

/-- The 10000 output rows of a tile, from the tile's hidden rows `x0`, the scale `x1`, shift `x2`, mean `x3`, variance `x4`,
    mixing matrix `x5` and its bias `x6`: the body's one store, its value the skeleton's arithmetic. -/
def mixOut (x0 : Vec F S10000x64 .f32) (x1 x2 x3 x4 : Vec F S1x64 .f32) (x5 : Vec F S64x6 .f32) (x6 : Vec F S1x6 .f32) : Vec F S10000x6 .f32 :=
  View.canon [⟨rOut, k1_pay1 (View.ld x0 rRows) (View.ld x4 rRow64) (View.ld x3 rRow64) (View.ld x1 rRow64) (View.ld x2 rRow64) (View.ld x5 rMix) (View.ld x6 rRow6)⟩]

theorem coverOut (p0 : Vec F S10000x6 .f32) (y : S10000x6.Idx) :
    ∃ pc ∈ ([⟨rOut, p0⟩] : List (View.Piece (Elt F) S10000x6 .f32)), y ∈ pc.1.set :=
  View.cover_of_tiled [⟨rOut, p0⟩] S10000x6.size (by rfl) y

set_option maxHeartbeats 4000000 in
/-- Run on whole staging buffers, the seven inputs' at contents `x0 … x6` and the output's at anything, the body reaches
    its continuation with the inputs as they were and the output at `mixOut` of the inputs. -/
theorem sound_kernel1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x6 .f32) (harg6 : arg6.IsWhole)
    (arg7 : Memref sig .tc .vmem S1x6 .f32) (harg7 : arg7.IsWhole) (arg8 : Memref sig .tc .vmem S10000x6 .f32) (harg8 : arg8.IsWhole)
    (x0 : Vec F S10000x64 .f32) (x1 x2 x3 x4 : Vec F S1x64 .f32) (x5 : Vec F S64x6 .f32) (x6 : Vec F S1x6 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (mixOut x0 x1 x2 x3 x4 x5 x6)) -∗ K ⟨⟩))
      ⊢ wp frame (wpE (defs₀ (F := F)) Variants.none c none) E
          (cc1__bn_relu_mix_kernel i arg1 harg1 arg2 harg2 arg3 harg3 arg4 harg4 arg5 harg5 arg6 harg6 arg7 harg7 arg8 harg8) K := by
  simp only [cc1__bn_relu_mix_kernel_eq_skeleton]; unfold cc1__bn_relu_mix_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

/-- Region 1's proof data on core `c`, as region 0's. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => mixOut (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t
    = mixOut (blk1 V c 0 t) (blk1 V c 1 t) (blk1 V c 2 t) (blk1 V c 3 t) (blk1 V c 4 t) (blk1 V c 5 t) (blk1 V c 6 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Bodies

end
-- ==== Proof.KernelRun.lean ====
/-
  The run of `Kernel`'s entry function from an arbitrary launch memory: three stretches of host operations that build the
  six Chebyshev bases, the first kernel region (hidden rows and per-tile moments), a stretch of host operations that
  turns the moments into mean and variance, the second kernel region (the output rows).

  The contents of every buffer at each boundary are named by a fold from the launch memory: a host stretch applies its
  operations, a region replaces its operands' arrays by what its write-backs leave and keeps every other buffer.  Every
  weakly fair execution terminates without fault in a state whose unscoped buffers hold the last boundary's contents;
  in particular each argument array is as launched (no operation writes one), and the result array holds what the second
  region's write-backs leave.
-/
import proofs.«105403_j78039555768470_2_alg».proof.Proof.KernelBodies

set_option maxRecDepth 16384

noncomputable section

namespace Cert.Kernel.Run

open Cert.Kernel Cert.Kernel.Gen Cert.Kernel.Bodies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the edge lists, the degrees and their inverse square roots. -/
abbrev W1 : Dev nD → Valuation τ sig (Elt F) := fun c => StableHlo.after hostOps0 (W0 m ρ c)
/-- After the guard of isolated nodes. -/
abbrev W2 : Dev nD → Valuation τ sig (Elt F) := fun c => StableHlo.after hostOps0_1 (W1 m ρ c)
/-- After the five propagations and the stacking: the first region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first region's exit: its arrays at what the write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the moments are summed over the tiles and turned into mean and variance: the second region's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched: no host operation writes one, and a region reads it through an input window or not at all -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg2) := (W4_arr m ρ c 1).trans (((dat0 (V3 m ρ) c).arrAt_in 1 rfl _).trans (A_eq0 (V3 m ρ) c 1))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg7) := rfl

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- Every weakly fair execution of the entry function from the memory `m` (counters zero) terminates without fault, and
    in the final state every unscoped buffer of each core holds the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every weakly fair execution terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c => ⟨
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩) (run_all m ρ)

end Cert.Kernel.Run

end
-- ==== Proof.KernelIdealBodies.lean ====
/-
  The two kernel bodies of `KernelIdeal`, each at an arbitrary valuation `V` of the core's buffers at the moment its region is entered.

  Region 0 (grid of 250 points) reads, at point `t`, rows `2000 t … 2000 t + 1999` of the six stacked Chebyshev bases
  (a block of shape 6 × 2000 × 24), all of the weights (6 × 24 × 64) and the bias row (1 × 64); it writes the block of
  hidden rows `h = Σ_k T_k · W_k + b` (2000 × 64) and, for the same rows, the pair (column sums of `h`, column sums of
  `h²`) as a block 1 × 2 × 64.  Region 1 (grid of 50 points) reads 10000 rows of `h`, the four 1 × 64 rows
  (scale, shift, mean, variance), the 64 × 6 mixing matrix and its 1 × 6 bias, and writes 10000 rows of the output.

  For each region: what block of each operand a point sees, what the body leaves in each output buffer as a function of
  the input blocks (the body's stores, over the named arithmetic of the skeleton), the body's Hoare triple, the proof data
  the launch theorem asks for, and the per-point obligation.
-/
import proofs.«105403_j78039555768470_2_alg».proof.Proof.Gen.KernelIdeal.Launch
import proofs.«105403_j78039555768470_2_alg».proof.Proof.Gen.KernelIdeal.Skeleton
import proofs.«105403_j78039555768470_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Bodies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the Chebyshev mix and the per-tile moments -/

/-- The block of operand `w` that grid point `t` of region 0 sees, read off the operand's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input operand's staging buffer holds that operand's block at every point, whether the point fetched it or not,
    for any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body reads and writes: slab `k` of the bases' block and of the weights, and three whole buffers -/

abbrev rT0 : Rect S6x2000x24 := Rect.unit (s := S6x2000x24) ![0, 0, 0] S1x2000x24.size inb_S6x2000x24_S1x2000x24_0_0_0
abbrev rT1 : Rect S6x2000x24 := Rect.unit (s := S6x2000x24) ![1, 0, 0] S1x2000x24.size inb_S6x2000x24_S1x2000x24_1_0_0
abbrev rT2 : Rect S6x2000x24 := Rect.unit (s := S6x2000x24) ![2, 0, 0] S1x2000x24.size inb_S6x2000x24_S1x2000x24_2_0_0
abbrev rT3 : Rect S6x2000x24 := Rect.unit (s := S6x2000x24) ![3, 0, 0] S1x2000x24.size inb_S6x2000x24_S1x2000x24_3_0_0
abbrev rT4 : Rect S6x2000x24 := Rect.unit (s := S6x2000x24) ![4, 0, 0] S1x2000x24.size inb_S6x2000x24_S1x2000x24_4_0_0
abbrev rT5 : Rect S6x2000x24 := Rect.unit (s := S6x2000x24) ![5, 0, 0] S1x2000x24.size inb_S6x2000x24_S1x2000x24_5_0_0
abbrev rW0 : Rect S6x24x64 := Rect.unit (s := S6x24x64) ![0, 0, 0] S1x24x64.size inb_S6x24x64_S1x24x64_0_0_0
abbrev rW1 : Rect S6x24x64 := Rect.unit (s := S6x24x64) ![1, 0, 0] S1x24x64.size inb_S6x24x64_S1x24x64_1_0_0
abbrev rW2 : Rect S6x24x64 := Rect.unit (s := S6x24x64) ![2, 0, 0] S1x24x64.size inb_S6x24x64_S1x24x64_2_0_0
abbrev rW3 : Rect S6x24x64 := Rect.unit (s := S6x24x64) ![3, 0, 0] S1x24x64.size inb_S6x24x64_S1x24x64_3_0_0
abbrev rW4 : Rect S6x24x64 := Rect.unit (s := S6x24x64) ![4, 0, 0] S1x24x64.size inb_S6x24x64_S1x24x64_4_0_0
abbrev rW5 : Rect S6x24x64 := Rect.unit (s := S6x24x64) ![5, 0, 0] S1x24x64.size inb_S6x24x64_S1x24x64_5_0_0
abbrev rBias : Rect S1x64 := Rect.unit (s := S1x64) ![0, 0] S1x64.size inb_S1x64_S1x64_0_0
abbrev rHid : Rect S2000x64 := Rect.unit (s := S2000x64) ![0, 0] S2000x64.size inb_S2000x64_S2000x64_0_0
abbrev rMom : Rect S1x2x64 := Rect.unit (s := S1x2x64) ![0, 0, 0] S1x2x64.size inb_S1x2x64_S1x2x64_0_0_0

/-! ## What the body leaves in the two output buffers -/

/-- The hidden rows of a tile, from the tile's block of bases `x0`, the weights `x1` and the bias row `x2`: the body's
    one store into that buffer, its value the skeleton's sum of six products plus the bias. -/
def hidOut (x0 : Vec F S6x2000x24 .f32) (x1 : Vec F S6x24x64 .f32) (x2 : Vec F S1x64 .f32) : Vec F S2000x64 .f32 :=
  View.canon [⟨rHid, k0_pay1 (k0_pay3 (View.ld x0 rT0) (View.ld x1 rW0) (View.ld x0 rT1) (View.ld x1 rW1) (View.ld x0 rT2) (View.ld x1 rW2))
    (k0_pay4 (View.ld x0 rT3)) (k0_pay5 (View.ld x1 rW3)) (View.ld x0 rT4) (View.ld x1 rW4) (View.ld x0 rT5) (View.ld x1 rW5) (View.ld x2 rBias)⟩]

/-- The tile's two moments (column sums of `h` and of `h²`), from the same blocks. -/
def momOut (x0 : Vec F S6x2000x24 .f32) (x1 : Vec F S6x24x64 .f32) (x2 : Vec F S1x64 .f32) : Vec F S1x2x64 .f32 :=
  View.canon [⟨rMom, k0_pay2 (k0_pay3 (View.ld x0 rT0) (View.ld x1 rW0) (View.ld x0 rT1) (View.ld x1 rW1) (View.ld x0 rT2) (View.ld x1 rW2))
    (k0_pay4 (View.ld x0 rT3)) (k0_pay5 (View.ld x1 rW3)) (View.ld x0 rT4) (View.ld x1 rW4) (View.ld x0 rT5) (View.ld x1 rW5) (View.ld x2 rBias)⟩]

/-- Each store fills its buffer. -/
theorem coverHid (p0 : Vec F S2000x64 .f32) (y : S2000x64.Idx) :
    ∃ pc ∈ ([⟨rHid, p0⟩] : List (View.Piece (Elt F) S2000x64 .f32)), y ∈ pc.1.set :=
  View.cover_of_tiled [⟨rHid, p0⟩] S2000x64.size (by rfl) y
theorem coverMom (p0 : Vec F S1x2x64 .f32) (y : S1x2x64.Idx) :
    ∃ pc ∈ ([⟨rMom, p0⟩] : List (View.Piece (Elt F) S1x2x64 .f32)), y ∈ pc.1.set :=
  View.cover_of_tiled [⟨rMom, p0⟩] S1x2x64.size (by rfl) y

/-! ## The body's triple -/

set_option maxHeartbeats 4000000 in
/-- Run on whole staging buffers, the three inputs' at contents `x0 x1 x2` and the two outputs' at anything, the body
    reaches its continuation with the inputs as they were and the outputs at `hidOut` and `momOut` of the inputs. -/
theorem sound_kernel0 (c : Dev nD) (E : Set ℕ) (i : grid0.Coords)
    (arg1 : Memref sig .tc .vmem S6x2000x24 .f32) (harg1 : arg1.IsWhole) (arg2 : Memref sig .tc .vmem S6x24x64 .f32) (harg2 : arg2.IsWhole)
    (arg3 : Memref sig .tc .vmem S1x64 .f32) (harg3 : arg3.IsWhole) (arg4 : Memref sig .tc .vmem S2000x64 .f32) (harg4 : arg4.IsWhole)
    (arg5 : Memref sig .tc .vmem S1x2x64 .f32) (harg5 : arg5.IsWhole)
    (x0 : Vec F S6x2000x24 .f32) (x1 : Vec F S6x24x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hidOut x0 x1 x2) ∗ owns (c : Thread nD τ) arg5 fullShare (momOut x0 x1 x2)) -∗ K ⟨⟩))
      ⊢ wp frame (wpE (defs₀ (F := F)) Variants.none c none) E (cc0__cheb_mix_kernel i arg1 harg1 arg2 harg2 arg3 harg3 arg4 harg4 arg5 harg5) K := by
  simp only [cc0__cheb_mix_kernel_eq_skeleton]; unfold cc0__cheb_mix_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverHid _)
  iexists _; isplitr
  swap; · iexact H4
  ipureintro
  exact View.read_writes_eq_canon _ _ _ (coverMom _)

/-! ## The proof data of region 0 -/

/-- On core `c`: the arrays as the region finds them; after the body at point `t` each input buffer still holds its block
    and each output buffer holds `hidOut` / `momOut` of the three input blocks; the invariant is the untouched rest. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => hidOut (blk0 V c 0 t) (blk0 V c 1 t) (blk0 V c 2 t)
    | ⟨4, _⟩ => momOut (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = hidOut (blk0 V c 0 t) (blk0 V c 1 t) (blk0 V c 2 t) := by dsimp only [dat0]
theorem after0_4 (c : Dev nD) (t : Fin cfg0.N) :
    (dat0 V c).after 4 t = momOut (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-! ## The per-point obligation of region 0 -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the triple applies; the invariant passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

/-! # Region 1: normalise, rectify, mix -/

/-- The block of operand `w` that grid point `t` of region 1 sees. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

abbrev rRows : Rect S10000x64 := Rect.unit (s := S10000x64) ![0, 0] S10000x64.size inb_S10000x64_S10000x64_0_0
abbrev rRow64 : Rect S1x64 := Rect.unit (s := S1x64) ![0, 0] S1x64.size inb_S1x64_S1x64_0_0
abbrev rMix : Rect S64x6 := Rect.unit (s := S64x6) ![0, 0] S64x6.size inb_S64x6_S64x6_0_0
abbrev rRow6 : Rect S1x6 := Rect.unit (s := S1x6) ![0, 0] S1x6.size inb_S1x6_S1x6_0_0
abbrev rOut : Rect S10000x6 := Rect.unit (s := S10000x6) ![0, 0] S10000x6.size inb_S10000x6_S10000x6_0_0

/-- The 10000 output rows of a tile, from the tile's hidden rows `x0`, the scale `x1`, shift `x2`, mean `x3`, variance `x4`,
    mixing matrix `x5` and its bias `x6`: the body's one store, its value the skeleton's arithmetic. -/
def mixOut (x0 : Vec F S10000x64 .f32) (x1 x2 x3 x4 : Vec F S1x64 .f32) (x5 : Vec F S64x6 .f32) (x6 : Vec F S1x6 .f32) : Vec F S10000x6 .f32 :=
  View.canon [⟨rOut, k1_pay1 (View.ld x0 rRows) (View.ld x4 rRow64) (View.ld x3 rRow64) (View.ld x1 rRow64) (View.ld x2 rRow64) (View.ld x5 rMix) (View.ld x6 rRow6)⟩]

theorem coverOut (p0 : Vec F S10000x6 .f32) (y : S10000x6.Idx) :
    ∃ pc ∈ ([⟨rOut, p0⟩] : List (View.Piece (Elt F) S10000x6 .f32)), y ∈ pc.1.set :=
  View.cover_of_tiled [⟨rOut, p0⟩] S10000x6.size (by rfl) y

set_option maxHeartbeats 4000000 in
/-- Run on whole staging buffers, the seven inputs' at contents `x0 … x6` and the output's at anything, the body reaches
    its continuation with the inputs as they were and the output at `mixOut` of the inputs. -/
theorem sound_kernel1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x6 .f32) (harg6 : arg6.IsWhole)
    (arg7 : Memref sig .tc .vmem S1x6 .f32) (harg7 : arg7.IsWhole) (arg8 : Memref sig .tc .vmem S10000x6 .f32) (harg8 : arg8.IsWhole)
    (x0 : Vec F S10000x64 .f32) (x1 x2 x3 x4 : Vec F S1x64 .f32) (x5 : Vec F S64x6 .f32) (x6 : Vec F S1x6 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (mixOut x0 x1 x2 x3 x4 x5 x6)) -∗ K ⟨⟩))
      ⊢ wp frame (wpE (defs₀ (F := F)) Variants.none c none) E
          (cc1__bn_relu_mix_kernel i arg1 harg1 arg2 harg2 arg3 harg3 arg4 harg4 arg5 harg5 arg6 harg6 arg7 harg7 arg8 harg8) K := by
  simp only [cc1__bn_relu_mix_kernel_eq_skeleton]; unfold cc1__bn_relu_mix_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

/-- Region 1's proof data on core `c`, as region 0's. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => mixOut (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t
    = mixOut (blk1 V c 0 t) (blk1 V c 1 t) (blk1 V c 2 t) (blk1 V c 3 t) (blk1 V c 4 t) (blk1 V c 5 t) (blk1 V c 6 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Bodies

end
-- ==== Proof.KernelIdealRun.lean ====
/-
  The run of `KernelIdeal`'s entry function from an arbitrary launch memory: three stretches of host operations that build the
  six Chebyshev bases, the first kernel region (hidden rows and per-tile moments), a stretch of host operations that
  turns the moments into mean and variance, the second kernel region (the output rows).

  The contents of every buffer at each boundary are named by a fold from the launch memory: a host stretch applies its
  operations, a region replaces its operands' arrays by what its write-backs leave and keeps every other buffer.  Every
  weakly fair execution terminates without fault in a state whose unscoped buffers hold the last boundary's contents;
  in particular each argument array is as launched (no operation writes one), and the result array holds what the second
  region's write-backs leave.
-/
import proofs.«105403_j78039555768470_2_alg».proof.Proof.KernelIdealBodies

set_option maxRecDepth 16384

noncomputable section

namespace Cert.KernelIdeal.Run

open Cert.KernelIdeal Cert.KernelIdeal.Gen Cert.KernelIdeal.Bodies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the edge lists, the degrees and their inverse square roots. -/
abbrev W1 : Dev nD → Valuation τ sig (Elt F) := fun c => StableHlo.after hostOps0 (W0 m ρ c)
/-- After the guard of isolated nodes. -/
abbrev W2 : Dev nD → Valuation τ sig (Elt F) := fun c => StableHlo.after hostOps0_1 (W1 m ρ c)
/-- After the five propagations and the stacking: the first region's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first region's exit: its arrays at what the write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the moments are summed over the tiles and turned into mean and variance: the second region's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched: no host operation writes one, and a region reads it through an input window or not at all -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg2) := (W4_arr m ρ c 1).trans (((dat0 (V3 m ρ) c).arrAt_in 1 rfl _).trans (A_eq0 (V3 m ρ) c 1))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg7) := rfl

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- Every weakly fair execution of the entry function from the memory `m` (counters zero) terminates without fault, and
    in the final state every unscoped buffer of each core holds the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every weakly fair execution terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c => ⟨
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩) (run_all m ρ)

end Cert.KernelIdeal.Run

end
-- ==== Proof.RefRun.lean ====
/-
  The reference program's run, read back with its result left as a fold.

  The reference's `@main` is a straight line of 201 host operations (the two outlined calls, a select and a
  maximum with zero, stand in their calls' places). Listed in order as `ops`, the program IS `seq ops`, and
  every weakly fair execution from a memory with zero counters terminates with each buffer of core `c` at
  `StableHlo.after ops` of the launch contents of `c`: the fold of the operations' results, each operation
  rewriting the one buffer it writes. No operation writes an argument buffer, so the eight arguments end as
  they started. The fold is NOT expanded here: what a later buffer holds is read off it operation by operation,
  over an arbitrary valuation, where that is needed.
-/
import proofs.«105403_j78039555768470_2_alg».proof.ReferenceIdeal
import proofs.«105403_j78039555768470_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- `@main`'s 201 operations, in order (a called function's operations stand in its call's place). -/
abbrev ops : List (HloOp τ sig (Elt F)) :=
  [ unary main_arg1 main_v0 ((extractStridedSlice S1x4000000 ![0, 0] · slices_S2x4000000_S1x4000000_0_0) : (⟨S2x4000000, .i32⟩ : BufTy).Contents (Elt F) → (⟨S1x4000000, .i32⟩ : BufTy).Contents (Elt F)),
    reshape main_v0 main_v1 rfl shapeCasts_S1x4000000_S4000000,
    unary main_arg1 main_v2 ((extractStridedSlice S1x4000000 ![1, 0] · slices_S2x4000000_S1x4000000_1_0) : (⟨S2x4000000, .i32⟩ : BufTy).Contents (Elt F) → (⟨S1x4000000, .i32⟩ : BufTy).Contents (Elt F)),
    reshape main_v2 main_v3 rfl shapeCasts_S1x4000000_S4000000,
    nullary main_cst (constant S_ .f32 0x3F800000#32),
    unary main_cst main_v4 (broadcastInDim S4000000 ![] bcast_S_S4000000 : (⟨S_, .f32⟩ : BufTy).Contents (Elt F) → (⟨S4000000, .f32⟩ : BufTy).Contents (Elt F)),
    nullary main_cst_0 (constant S_ .f32 0x00000000#32),
    unary main_cst_0 main_v5 (broadcastInDim S500000 ![] bcast_S_S500000 : (⟨S_, .f32⟩ : BufTy).Contents (Elt F) → (⟨S500000, .f32⟩ : BufTy).Contents (Elt F)),
    unary main_v3 main_v6 (broadcastInDim S4000000x1 ![0] bcast_S4000000_S4000000x1_0 : (⟨S4000000, .i32⟩ : BufTy).Contents (Elt F) → (⟨S4000000x1, .i32⟩ : BufTy).Contents (Elt F)),
    ternary main_v5 main_v6 main_v4 main_v7 ((fun x i u => Host.scatterAdd scatter_S500000_S4000000x1_S4000000_n_0_0_1 x i u) : (⟨S500000, .f32⟩ : BufTy).Contents (Elt F) → (⟨S4000000x1, .i32⟩ : BufTy).Contents (Elt F) → (⟨S4000000, .f32⟩ : BufTy).Contents (Elt F) → (⟨S500000, .f32⟩ : BufTy).Contents (Elt F)),
    nullary main_cst_1 (constant S_ .f32 0x00000000#32),
    unary main_cst_1 main_v8 (broadcastInDim S500000 ![] bcast_S_S500000 : (⟨S_, .f32⟩ : BufTy).Contents (Elt F) → (⟨S500000, .f32⟩ : BufTy).Contents (Elt F)),
    binary main_v7 main_v8 main_v9 (cmpf .ogt : (⟨S500000, .f32⟩ : BufTy).Contents (Elt F) → (⟨S500000, .f32⟩ : BufTy).Contents (Elt F) → (⟨S500000, .i1⟩ : BufTy).Contents (Elt F)),
    nullary main_cst_2 (constant S_ .f32 0x3F800000#32),
    unary main_cst_2 main_v10 (broadcastInDim S500000 ![] bcast_S_S500000 : (⟨S_, .f32⟩ : BufTy).Contents (Elt F) → (⟨S500000, .f32⟩ : BufTy).Contents (Elt F)),
    binary main_v7 main_v10 main_v11 (maximumf : (⟨S500000, .f32⟩ : BufTy).Contents (Elt F) → (⟨S500000, .f32⟩ : BufTy).Contents (Elt F) → (⟨S500000, .f32⟩ : BufTy).Contents (Elt F)),
    unary main_v11 main_v12 (Host.rsqrt : (⟨S500000, .f32⟩ : BufTy).Contents (Elt F) → (⟨S500000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S500000, .f32⟩) main_call0_v1) (broadcastInDim S500000 ![] bcast_S_S500000),
    TRef.ternary (TRef.of (T := ⟨S500000, .i1⟩) main_v9) (TRef.of (T := ⟨S500000, .f32⟩) main_v12) (TRef.of (T := ⟨S500000, .f32⟩) main_call0_v1) (TRef.of (T := ⟨S500000, .f32⟩) main_v13) select,
    nullary main_c (constantI S_ 32 0#32),
    unary main_c main_v14 (broadcastInDim S4000000 ![] bcast_S_S4000000 : (⟨S_, .i32⟩ : BufTy).Contents (Elt F) → (⟨S4000000, .i32⟩ : BufTy).Contents (Elt F)),
    binary main_v1 main_v14 main_v15 (cmpi .slt : (⟨S4000000, .i32⟩ : BufTy).Contents (Elt F) → (⟨S4000000, .i32⟩ : BufTy).Contents (Elt F) → (⟨S4000000, .i1⟩ : BufTy).Contents (Elt F)),
    nullary main_c_4 (constantI S_ 32 500000#32),
    unary main_c_4 main_v16 (broadcastInDim S4000000 ![] bcast_S_S4000000 : (⟨S_, .i32⟩ : BufTy).Contents (Elt F) → (⟨S4000000, .i32⟩ : BufTy).Contents (Elt F)),
    binary main_v1 main_v16 main_v17 (addi : (⟨S4000000, .i32⟩ : BufTy).Contents (Elt F) → (⟨S4000000, .i32⟩ : BufTy).Contents (Elt F) → (⟨S4000000, .i32⟩ : BufTy).Contents (Elt F)),
    ternary main_v15 main_v17 main_v1 main_v18 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v18 main_v19 (broadcastInDim S4000000x1 ![0] bcast_S4000000_S4000000x1_0 : (⟨S4000000, .i32⟩ : BufTy).Contents (Elt F) → (⟨S4000000x1, .i32⟩ : BufTy).Contents (Elt F)),
    binary main_v13 main_v19 main_v20 ((fun x i => Host.gather gather_S500000_S4000000x1_S4000000_n_0_n_n_0_1_1 x i) : (⟨S500000, .f32⟩ : BufTy).Contents (Elt F) → (⟨S4000000x1, .i32⟩ : BufTy).Contents (Elt F) → (⟨S4000000, .f32⟩ : BufTy).Contents (Elt F)),
    nullary main_c_5 (constantI S_ 32 0#32),
    unary main_c_5 main_v21 (broadcastInDim S4000000 ![] bcast_S_S4000000 : (⟨S_, .i32⟩ : BufTy).Contents (Elt F) → (⟨S4000000, .i32⟩ : BufTy).Contents (Elt F)),
    binary main_v3 main_v21 main_v22 (cmpi .slt : (⟨S4000000, .i32⟩ : BufTy).Contents (Elt F) → (⟨S4000000, .i32⟩ : BufTy).Contents (Elt F) → (⟨S4000000, .i1⟩ : BufTy).Contents (Elt F)),
    nullary main_c_6 (constantI S_ 32 500000#32),
    unary main_c_6 main_v23 (broadcastInDim S4000000 ![] bcast_S_S4000000 : (⟨S_, .i32⟩ : BufTy).Contents (Elt F) → (⟨S4000000, .i32⟩ : BufTy).Contents (Elt F)),
    binary main_v3 main_v23 main_v24 (addi : (⟨S4000000, .i32⟩ : BufTy).Contents (Elt F) → (⟨S4000000, .i32⟩ : BufTy).Contents (Elt F) → (⟨S4000000, .i32⟩ : BufTy).Contents (Elt F)),
    ternary main_v22 main_v24 main_v3 main_v25 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v25 main_v26 (broadcastInDim S4000000x1 ![0] bcast_S4000000_S4000000x1_0 : (⟨S4000000, .i32⟩ : BufTy).Contents (Elt F) → (⟨S4000000x1, .i32⟩ : BufTy).Contents (Elt F)),
    binary main_v13 main_v26 main_v27 ((fun x i => Host.gather gather_S500000_S4000000x1_S4000000_n_0_n_n_0_1_1 x i) : (⟨S500000, .f32⟩ : BufTy).Contents (Elt F) → (⟨S4000000x1, .i32⟩ : BufTy).Contents (Elt F) → (⟨S4000000, .f32⟩ : BufTy).Contents (Elt F)),
    binary main_v20 main_v27 main_v28 (mulf : (⟨S4000000, .f32⟩ : BufTy).Contents (Elt F) → (⟨S4000000, .f32⟩ : BufTy).Contents (Elt F) → (⟨S4000000, .f32⟩ : BufTy).Contents (Elt F)),
    unary main_v28 main_v29 (Host.negf : (⟨S4000000, .f32⟩ : BufTy).Contents (Elt F) → (⟨S4000000, .f32⟩ : BufTy).Contents (Elt F)),
    unary main_arg2 main_v30 ((extractStridedSlice S1x24x64 ![0, 0, 0] · slices_S6x24x64_S1x24x64_0_0_0) : (⟨S6x24x64, .f32⟩ : BufTy).Contents (Elt F) → (⟨S1x24x64, .f32⟩ : BufTy).Contents (Elt F)),
    reshape main_v30 main_v31 rfl shapeCasts_S1x24x64_S24x64,
    binary main_arg0 main_v31 main_v32 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    unary main_v29 main_v33 (broadcastInDim S4000000x1 ![0] bcast_S4000000_S4000000x1_0 : (⟨S4000000, .f32⟩ : BufTy).Contents (Elt F) → (⟨S4000000x1, .f32⟩ : BufTy).Contents (Elt F)),
    nullary main_c_7 (constantI S_ 32 0#32),
    unary main_c_7 main_v34 (broadcastInDim S4000000 ![] bcast_S_S4000000 : (⟨S_, .i32⟩ : BufTy).Contents (Elt F) → (⟨S4000000, .i32⟩ : BufTy).Contents (Elt F)),
    binary main_v1 main_v34 main_v35 (cmpi .slt : (⟨S4000000, .i32⟩ : BufTy).Contents (Elt F) → (⟨S4000000, .i32⟩ : BufTy).Contents (Elt F) → (⟨S4000000, .i1⟩ : BufTy).Contents (Elt F)),
    nullary main_c_8 (constantI S_ 32 500000#32),
    unary main_c_8 main_v36 (broadcastInDim S4000000 ![] bcast_S_S4000000 : (⟨S_, .i32⟩ : BufTy).Contents (Elt F) → (⟨S4000000, .i32⟩ : BufTy).Contents (Elt F)),
    binary main_v1 main_v36 main_v37 (addi : (⟨S4000000, .i32⟩ : BufTy).Contents (Elt F) → (⟨S4000000, .i32⟩ : BufTy).Contents (Elt F) → (⟨S4000000, .i32⟩ : BufTy).Contents (Elt F)),
    ternary main_v35 main_v37 main_v1 main_v38 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v38 main_v39 (broadcastInDim S4000000x1 ![0] bcast_S4000000_S4000000x1_0 : (⟨S4000000, .i32⟩ : BufTy).Contents (Elt F) → (⟨S4000000x1, .i32⟩ : BufTy).Contents (Elt F)),
    binary main_arg0 main_v39 main_v40 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v33 main_v41 (broadcastInDim S4000000x24 ![0, 1] bcast_S4000000x1_S4000000x24_0_1 : (⟨S4000000x1, .f32⟩ : BufTy).Contents (Elt F) → (⟨S4000000x24, .f32⟩ : BufTy).Contents (Elt F)),
    binary main_v41 main_v40 main_v42 (mulf : (⟨S4000000x24, .f32⟩ : BufTy).Contents (Elt F) → (⟨S4000000x24, .f32⟩ : BufTy).Contents (Elt F) → (⟨S4000000x24, .f32⟩ : BufTy).Contents (Elt F)),
    nullary main_cst_9 (constant S_ .f32 0x00000000#32),
    unary main_cst_9 main_v43 (broadcastInDim S500000x24 ![] bcast_S_S500000x24 : (⟨S_, .f32⟩ : BufTy).Contents (Elt F) → (⟨S500000x24, .f32⟩ : BufTy).Contents (Elt F)),
    unary main_v3 main_v44 (broadcastInDim S4000000x1 ![0] bcast_S4000000_S4000000x1_0 : (⟨S4000000, .i32⟩ : BufTy).Contents (Elt F) → (⟨S4000000x1, .i32⟩ : BufTy).Contents (Elt F)),
    ternary main_v43 main_v44 main_v42 main_v45 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    unary main_arg2 main_v46 ((extractStridedSlice S1x24x64 ![1, 0, 0] · slices_S6x24x64_S1x24x64_1_0_0) : (⟨S6x24x64, .f32⟩ : BufTy).Contents (Elt F) → (⟨S1x24x64, .f32⟩ : BufTy).Contents (Elt F)),
    reshape main_v46 main_v47 rfl shapeCasts_S1x24x64_S24x64,
    binary main_v45 main_v47 main_v48 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v32 main_v48 main_v49 (addf : (⟨S500000x64, .f32⟩ : BufTy).Contents (Elt F) → (⟨S500000x64, .f32⟩ : BufTy).Contents (Elt F) → (⟨S500000x64, .f32⟩ : BufTy).Contents (Elt F)),
    unary main_v29 main_v50 (broadcastInDim S4000000x1 ![0] bcast_S4000000_S4000000x1_0 : (⟨S4000000, .f32⟩ : BufTy).Contents (Elt F) → (⟨S4000000x1, .f32⟩ : BufTy).Contents (Elt F)),
    nullary main_c_10 (constantI S_ 32 0#32),
    unary main_c_10 main_v51 (broadcastInDim S4000000 ![] bcast_S_S4000000 : (⟨S_, .i32⟩ : BufTy).Contents (Elt F) → (⟨S4000000, .i32⟩ : BufTy).Contents (Elt F)),
    binary main_v1 main_v51 main_v52 (cmpi .slt : (⟨S4000000, .i32⟩ : BufTy).Contents (Elt F) → (⟨S4000000, .i32⟩ : BufTy).Contents (Elt F) → (⟨S4000000, .i1⟩ : BufTy).Contents (Elt F)),
    nullary main_c_11 (constantI S_ 32 500000#32),
    unary main_c_11 main_v53 (broadcastInDim S4000000 ![] bcast_S_S4000000 : (⟨S_, .i32⟩ : BufTy).Contents (Elt F) → (⟨S4000000, .i32⟩ : BufTy).Contents (Elt F)),
    binary main_v1 main_v53 main_v54 (addi : (⟨S4000000, .i32⟩ : BufTy).Contents (Elt F) → (⟨S4000000, .i32⟩ : BufTy).Contents (Elt F) → (⟨S4000000, .i32⟩ : BufTy).Contents (Elt F)),
    ternary main_v52 main_v54 main_v1 main_v55 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v55 main_v56 (broadcastInDim S4000000x1 ![0] bcast_S4000000_S4000000x1_0 : (⟨S4000000, .i32⟩ : BufTy).Contents (Elt F) → (⟨S4000000x1, .i32⟩ : BufTy).Contents (Elt F)),
    binary main_v45 main_v56 main_v57 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v50 main_v58 (broadcastInDim S4000000x24 ![0, 1] bcast_S4000000x1_S4000000x24_0_1 : (⟨S4000000x1, .f32⟩ : BufTy).Contents (Elt F) → (⟨S4000000x24, .f32⟩ : BufTy).Contents (Elt F)),
    binary main_v58 main_v57 main_v59 (mulf : (⟨S4000000x24, .f32⟩ : BufTy).Contents (Elt F) → (⟨S4000000x24, .f32⟩ : BufTy).Contents (Elt F) → (⟨S4000000x24, .f32⟩ : BufTy).Contents (Elt F)),
    nullary main_cst_12 (constant S_ .f32 0x00000000#32),
    unary main_cst_12 main_v60 (broadcastInDim S500000x24 ![] bcast_S_S500000x24 : (⟨S_, .f32⟩ : BufTy).Contents (Elt F) → (⟨S500000x24, .f32⟩ : BufTy).Contents (Elt F)),
    unary main_v3 main_v61 (broadcastInDim S4000000x1 ![0] bcast_S4000000_S4000000x1_0 : (⟨S4000000, .i32⟩ : BufTy).Contents (Elt F) → (⟨S4000000x1, .i32⟩ : BufTy).Contents (Elt F)),
    ternary main_v60 main_v61 main_v59 main_v62 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    nullary main_cst_13 (constant S_ .f32 0x40000000#32),
    unary main_cst_13 main_v63 (broadcastInDim S500000x24 ![] bcast_S_S500000x24 : (⟨S_, .f32⟩ : BufTy).Contents (Elt F) → (⟨S500000x24, .f32⟩ : BufTy).Contents (Elt F)),
    binary main_v63 main_v62 main_v64 (mulf : (⟨S500000x24, .f32⟩ : BufTy).Contents (Elt F) → (⟨S500000x24, .f32⟩ : BufTy).Contents (Elt F) → (⟨S500000x24, .f32⟩ : BufTy).Contents (Elt F)),
    binary main_v64 main_arg0 main_v65 (subf : (⟨S500000x24, .f32⟩ : BufTy).Contents (Elt F) → (⟨S500000x24, .f32⟩ : BufTy).Contents (Elt F) → (⟨S500000x24, .f32⟩ : BufTy).Contents (Elt F)),
    unary main_arg2 main_v66 ((extractStridedSlice S1x24x64 ![2, 0, 0] · slices_S6x24x64_S1x24x64_2_0_0) : (⟨S6x24x64, .f32⟩ : BufTy).Contents (Elt F) → (⟨S1x24x64, .f32⟩ : BufTy).Contents (Elt F)),
    reshape main_v66 main_v67 rfl shapeCasts_S1x24x64_S24x64,
    binary main_v65 main_v67 main_v68 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v49 main_v68 main_v69 (addf : (⟨S500000x64, .f32⟩ : BufTy).Contents (Elt F) → (⟨S500000x64, .f32⟩ : BufTy).Contents (Elt F) → (⟨S500000x64, .f32⟩ : BufTy).Contents (Elt F)),
    unary main_v29 main_v70 (broadcastInDim S4000000x1 ![0] bcast_S4000000_S4000000x1_0 : (⟨S4000000, .f32⟩ : BufTy).Contents (Elt F) → (⟨S4000000x1, .f32⟩ : BufTy).Contents (Elt F)),
    nullary main_c_14 (constantI S_ 32 0#32),
    unary main_c_14 main_v71 (broadcastInDim S4000000 ![] bcast_S_S4000000 : (⟨S_, .i32⟩ : BufTy).Contents (Elt F) → (⟨S4000000, .i32⟩ : BufTy).Contents (Elt F)),
    binary main_v1 main_v71 main_v72 (cmpi .slt : (⟨S4000000, .i32⟩ : BufTy).Contents (Elt F) → (⟨S4000000, .i32⟩ : BufTy).Contents (Elt F) → (⟨S4000000, .i1⟩ : BufTy).Contents (Elt F)),
    nullary main_c_15 (constantI S_ 32 500000#32),
    unary main_c_15 main_v73 (broadcastInDim S4000000 ![] bcast_S_S4000000 : (⟨S_, .i32⟩ : BufTy).Contents (Elt F) → (⟨S4000000, .i32⟩ : BufTy).Contents (Elt F)),
    binary main_v1 main_v73 main_v74 (addi : (⟨S4000000, .i32⟩ : BufTy).Contents (Elt F) → (⟨S4000000, .i32⟩ : BufTy).Contents (Elt F) → (⟨S4000000, .i32⟩ : BufTy).Contents (Elt F)),
    ternary main_v72 main_v74 main_v1 main_v75 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v75 main_v76 (broadcastInDim S4000000x1 ![0] bcast_S4000000_S4000000x1_0 : (⟨S4000000, .i32⟩ : BufTy).Contents (Elt F) → (⟨S4000000x1, .i32⟩ : BufTy).Contents (Elt F)),
    binary main_v65 main_v76 main_v77 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v70 main_v78 (broadcastInDim S4000000x24 ![0, 1] bcast_S4000000x1_S4000000x24_0_1 : (⟨S4000000x1, .f32⟩ : BufTy).Contents (Elt F) → (⟨S4000000x24, .f32⟩ : BufTy).Contents (Elt F)),
    binary main_v78 main_v77 main_v79 (mulf : (⟨S4000000x24, .f32⟩ : BufTy).Contents (Elt F) → (⟨S4000000x24, .f32⟩ : BufTy).Contents (Elt F) → (⟨S4000000x24, .f32⟩ : BufTy).Contents (Elt F)),
    nullary main_cst_16 (constant S_ .f32 0x00000000#32),
    unary main_cst_16 main_v80 (broadcastInDim S500000x24 ![] bcast_S_S500000x24 : (⟨S_, .f32⟩ : BufTy).Contents (Elt F) → (⟨S500000x24, .f32⟩ : BufTy).Contents (Elt F)),
    unary main_v3 main_v81 (broadcastInDim S4000000x1 ![0] bcast_S4000000_S4000000x1_0 : (⟨S4000000, .i32⟩ : BufTy).Contents (Elt F) → (⟨S4000000x1, .i32⟩ : BufTy).Contents (Elt F)),
    ternary main_v80 main_v81 main_v79 main_v82 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    nullary main_cst_17 (constant S_ .f32 0x40000000#32),
    unary main_cst_17 main_v83 (broadcastInDim S500000x24 ![] bcast_S_S500000x24 : (⟨S_, .f32⟩ : BufTy).Contents (Elt F) → (⟨S500000x24, .f32⟩ : BufTy).Contents (Elt F)),
    binary main_v83 main_v82 main_v84 (mulf : (⟨S500000x24, .f32⟩ : BufTy).Contents (Elt F) → (⟨S500000x24, .f32⟩ : BufTy).Contents (Elt F) → (⟨S500000x24, .f32⟩ : BufTy).Contents (Elt F)),
    binary main_v84 main_v45 main_v85 (subf : (⟨S500000x24, .f32⟩ : BufTy).Contents (Elt F) → (⟨S500000x24, .f32⟩ : BufTy).Contents (Elt F) → (⟨S500000x24, .f32⟩ : BufTy).Contents (Elt F)),
    unary main_arg2 main_v86 ((extractStridedSlice S1x24x64 ![3, 0, 0] · slices_S6x24x64_S1x24x64_3_0_0) : (⟨S6x24x64, .f32⟩ : BufTy).Contents (Elt F) → (⟨S1x24x64, .f32⟩ : BufTy).Contents (Elt F)),
    reshape main_v86 main_v87 rfl shapeCasts_S1x24x64_S24x64,
    binary main_v85 main_v87 main_v88 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v69 main_v88 main_v89 (addf : (⟨S500000x64, .f32⟩ : BufTy).Contents (Elt F) → (⟨S500000x64, .f32⟩ : BufTy).Contents (Elt F) → (⟨S500000x64, .f32⟩ : BufTy).Contents (Elt F)),
    unary main_v29 main_v90 (broadcastInDim S4000000x1 ![0] bcast_S4000000_S4000000x1_0 : (⟨S4000000, .f32⟩ : BufTy).Contents (Elt F) → (⟨S4000000x1, .f32⟩ : BufTy).Contents (Elt F)),
    nullary main_c_18 (constantI S_ 32 0#32),
    unary main_c_18 main_v91 (broadcastInDim S4000000 ![] bcast_S_S4000000 : (⟨S_, .i32⟩ : BufTy).Contents (Elt F) → (⟨S4000000, .i32⟩ : BufTy).Contents (Elt F)),
    binary main_v1 main_v91 main_v92 (cmpi .slt : (⟨S4000000, .i32⟩ : BufTy).Contents (Elt F) → (⟨S4000000, .i32⟩ : BufTy).Contents (Elt F) → (⟨S4000000, .i1⟩ : BufTy).Contents (Elt F)),
    nullary main_c_19 (constantI S_ 32 500000#32),
    unary main_c_19 main_v93 (broadcastInDim S4000000 ![] bcast_S_S4000000 : (⟨S_, .i32⟩ : BufTy).Contents (Elt F) → (⟨S4000000, .i32⟩ : BufTy).Contents (Elt F)),
    binary main_v1 main_v93 main_v94 (addi : (⟨S4000000, .i32⟩ : BufTy).Contents (Elt F) → (⟨S4000000, .i32⟩ : BufTy).Contents (Elt F) → (⟨S4000000, .i32⟩ : BufTy).Contents (Elt F)),
    ternary main_v92 main_v94 main_v1 main_v95 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v95 main_v96 (broadcastInDim S4000000x1 ![0] bcast_S4000000_S4000000x1_0 : (⟨S4000000, .i32⟩ : BufTy).Contents (Elt F) → (⟨S4000000x1, .i32⟩ : BufTy).Contents (Elt F)),
    binary main_v85 main_v96 main_v97 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v90 main_v98 (broadcastInDim S4000000x24 ![0, 1] bcast_S4000000x1_S4000000x24_0_1 : (⟨S4000000x1, .f32⟩ : BufTy).Contents (Elt F) → (⟨S4000000x24, .f32⟩ : BufTy).Contents (Elt F)),
    binary main_v98 main_v97 main_v99 (mulf : (⟨S4000000x24, .f32⟩ : BufTy).Contents (Elt F) → (⟨S4000000x24, .f32⟩ : BufTy).Contents (Elt F) → (⟨S4000000x24, .f32⟩ : BufTy).Contents (Elt F)),
    nullary main_cst_20 (constant S_ .f32 0x00000000#32),
    unary main_cst_20 main_v100 (broadcastInDim S500000x24 ![] bcast_S_S500000x24 : (⟨S_, .f32⟩ : BufTy).Contents (Elt F) → (⟨S500000x24, .f32⟩ : BufTy).Contents (Elt F)),
    unary main_v3 main_v101 (broadcastInDim S4000000x1 ![0] bcast_S4000000_S4000000x1_0 : (⟨S4000000, .i32⟩ : BufTy).Contents (Elt F) → (⟨S4000000x1, .i32⟩ : BufTy).Contents (Elt F)),
    ternary main_v100 main_v101 main_v99 main_v102 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    nullary main_cst_21 (constant S_ .f32 0x40000000#32),
    unary main_cst_21 main_v103 (broadcastInDim S500000x24 ![] bcast_S_S500000x24 : (⟨S_, .f32⟩ : BufTy).Contents (Elt F) → (⟨S500000x24, .f32⟩ : BufTy).Contents (Elt F)),
    binary main_v103 main_v102 main_v104 (mulf : (⟨S500000x24, .f32⟩ : BufTy).Contents (Elt F) → (⟨S500000x24, .f32⟩ : BufTy).Contents (Elt F) → (⟨S500000x24, .f32⟩ : BufTy).Contents (Elt F)),
    binary main_v104 main_v65 main_v105 (subf : (⟨S500000x24, .f32⟩ : BufTy).Contents (Elt F) → (⟨S500000x24, .f32⟩ : BufTy).Contents (Elt F) → (⟨S500000x24, .f32⟩ : BufTy).Contents (Elt F)),
    unary main_arg2 main_v106 ((extractStridedSlice S1x24x64 ![4, 0, 0] · slices_S6x24x64_S1x24x64_4_0_0) : (⟨S6x24x64, .f32⟩ : BufTy).Contents (Elt F) → (⟨S1x24x64, .f32⟩ : BufTy).Contents (Elt F)),
    reshape main_v106 main_v107 rfl shapeCasts_S1x24x64_S24x64,
    binary main_v105 main_v107 main_v108 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v89 main_v108 main_v109 (addf : (⟨S500000x64, .f32⟩ : BufTy).Contents (Elt F) → (⟨S500000x64, .f32⟩ : BufTy).Contents (Elt F) → (⟨S500000x64, .f32⟩ : BufTy).Contents (Elt F)),
    unary main_v29 main_v110 (broadcastInDim S4000000x1 ![0] bcast_S4000000_S4000000x1_0 : (⟨S4000000, .f32⟩ : BufTy).Contents (Elt F) → (⟨S4000000x1, .f32⟩ : BufTy).Contents (Elt F)),
    nullary main_c_22 (constantI S_ 32 0#32),
    unary main_c_22 main_v111 (broadcastInDim S4000000 ![] bcast_S_S4000000 : (⟨S_, .i32⟩ : BufTy).Contents (Elt F) → (⟨S4000000, .i32⟩ : BufTy).Contents (Elt F)),
    binary main_v1 main_v111 main_v112 (cmpi .slt : (⟨S4000000, .i32⟩ : BufTy).Contents (Elt F) → (⟨S4000000, .i32⟩ : BufTy).Contents (Elt F) → (⟨S4000000, .i1⟩ : BufTy).Contents (Elt F)),
    nullary main_c_23 (constantI S_ 32 500000#32),
    unary main_c_23 main_v113 (broadcastInDim S4000000 ![] bcast_S_S4000000 : (⟨S_, .i32⟩ : BufTy).Contents (Elt F) → (⟨S4000000, .i32⟩ : BufTy).Contents (Elt F)),
    binary main_v1 main_v113 main_v114 (addi : (⟨S4000000, .i32⟩ : BufTy).Contents (Elt F) → (⟨S4000000, .i32⟩ : BufTy).Contents (Elt F) → (⟨S4000000, .i32⟩ : BufTy).Contents (Elt F)),
    ternary main_v112 main_v114 main_v1 main_v115 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v115 main_v116 (broadcastInDim S4000000x1 ![0] bcast_S4000000_S4000000x1_0 : (⟨S4000000, .i32⟩ : BufTy).Contents (Elt F) → (⟨S4000000x1, .i32⟩ : BufTy).Contents (Elt F)),
    binary main_v105 main_v116 main_v117 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v110 main_v118 (broadcastInDim S4000000x24 ![0, 1] bcast_S4000000x1_S4000000x24_0_1 : (⟨S4000000x1, .f32⟩ : BufTy).Contents (Elt F) → (⟨S4000000x24, .f32⟩ : BufTy).Contents (Elt F)),
    binary main_v118 main_v117 main_v119 (mulf : (⟨S4000000x24, .f32⟩ : BufTy).Contents (Elt F) → (⟨S4000000x24, .f32⟩ : BufTy).Contents (Elt F) → (⟨S4000000x24, .f32⟩ : BufTy).Contents (Elt F)),
    nullary main_cst_24 (constant S_ .f32 0x00000000#32),
    unary main_cst_24 main_v120 (broadcastInDim S500000x24 ![] bcast_S_S500000x24 : (⟨S_, .f32⟩ : BufTy).Contents (Elt F) → (⟨S500000x24, .f32⟩ : BufTy).Contents (Elt F)),
    unary main_v3 main_v121 (broadcastInDim S4000000x1 ![0] bcast_S4000000_S4000000x1_0 : (⟨S4000000, .i32⟩ : BufTy).Contents (Elt F) → (⟨S4000000x1, .i32⟩ : BufTy).Contents (Elt F)),
    ternary main_v120 main_v121 main_v119 main_v122 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    nullary main_cst_25 (constant S_ .f32 0x40000000#32),
    unary main_cst_25 main_v123 (broadcastInDim S500000x24 ![] bcast_S_S500000x24 : (⟨S_, .f32⟩ : BufTy).Contents (Elt F) → (⟨S500000x24, .f32⟩ : BufTy).Contents (Elt F)),
    binary main_v123 main_v122 main_v124 (mulf : (⟨S500000x24, .f32⟩ : BufTy).Contents (Elt F) → (⟨S500000x24, .f32⟩ : BufTy).Contents (Elt F) → (⟨S500000x24, .f32⟩ : BufTy).Contents (Elt F)),
    binary main_v124 main_v85 main_v125 (subf : (⟨S500000x24, .f32⟩ : BufTy).Contents (Elt F) → (⟨S500000x24, .f32⟩ : BufTy).Contents (Elt F) → (⟨S500000x24, .f32⟩ : BufTy).Contents (Elt F)),
    unary main_arg2 main_v126 ((extractStridedSlice S1x24x64 ![5, 0, 0] · slices_S6x24x64_S1x24x64_5_0_0) : (⟨S6x24x64, .f32⟩ : BufTy).Contents (Elt F) → (⟨S1x24x64, .f32⟩ : BufTy).Contents (Elt F)),
    reshape main_v126 main_v127 rfl shapeCasts_S1x24x64_S24x64,
    binary main_v125 main_v127 main_v128 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v109 main_v128 main_v129 (addf : (⟨S500000x64, .f32⟩ : BufTy).Contents (Elt F) → (⟨S500000x64, .f32⟩ : BufTy).Contents (Elt F) → (⟨S500000x64, .f32⟩ : BufTy).Contents (Elt F)),
    unary main_arg3 main_v130 (broadcastInDim S1x64 ![1] bcast_S64_S1x64_1 : (⟨S64, .f32⟩ : BufTy).Contents (Elt F) → (⟨S1x64, .f32⟩ : BufTy).Contents (Elt F)),
    unary main_v130 main_v131 (broadcastInDim S500000x64 ![0, 1] bcast_S1x64_S500000x64_0_1 : (⟨S1x64, .f32⟩ : BufTy).Contents (Elt F) → (⟨S500000x64, .f32⟩ : BufTy).Contents (Elt F)),
    binary main_v129 main_v131 main_v132 (addf : (⟨S500000x64, .f32⟩ : BufTy).Contents (Elt F) → (⟨S500000x64, .f32⟩ : BufTy).Contents (Elt F) → (⟨S500000x64, .f32⟩ : BufTy).Contents (Elt F)),
    nullary main_cst_26 (constant S_ .f32 0x00000000#32),
    binary main_v132 main_cst_26 main_v133 ((fun x v => Host.reduceAdd x v reducesTo_S500000x64_S64_d0 h_S_) : (⟨S500000x64, .f32⟩ : BufTy).Contents (Elt F) → (⟨S_, .f32⟩ : BufTy).Contents (Elt F) → (⟨S64, .f32⟩ : BufTy).Contents (Elt F)),
    nullary main_cst_27 (constant S_ .f32 0x48F42400#32),
    unary main_cst_27 main_v134 (broadcastInDim S64 ![] bcast_S_S64 : (⟨S_, .f32⟩ : BufTy).Contents (Elt F) → (⟨S64, .f32⟩ : BufTy).Contents (Elt F)),
    binary main_v133 main_v134 main_v135 (Host.divf : (⟨S64, .f32⟩ : BufTy).Contents (Elt F) → (⟨S64, .f32⟩ : BufTy).Contents (Elt F) → (⟨S64, .f32⟩ : BufTy).Contents (Elt F)),
    unary main_v135 main_v136 (broadcastInDim S1x64 ![1] bcast_S64_S1x64_1 : (⟨S64, .f32⟩ : BufTy).Contents (Elt F) → (⟨S1x64, .f32⟩ : BufTy).Contents (Elt F)),
    unary main_v136 main_v137 (broadcastInDim S500000x64 ![0, 1] bcast_S1x64_S500000x64_0_1 : (⟨S1x64, .f32⟩ : BufTy).Contents (Elt F) → (⟨S500000x64, .f32⟩ : BufTy).Contents (Elt F)),
    binary main_v132 main_v137 main_v138 (subf : (⟨S500000x64, .f32⟩ : BufTy).Contents (Elt F) → (⟨S500000x64, .f32⟩ : BufTy).Contents (Elt F) → (⟨S500000x64, .f32⟩ : BufTy).Contents (Elt F)),
    binary main_v138 main_v138 main_v139 (mulf : (⟨S500000x64, .f32⟩ : BufTy).Contents (Elt F) → (⟨S500000x64, .f32⟩ : BufTy).Contents (Elt F) → (⟨S500000x64, .f32⟩ : BufTy).Contents (Elt F)),
    nullary main_cst_28 (constant S_ .f32 0x00000000#32),
    binary main_v139 main_cst_28 main_v140 ((fun x v => Host.reduceAdd x v reducesTo_S500000x64_S64_d0 h_S_) : (⟨S500000x64, .f32⟩ : BufTy).Contents (Elt F) → (⟨S_, .f32⟩ : BufTy).Contents (Elt F) → (⟨S64, .f32⟩ : BufTy).Contents (Elt F)),
    nullary main_cst_29 (constant S_ .f32 0x48F42400#32),
    unary main_cst_29 main_v141 (broadcastInDim S64 ![] bcast_S_S64 : (⟨S_, .f32⟩ : BufTy).Contents (Elt F) → (⟨S64, .f32⟩ : BufTy).Contents (Elt F)),
    binary main_v140 main_v141 main_v142 (Host.divf : (⟨S64, .f32⟩ : BufTy).Contents (Elt F) → (⟨S64, .f32⟩ : BufTy).Contents (Elt F) → (⟨S64, .f32⟩ : BufTy).Contents (Elt F)),
    unary main_v135 main_v143 (broadcastInDim S1x64 ![1] bcast_S64_S1x64_1 : (⟨S64, .f32⟩ : BufTy).Contents (Elt F) → (⟨S1x64, .f32⟩ : BufTy).Contents (Elt F)),
    unary main_v143 main_v144 (broadcastInDim S500000x64 ![0, 1] bcast_S1x64_S500000x64_0_1 : (⟨S1x64, .f32⟩ : BufTy).Contents (Elt F) → (⟨S500000x64, .f32⟩ : BufTy).Contents (Elt F)),
    binary main_v132 main_v144 main_v145 (subf : (⟨S500000x64, .f32⟩ : BufTy).Contents (Elt F) → (⟨S500000x64, .f32⟩ : BufTy).Contents (Elt F) → (⟨S500000x64, .f32⟩ : BufTy).Contents (Elt F)),
    nullary main_cst_30 (constant S_ .f32 0x3727C5AC#32),
    unary main_cst_30 main_v146 (broadcastInDim S64 ![] bcast_S_S64 : (⟨S_, .f32⟩ : BufTy).Contents (Elt F) → (⟨S64, .f32⟩ : BufTy).Contents (Elt F)),
    binary main_v142 main_v146 main_v147 (addf : (⟨S64, .f32⟩ : BufTy).Contents (Elt F) → (⟨S64, .f32⟩ : BufTy).Contents (Elt F) → (⟨S64, .f32⟩ : BufTy).Contents (Elt F)),
    unary main_v147 main_v148 (Host.rsqrt : (⟨S64, .f32⟩ : BufTy).Contents (Elt F) → (⟨S64, .f32⟩ : BufTy).Contents (Elt F)),
    unary main_v148 main_v149 (broadcastInDim S1x64 ![1] bcast_S64_S1x64_1 : (⟨S64, .f32⟩ : BufTy).Contents (Elt F) → (⟨S1x64, .f32⟩ : BufTy).Contents (Elt F)),
    unary main_v149 main_v150 (broadcastInDim S500000x64 ![0, 1] bcast_S1x64_S500000x64_0_1 : (⟨S1x64, .f32⟩ : BufTy).Contents (Elt F) → (⟨S500000x64, .f32⟩ : BufTy).Contents (Elt F)),
    binary main_v145 main_v150 main_v151 (mulf : (⟨S500000x64, .f32⟩ : BufTy).Contents (Elt F) → (⟨S500000x64, .f32⟩ : BufTy).Contents (Elt F) → (⟨S500000x64, .f32⟩ : BufTy).Contents (Elt F)),
    unary main_arg4 main_v152 (broadcastInDim S1x64 ![1] bcast_S64_S1x64_1 : (⟨S64, .f32⟩ : BufTy).Contents (Elt F) → (⟨S1x64, .f32⟩ : BufTy).Contents (Elt F)),
    unary main_v152 main_v153 (broadcastInDim S500000x64 ![0, 1] bcast_S1x64_S500000x64_0_1 : (⟨S1x64, .f32⟩ : BufTy).Contents (Elt F) → (⟨S500000x64, .f32⟩ : BufTy).Contents (Elt F)),
    binary main_v151 main_v153 main_v154 (mulf : (⟨S500000x64, .f32⟩ : BufTy).Contents (Elt F) → (⟨S500000x64, .f32⟩ : BufTy).Contents (Elt F) → (⟨S500000x64, .f32⟩ : BufTy).Contents (Elt F)),
    unary main_arg5 main_v155 (broadcastInDim S1x64 ![1] bcast_S64_S1x64_1 : (⟨S64, .f32⟩ : BufTy).Contents (Elt F) → (⟨S1x64, .f32⟩ : BufTy).Contents (Elt F)),
    unary main_v155 main_v156 (broadcastInDim S500000x64 ![0, 1] bcast_S1x64_S500000x64_0_1 : (⟨S1x64, .f32⟩ : BufTy).Contents (Elt F) → (⟨S500000x64, .f32⟩ : BufTy).Contents (Elt F)),
    binary main_v154 main_v156 main_v157 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x64, .f32⟩) main_call1_v0) (broadcastInDim S500000x64 ![] bcast_S_S500000x64),
    TRef.binary (TRef.of (T := ⟨S500000x64, .f32⟩) main_v157) (TRef.of (T := ⟨S500000x64, .f32⟩) main_call1_v0) (TRef.of (T := ⟨S500000x64, .f32⟩) main_v158) maximumf,
    reshape main_arg6 main_v159 rfl shapeCasts_S1x64x6_S64x6,
    binary main_v158 main_v159 main_v160 ((fun l r => Host.dotGeneral dot_S500000x64_S64x6_S500000x6_1_0_0_1_n_n none l r) : (⟨S500000x64, .f32⟩ : BufTy).Contents (Elt F) → (⟨S64x6, .f32⟩ : BufTy).Contents (Elt F) → (⟨S500000x6, .f32⟩ : BufTy).Contents (Elt F)),
    unary main_arg7 main_v161 (broadcastInDim S1x6 ![1] bcast_S6_S1x6_1 : (⟨S6, .f32⟩ : BufTy).Contents (Elt F) → (⟨S1x6, .f32⟩ : BufTy).Contents (Elt F)),
    unary main_v161 main_v162 (broadcastInDim S500000x6 ![0, 1] bcast_S1x6_S500000x6_0_1 : (⟨S1x6, .f32⟩ : BufTy).Contents (Elt F) → (⟨S500000x6, .f32⟩ : BufTy).Contents (Elt F)),
    binary main_v160 main_v162 main_v163 (addf : (⟨S500000x6, .f32⟩ : BufTy).Contents (Elt F) → (⟨S500000x6, .f32⟩ : BufTy).Contents (Elt F) → (⟨S500000x6, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., reshape_bufs_sub .., binary_bufs_sub .., unary_bufs_sub .., unary_bufs_sub .., binary_bufs_sub ..⟩

/-- The contents of core `c`'s buffers when the program ends: the fold of the operations' results over the
    launch contents of `c`. -/
abbrev Wfin (m : (ℓ : Loc nD τ sig) → Buf (Elt F) ℓ) (c : Dev nD) : Valuation τ sig (Elt F) :=
  after (ops (F := F)) (launchContents m c)

/-- On every device, for any float values, from any memory with zero counters: every weakly fair execution of
    `@main` terminates, and each TensorCore buffer of core `c` then holds what the fold of the operations leaves
    there. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = Wfin m c (Proc.devRef .tc b) :=
  run_seq scopedRefs_eq scopedSems_eq defs main (fun _ => ops) main_eq (fun _ => ops_sub) m ρ

/-! ## The arguments are not written -/

/-- The eight argument buffers. -/
abbrev args : List (Ref sig .tc) :=
  [main_arg0, main_arg1, main_arg2, main_arg3, main_arg4, main_arg5, main_arg6, main_arg7]

/-- An argument buffer is not the one buffer an operation writes, when that buffer is not an argument. -/
theorem not_mem_singleton_of_arg {b y : Ref sig .tc} (hb : b ∈ args) (hy : y ∉ args) :
    Proc.devRef (τ := τ) .tc b ∉ ({Proc.devRef .tc y} : Finset (DevRef τ sig)) :=
  fun hm => devRef_ne_of_ne (fun (e : b = y) => hy (e ▸ hb)) (Finset.mem_singleton.mp hm)

/-- No operation of the line writes an argument buffer: each writes one buffer, and that buffer is a result. -/
theorem not_written {b : Ref sig .tc} (hb : b ∈ args) :
    ∀ op ∈ (ops (F := F)), Proc.devRef (τ := τ) .tc b ∉ op.writes := by
  intro op h
  repeat (cases h with
    | head => exact not_mem_singleton_of_arg hb (by decide)
    | tail _ h => ?_)
  exact nomatch h

/-- So the fold of the operations leaves an argument buffer as it found it, from any contents. -/
theorem after_arg {b : Ref sig .tc} (hb : b ∈ args) (V : Valuation τ sig (Elt F)) :
    after (ops (F := F)) V (Proc.devRef .tc b) = V (Proc.devRef .tc b) :=
  after_of_forall_not_mem ops V (not_written hb)

/-- No operation writes an argument buffer: every weakly fair execution of `@main` terminates with the eight
    argument arrays as they were at the launch. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_arg0).trans (after_arg (by decide) _),
      (h c main_arg1).trans (after_arg (by decide) _),
      (h c main_arg2).trans (after_arg (by decide) _),
      (h c main_arg3).trans (after_arg (by decide) _),
      (h c main_arg4).trans (after_arg (by decide) _),
      (h c main_arg5).trans (after_arg (by decide) _),
      (h c main_arg6).trans (after_arg (by decide) _),
      (h c main_arg7).trans (after_arg (by decide) _)⟩)
    (run_after m ρ)

end Cert.ReferenceIdeal.HandRun

end
-- ==== Proof.RefSsa.lean ====
/-
  Single assignment: every buffer of the reference's line is written by exactly one operation.

  The line's 201 operations write 201 different buffers, `written`, in order. So what the whole line leaves at a
  buffer `r` is already there after the first `k` operations, whenever `r` is not among the buffers written from
  position `k` on; and a contiguous piece of the line, from position `p` to position `q`, read over the contents after
  the first `p` operations, gives the final contents of every buffer not written from `q` on.
-/
import proofs.«105403_j78039555768470_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer each operation writes, in the line's order. -/
abbrev written : List (Ref sig .tc) :=
  [main_v0, main_v1, main_v2, main_v3, main_cst, main_v4, main_cst_0, main_v5, main_v6, main_v7, main_cst_1, main_v8, main_v9, main_cst_2, main_v10, main_v11, main_v12, main_cst_3, main_call0_v0, main_call0_v1, main_v13, main_c, main_v14, main_v15, main_c_4, main_v16, main_v17, main_v18, main_v19, main_v20, main_c_5, main_v21, main_v22, main_c_6, main_v23, main_v24, main_v25, main_v26, main_v27, main_v28, main_v29, main_v30, main_v31, main_v32, main_v33, main_c_7, main_v34, main_v35, main_c_8, main_v36, main_v37, main_v38, main_v39, main_v40, main_v41, main_v42, main_cst_9, main_v43, main_v44, main_v45, main_v46, main_v47, main_v48, main_v49, main_v50, main_c_10, main_v51, main_v52, main_c_11, main_v53, main_v54, main_v55, main_v56, main_v57, main_v58, main_v59, main_cst_12, main_v60, main_v61, main_v62, main_cst_13, main_v63, main_v64, main_v65, main_v66, main_v67, main_v68, main_v69, main_v70, main_c_14, main_v71, main_v72, main_c_15, main_v73, main_v74, main_v75, main_v76, main_v77, main_v78, main_v79, main_cst_16, main_v80, main_v81, main_v82, main_cst_17, main_v83, main_v84, main_v85, main_v86, main_v87, main_v88, main_v89, main_v90, main_c_18, main_v91, main_v92, main_c_19, main_v93, main_v94, main_v95, main_v96, main_v97, main_v98, main_v99, main_cst_20, main_v100, main_v101, main_v102, main_cst_21, main_v103, main_v104, main_v105, main_v106, main_v107, main_v108, main_v109, main_v110, main_c_22, main_v111, main_v112, main_c_23, main_v113, main_v114, main_v115, main_v116, main_v117, main_v118, main_v119, main_cst_24, main_v120, main_v121, main_v122, main_cst_25, main_v123, main_v124, main_v125, main_v126, main_v127, main_v128, main_v129, main_v130, main_v131, main_v132, main_cst_26, main_v133, main_cst_27, main_v134, main_v135, main_v136, main_v137, main_v138, main_v139, main_cst_28, main_v140, main_cst_29, main_v141, main_v142, main_v143, main_v144, main_v145, main_cst_30, main_v146, main_v147, main_v148, main_v149, main_v150, main_v151, main_v152, main_v153, main_v154, main_v155, main_v156, main_v157, main_call1_cst, main_call1_v0, main_v158, main_v159, main_v160, main_v161, main_v162, main_v163]

/-- Each operation writes exactly its own buffer. -/
theorem writes_eq : List.Forall₂ (fun (op : HloOp τ sig (Elt F)) (y : Ref sig .tc) => op.writes = {Proc.devRef (τ := τ) .tc y})
    (ops (F := F)) written := by
  repeat (first | exact List.Forall₂.nil | refine List.Forall₂.cons rfl ?_)

/-- A buffer that is none of the buffers a list of operations writes is written by none of them. -/
theorem not_writes_of_forall₂ {l : List (HloOp τ sig (Elt F))} {w : List (Ref sig .tc)}
    (h : List.Forall₂ (fun (op : HloOp τ sig (Elt F)) (y : Ref sig .tc) => op.writes = {Proc.devRef (τ := τ) .tc y}) l w)
    {r : Ref sig .tc} (hr : r ∉ w) : ∀ op ∈ l, Proc.devRef (τ := τ) .tc r ∉ op.writes := by
  induction h with
  | nil => intro op hop; exact nomatch hop
  | @cons a y l' w' hab _ ih =>
    intro op hop
    rcases List.mem_cons.mp hop with rfl | hop
    · rw [hab, Finset.mem_singleton]
      exact devRef_ne_of_ne fun (e : r = y) => hr (e ▸ List.mem_cons_self)
    · exact ih (fun hm => hr (List.mem_cons_of_mem _ hm)) op hop

/-- The fold over a concatenation is the fold over the second part from the fold over the first. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The contents of core `c`'s buffers after the first `k` operations. -/
abbrev Wat (k : Nat) (m : (ℓ : Loc nD τ sig) → Buf (Elt F) ℓ) (c : Dev nD) : Valuation τ sig (Elt F) :=
  after ((ops (F := F)).take k) (launchContents m c)

/-- A buffer not written from position `k` on holds at the end what it held after the first `k` operations. -/
theorem Wat_eq (k : Nat) {r : Ref sig .tc} (hr : r ∉ written.drop k) (m : (ℓ : Loc nD τ sig) → Buf (Elt F) ℓ) (c : Dev nD) :
    Wat k m c (Proc.devRef .tc r) = Wfin m c (Proc.devRef .tc r) := by
  have e : Wfin m c = after ((ops (F := F)).drop k) (Wat k m c) :=
    (congrArg (fun l => after l (launchContents m c)) (List.take_append_drop k (ops (F := F))).symm).trans (after_append _ _ _)
  rw [e]
  exact (after_of_forall_not_mem _ _ (not_writes_of_forall₂ (List.forall₂_drop k writes_eq) hr)).symm

/-- A contiguous piece `seg` of the line, from position `p` to position `q`: the contents after the first `q`
    operations are the piece's fold over the contents after the first `p`. -/
theorem Wat_seg (p q : Nat) (seg : List (HloOp τ sig (Elt F))) (h : (ops (F := F)).take q = (ops (F := F)).take p ++ seg)
    (m : (ℓ : Loc nD τ sig) → Buf (Elt F) ℓ) (c : Dev nD) : Wat q m c = after seg (Wat p m c) :=
  (congrArg (fun l => after l (launchContents m c)) h).trans (after_append _ _ _)

/-- So the final contents of a buffer not written from `q` on are the piece's fold, at that buffer, over the contents
    after the first `p` operations. -/
theorem Wfin_seg (p q : Nat) (seg : List (HloOp τ sig (Elt F))) (h : (ops (F := F)).take q = (ops (F := F)).take p ++ seg)
    {r : Ref sig .tc} (hr : r ∉ written.drop q) (m : (ℓ : Loc nD τ sig) → Buf (Elt F) ℓ) (c : Dev nD) :
    Wfin m c (Proc.devRef .tc r) = after seg (Wat p m c) (Proc.devRef .tc r) :=
  (Wat_eq q hr m c).symm.trans (congrFun (Wat_seg p q seg h m c) _)

/-- An argument buffer holds its launch contents after any number of operations. -/
theorem Wat_arg (k : Nat) {b : Ref sig .tc} (hb : b ∈ args) (m : (ℓ : Loc nD τ sig) → Buf (Elt F) ℓ) (c : Dev nD) :
    Wat k m c (Proc.devRef .tc b) = launchContents m c (Proc.devRef .tc b) :=
  after_of_forall_not_mem _ _ fun op hop => not_written hb op (List.mem_of_mem_take hop)

end Cert.ReferenceIdeal.HandRun

end
-- ==== Proof.RefFn.lean ====
/-
  The reference's last stages as pure functions of arrays.

  After the hidden rows `H` (500000 rows of 64 columns) the reference computes, column by column, the mean
  `(0 + Σ_n H[n,j]) / 500000` and the variance `(0 + Σ_n (H[n,j] - mean_j)²) / 500000`, normalises
  `(H - mean) · rsqrt (var + ε) · γ + β`, cuts the result below at zero, multiplies by the 64 × 6 mixing weights and adds the
  bias. The hidden rows themselves are the sum, over the six Chebyshev bases `T_k` (500000 × 24), of `T_k` times the
  `k`-th 24 × 64 slice of the weights, plus the bias laid over the rows. Each is written here once, as the program's
  operations composed, over any float values.
-/
import proofs.«105403_j78039555768470_2_alg».proof.ReferenceIdeal
import proofs.«105403_j78039555768470_2_alg».proof.Proof.Gen.ReferenceIdeal

noncomputable section

namespace Cert.ReferenceIdeal.HandRun

open Cert.ReferenceIdeal Cert.ReferenceIdeal.Gen Idealize.ShloMosaic

variable {F : FTy → Type} [FloatOps F]

/-! ## The batch statistics and the output -/

/-- A vector of 64 columns laid over the 500000 rows. -/
def overRows (v : (⟨S64, .f32⟩ : BufTy).Contents (Elt F)) : (⟨S500000x64, .f32⟩ : BufTy).Contents (Elt F) :=
  broadcastInDim S500000x64 ![0, 1] bcast_S1x64_S500000x64_0_1 (broadcastInDim S1x64 ![1] bcast_S64_S1x64_1 v)

/-- The column means of the hidden rows: the column sums from zero, over the count 500000. -/
def colMean (H : (⟨S500000x64, .f32⟩ : BufTy).Contents (Elt F)) : (⟨S64, .f32⟩ : BufTy).Contents (Elt F) :=
  Host.divf (Host.reduceAdd H (constant S_ .f32 0x00000000#32) reducesTo_S500000x64_S64_d0 h_S_)
    (broadcastInDim S64 ![] bcast_S_S64 (constant S_ .f32 0x48F42400#32))

/-- The column variances: the column sums, from zero, of the squared deviations from the column means, over the
    count 500000. -/
def colVar (H : (⟨S500000x64, .f32⟩ : BufTy).Contents (Elt F)) : (⟨S64, .f32⟩ : BufTy).Contents (Elt F) :=
  Host.divf (Host.reduceAdd (mulf (subf H (overRows (colMean H))) (subf H (overRows (colMean H))))
      (constant S_ .f32 0x00000000#32) reducesTo_S500000x64_S64_d0 h_S_)
    (broadcastInDim S64 ![] bcast_S_S64 (constant S_ .f32 0x48F42400#32))

/-- The normalised, scaled and shifted hidden rows, cut below at zero. -/
def normRelu (H : (⟨S500000x64, .f32⟩ : BufTy).Contents (Elt F)) (g be : (⟨S64, .f32⟩ : BufTy).Contents (Elt F)) :
    (⟨S500000x64, .f32⟩ : BufTy).Contents (Elt F) :=
  maximumf
    (addf (mulf (mulf (subf H (overRows (colMean H)))
        (overRows (Host.rsqrt (addf (colVar H) (broadcastInDim S64 ![] bcast_S_S64 (constant S_ .f32 0x3727C5AC#32))))))
      (overRows g)) (overRows be))
    (broadcastInDim S500000x64 ![] bcast_S_S500000x64 (constant S_ .f32 0x00000000#32))

/-- The result: the rows above times the mixing weights, plus the bias laid over the rows. -/
def tailOut (H : (⟨S500000x64, .f32⟩ : BufTy).Contents (Elt F)) (g be : (⟨S64, .f32⟩ : BufTy).Contents (Elt F))
    (Wm : (⟨S1x64x6, .f32⟩ : BufTy).Contents (Elt F)) (bm : (⟨S6, .f32⟩ : BufTy).Contents (Elt F)) :
    (⟨S500000x6, .f32⟩ : BufTy).Contents (Elt F) :=
  addf (Host.dotGeneral dot_S500000x64_S64x6_S500000x6_1_0_0_1_n_n none (normRelu H g be)
      (shapeCast _ Wm shapeCasts_S1x64x6_S64x6))
    (broadcastInDim S500000x6 ![0, 1] bcast_S1x6_S500000x6_0_1 (broadcastInDim S1x6 ![1] bcast_S6_S1x6_1 bm))

/-! ## The hidden rows -/

/-- A base (500000 × 24) times a 24 × 64 matrix. -/
def dotW (T : (⟨S500000x24, .f32⟩ : BufTy).Contents (Elt F)) (w : (⟨S24x64, .f32⟩ : BufTy).Contents (Elt F)) :
    (⟨S500000x64, .f32⟩ : BufTy).Contents (Elt F) :=
  Host.dotGeneral dot_S500000x24_S24x64_S500000x64_1_0_0_1_n_n none T w

/-- The six 24 × 64 slices of the weights. -/
def wSlice0 (W : (⟨S6x24x64, .f32⟩ : BufTy).Contents (Elt F)) : (⟨S24x64, .f32⟩ : BufTy).Contents (Elt F) :=
  shapeCast _ (extractStridedSlice S1x24x64 ![0, 0, 0] W slices_S6x24x64_S1x24x64_0_0_0) shapeCasts_S1x24x64_S24x64
def wSlice1 (W : (⟨S6x24x64, .f32⟩ : BufTy).Contents (Elt F)) : (⟨S24x64, .f32⟩ : BufTy).Contents (Elt F) :=
  shapeCast _ (extractStridedSlice S1x24x64 ![1, 0, 0] W slices_S6x24x64_S1x24x64_1_0_0) shapeCasts_S1x24x64_S24x64
def wSlice2 (W : (⟨S6x24x64, .f32⟩ : BufTy).Contents (Elt F)) : (⟨S24x64, .f32⟩ : BufTy).Contents (Elt F) :=
  shapeCast _ (extractStridedSlice S1x24x64 ![2, 0, 0] W slices_S6x24x64_S1x24x64_2_0_0) shapeCasts_S1x24x64_S24x64
def wSlice3 (W : (⟨S6x24x64, .f32⟩ : BufTy).Contents (Elt F)) : (⟨S24x64, .f32⟩ : BufTy).Contents (Elt F) :=
  shapeCast _ (extractStridedSlice S1x24x64 ![3, 0, 0] W slices_S6x24x64_S1x24x64_3_0_0) shapeCasts_S1x24x64_S24x64
def wSlice4 (W : (⟨S6x24x64, .f32⟩ : BufTy).Contents (Elt F)) : (⟨S24x64, .f32⟩ : BufTy).Contents (Elt F) :=
  shapeCast _ (extractStridedSlice S1x24x64 ![4, 0, 0] W slices_S6x24x64_S1x24x64_4_0_0) shapeCasts_S1x24x64_S24x64
def wSlice5 (W : (⟨S6x24x64, .f32⟩ : BufTy).Contents (Elt F)) : (⟨S24x64, .f32⟩ : BufTy).Contents (Elt F) :=
  shapeCast _ (extractStridedSlice S1x24x64 ![5, 0, 0] W slices_S6x24x64_S1x24x64_5_0_0) shapeCasts_S1x24x64_S24x64

/-- The hidden rows from the six bases: the six products summed in order, then the bias laid over the rows. -/
def hidRef (T0 T1 T2 T3 T4 T5 : (⟨S500000x24, .f32⟩ : BufTy).Contents (Elt F))
    (W : (⟨S6x24x64, .f32⟩ : BufTy).Contents (Elt F)) (b : (⟨S64, .f32⟩ : BufTy).Contents (Elt F)) :
    (⟨S500000x64, .f32⟩ : BufTy).Contents (Elt F) :=
  addf (addf (addf (addf (addf (addf (dotW T0 (wSlice0 W)) (dotW T1 (wSlice1 W))) (dotW T2 (wSlice2 W)))
    (dotW T3 (wSlice3 W))) (dotW T4 (wSlice4 W))) (dotW T5 (wSlice5 W))) (overRows b)

end Cert.ReferenceIdeal.HandRun

end
-- ==== Proof.RefTail.lean ====
/-
  The end of the reference's line, read over any contents.

  The last 38 operations take the hidden rows `main_v132` and four of the arguments to the result `main_v163`: over ANY
  contents of the buffers they leave there the pure function `tailOut` of those five arrays. The line writes every
  buffer once, so at the end of the whole line the result is `tailOut` of the FINAL hidden rows and of the arguments'
  launch contents.
-/
import proofs.«105403_j78039555768470_2_alg».proof.Proof.RefSsa
import proofs.«105403_j78039555768470_2_alg».proof.Proof.RefFn

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The last 38 operations: the column sums, mean and variance of the hidden rows, the normalisation, the maximum with
    zero, the product with the mixing weights and the bias. -/
abbrev tail : List (HloOp τ sig (Elt F)) :=
  [ nullary main_cst_26 (constant S_ .f32 0x00000000#32),
    binary main_v132 main_cst_26 main_v133 ((fun x v => Host.reduceAdd x v reducesTo_S500000x64_S64_d0 h_S_) : (⟨S500000x64, .f32⟩ : BufTy).Contents (Elt F) → (⟨S_, .f32⟩ : BufTy).Contents (Elt F) → (⟨S64, .f32⟩ : BufTy).Contents (Elt F)),
    nullary main_cst_27 (constant S_ .f32 0x48F42400#32),
    unary main_cst_27 main_v134 (broadcastInDim S64 ![] bcast_S_S64 : (⟨S_, .f32⟩ : BufTy).Contents (Elt F) → (⟨S64, .f32⟩ : BufTy).Contents (Elt F)),
    binary main_v133 main_v134 main_v135 (Host.divf : (⟨S64, .f32⟩ : BufTy).Contents (Elt F) → (⟨S64, .f32⟩ : BufTy).Contents (Elt F) → (⟨S64, .f32⟩ : BufTy).Contents (Elt F)),
    unary main_v135 main_v136 (broadcastInDim S1x64 ![1] bcast_S64_S1x64_1 : (⟨S64, .f32⟩ : BufTy).Contents (Elt F) → (⟨S1x64, .f32⟩ : BufTy).Contents (Elt F)),
    unary main_v136 main_v137 (broadcastInDim S500000x64 ![0, 1] bcast_S1x64_S500000x64_0_1 : (⟨S1x64, .f32⟩ : BufTy).Contents (Elt F) → (⟨S500000x64, .f32⟩ : BufTy).Contents (Elt F)),
    binary main_v132 main_v137 main_v138 (subf : (⟨S500000x64, .f32⟩ : BufTy).Contents (Elt F) → (⟨S500000x64, .f32⟩ : BufTy).Contents (Elt F) → (⟨S500000x64, .f32⟩ : BufTy).Contents (Elt F)),
    binary main_v138 main_v138 main_v139 (mulf : (⟨S500000x64, .f32⟩ : BufTy).Contents (Elt F) → (⟨S500000x64, .f32⟩ : BufTy).Contents (Elt F) → (⟨S500000x64, .f32⟩ : BufTy).Contents (Elt F)),
    nullary main_cst_28 (constant S_ .f32 0x00000000#32),
    binary main_v139 main_cst_28 main_v140 ((fun x v => Host.reduceAdd x v reducesTo_S500000x64_S64_d0 h_S_) : (⟨S500000x64, .f32⟩ : BufTy).Contents (Elt F) → (⟨S_, .f32⟩ : BufTy).Contents (Elt F) → (⟨S64, .f32⟩ : BufTy).Contents (Elt F)),
    nullary main_cst_29 (constant S_ .f32 0x48F42400#32),
    unary main_cst_29 main_v141 (broadcastInDim S64 ![] bcast_S_S64 : (⟨S_, .f32⟩ : BufTy).Contents (Elt F) → (⟨S64, .f32⟩ : BufTy).Contents (Elt F)),
    binary main_v140 main_v141 main_v142 (Host.divf : (⟨S64, .f32⟩ : BufTy).Contents (Elt F) → (⟨S64, .f32⟩ : BufTy).Contents (Elt F) → (⟨S64, .f32⟩ : BufTy).Contents (Elt F)),
    unary main_v135 main_v143 (broadcastInDim S1x64 ![1] bcast_S64_S1x64_1 : (⟨S64, .f32⟩ : BufTy).Contents (Elt F) → (⟨S1x64, .f32⟩ : BufTy).Contents (Elt F)),
    unary main_v143 main_v144 (broadcastInDim S500000x64 ![0, 1] bcast_S1x64_S500000x64_0_1 : (⟨S1x64, .f32⟩ : BufTy).Contents (Elt F) → (⟨S500000x64, .f32⟩ : BufTy).Contents (Elt F)),
    binary main_v132 main_v144 main_v145 (subf : (⟨S500000x64, .f32⟩ : BufTy).Contents (Elt F) → (⟨S500000x64, .f32⟩ : BufTy).Contents (Elt F) → (⟨S500000x64, .f32⟩ : BufTy).Contents (Elt F)),
    nullary main_cst_30 (constant S_ .f32 0x3727C5AC#32),
    unary main_cst_30 main_v146 (broadcastInDim S64 ![] bcast_S_S64 : (⟨S_, .f32⟩ : BufTy).Contents (Elt F) → (⟨S64, .f32⟩ : BufTy).Contents (Elt F)),
    binary main_v142 main_v146 main_v147 (addf : (⟨S64, .f32⟩ : BufTy).Contents (Elt F) → (⟨S64, .f32⟩ : BufTy).Contents (Elt F) → (⟨S64, .f32⟩ : BufTy).Contents (Elt F)),
    unary main_v147 main_v148 (Host.rsqrt : (⟨S64, .f32⟩ : BufTy).Contents (Elt F) → (⟨S64, .f32⟩ : BufTy).Contents (Elt F)),
    unary main_v148 main_v149 (broadcastInDim S1x64 ![1] bcast_S64_S1x64_1 : (⟨S64, .f32⟩ : BufTy).Contents (Elt F) → (⟨S1x64, .f32⟩ : BufTy).Contents (Elt F)),
    unary main_v149 main_v150 (broadcastInDim S500000x64 ![0, 1] bcast_S1x64_S500000x64_0_1 : (⟨S1x64, .f32⟩ : BufTy).Contents (Elt F) → (⟨S500000x64, .f32⟩ : BufTy).Contents (Elt F)),
    binary main_v145 main_v150 main_v151 (mulf : (⟨S500000x64, .f32⟩ : BufTy).Contents (Elt F) → (⟨S500000x64, .f32⟩ : BufTy).Contents (Elt F) → (⟨S500000x64, .f32⟩ : BufTy).Contents (Elt F)),
    unary main_arg4 main_v152 (broadcastInDim S1x64 ![1] bcast_S64_S1x64_1 : (⟨S64, .f32⟩ : BufTy).Contents (Elt F) → (⟨S1x64, .f32⟩ : BufTy).Contents (Elt F)),
    unary main_v152 main_v153 (broadcastInDim S500000x64 ![0, 1] bcast_S1x64_S500000x64_0_1 : (⟨S1x64, .f32⟩ : BufTy).Contents (Elt F) → (⟨S500000x64, .f32⟩ : BufTy).Contents (Elt F)),
    binary main_v151 main_v153 main_v154 (mulf : (⟨S500000x64, .f32⟩ : BufTy).Contents (Elt F) → (⟨S500000x64, .f32⟩ : BufTy).Contents (Elt F) → (⟨S500000x64, .f32⟩ : BufTy).Contents (Elt F)),
    unary main_arg5 main_v155 (broadcastInDim S1x64 ![1] bcast_S64_S1x64_1 : (⟨S64, .f32⟩ : BufTy).Contents (Elt F) → (⟨S1x64, .f32⟩ : BufTy).Contents (Elt F)),
    unary main_v155 main_v156 (broadcastInDim S500000x64 ![0, 1] bcast_S1x64_S500000x64_0_1 : (⟨S1x64, .f32⟩ : BufTy).Contents (Elt F) → (⟨S500000x64, .f32⟩ : BufTy).Contents (Elt F)),
    binary main_v154 main_v156 main_v157 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x64, .f32⟩) main_call1_v0) (broadcastInDim S500000x64 ![] bcast_S_S500000x64),
    TRef.binary (TRef.of (T := ⟨S500000x64, .f32⟩) main_v157) (TRef.of (T := ⟨S500000x64, .f32⟩) main_call1_v0) (TRef.of (T := ⟨S500000x64, .f32⟩) main_v158) maximumf,
    reshape main_arg6 main_v159 rfl shapeCasts_S1x64x6_S64x6,
    binary main_v158 main_v159 main_v160 ((fun l r => Host.dotGeneral dot_S500000x64_S64x6_S500000x6_1_0_0_1_n_n none l r) : (⟨S500000x64, .f32⟩ : BufTy).Contents (Elt F) → (⟨S64x6, .f32⟩ : BufTy).Contents (Elt F) → (⟨S500000x6, .f32⟩ : BufTy).Contents (Elt F)),
    unary main_arg7 main_v161 (broadcastInDim S1x6 ![1] bcast_S6_S1x6_1 : (⟨S6, .f32⟩ : BufTy).Contents (Elt F) → (⟨S1x6, .f32⟩ : BufTy).Contents (Elt F)),
    unary main_v161 main_v162 (broadcastInDim S500000x6 ![0, 1] bcast_S1x6_S500000x6_0_1 : (⟨S1x6, .f32⟩ : BufTy).Contents (Elt F) → (⟨S500000x6, .f32⟩ : BufTy).Contents (Elt F)),
    binary main_v160 main_v162 main_v163 (addf : (⟨S500000x6, .f32⟩ : BufTy).Contents (Elt F) → (⟨S500000x6, .f32⟩ : BufTy).Contents (Elt F) → (⟨S500000x6, .f32⟩ : BufTy).Contents (Elt F)) ]

/-- The 163 operations before them, which end with the hidden rows `main_v132`. -/
abbrev pre : List (HloOp τ sig (Elt F)) := (ops (F := F)).take 163

/-- The line is the two parts one after the other. -/
theorem ops_eq : (ops (F := F)) = pre ++ tail := rfl

/-- From ANY contents `W`, the last 38 operations leave at the result buffer `tailOut` of `W`'s hidden rows and of
    four of the arguments. -/
theorem tail_eq (W : Valuation τ sig (Elt F)) :
    after (tail (F := F)) W (Proc.devRef .tc main_v163)
      = tailOut (W (Proc.devRef .tc main_v132)) (W (Proc.devRef .tc main_arg4)) (W (Proc.devRef .tc main_arg5))
          (W (Proc.devRef .tc main_arg6)) (W (Proc.devRef .tc main_arg7)) := by
  after_results_simp <;> rfl

/-- At the end of the whole line the result buffer holds `tailOut` of the final hidden rows and of the launch contents
    of the four arguments. -/
theorem res_eq (m : (ℓ : Loc nD τ sig) → Buf (Elt F) ℓ) (c : Dev nD) :
    Wfin m c (Proc.devRef .tc main_v163)
      = tailOut (Wfin m c (Proc.devRef .tc main_v132)) (m ((c.tc : Thread nD τ).loc main_arg4))
          (m ((c.tc : Thread nD τ).loc main_arg5)) (m ((c.tc : Thread nD τ).loc main_arg6))
          (m ((c.tc : Thread nD τ).loc main_arg7)) := by
  have h := Wfin_seg (F := F) 163 201 tail rfl (r := main_v163) (by decide) m c
  have h132 : Wat 163 m c (Proc.devRef .tc main_v132) = Wfin m c (Proc.devRef .tc main_v132) := Wat_eq 163 (by decide) m c
  have e4 : Wat 163 m c (Proc.devRef .tc main_arg4) = m ((c.tc : Thread nD τ).loc main_arg4) := Wat_arg 163 (by decide) m c
  have e5 : Wat 163 m c (Proc.devRef .tc main_arg5) = m ((c.tc : Thread nD τ).loc main_arg5) := Wat_arg 163 (by decide) m c
  have e6 : Wat 163 m c (Proc.devRef .tc main_arg6) = m ((c.tc : Thread nD τ).loc main_arg6) := Wat_arg 163 (by decide) m c
  have e7 : Wat 163 m c (Proc.devRef .tc main_arg7) = m ((c.tc : Thread nD τ).loc main_arg7) := Wat_arg 163 (by decide) m c
  rw [h, tail_eq, h132, e4, e5, e6, e7]

end Cert.ReferenceIdeal.HandRun

end
-- ==== Proof.RefHid.lean ====
/-
  The hidden rows at the end of the reference's line.

  Seven short pieces of the line compute the hidden rows from the six bases: a base times its slice of the weights, added to
  the sum so far, six times, then the bias. Each piece is read over any contents; the line writes every buffer once, so
  at the end of the line the hidden rows `main_v132` are `hidRef` of the first argument, of the FINAL contents of the five
  base buffers `main_v45`, `main_v65`, `main_v85`, `main_v105`, `main_v125`, and of the weights and the bias.
-/
import proofs.«105403_j78039555768470_2_alg».proof.Proof.RefSsa
import proofs.«105403_j78039555768470_2_alg».proof.Proof.RefFn

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 41 … 43 of the line. -/
abbrev segD0 : List (HloOp τ sig (Elt F)) :=
  [ unary main_arg2 main_v30 ((extractStridedSlice S1x24x64 ![0, 0, 0] · slices_S6x24x64_S1x24x64_0_0_0) : (⟨S6x24x64, .f32⟩ : BufTy).Contents (Elt F) → (⟨S1x24x64, .f32⟩ : BufTy).Contents (Elt F)),
    reshape main_v30 main_v31 rfl shapeCasts_S1x24x64_S24x64,
    binary main_arg0 main_v31 main_v32 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)) ]

/-- What they leave at `main_v32`, from any contents. -/
theorem segD0_eq (W : Valuation τ sig (Elt F)) :
    after (segD0 (F := F)) W (Proc.devRef .tc main_v32) = dotW (W (Proc.devRef .tc main_arg0)) (wSlice0 (W (Proc.devRef .tc main_arg2))) := by
  after_results_simp <;> rfl

/-- The same at the end of the whole line. -/
theorem fin_main_v32 (m : (ℓ : Loc nD τ sig) → Buf (Elt F) ℓ) (c : Dev nD) :
    Wfin m c (Proc.devRef .tc main_v32) = dotW (m ((c.tc : Thread nD τ).loc main_arg0)) (wSlice0 (m ((c.tc : Thread nD τ).loc main_arg2))) := by
  have h := Wfin_seg (F := F) 41 44 segD0 rfl (r := main_v32) (by decide) m c
  have r0 : Wat 41 m c (Proc.devRef .tc main_arg0) = m ((c.tc : Thread nD τ).loc main_arg0) := Wat_arg 41 (by decide) m c
  have r1 : Wat 41 m c (Proc.devRef .tc main_arg2) = m ((c.tc : Thread nD τ).loc main_arg2) := Wat_arg 41 (by decide) m c
  rw [h, segD0_eq, r0, r1]

/-- Operations 60 … 63 of the line. -/
abbrev segD1 : List (HloOp τ sig (Elt F)) :=
  [ unary main_arg2 main_v46 ((extractStridedSlice S1x24x64 ![1, 0, 0] · slices_S6x24x64_S1x24x64_1_0_0) : (⟨S6x24x64, .f32⟩ : BufTy).Contents (Elt F) → (⟨S1x24x64, .f32⟩ : BufTy).Contents (Elt F)),
    reshape main_v46 main_v47 rfl shapeCasts_S1x24x64_S24x64,
    binary main_v45 main_v47 main_v48 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v32 main_v48 main_v49 (addf : (⟨S500000x64, .f32⟩ : BufTy).Contents (Elt F) → (⟨S500000x64, .f32⟩ : BufTy).Contents (Elt F) → (⟨S500000x64, .f32⟩ : BufTy).Contents (Elt F)) ]

/-- What they leave at `main_v49`, from any contents. -/
theorem segD1_eq (W : Valuation τ sig (Elt F)) :
    after (segD1 (F := F)) W (Proc.devRef .tc main_v49) = addf (W (Proc.devRef .tc main_v32)) (dotW (W (Proc.devRef .tc main_v45)) (wSlice1 (W (Proc.devRef .tc main_arg2)))) := by
  after_results_simp <;> rfl

/-- The same at the end of the whole line. -/
theorem fin_main_v49 (m : (ℓ : Loc nD τ sig) → Buf (Elt F) ℓ) (c : Dev nD) :
    Wfin m c (Proc.devRef .tc main_v49) = addf (Wfin m c (Proc.devRef .tc main_v32)) (dotW (Wfin m c (Proc.devRef .tc main_v45)) (wSlice1 (m ((c.tc : Thread nD τ).loc main_arg2)))) := by
  have h := Wfin_seg (F := F) 60 64 segD1 rfl (r := main_v49) (by decide) m c
  have r0 : Wat 60 m c (Proc.devRef .tc main_v32) = Wfin m c (Proc.devRef .tc main_v32) := Wat_eq 60 (by decide) m c
  have r1 : Wat 60 m c (Proc.devRef .tc main_v45) = Wfin m c (Proc.devRef .tc main_v45) := Wat_eq 60 (by decide) m c
  have r2 : Wat 60 m c (Proc.devRef .tc main_arg2) = m ((c.tc : Thread nD τ).loc main_arg2) := Wat_arg 60 (by decide) m c
  rw [h, segD1_eq, r0, r1, r2]

/-- Operations 84 … 87 of the line. -/
abbrev segD2 : List (HloOp τ sig (Elt F)) :=
  [ unary main_arg2 main_v66 ((extractStridedSlice S1x24x64 ![2, 0, 0] · slices_S6x24x64_S1x24x64_2_0_0) : (⟨S6x24x64, .f32⟩ : BufTy).Contents (Elt F) → (⟨S1x24x64, .f32⟩ : BufTy).Contents (Elt F)),
    reshape main_v66 main_v67 rfl shapeCasts_S1x24x64_S24x64,
    binary main_v65 main_v67 main_v68 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v49 main_v68 main_v69 (addf : (⟨S500000x64, .f32⟩ : BufTy).Contents (Elt F) → (⟨S500000x64, .f32⟩ : BufTy).Contents (Elt F) → (⟨S500000x64, .f32⟩ : BufTy).Contents (Elt F)) ]

/-- What they leave at `main_v69`, from any contents. -/
theorem segD2_eq (W : Valuation τ sig (Elt F)) :
    after (segD2 (F := F)) W (Proc.devRef .tc main_v69) = addf (W (Proc.devRef .tc main_v49)) (dotW (W (Proc.devRef .tc main_v65)) (wSlice2 (W (Proc.devRef .tc main_arg2)))) := by
  after_results_simp <;> rfl

/-- The same at the end of the whole line. -/
theorem fin_main_v69 (m : (ℓ : Loc nD τ sig) → Buf (Elt F) ℓ) (c : Dev nD) :
    Wfin m c (Proc.devRef .tc main_v69) = addf (Wfin m c (Proc.devRef .tc main_v49)) (dotW (Wfin m c (Proc.devRef .tc main_v65)) (wSlice2 (m ((c.tc : Thread nD τ).loc main_arg2)))) := by
  have h := Wfin_seg (F := F) 84 88 segD2 rfl (r := main_v69) (by decide) m c
  have r0 : Wat 84 m c (Proc.devRef .tc main_v49) = Wfin m c (Proc.devRef .tc main_v49) := Wat_eq 84 (by decide) m c
  have r1 : Wat 84 m c (Proc.devRef .tc main_v65) = Wfin m c (Proc.devRef .tc main_v65) := Wat_eq 84 (by decide) m c
  have r2 : Wat 84 m c (Proc.devRef .tc main_arg2) = m ((c.tc : Thread nD τ).loc main_arg2) := Wat_arg 84 (by decide) m c
  rw [h, segD2_eq, r0, r1, r2]

/-- Operations 108 … 111 of the line. -/
abbrev segD3 : List (HloOp τ sig (Elt F)) :=
  [ unary main_arg2 main_v86 ((extractStridedSlice S1x24x64 ![3, 0, 0] · slices_S6x24x64_S1x24x64_3_0_0) : (⟨S6x24x64, .f32⟩ : BufTy).Contents (Elt F) → (⟨S1x24x64, .f32⟩ : BufTy).Contents (Elt F)),
    reshape main_v86 main_v87 rfl shapeCasts_S1x24x64_S24x64,
    binary main_v85 main_v87 main_v88 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v69 main_v88 main_v89 (addf : (⟨S500000x64, .f32⟩ : BufTy).Contents (Elt F) → (⟨S500000x64, .f32⟩ : BufTy).Contents (Elt F) → (⟨S500000x64, .f32⟩ : BufTy).Contents (Elt F)) ]

/-- What they leave at `main_v89`, from any contents. -/
theorem segD3_eq (W : Valuation τ sig (Elt F)) :
    after (segD3 (F := F)) W (Proc.devRef .tc main_v89) = addf (W (Proc.devRef .tc main_v69)) (dotW (W (Proc.devRef .tc main_v85)) (wSlice3 (W (Proc.devRef .tc main_arg2)))) := by
  after_results_simp <;> rfl

/-- The same at the end of the whole line. -/
theorem fin_main_v89 (m : (ℓ : Loc nD τ sig) → Buf (Elt F) ℓ) (c : Dev nD) :
    Wfin m c (Proc.devRef .tc main_v89) = addf (Wfin m c (Proc.devRef .tc main_v69)) (dotW (Wfin m c (Proc.devRef .tc main_v85)) (wSlice3 (m ((c.tc : Thread nD τ).loc main_arg2)))) := by
  have h := Wfin_seg (F := F) 108 112 segD3 rfl (r := main_v89) (by decide) m c
  have r0 : Wat 108 m c (Proc.devRef .tc main_v69) = Wfin m c (Proc.devRef .tc main_v69) := Wat_eq 108 (by decide) m c
  have r1 : Wat 108 m c (Proc.devRef .tc main_v85) = Wfin m c (Proc.devRef .tc main_v85) := Wat_eq 108 (by decide) m c
  have r2 : Wat 108 m c (Proc.devRef .tc main_arg2) = m ((c.tc : Thread nD τ).loc main_arg2) := Wat_arg 108 (by decide) m c
  rw [h, segD3_eq, r0, r1, r2]

/-- Operations 132 … 135 of the line. -/
abbrev segD4 : List (HloOp τ sig (Elt F)) :=
  [ unary main_arg2 main_v106 ((extractStridedSlice S1x24x64 ![4, 0, 0] · slices_S6x24x64_S1x24x64_4_0_0) : (⟨S6x24x64, .f32⟩ : BufTy).Contents (Elt F) → (⟨S1x24x64, .f32⟩ : BufTy).Contents (Elt F)),
    reshape main_v106 main_v107 rfl shapeCasts_S1x24x64_S24x64,
    binary main_v105 main_v107 main_v108 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v89 main_v108 main_v109 (addf : (⟨S500000x64, .f32⟩ : BufTy).Contents (Elt F) → (⟨S500000x64, .f32⟩ : BufTy).Contents (Elt F) → (⟨S500000x64, .f32⟩ : BufTy).Contents (Elt F)) ]

/-- What they leave at `main_v109`, from any contents. -/
theorem segD4_eq (W : Valuation τ sig (Elt F)) :
    after (segD4 (F := F)) W (Proc.devRef .tc main_v109) = addf (W (Proc.devRef .tc main_v89)) (dotW (W (Proc.devRef .tc main_v105)) (wSlice4 (W (Proc.devRef .tc main_arg2)))) := by
  after_results_simp <;> rfl

/-- The same at the end of the whole line. -/
theorem fin_main_v109 (m : (ℓ : Loc nD τ sig) → Buf (Elt F) ℓ) (c : Dev nD) :
    Wfin m c (Proc.devRef .tc main_v109) = addf (Wfin m c (Proc.devRef .tc main_v89)) (dotW (Wfin m c (Proc.devRef .tc main_v105)) (wSlice4 (m ((c.tc : Thread nD τ).loc main_arg2)))) := by
  have h := Wfin_seg (F := F) 132 136 segD4 rfl (r := main_v109) (by decide) m c
  have r0 : Wat 132 m c (Proc.devRef .tc main_v89) = Wfin m c (Proc.devRef .tc main_v89) := Wat_eq 132 (by decide) m c
  have r1 : Wat 132 m c (Proc.devRef .tc main_v105) = Wfin m c (Proc.devRef .tc main_v105) := Wat_eq 132 (by decide) m c
  have r2 : Wat 132 m c (Proc.devRef .tc main_arg2) = m ((c.tc : Thread nD τ).loc main_arg2) := Wat_arg 132 (by decide) m c
  rw [h, segD4_eq, r0, r1, r2]

/-- Operations 156 … 159 of the line. -/
abbrev segD5 : List (HloOp τ sig (Elt F)) :=
  [ unary main_arg2 main_v126 ((extractStridedSlice S1x24x64 ![5, 0, 0] · slices_S6x24x64_S1x24x64_5_0_0) : (⟨S6x24x64, .f32⟩ : BufTy).Contents (Elt F) → (⟨S1x24x64, .f32⟩ : BufTy).Contents (Elt F)),
    reshape main_v126 main_v127 rfl shapeCasts_S1x24x64_S24x64,
    binary main_v125 main_v127 main_v128 ((fun l r => Host.dotGeneral dot_S500000x24_S24x64_S500000x64_1_0_0_1_n_n none l r) : (⟨S500000x24, .f32⟩ : BufTy).Contents (Elt F) → (⟨S24x64, .f32⟩ : BufTy).Contents (Elt F) → (⟨S500000x64, .f32⟩ : BufTy).Contents (Elt F)),
    binary main_v109 main_v128 main_v129 (addf : (⟨S500000x64, .f32⟩ : BufTy).Contents (Elt F) → (⟨S500000x64, .f32⟩ : BufTy).Contents (Elt F) → (⟨S500000x64, .f32⟩ : BufTy).Contents (Elt F)) ]

/-- What they leave at `main_v129`, from any contents. -/
theorem segD5_eq (W : Valuation τ sig (Elt F)) :
    after (segD5 (F := F)) W (Proc.devRef .tc main_v129) = addf (W (Proc.devRef .tc main_v109)) (dotW (W (Proc.devRef .tc main_v125)) (wSlice5 (W (Proc.devRef .tc main_arg2)))) := by
  after_results_simp <;> rfl

/-- The same at the end of the whole line. -/
theorem fin_main_v129 (m : (ℓ : Loc nD τ sig) → Buf (Elt F) ℓ) (c : Dev nD) :
    Wfin m c (Proc.devRef .tc main_v129) = addf (Wfin m c (Proc.devRef .tc main_v109)) (dotW (Wfin m c (Proc.devRef .tc main_v125)) (wSlice5 (m ((c.tc : Thread nD τ).loc main_arg2)))) := by
  have h := Wfin_seg (F := F) 156 160 segD5 rfl (r := main_v129) (by decide) m c
  have r0 : Wat 156 m c (Proc.devRef .tc main_v109) = Wfin m c (Proc.devRef .tc main_v109) := Wat_eq 156 (by decide) m c
  have r1 : Wat 156 m c (Proc.devRef .tc main_v125) = Wfin m c (Proc.devRef .tc main_v125) := Wat_eq 156 (by decide) m c
  have r2 : Wat 156 m c (Proc.devRef .tc main_arg2) = m ((c.tc : Thread nD τ).loc main_arg2) := Wat_arg 156 (by decide) m c
  rw [h, segD5_eq, r0, r1, r2]

/-- Operations 160 … 162 of the line. -/
abbrev segD6 : List (HloOp τ sig (Elt F)) :=
  [ unary main_arg3 main_v130 (broadcastInDim S1x64 ![1] bcast_S64_S1x64_1 : (⟨S64, .f32⟩ : BufTy).Contents (Elt F) → (⟨S1x64, .f32⟩ : BufTy).Contents (Elt F)),
    unary main_v130 main_v131 (broadcastInDim S500000x64 ![0, 1] bcast_S1x64_S500000x64_0_1 : (⟨S1x64, .f32⟩ : BufTy).Contents (Elt F) → (⟨S500000x64, .f32⟩ : BufTy).Contents (Elt F)),
    binary main_v129 main_v131 main_v132 (addf : (⟨S500000x64, .f32⟩ : BufTy).Contents (Elt F) → (⟨S500000x64, .f32⟩ : BufTy).Contents (Elt F) → (⟨S500000x64, .f32⟩ : BufTy).Contents (Elt F)) ]

/-- What they leave at `main_v132`, from any contents. -/
theorem segD6_eq (W : Valuation τ sig (Elt F)) :
    after (segD6 (F := F)) W (Proc.devRef .tc main_v132) = addf (W (Proc.devRef .tc main_v129)) (overRows (W (Proc.devRef .tc main_arg3))) := by
  after_results_simp <;> rfl

/-- The same at the end of the whole line. -/
theorem fin_main_v132 (m : (ℓ : Loc nD τ sig) → Buf (Elt F) ℓ) (c : Dev nD) :
    Wfin m c (Proc.devRef .tc main_v132) = addf (Wfin m c (Proc.devRef .tc main_v129)) (overRows (m ((c.tc : Thread nD τ).loc main_arg3))) := by
  have h := Wfin_seg (F := F) 160 163 segD6 rfl (r := main_v132) (by decide) m c
  have r0 : Wat 160 m c (Proc.devRef .tc main_v129) = Wfin m c (Proc.devRef .tc main_v129) := Wat_eq 160 (by decide) m c
  have r1 : Wat 160 m c (Proc.devRef .tc main_arg3) = m ((c.tc : Thread nD τ).loc main_arg3) := Wat_arg 160 (by decide) m c
  rw [h, segD6_eq, r0, r1]

/-- The hidden rows at the end of the line, from the final bases. -/
theorem hid_eq (m : (ℓ : Loc nD τ sig) → Buf (Elt F) ℓ) (c : Dev nD) :
    Wfin m c (Proc.devRef .tc main_v132)
      = hidRef (m ((c.tc : Thread nD τ).loc main_arg0)) (Wfin m c (Proc.devRef .tc main_v45)) (Wfin m c (Proc.devRef .tc main_v65))
          (Wfin m c (Proc.devRef .tc main_v85)) (Wfin m c (Proc.devRef .tc main_v105)) (Wfin m c (Proc.devRef .tc main_v125))
          (m ((c.tc : Thread nD τ).loc main_arg2)) (m ((c.tc : Thread nD τ).loc main_arg3)) := by
  rw [fin_main_v132, fin_main_v129, fin_main_v109, fin_main_v89, fin_main_v69, fin_main_v49, fin_main_v32]
  rfl

end Cert.ReferenceIdeal.HandRun

end
-- ==== Proof.Bases.lean ====
/-
  The Chebyshev bases of the graph, as the host operations compute them, each stage written once.

  The edge list `e` (2 × 4000000 node numbers) gives, per edge, a source `row` and a target `col`.  The degree of a node is
  the number of edges that target it; `dis` is its inverse square root (1 over the root of the degree, 0 for an isolated
  node); an edge's weight is `-(dis[row] · dis[col])`.  One propagation `prop h` sends every row of `h` along every edge,
  scaled by the edge's weight, and sums what arrives at each node.  The bases are `T₀ = x`, `T₁ = prop x`,
  `T_k = 2 · prop T_{k-1} - T_{k-2}`.

  A node number is read as the programs read it: a negative source or target of a GATHER counts from the end and the
  result is clamped into range; a target of a SCATTER outside the range contributes nothing.  So every stage is a total
  function of `x` and `e`, and finite entries of `x` give finite entries of every base: the degree is a finite sum of ones,
  its maximum with one is at least one, and every other stage adds and multiplies finitely many finite numbers.
-/
import proofs.«105403_j78039555768470_2_alg».proof.KernelIdeal
import proofs.«105403_j78039555768470_2_alg».proof.Proof.Gen.KernelIdeal
import Idealize.ShloMosaic.PureOps.Ideal

noncomputable section

namespace Cert.KernelIdeal.Bases

open Cert.KernelIdeal Cert.KernelIdeal.Gen Idealize.ShloMosaic

variable {F : FTy → Type} [FloatOps F]

/-- Sources and targets of the edges. -/
def rowE (e : (⟨S2x4000000, .i32⟩ : BufTy).Contents (Elt F)) : (⟨S4000000, .i32⟩ : BufTy).Contents (Elt F) :=
  shapeCast _ (extractStridedSlice S1x4000000 ![0, 0] e slices_S2x4000000_S1x4000000_0_0) shapeCasts_S1x4000000_S4000000
def colE (e : (⟨S2x4000000, .i32⟩ : BufTy).Contents (Elt F)) : (⟨S4000000, .i32⟩ : BufTy).Contents (Elt F) :=
  shapeCast _ (extractStridedSlice S1x4000000 ![1, 0] e slices_S2x4000000_S1x4000000_1_0) shapeCasts_S1x4000000_S4000000

/-- A node number as a gather reads it: a negative one counts from the end. -/
def wrapIdx (v : (⟨S4000000, .i32⟩ : BufTy).Contents (Elt F)) : (⟨S4000000x1, .i32⟩ : BufTy).Contents (Elt F) :=
  broadcastInDim S4000000x1 ![0] bcast_S4000000_S4000000x1_0
    (select (cmpi .slt v (broadcastInDim S4000000 ![] bcast_S_S4000000 (constantI S_ 32 0#32)))
      (addi v (broadcastInDim S4000000 ![] bcast_S_S4000000 (constantI S_ 32 500000#32))) v)

/-- The targets as a scatter reads them. -/
def colIdx (e : (⟨S2x4000000, .i32⟩ : BufTy).Contents (Elt F)) : (⟨S4000000x1, .i32⟩ : BufTy).Contents (Elt F) :=
  broadcastInDim S4000000x1 ![0] bcast_S4000000_S4000000x1_0 (colE e)

/-- The degree: one per edge, summed at the edge's target. -/
def degF (e : (⟨S2x4000000, .i32⟩ : BufTy).Contents (Elt F)) : (⟨S500000, .f32⟩ : BufTy).Contents (Elt F) :=
  Host.scatterAdd scatter_S500000_S4000000x1_S4000000_n_0_0_1
    (broadcastInDim S500000 ![] bcast_S_S500000 (constant S_ .f32 0x00000000#32)) (colIdx e)
    (broadcastInDim S4000000 ![] bcast_S_S4000000 (constant S_ .f32 0x3F800000#32))

/-- Its inverse square root, zero at an isolated node. -/
def disF (e : (⟨S2x4000000, .i32⟩ : BufTy).Contents (Elt F)) : (⟨S500000, .f32⟩ : BufTy).Contents (Elt F) :=
  select (cmpf .ogt (degF e) (broadcastInDim S500000 ![] bcast_S_S500000 (constant S_ .f32 0x00000000#32)))
    (Host.rsqrt (maximumf (degF e) (broadcastInDim S500000 ![] bcast_S_S500000 (constant S_ .f32 0x3F800000#32))))
    (broadcastInDim S500000 ![] bcast_S_S500000 (id (constant S_ .f32 0x00000000#32)))

/-- An edge's weight. -/
def normF (e : (⟨S2x4000000, .i32⟩ : BufTy).Contents (Elt F)) : (⟨S4000000, .f32⟩ : BufTy).Contents (Elt F) :=
  Host.negf (mulf (Host.gather gather_S500000_S4000000x1_S4000000_n_0_n_n_0_1_1 (disF e) (wrapIdx (rowE e)))
    (Host.gather gather_S500000_S4000000x1_S4000000_n_0_n_n_0_1_1 (disF e) (wrapIdx (colE e))))

/-- One propagation. -/
def propF (e : (⟨S2x4000000, .i32⟩ : BufTy).Contents (Elt F)) (h : (⟨S500000x24, .f32⟩ : BufTy).Contents (Elt F)) :
    (⟨S500000x24, .f32⟩ : BufTy).Contents (Elt F) :=
  Host.scatterAdd scatter_S500000x24_S4000000x1_S4000000x24_1_0_0_1
    (broadcastInDim S500000x24 ![] bcast_S_S500000x24 (constant S_ .f32 0x00000000#32)) (colIdx e)
    (mulf (broadcastInDim S4000000x24 ![0, 1] bcast_S4000000x1_S4000000x24_0_1
            (broadcastInDim S4000000x1 ![0] bcast_S4000000_S4000000x1_0 (normF e)))
      (Host.gather gather_S500000x24_S4000000x1_S4000000x24_1_0_n_n_0_1_124 h (wrapIdx (rowE e))))

/-- Twice a propagation less the base before the last. -/
def stepF (e : (⟨S2x4000000, .i32⟩ : BufTy).Contents (Elt F)) (h h' : (⟨S500000x24, .f32⟩ : BufTy).Contents (Elt F)) :
    (⟨S500000x24, .f32⟩ : BufTy).Contents (Elt F) :=
  subf (mulf (broadcastInDim S500000x24 ![] bcast_S_S500000x24 (constant S_ .f32 0x40000000#32)) (propF e h)) h'

def T1F (x : (⟨S500000x24, .f32⟩ : BufTy).Contents (Elt F)) (e : (⟨S2x4000000, .i32⟩ : BufTy).Contents (Elt F)) := propF e x
def T2F (x : (⟨S500000x24, .f32⟩ : BufTy).Contents (Elt F)) (e : (⟨S2x4000000, .i32⟩ : BufTy).Contents (Elt F)) := stepF e (T1F x e) x
def T3F (x : (⟨S500000x24, .f32⟩ : BufTy).Contents (Elt F)) (e : (⟨S2x4000000, .i32⟩ : BufTy).Contents (Elt F)) := stepF e (T2F x e) (T1F x e)
def T4F (x : (⟨S500000x24, .f32⟩ : BufTy).Contents (Elt F)) (e : (⟨S2x4000000, .i32⟩ : BufTy).Contents (Elt F)) := stepF e (T3F x e) (T2F x e)
def T5F (x : (⟨S500000x24, .f32⟩ : BufTy).Contents (Elt F)) (e : (⟨S2x4000000, .i32⟩ : BufTy).Contents (Elt F)) := stepF e (T4F x e) (T3F x e)

end Cert.KernelIdeal.Bases

end
-- ==== Proof.RefBases.lean ====
/-
  The Chebyshev bases at the end of the reference's line.

  The first 41 operations of the line compute, from the edge list alone, the sources, the targets and the weight of every
  edge; then five pieces of the line compute the bases `T₁ … T₅`, each one propagation of the base before (gather the rows at
  the sources, scale by the weights, sum at the targets), doubled and less the base before that from `T₂` on. Each piece is
  read over any contents; the line writes every buffer once, so at the end of the line the five base buffers hold the bases
  of the launch contents of the first two arguments, as the kernel's host side states them.
-/
import proofs.«105403_j78039555768470_2_alg».proof.Proof.RefSsa
import proofs.«105403_j78039555768470_2_alg».proof.Proof.Bases

noncomputable section

namespace Cert.KernelIdeal.BasesAt

open Cert.KernelIdeal Cert.KernelIdeal.Gen Cert.KernelIdeal.Bases Idealize.ShloMosaic

variable {F : FTy → Type} [FloatOps F]

/-- One propagation of `h`, from the sources, the targets and the weights of the edges. -/
def propW (row col : (⟨S4000000, .i32⟩ : BufTy).Contents (Elt F)) (nrm : (⟨S4000000, .f32⟩ : BufTy).Contents (Elt F))
    (h : (⟨S500000x24, .f32⟩ : BufTy).Contents (Elt F)) : (⟨S500000x24, .f32⟩ : BufTy).Contents (Elt F) :=
  Host.scatterAdd scatter_S500000x24_S4000000x1_S4000000x24_1_0_0_1
    (broadcastInDim S500000x24 ![] bcast_S_S500000x24 (constant S_ .f32 0x00000000#32))
    (broadcastInDim S4000000x1 ![0] bcast_S4000000_S4000000x1_0 col)
    (mulf (broadcastInDim S4000000x24 ![0, 1] bcast_S4000000x1_S4000000x24_0_1
            (broadcastInDim S4000000x1 ![0] bcast_S4000000_S4000000x1_0 nrm))
      (Host.gather gather_S500000x24_S4000000x1_S4000000x24_1_0_n_n_0_1_124 h (wrapIdx row)))

/-- Twice a propagation of `h` less `h'`. -/
def stepW (row col : (⟨S4000000, .i32⟩ : BufTy).Contents (Elt F)) (nrm : (⟨S4000000, .f32⟩ : BufTy).Contents (Elt F))
    (h h' : (⟨S500000x24, .f32⟩ : BufTy).Contents (Elt F)) : (⟨S500000x24, .f32⟩ : BufTy).Contents (Elt F) :=
  subf (mulf (broadcastInDim S500000x24 ![] bcast_S_S500000x24 (constant S_ .f32 0x40000000#32)) (propW row col nrm h)) h'

/-- From the edge list's own sources, targets and weights these are the propagation and the step of the bases. -/
theorem propW_eq (e : (⟨S2x4000000, .i32⟩ : BufTy).Contents (Elt F)) (h : (⟨S500000x24, .f32⟩ : BufTy).Contents (Elt F)) :
    propW (rowE e) (colE e) (normF e) h = propF e h := rfl
theorem stepW_eq (e : (⟨S2x4000000, .i32⟩ : BufTy).Contents (Elt F)) (h h' : (⟨S500000x24, .f32⟩ : BufTy).Contents (Elt F)) :
    stepW (rowE e) (colE e) (normF e) h h' = stepF e h h' := rfl

end Cert.KernelIdeal.BasesAt

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first 41 operations of the line: the sources and targets of the edges, the degrees, their inverse square roots
    and the edges' weights. -/
abbrev segB0 : List (HloOp τ sig (Elt F)) :=
  [ unary main_arg1 main_v0 ((extractStridedSlice S1x4000000 ![0, 0] · slices_S2x4000000_S1x4000000_0_0) : (⟨S2x4000000, .i32⟩ : BufTy).Contents (Elt F) → (⟨S1x4000000, .i32⟩ : BufTy).Contents (Elt F)),
    reshape main_v0 main_v1 rfl shapeCasts_S1x4000000_S4000000,
    unary main_arg1 main_v2 ((extractStridedSlice S1x4000000 ![1, 0] · slices_S2x4000000_S1x4000000_1_0) : (⟨S2x4000000, .i32⟩ : BufTy).Contents (Elt F) → (⟨S1x4000000, .i32⟩ : BufTy).Contents (Elt F)),
    reshape main_v2 main_v3 rfl shapeCasts_S1x4000000_S4000000,
    nullary main_cst (constant S_ .f32 0x3F800000#32),
    unary main_cst main_v4 (broadcastInDim S4000000 ![] bcast_S_S4000000 : (⟨S_, .f32⟩ : BufTy).Contents (Elt F) → (⟨S4000000, .f32⟩ : BufTy).Contents (Elt F)),
    nullary main_cst_0 (constant S_ .f32 0x00000000#32),
    unary main_cst_0 main_v5 (broadcastInDim S500000 ![] bcast_S_S500000 : (⟨S_, .f32⟩ : BufTy).Contents (Elt F) → (⟨S500000, .f32⟩ : BufTy).Contents (Elt F)),
    unary main_v3 main_v6 (broadcastInDim S4000000x1 ![0] bcast_S4000000_S4000000x1_0 : (⟨S4000000, .i32⟩ : BufTy).Contents (Elt F) → (⟨S4000000x1, .i32⟩ : BufTy).Contents (Elt F)),
    ternary main_v5 main_v6 main_v4 main_v7 ((fun x i u => Host.scatterAdd scatter_S500000_S4000000x1_S4000000_n_0_0_1 x i u) : (⟨S500000, .f32⟩ : BufTy).Contents (Elt F) → (⟨S4000000x1, .i32⟩ : BufTy).Contents (Elt F) → (⟨S4000000, .f32⟩ : BufTy).Contents (Elt F) → (⟨S500000, .f32⟩ : BufTy).Contents (Elt F)),
    nullary main_cst_1 (constant S_ .f32 0x00000000#32),
    unary main_cst_1 main_v8 (broadcastInDim S500000 ![] bcast_S_S500000 : (⟨S_, .f32⟩ : BufTy).Contents (Elt F) → (⟨S500000, .f32⟩ : BufTy).Contents (Elt F)),
    binary main_v7 main_v8 main_v9 (cmpf .ogt : (⟨S500000, .f32⟩ : BufTy).Contents (Elt F) → (⟨S500000, .f32⟩ : BufTy).Contents (Elt F) → (⟨S500000, .i1⟩ : BufTy).Contents (Elt F)),
    nullary main_cst_2 (constant S_ .f32 0x3F800000#32),
    unary main_cst_2 main_v10 (broadcastInDim S500000 ![] bcast_S_S500000 : (⟨S_, .f32⟩ : BufTy).Contents (Elt F) → (⟨S500000, .f32⟩ : BufTy).Contents (Elt F)),
    binary main_v7 main_v10 main_v11 (maximumf : (⟨S500000, .f32⟩ : BufTy).Contents (Elt F) → (⟨S500000, .f32⟩ : BufTy).Contents (Elt F) → (⟨S500000, .f32⟩ : BufTy).Contents (Elt F)),
    unary main_v11 main_v12 (Host.rsqrt : (⟨S500000, .f32⟩ : BufTy).Contents (Elt F) → (⟨S500000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S500000, .f32⟩) main_call0_v1) (broadcastInDim S500000 ![] bcast_S_S500000),
    TRef.ternary (TRef.of (T := ⟨S500000, .i1⟩) main_v9) (TRef.of (T := ⟨S500000, .f32⟩) main_v12) (TRef.of (T := ⟨S500000, .f32⟩) main_call0_v1) (TRef.of (T := ⟨S500000, .f32⟩) main_v13) select,
    nullary main_c (constantI S_ 32 0#32),
    unary main_c main_v14 (broadcastInDim S4000000 ![] bcast_S_S4000000 : (⟨S_, .i32⟩ : BufTy).Contents (Elt F) → (⟨S4000000, .i32⟩ : BufTy).Contents (Elt F)),
    binary main_v1 main_v14 main_v15 (cmpi .slt : (⟨S4000000, .i32⟩ : BufTy).Contents (Elt F) → (⟨S4000000, .i32⟩ : BufTy).Contents (Elt F) → (⟨S4000000, .i1⟩ : BufTy).Contents (Elt F)),
    nullary main_c_4 (constantI S_ 32 500000#32),
    unary main_c_4 main_v16 (broadcastInDim S4000000 ![] bcast_S_S4000000 : (⟨S_, .i32⟩ : BufTy).Contents (Elt F) → (⟨S4000000, .i32⟩ : BufTy).Contents (Elt F)),
    binary main_v1 main_v16 main_v17 (addi : (⟨S4000000, .i32⟩ : BufTy).Contents (Elt F) → (⟨S4000000, .i32⟩ : BufTy).Contents (Elt F) → (⟨S4000000, .i32⟩ : BufTy).Contents (Elt F)),
    ternary main_v15 main_v17 main_v1 main_v18 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v18 main_v19 (broadcastInDim S4000000x1 ![0] bcast_S4000000_S4000000x1_0 : (⟨S4000000, .i32⟩ : BufTy).Contents (Elt F) → (⟨S4000000x1, .i32⟩ : BufTy).Contents (Elt F)),
    binary main_v13 main_v19 main_v20 ((fun x i => Host.gather gather_S500000_S4000000x1_S4000000_n_0_n_n_0_1_1 x i) : (⟨S500000, .f32⟩ : BufTy).Contents (Elt F) → (⟨S4000000x1, .i32⟩ : BufTy).Contents (Elt F) → (⟨S4000000, .f32⟩ : BufTy).Contents (Elt F)),
    nullary main_c_5 (constantI S_ 32 0#32),
    unary main_c_5 main_v21 (broadcastInDim S4000000 ![] bcast_S_S4000000 : (⟨S_, .i32⟩ : BufTy).Contents (Elt F) → (⟨S4000000, .i32⟩ : BufTy).Contents (Elt F)),
    binary main_v3 main_v21 main_v22 (cmpi .slt : (⟨S4000000, .i32⟩ : BufTy).Contents (Elt F) → (⟨S4000000, .i32⟩ : BufTy).Contents (Elt F) → (⟨S4000000, .i1⟩ : BufTy).Contents (Elt F)),
    nullary main_c_6 (constantI S_ 32 500000#32),
    unary main_c_6 main_v23 (broadcastInDim S4000000 ![] bcast_S_S4000000 : (⟨S_, .i32⟩ : BufTy).Contents (Elt F) → (⟨S4000000, .i32⟩ : BufTy).Contents (Elt F)),
    binary main_v3 main_v23 main_v24 (addi : (⟨S4000000, .i32⟩ : BufTy).Contents (Elt F) → (⟨S4000000, .i32⟩ : BufTy).Contents (Elt F) → (⟨S4000000, .i32⟩ : BufTy).Contents (Elt F)),
    ternary main_v22 main_v24 main_v3 main_v25 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v25 main_v26 (broadcastInDim S4000000x1 ![0] bcast_S4000000_S4000000x1_0 : (⟨S4000000, .i32⟩ : BufTy).Contents (Elt F) → (⟨S4000000x1, .i32⟩ : BufTy).Contents (Elt F)),
    binary main_v13 main_v26 main_v27 ((fun x i => Host.gather gather_S500000_S4000000x1_S4000000_n_0_n_n_0_1_1 x i) : (⟨S500000, .f32⟩ : BufTy).Contents (Elt F) → (⟨S4000000x1, .i32⟩ : BufTy).Contents (Elt F) → (⟨S4000000, .f32⟩ : BufTy).Contents (Elt F)),
    binary main_v20 main_v27 main_v28 (mulf : (⟨S4000000, .f32⟩ : BufTy).Contents (Elt F) → (⟨S4000000, .f32⟩ : BufTy).Contents (Elt F) → (⟨S4000000, .f32⟩ : BufTy).Contents (Elt F)),
    unary main_v28 main_v29 (Host.negf : (⟨S4000000, .f32⟩ : BufTy).Contents (Elt F) → (⟨S4000000, .f32⟩ : BufTy).Contents (Elt F)) ]

/-- What they leave at the sources' buffer, from any contents. -/
theorem segB0_row (W : Valuation τ sig (Elt F)) :
    after (segB0 (F := F)) W (Proc.devRef .tc main_v1) = Cert.KernelIdeal.Bases.rowE (W (Proc.devRef .tc main_arg1)) := by
  after_results_simp <;> rfl

/-- At the targets' buffer. -/
theorem segB0_col (W : Valuation τ sig (Elt F)) :
    after (segB0 (F := F)) W (Proc.devRef .tc main_v3) = Cert.KernelIdeal.Bases.colE (W (Proc.devRef .tc main_arg1)) := by
  after_results_simp <;> rfl

/-- At the weights' buffer. -/
theorem segB0_norm (W : Valuation τ sig (Elt F)) :
    after (segB0 (F := F)) W (Proc.devRef .tc main_v29) = Cert.KernelIdeal.Bases.normF (W (Proc.devRef .tc main_arg1)) := by
  after_results_simp <;> rfl

/-- The same three at the end of the whole line, of the launch contents of the edge list. -/
theorem fin_main_v1 (m : (ℓ : Loc nD τ sig) → Buf (Elt F) ℓ) (c : Dev nD) :
    Wfin m c (Proc.devRef .tc main_v1) = Cert.KernelIdeal.Bases.rowE (m ((c.tc : Thread nD τ).loc main_arg1)) := by
  have h := Wfin_seg (F := F) 0 41 segB0 rfl (r := main_v1) (by decide) m c
  have r0 : Wat 0 m c (Proc.devRef .tc main_arg1) = m ((c.tc : Thread nD τ).loc main_arg1) := Wat_arg 0 (by decide) m c
  rw [h, segB0_row, r0]
theorem fin_main_v3 (m : (ℓ : Loc nD τ sig) → Buf (Elt F) ℓ) (c : Dev nD) :
    Wfin m c (Proc.devRef .tc main_v3) = Cert.KernelIdeal.Bases.colE (m ((c.tc : Thread nD τ).loc main_arg1)) := by
  have h := Wfin_seg (F := F) 0 41 segB0 rfl (r := main_v3) (by decide) m c
  have r0 : Wat 0 m c (Proc.devRef .tc main_arg1) = m ((c.tc : Thread nD τ).loc main_arg1) := Wat_arg 0 (by decide) m c
  rw [h, segB0_col, r0]
theorem fin_main_v29 (m : (ℓ : Loc nD τ sig) → Buf (Elt F) ℓ) (c : Dev nD) :
    Wfin m c (Proc.devRef .tc main_v29) = Cert.KernelIdeal.Bases.normF (m ((c.tc : Thread nD τ).loc main_arg1)) := by
  have h := Wfin_seg (F := F) 0 41 segB0 rfl (r := main_v29) (by decide) m c
  have r0 : Wat 0 m c (Proc.devRef .tc main_arg1) = m ((c.tc : Thread nD τ).loc main_arg1) := Wat_arg 0 (by decide) m c
  rw [h, segB0_norm, r0]

/-- Operations 44 … 59 of the line: one propagation. -/
abbrev segE1 : List (HloOp τ sig (Elt F)) :=
  [ unary main_v29 main_v33 (broadcastInDim S4000000x1 ![0] bcast_S4000000_S4000000x1_0 : (⟨S4000000, .f32⟩ : BufTy).Contents (Elt F) → (⟨S4000000x1, .f32⟩ : BufTy).Contents (Elt F)),
    nullary main_c_7 (constantI S_ 32 0#32),
    unary main_c_7 main_v34 (broadcastInDim S4000000 ![] bcast_S_S4000000 : (⟨S_, .i32⟩ : BufTy).Contents (Elt F) → (⟨S4000000, .i32⟩ : BufTy).Contents (Elt F)),
    binary main_v1 main_v34 main_v35 (cmpi .slt : (⟨S4000000, .i32⟩ : BufTy).Contents (Elt F) → (⟨S4000000, .i32⟩ : BufTy).Contents (Elt F) → (⟨S4000000, .i1⟩ : BufTy).Contents (Elt F)),
    nullary main_c_8 (constantI S_ 32 500000#32),
    unary main_c_8 main_v36 (broadcastInDim S4000000 ![] bcast_S_S4000000 : (⟨S_, .i32⟩ : BufTy).Contents (Elt F) → (⟨S4000000, .i32⟩ : BufTy).Contents (Elt F)),
    binary main_v1 main_v36 main_v37 (addi : (⟨S4000000, .i32⟩ : BufTy).Contents (Elt F) → (⟨S4000000, .i32⟩ : BufTy).Contents (Elt F) → (⟨S4000000, .i32⟩ : BufTy).Contents (Elt F)),
    ternary main_v35 main_v37 main_v1 main_v38 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v38 main_v39 (broadcastInDim S4000000x1 ![0] bcast_S4000000_S4000000x1_0 : (⟨S4000000, .i32⟩ : BufTy).Contents (Elt F) → (⟨S4000000x1, .i32⟩ : BufTy).Contents (Elt F)),
    binary main_arg0 main_v39 main_v40 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v33 main_v41 (broadcastInDim S4000000x24 ![0, 1] bcast_S4000000x1_S4000000x24_0_1 : (⟨S4000000x1, .f32⟩ : BufTy).Contents (Elt F) → (⟨S4000000x24, .f32⟩ : BufTy).Contents (Elt F)),
    binary main_v41 main_v40 main_v42 (mulf : (⟨S4000000x24, .f32⟩ : BufTy).Contents (Elt F) → (⟨S4000000x24, .f32⟩ : BufTy).Contents (Elt F) → (⟨S4000000x24, .f32⟩ : BufTy).Contents (Elt F)),
    nullary main_cst_9 (constant S_ .f32 0x00000000#32),
    unary main_cst_9 main_v43 (broadcastInDim S500000x24 ![] bcast_S_S500000x24 : (⟨S_, .f32⟩ : BufTy).Contents (Elt F) → (⟨S500000x24, .f32⟩ : BufTy).Contents (Elt F)),
    unary main_v3 main_v44 (broadcastInDim S4000000x1 ![0] bcast_S4000000_S4000000x1_0 : (⟨S4000000, .i32⟩ : BufTy).Contents (Elt F) → (⟨S4000000x1, .i32⟩ : BufTy).Contents (Elt F)),
    ternary main_v43 main_v44 main_v42 main_v45 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)) ]

/-- What they leave at `main_v45`, from any contents. -/
theorem segE1_eq (W : Valuation τ sig (Elt F)) :
    after (segE1 (F := F)) W (Proc.devRef .tc main_v45) = Cert.KernelIdeal.BasesAt.propW (W (Proc.devRef .tc main_v1)) (W (Proc.devRef .tc main_v3)) (W (Proc.devRef .tc main_v29)) (W (Proc.devRef .tc main_arg0)) := by
  after_results_simp <;> rfl

/-- At the end of the whole line `main_v45` holds the base `T1` of the launch contents of the first two arguments. -/
theorem fin_main_v45 (m : (ℓ : Loc nD τ sig) → Buf (Elt F) ℓ) (c : Dev nD) :
    Wfin m c (Proc.devRef .tc main_v45) = Cert.KernelIdeal.Bases.T1F (m ((c.tc : Thread nD τ).loc main_arg0)) (m ((c.tc : Thread nD τ).loc main_arg1)) := by
  have h := Wfin_seg (F := F) 44 60 segE1 rfl (r := main_v45) (by decide) m c
  have r1 : Wat 44 m c (Proc.devRef .tc main_v1) = Cert.KernelIdeal.Bases.rowE (m ((c.tc : Thread nD τ).loc main_arg1)) := (Wat_eq 44 (by decide) m c).trans (fin_main_v1 m c)
  have r3 : Wat 44 m c (Proc.devRef .tc main_v3) = Cert.KernelIdeal.Bases.colE (m ((c.tc : Thread nD τ).loc main_arg1)) := (Wat_eq 44 (by decide) m c).trans (fin_main_v3 m c)
  have r29 : Wat 44 m c (Proc.devRef .tc main_v29) = Cert.KernelIdeal.Bases.normF (m ((c.tc : Thread nD τ).loc main_arg1)) := (Wat_eq 44 (by decide) m c).trans (fin_main_v29 m c)
  have h0 : Wat 44 m c (Proc.devRef .tc main_arg0) = m ((c.tc : Thread nD τ).loc main_arg0) := Wat_arg 44 (by decide) m c
  rw [h, segE1_eq, r1, r3, r29, h0]
  rfl

/-- Operations 64 … 83 of the line: one propagation, doubled, less the base before the last. -/
abbrev segE2 : List (HloOp τ sig (Elt F)) :=
  [ unary main_v29 main_v50 (broadcastInDim S4000000x1 ![0] bcast_S4000000_S4000000x1_0 : (⟨S4000000, .f32⟩ : BufTy).Contents (Elt F) → (⟨S4000000x1, .f32⟩ : BufTy).Contents (Elt F)),
    nullary main_c_10 (constantI S_ 32 0#32),
    unary main_c_10 main_v51 (broadcastInDim S4000000 ![] bcast_S_S4000000 : (⟨S_, .i32⟩ : BufTy).Contents (Elt F) → (⟨S4000000, .i32⟩ : BufTy).Contents (Elt F)),
    binary main_v1 main_v51 main_v52 (cmpi .slt : (⟨S4000000, .i32⟩ : BufTy).Contents (Elt F) → (⟨S4000000, .i32⟩ : BufTy).Contents (Elt F) → (⟨S4000000, .i1⟩ : BufTy).Contents (Elt F)),
    nullary main_c_11 (constantI S_ 32 500000#32),
    unary main_c_11 main_v53 (broadcastInDim S4000000 ![] bcast_S_S4000000 : (⟨S_, .i32⟩ : BufTy).Contents (Elt F) → (⟨S4000000, .i32⟩ : BufTy).Contents (Elt F)),
    binary main_v1 main_v53 main_v54 (addi : (⟨S4000000, .i32⟩ : BufTy).Contents (Elt F) → (⟨S4000000, .i32⟩ : BufTy).Contents (Elt F) → (⟨S4000000, .i32⟩ : BufTy).Contents (Elt F)),
    ternary main_v52 main_v54 main_v1 main_v55 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v55 main_v56 (broadcastInDim S4000000x1 ![0] bcast_S4000000_S4000000x1_0 : (⟨S4000000, .i32⟩ : BufTy).Contents (Elt F) → (⟨S4000000x1, .i32⟩ : BufTy).Contents (Elt F)),
    binary main_v45 main_v56 main_v57 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v50 main_v58 (broadcastInDim S4000000x24 ![0, 1] bcast_S4000000x1_S4000000x24_0_1 : (⟨S4000000x1, .f32⟩ : BufTy).Contents (Elt F) → (⟨S4000000x24, .f32⟩ : BufTy).Contents (Elt F)),
    binary main_v58 main_v57 main_v59 (mulf : (⟨S4000000x24, .f32⟩ : BufTy).Contents (Elt F) → (⟨S4000000x24, .f32⟩ : BufTy).Contents (Elt F) → (⟨S4000000x24, .f32⟩ : BufTy).Contents (Elt F)),
    nullary main_cst_12 (constant S_ .f32 0x00000000#32),
    unary main_cst_12 main_v60 (broadcastInDim S500000x24 ![] bcast_S_S500000x24 : (⟨S_, .f32⟩ : BufTy).Contents (Elt F) → (⟨S500000x24, .f32⟩ : BufTy).Contents (Elt F)),
    unary main_v3 main_v61 (broadcastInDim S4000000x1 ![0] bcast_S4000000_S4000000x1_0 : (⟨S4000000, .i32⟩ : BufTy).Contents (Elt F) → (⟨S4000000x1, .i32⟩ : BufTy).Contents (Elt F)),
    ternary main_v60 main_v61 main_v59 main_v62 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    nullary main_cst_13 (constant S_ .f32 0x40000000#32),
    unary main_cst_13 main_v63 (broadcastInDim S500000x24 ![] bcast_S_S500000x24 : (⟨S_, .f32⟩ : BufTy).Contents (Elt F) → (⟨S500000x24, .f32⟩ : BufTy).Contents (Elt F)),
    binary main_v63 main_v62 main_v64 (mulf : (⟨S500000x24, .f32⟩ : BufTy).Contents (Elt F) → (⟨S500000x24, .f32⟩ : BufTy).Contents (Elt F) → (⟨S500000x24, .f32⟩ : BufTy).Contents (Elt F)),
    binary main_v64 main_arg0 main_v65 (subf : (⟨S500000x24, .f32⟩ : BufTy).Contents (Elt F) → (⟨S500000x24, .f32⟩ : BufTy).Contents (Elt F) → (⟨S500000x24, .f32⟩ : BufTy).Contents (Elt F)) ]

/-- What they leave at `main_v65`, from any contents. -/
theorem segE2_eq (W : Valuation τ sig (Elt F)) :
    after (segE2 (F := F)) W (Proc.devRef .tc main_v65) = Cert.KernelIdeal.BasesAt.stepW (W (Proc.devRef .tc main_v1)) (W (Proc.devRef .tc main_v3)) (W (Proc.devRef .tc main_v29)) (W (Proc.devRef .tc main_v45)) (W (Proc.devRef .tc main_arg0)) := by
  after_results_simp <;> rfl

/-- At the end of the whole line `main_v65` holds the base `T2` of the launch contents of the first two arguments. -/
theorem fin_main_v65 (m : (ℓ : Loc nD τ sig) → Buf (Elt F) ℓ) (c : Dev nD) :
    Wfin m c (Proc.devRef .tc main_v65) = Cert.KernelIdeal.Bases.T2F (m ((c.tc : Thread nD τ).loc main_arg0)) (m ((c.tc : Thread nD τ).loc main_arg1)) := by
  have h := Wfin_seg (F := F) 64 84 segE2 rfl (r := main_v65) (by decide) m c
  have r1 : Wat 64 m c (Proc.devRef .tc main_v1) = Cert.KernelIdeal.Bases.rowE (m ((c.tc : Thread nD τ).loc main_arg1)) := (Wat_eq 64 (by decide) m c).trans (fin_main_v1 m c)
  have r3 : Wat 64 m c (Proc.devRef .tc main_v3) = Cert.KernelIdeal.Bases.colE (m ((c.tc : Thread nD τ).loc main_arg1)) := (Wat_eq 64 (by decide) m c).trans (fin_main_v3 m c)
  have r29 : Wat 64 m c (Proc.devRef .tc main_v29) = Cert.KernelIdeal.Bases.normF (m ((c.tc : Thread nD τ).loc main_arg1)) := (Wat_eq 64 (by decide) m c).trans (fin_main_v29 m c)
  have h0 : Wat 64 m c (Proc.devRef .tc main_v45) = Cert.KernelIdeal.Bases.T1F (m ((c.tc : Thread nD τ).loc main_arg0)) (m ((c.tc : Thread nD τ).loc main_arg1)) := (Wat_eq 64 (by decide) m c).trans (fin_main_v45 m c)
  have h1 : Wat 64 m c (Proc.devRef .tc main_arg0) = m ((c.tc : Thread nD τ).loc main_arg0) := Wat_arg 64 (by decide) m c
  rw [h, segE2_eq, r1, r3, r29, h0, h1]
  rfl

/-- Operations 88 … 107 of the line: one propagation, doubled, less the base before the last. -/
abbrev segE3 : List (HloOp τ sig (Elt F)) :=
  [ unary main_v29 main_v70 (broadcastInDim S4000000x1 ![0] bcast_S4000000_S4000000x1_0 : (⟨S4000000, .f32⟩ : BufTy).Contents (Elt F) → (⟨S4000000x1, .f32⟩ : BufTy).Contents (Elt F)),
    nullary main_c_14 (constantI S_ 32 0#32),
    unary main_c_14 main_v71 (broadcastInDim S4000000 ![] bcast_S_S4000000 : (⟨S_, .i32⟩ : BufTy).Contents (Elt F) → (⟨S4000000, .i32⟩ : BufTy).Contents (Elt F)),
    binary main_v1 main_v71 main_v72 (cmpi .slt : (⟨S4000000, .i32⟩ : BufTy).Contents (Elt F) → (⟨S4000000, .i32⟩ : BufTy).Contents (Elt F) → (⟨S4000000, .i1⟩ : BufTy).Contents (Elt F)),
    nullary main_c_15 (constantI S_ 32 500000#32),
    unary main_c_15 main_v73 (broadcastInDim S4000000 ![] bcast_S_S4000000 : (⟨S_, .i32⟩ : BufTy).Contents (Elt F) → (⟨S4000000, .i32⟩ : BufTy).Contents (Elt F)),
    binary main_v1 main_v73 main_v74 (addi : (⟨S4000000, .i32⟩ : BufTy).Contents (Elt F) → (⟨S4000000, .i32⟩ : BufTy).Contents (Elt F) → (⟨S4000000, .i32⟩ : BufTy).Contents (Elt F)),
    ternary main_v72 main_v74 main_v1 main_v75 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v75 main_v76 (broadcastInDim S4000000x1 ![0] bcast_S4000000_S4000000x1_0 : (⟨S4000000, .i32⟩ : BufTy).Contents (Elt F) → (⟨S4000000x1, .i32⟩ : BufTy).Contents (Elt F)),
    binary main_v65 main_v76 main_v77 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v70 main_v78 (broadcastInDim S4000000x24 ![0, 1] bcast_S4000000x1_S4000000x24_0_1 : (⟨S4000000x1, .f32⟩ : BufTy).Contents (Elt F) → (⟨S4000000x24, .f32⟩ : BufTy).Contents (Elt F)),
    binary main_v78 main_v77 main_v79 (mulf : (⟨S4000000x24, .f32⟩ : BufTy).Contents (Elt F) → (⟨S4000000x24, .f32⟩ : BufTy).Contents (Elt F) → (⟨S4000000x24, .f32⟩ : BufTy).Contents (Elt F)),
    nullary main_cst_16 (constant S_ .f32 0x00000000#32),
    unary main_cst_16 main_v80 (broadcastInDim S500000x24 ![] bcast_S_S500000x24 : (⟨S_, .f32⟩ : BufTy).Contents (Elt F) → (⟨S500000x24, .f32⟩ : BufTy).Contents (Elt F)),
    unary main_v3 main_v81 (broadcastInDim S4000000x1 ![0] bcast_S4000000_S4000000x1_0 : (⟨S4000000, .i32⟩ : BufTy).Contents (Elt F) → (⟨S4000000x1, .i32⟩ : BufTy).Contents (Elt F)),
    ternary main_v80 main_v81 main_v79 main_v82 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    nullary main_cst_17 (constant S_ .f32 0x40000000#32),
    unary main_cst_17 main_v83 (broadcastInDim S500000x24 ![] bcast_S_S500000x24 : (⟨S_, .f32⟩ : BufTy).Contents (Elt F) → (⟨S500000x24, .f32⟩ : BufTy).Contents (Elt F)),
    binary main_v83 main_v82 main_v84 (mulf : (⟨S500000x24, .f32⟩ : BufTy).Contents (Elt F) → (⟨S500000x24, .f32⟩ : BufTy).Contents (Elt F) → (⟨S500000x24, .f32⟩ : BufTy).Contents (Elt F)),
    binary main_v84 main_v45 main_v85 (subf : (⟨S500000x24, .f32⟩ : BufTy).Contents (Elt F) → (⟨S500000x24, .f32⟩ : BufTy).Contents (Elt F) → (⟨S500000x24, .f32⟩ : BufTy).Contents (Elt F)) ]

/-- What they leave at `main_v85`, from any contents. -/
theorem segE3_eq (W : Valuation τ sig (Elt F)) :
    after (segE3 (F := F)) W (Proc.devRef .tc main_v85) = Cert.KernelIdeal.BasesAt.stepW (W (Proc.devRef .tc main_v1)) (W (Proc.devRef .tc main_v3)) (W (Proc.devRef .tc main_v29)) (W (Proc.devRef .tc main_v65)) (W (Proc.devRef .tc main_v45)) := by
  after_results_simp <;> rfl

/-- At the end of the whole line `main_v85` holds the base `T3` of the launch contents of the first two arguments. -/
theorem fin_main_v85 (m : (ℓ : Loc nD τ sig) → Buf (Elt F) ℓ) (c : Dev nD) :
    Wfin m c (Proc.devRef .tc main_v85) = Cert.KernelIdeal.Bases.T3F (m ((c.tc : Thread nD τ).loc main_arg0)) (m ((c.tc : Thread nD τ).loc main_arg1)) := by
  have h := Wfin_seg (F := F) 88 108 segE3 rfl (r := main_v85) (by decide) m c
  have r1 : Wat 88 m c (Proc.devRef .tc main_v1) = Cert.KernelIdeal.Bases.rowE (m ((c.tc : Thread nD τ).loc main_arg1)) := (Wat_eq 88 (by decide) m c).trans (fin_main_v1 m c)
  have r3 : Wat 88 m c (Proc.devRef .tc main_v3) = Cert.KernelIdeal.Bases.colE (m ((c.tc : Thread nD τ).loc main_arg1)) := (Wat_eq 88 (by decide) m c).trans (fin_main_v3 m c)
  have r29 : Wat 88 m c (Proc.devRef .tc main_v29) = Cert.KernelIdeal.Bases.normF (m ((c.tc : Thread nD τ).loc main_arg1)) := (Wat_eq 88 (by decide) m c).trans (fin_main_v29 m c)
  have h0 : Wat 88 m c (Proc.devRef .tc main_v65) = Cert.KernelIdeal.Bases.T2F (m ((c.tc : Thread nD τ).loc main_arg0)) (m ((c.tc : Thread nD τ).loc main_arg1)) := (Wat_eq 88 (by decide) m c).trans (fin_main_v65 m c)
  have h1 : Wat 88 m c (Proc.devRef .tc main_v45) = Cert.KernelIdeal.Bases.T1F (m ((c.tc : Thread nD τ).loc main_arg0)) (m ((c.tc : Thread nD τ).loc main_arg1)) := (Wat_eq 88 (by decide) m c).trans (fin_main_v45 m c)
  rw [h, segE3_eq, r1, r3, r29, h0, h1]
  rfl

/-- Operations 112 … 131 of the line: one propagation, doubled, less the base before the last. -/
abbrev segE4 : List (HloOp τ sig (Elt F)) :=
  [ unary main_v29 main_v90 (broadcastInDim S4000000x1 ![0] bcast_S4000000_S4000000x1_0 : (⟨S4000000, .f32⟩ : BufTy).Contents (Elt F) → (⟨S4000000x1, .f32⟩ : BufTy).Contents (Elt F)),
    nullary main_c_18 (constantI S_ 32 0#32),
    unary main_c_18 main_v91 (broadcastInDim S4000000 ![] bcast_S_S4000000 : (⟨S_, .i32⟩ : BufTy).Contents (Elt F) → (⟨S4000000, .i32⟩ : BufTy).Contents (Elt F)),
    binary main_v1 main_v91 main_v92 (cmpi .slt : (⟨S4000000, .i32⟩ : BufTy).Contents (Elt F) → (⟨S4000000, .i32⟩ : BufTy).Contents (Elt F) → (⟨S4000000, .i1⟩ : BufTy).Contents (Elt F)),
    nullary main_c_19 (constantI S_ 32 500000#32),
    unary main_c_19 main_v93 (broadcastInDim S4000000 ![] bcast_S_S4000000 : (⟨S_, .i32⟩ : BufTy).Contents (Elt F) → (⟨S4000000, .i32⟩ : BufTy).Contents (Elt F)),
    binary main_v1 main_v93 main_v94 (addi : (⟨S4000000, .i32⟩ : BufTy).Contents (Elt F) → (⟨S4000000, .i32⟩ : BufTy).Contents (Elt F) → (⟨S4000000, .i32⟩ : BufTy).Contents (Elt F)),
    ternary main_v92 main_v94 main_v1 main_v95 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v95 main_v96 (broadcastInDim S4000000x1 ![0] bcast_S4000000_S4000000x1_0 : (⟨S4000000, .i32⟩ : BufTy).Contents (Elt F) → (⟨S4000000x1, .i32⟩ : BufTy).Contents (Elt F)),
    binary main_v85 main_v96 main_v97 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v90 main_v98 (broadcastInDim S4000000x24 ![0, 1] bcast_S4000000x1_S4000000x24_0_1 : (⟨S4000000x1, .f32⟩ : BufTy).Contents (Elt F) → (⟨S4000000x24, .f32⟩ : BufTy).Contents (Elt F)),
    binary main_v98 main_v97 main_v99 (mulf : (⟨S4000000x24, .f32⟩ : BufTy).Contents (Elt F) → (⟨S4000000x24, .f32⟩ : BufTy).Contents (Elt F) → (⟨S4000000x24, .f32⟩ : BufTy).Contents (Elt F)),
    nullary main_cst_20 (constant S_ .f32 0x00000000#32),
    unary main_cst_20 main_v100 (broadcastInDim S500000x24 ![] bcast_S_S500000x24 : (⟨S_, .f32⟩ : BufTy).Contents (Elt F) → (⟨S500000x24, .f32⟩ : BufTy).Contents (Elt F)),
    unary main_v3 main_v101 (broadcastInDim S4000000x1 ![0] bcast_S4000000_S4000000x1_0 : (⟨S4000000, .i32⟩ : BufTy).Contents (Elt F) → (⟨S4000000x1, .i32⟩ : BufTy).Contents (Elt F)),
    ternary main_v100 main_v101 main_v99 main_v102 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    nullary main_cst_21 (constant S_ .f32 0x40000000#32),
    unary main_cst_21 main_v103 (broadcastInDim S500000x24 ![] bcast_S_S500000x24 : (⟨S_, .f32⟩ : BufTy).Contents (Elt F) → (⟨S500000x24, .f32⟩ : BufTy).Contents (Elt F)),
    binary main_v103 main_v102 main_v104 (mulf : (⟨S500000x24, .f32⟩ : BufTy).Contents (Elt F) → (⟨S500000x24, .f32⟩ : BufTy).Contents (Elt F) → (⟨S500000x24, .f32⟩ : BufTy).Contents (Elt F)),
    binary main_v104 main_v65 main_v105 (subf : (⟨S500000x24, .f32⟩ : BufTy).Contents (Elt F) → (⟨S500000x24, .f32⟩ : BufTy).Contents (Elt F) → (⟨S500000x24, .f32⟩ : BufTy).Contents (Elt F)) ]

/-- What they leave at `main_v105`, from any contents. -/
theorem segE4_eq (W : Valuation τ sig (Elt F)) :
    after (segE4 (F := F)) W (Proc.devRef .tc main_v105) = Cert.KernelIdeal.BasesAt.stepW (W (Proc.devRef .tc main_v1)) (W (Proc.devRef .tc main_v3)) (W (Proc.devRef .tc main_v29)) (W (Proc.devRef .tc main_v85)) (W (Proc.devRef .tc main_v65)) := by
  after_results_simp <;> rfl

/-- At the end of the whole line `main_v105` holds the base `T4` of the launch contents of the first two arguments. -/
theorem fin_main_v105 (m : (ℓ : Loc nD τ sig) → Buf (Elt F) ℓ) (c : Dev nD) :
    Wfin m c (Proc.devRef .tc main_v105) = Cert.KernelIdeal.Bases.T4F (m ((c.tc : Thread nD τ).loc main_arg0)) (m ((c.tc : Thread nD τ).loc main_arg1)) := by
  have h := Wfin_seg (F := F) 112 132 segE4 rfl (r := main_v105) (by decide) m c
  have r1 : Wat 112 m c (Proc.devRef .tc main_v1) = Cert.KernelIdeal.Bases.rowE (m ((c.tc : Thread nD τ).loc main_arg1)) := (Wat_eq 112 (by decide) m c).trans (fin_main_v1 m c)
  have r3 : Wat 112 m c (Proc.devRef .tc main_v3) = Cert.KernelIdeal.Bases.colE (m ((c.tc : Thread nD τ).loc main_arg1)) := (Wat_eq 112 (by decide) m c).trans (fin_main_v3 m c)
  have r29 : Wat 112 m c (Proc.devRef .tc main_v29) = Cert.KernelIdeal.Bases.normF (m ((c.tc : Thread nD τ).loc main_arg1)) := (Wat_eq 112 (by decide) m c).trans (fin_main_v29 m c)
  have h0 : Wat 112 m c (Proc.devRef .tc main_v85) = Cert.KernelIdeal.Bases.T3F (m ((c.tc : Thread nD τ).loc main_arg0)) (m ((c.tc : Thread nD τ).loc main_arg1)) := (Wat_eq 112 (by decide) m c).trans (fin_main_v85 m c)
  have h1 : Wat 112 m c (Proc.devRef .tc main_v65) = Cert.KernelIdeal.Bases.T2F (m ((c.tc : Thread nD τ).loc main_arg0)) (m ((c.tc : Thread nD τ).loc main_arg1)) := (Wat_eq 112 (by decide) m c).trans (fin_main_v65 m c)
  rw [h, segE4_eq, r1, r3, r29, h0, h1]
  rfl

/-- Operations 136 … 155 of the line: one propagation, doubled, less the base before the last. -/
abbrev segE5 : List (HloOp τ sig (Elt F)) :=
  [ unary main_v29 main_v110 (broadcastInDim S4000000x1 ![0] bcast_S4000000_S4000000x1_0 : (⟨S4000000, .f32⟩ : BufTy).Contents (Elt F) → (⟨S4000000x1, .f32⟩ : BufTy).Contents (Elt F)),
    nullary main_c_22 (constantI S_ 32 0#32),
    unary main_c_22 main_v111 (broadcastInDim S4000000 ![] bcast_S_S4000000 : (⟨S_, .i32⟩ : BufTy).Contents (Elt F) → (⟨S4000000, .i32⟩ : BufTy).Contents (Elt F)),
    binary main_v1 main_v111 main_v112 (cmpi .slt : (⟨S4000000, .i32⟩ : BufTy).Contents (Elt F) → (⟨S4000000, .i32⟩ : BufTy).Contents (Elt F) → (⟨S4000000, .i1⟩ : BufTy).Contents (Elt F)),
    nullary main_c_23 (constantI S_ 32 500000#32),
    unary main_c_23 main_v113 (broadcastInDim S4000000 ![] bcast_S_S4000000 : (⟨S_, .i32⟩ : BufTy).Contents (Elt F) → (⟨S4000000, .i32⟩ : BufTy).Contents (Elt F)),
    binary main_v1 main_v113 main_v114 (addi : (⟨S4000000, .i32⟩ : BufTy).Contents (Elt F) → (⟨S4000000, .i32⟩ : BufTy).Contents (Elt F) → (⟨S4000000, .i32⟩ : BufTy).Contents (Elt F)),
    ternary main_v112 main_v114 main_v1 main_v115 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v115 main_v116 (broadcastInDim S4000000x1 ![0] bcast_S4000000_S4000000x1_0 : (⟨S4000000, .i32⟩ : BufTy).Contents (Elt F) → (⟨S4000000x1, .i32⟩ : BufTy).Contents (Elt F)),
    binary main_v105 main_v116 main_v117 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    unary main_v110 main_v118 (broadcastInDim S4000000x24 ![0, 1] bcast_S4000000x1_S4000000x24_0_1 : (⟨S4000000x1, .f32⟩ : BufTy).Contents (Elt F) → (⟨S4000000x24, .f32⟩ : BufTy).Contents (Elt F)),
    binary main_v118 main_v117 main_v119 (mulf : (⟨S4000000x24, .f32⟩ : BufTy).Contents (Elt F) → (⟨S4000000x24, .f32⟩ : BufTy).Contents (Elt F) → (⟨S4000000x24, .f32⟩ : BufTy).Contents (Elt F)),
    nullary main_cst_24 (constant S_ .f32 0x00000000#32),
    unary main_cst_24 main_v120 (broadcastInDim S500000x24 ![] bcast_S_S500000x24 : (⟨S_, .f32⟩ : BufTy).Contents (Elt F) → (⟨S500000x24, .f32⟩ : BufTy).Contents (Elt F)),
    unary main_v3 main_v121 (broadcastInDim S4000000x1 ![0] bcast_S4000000_S4000000x1_0 : (⟨S4000000, .i32⟩ : BufTy).Contents (Elt F) → (⟨S4000000x1, .i32⟩ : BufTy).Contents (Elt F)),
    ternary main_v120 main_v121 main_v119 main_v122 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    nullary main_cst_25 (constant S_ .f32 0x40000000#32),
    unary main_cst_25 main_v123 (broadcastInDim S500000x24 ![] bcast_S_S500000x24 : (⟨S_, .f32⟩ : BufTy).Contents (Elt F) → (⟨S500000x24, .f32⟩ : BufTy).Contents (Elt F)),
    binary main_v123 main_v122 main_v124 (mulf : (⟨S500000x24, .f32⟩ : BufTy).Contents (Elt F) → (⟨S500000x24, .f32⟩ : BufTy).Contents (Elt F) → (⟨S500000x24, .f32⟩ : BufTy).Contents (Elt F)),
    binary main_v124 main_v85 main_v125 (subf : (⟨S500000x24, .f32⟩ : BufTy).Contents (Elt F) → (⟨S500000x24, .f32⟩ : BufTy).Contents (Elt F) → (⟨S500000x24, .f32⟩ : BufTy).Contents (Elt F)) ]

/-- What they leave at `main_v125`, from any contents. -/
theorem segE5_eq (W : Valuation τ sig (Elt F)) :
    after (segE5 (F := F)) W (Proc.devRef .tc main_v125) = Cert.KernelIdeal.BasesAt.stepW (W (Proc.devRef .tc main_v1)) (W (Proc.devRef .tc main_v3)) (W (Proc.devRef .tc main_v29)) (W (Proc.devRef .tc main_v105)) (W (Proc.devRef .tc main_v85)) := by
  after_results_simp <;> rfl

/-- At the end of the whole line `main_v125` holds the base `T5` of the launch contents of the first two arguments. -/
theorem fin_main_v125 (m : (ℓ : Loc nD τ sig) → Buf (Elt F) ℓ) (c : Dev nD) :
    Wfin m c (Proc.devRef .tc main_v125) = Cert.KernelIdeal.Bases.T5F (m ((c.tc : Thread nD τ).loc main_arg0)) (m ((c.tc : Thread nD τ).loc main_arg1)) := by
  have h := Wfin_seg (F := F) 136 156 segE5 rfl (r := main_v125) (by decide) m c
  have r1 : Wat 136 m c (Proc.devRef .tc main_v1) = Cert.KernelIdeal.Bases.rowE (m ((c.tc : Thread nD τ).loc main_arg1)) := (Wat_eq 136 (by decide) m c).trans (fin_main_v1 m c)
  have r3 : Wat 136 m c (Proc.devRef .tc main_v3) = Cert.KernelIdeal.Bases.colE (m ((c.tc : Thread nD τ).loc main_arg1)) := (Wat_eq 136 (by decide) m c).trans (fin_main_v3 m c)
  have r29 : Wat 136 m c (Proc.devRef .tc main_v29) = Cert.KernelIdeal.Bases.normF (m ((c.tc : Thread nD τ).loc main_arg1)) := (Wat_eq 136 (by decide) m c).trans (fin_main_v29 m c)
  have h0 : Wat 136 m c (Proc.devRef .tc main_v105) = Cert.KernelIdeal.Bases.T4F (m ((c.tc : Thread nD τ).loc main_arg0)) (m ((c.tc : Thread nD τ).loc main_arg1)) := (Wat_eq 136 (by decide) m c).trans (fin_main_v105 m c)
  have h1 : Wat 136 m c (Proc.devRef .tc main_v85) = Cert.KernelIdeal.Bases.T3F (m ((c.tc : Thread nD τ).loc main_arg0)) (m ((c.tc : Thread nD τ).loc main_arg1)) := (Wat_eq 136 (by decide) m c).trans (fin_main_v85 m c)
  rw [h, segE5_eq, r1, r3, r29, h0, h1]
  rfl

end Cert.ReferenceIdeal.HandRun

end
-- ==== Proof.RefValue.lean ====
/-
  The reference's run, with its result as one function of the eight arguments.

  Putting the pieces of the line together: at the end of the line the result buffer holds `tailOut` of the hidden rows,
  the hidden rows are `hidRef` of the six bases, and the bases are `T₁ … T₅` of the first two arguments. So every weakly fair
  execution of the reference terminates with its result at `refOut` of the launch contents of the arguments, and the
  arguments unchanged.
-/
import proofs.«105403_j78039555768470_2_alg».proof.Proof.RefTail
import proofs.«105403_j78039555768470_2_alg».proof.Proof.RefHid
import proofs.«105403_j78039555768470_2_alg».proof.Proof.RefBases

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The hidden rows as a function of the node features, the edge list, the weights and the bias. -/
def refHid (x : (⟨S500000x24, .f32⟩ : BufTy).Contents (Elt F)) (e : (⟨S2x4000000, .i32⟩ : BufTy).Contents (Elt F))
    (W : (⟨S6x24x64, .f32⟩ : BufTy).Contents (Elt F)) (b : (⟨S64, .f32⟩ : BufTy).Contents (Elt F)) :
    (⟨S500000x64, .f32⟩ : BufTy).Contents (Elt F) :=
  hidRef x (Cert.KernelIdeal.Bases.T1F x e) (Cert.KernelIdeal.Bases.T2F x e) (Cert.KernelIdeal.Bases.T3F x e)
    (Cert.KernelIdeal.Bases.T4F x e) (Cert.KernelIdeal.Bases.T5F x e) W b

/-- The reference's result as a function of its eight arguments. -/
def refOut (x : (⟨S500000x24, .f32⟩ : BufTy).Contents (Elt F)) (e : (⟨S2x4000000, .i32⟩ : BufTy).Contents (Elt F))
    (W : (⟨S6x24x64, .f32⟩ : BufTy).Contents (Elt F)) (b g be : (⟨S64, .f32⟩ : BufTy).Contents (Elt F))
    (Wm : (⟨S1x64x6, .f32⟩ : BufTy).Contents (Elt F)) (bm : (⟨S6, .f32⟩ : BufTy).Contents (Elt F)) :
    (⟨S500000x6, .f32⟩ : BufTy).Contents (Elt F) :=
  tailOut (refHid x e W b) g be Wm bm

/-- At the end of the line the hidden rows are `refHid` of the launch contents of the first four arguments. -/
theorem fin_hid (m : (ℓ : Loc nD τ sig) → Buf (Elt F) ℓ) (c : Dev nD) :
    Wfin m c (Proc.devRef .tc main_v132) = refHid (m ((c.tc : Thread nD τ).loc main_arg0)) (m ((c.tc : Thread nD τ).loc main_arg1)) (m ((c.tc : Thread nD τ).loc main_arg2)) (m ((c.tc : Thread nD τ).loc main_arg3)) := by
  rw [hid_eq, fin_main_v45, fin_main_v65, fin_main_v85, fin_main_v105, fin_main_v125]
  rfl

/-- At the end of the line the result is `refOut` of the launch contents of the eight arguments. -/
theorem fin_out (m : (ℓ : Loc nD τ sig) → Buf (Elt F) ℓ) (c : Dev nD) :
    Wfin m c (Proc.devRef .tc main_v163)
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [res_eq, fin_hid]
  rfl

/-- The same with the functions written out: the result is `tailOut` of `hidRef` of the node features and of their five
    bases. -/
theorem ref_result (m : (ℓ : Loc nD τ sig) → Buf (Elt F) ℓ) (c : Dev nD) :
    Wfin m c (Proc.devRef .tc main_v163)
      = tailOut (hidRef (m ((c.tc : Thread nD τ).loc main_arg0))
            (Cert.KernelIdeal.Bases.T1F (m ((c.tc : Thread nD τ).loc main_arg0)) (m ((c.tc : Thread nD τ).loc main_arg1))) (Cert.KernelIdeal.Bases.T2F (m ((c.tc : Thread nD τ).loc main_arg0)) (m ((c.tc : Thread nD τ).loc main_arg1))) (Cert.KernelIdeal.Bases.T3F (m ((c.tc : Thread nD τ).loc main_arg0)) (m ((c.tc : Thread nD τ).loc main_arg1)))
            (Cert.KernelIdeal.Bases.T4F (m ((c.tc : Thread nD τ).loc main_arg0)) (m ((c.tc : Thread nD τ).loc main_arg1))) (Cert.KernelIdeal.Bases.T5F (m ((c.tc : Thread nD τ).loc main_arg0)) (m ((c.tc : Thread nD τ).loc main_arg1))) (m ((c.tc : Thread nD τ).loc main_arg2)) (m ((c.tc : Thread nD τ).loc main_arg3)))
          (m ((c.tc : Thread nD τ).loc main_arg4)) (m ((c.tc : Thread nD τ).loc main_arg5)) (m ((c.tc : Thread nD τ).loc main_arg6)) (m ((c.tc : Thread nD τ).loc main_arg7)) :=
  fin_out m c

/-- On every device, for any float values, from any memory with zero counters: every weakly fair execution of `@main`
    terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v163)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v163).trans (fin_out m c),
      (h c main_arg0).trans (after_arg (by decide) _),
      (h c main_arg1).trans (after_arg (by decide) _),
      (h c main_arg2).trans (after_arg (by decide) _),
      (h c main_arg3).trans (after_arg (by decide) _),
      (h c main_arg4).trans (after_arg (by decide) _),
      (h c main_arg5).trans (after_arg (by decide) _),
      (h c main_arg6).trans (after_arg (by decide) _),
      (h c main_arg7).trans (after_arg (by decide) _)⟩)
    (run_after m ρ)

end Cert.ReferenceIdeal.HandRun

end
-- ==== Proof.KernelIdealPayloads.lean ====
/-
  The kernel's three payloads read at an index, on the extended reals.

  * The hidden rows of a tile: six block products \`∑ f, T (0, r, f) · W (0, f, j)\` added one after another onto a
    zero start, plus the bias row (\`hidden_apply\`, \`hidden_apply'\`).
  * The tile moments: at \`(0, 0, j)\` the column sum \`∑ r, H (r, j)\` of the hidden tile, at \`(0, 1, j)\` the column sum of
    its squares \`∑ r, H (r, j) · H (r, j)\` (\`moments_sum_apply\`, \`moments_sq_apply\`).
  * The output rows: the normalised, scaled, shifted and rectified hidden row times the mixing matrix, plus the
    output bias (\`out_apply\`).
-/
import proofs.«105403_j78039555768470_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open Idealize.ShloMosaic Idealize.ShloMosaic.ValueIdx

namespace Cert.KernelIdeal.Payloads

open Cert.KernelIdeal Cert.KernelIdeal.Gen

open scoped BigOperators

/-! ## The operations that are not pointwise, read at an index -/

/-- A plain matrix product \`[m, k] × [k, n]\` accumulated onto the zero splat reads, at \`(a, b)\`, the sum over the
    contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  have h0 : matmul (F := Ideal) (DotDims.plain m k n) prec A B (constant (F := Ideal) ⟨2, ![m, n]⟩ .f32 0x00000000#32)
      = Host.dotGeneral (F := Ideal) (DotDims.plain m k n) prec A B := by
    show Ideal.matmul _ A B (fun _ => Ideal.ofBits .f32 0x00000000#32) = Ideal.matmul _ A B (fun _ => 0)
    rw [Ideal.ofBits_zero_f32]
  rw [h0]
  exact StackMember.dotGeneral_plain_apply prec A B a b

/-- The column sums of a \`[2000, 64]\` tile: its sum over the rows reads, at column \`j\`, \`∑ r, H (r, j)\`. -/
theorem colsum_apply (H : FVec Ideal S2000x64 .f32) (h : S2000x64.Reduces [0] S64) (hφ : FKind.Formats .f32)
    (hacc : (0x00000000#32 : BitVec 32) = FKind.add.neutral .f32 hφ) (j : Fin 64) :
    multiReduction (F := Ideal) .add [0] S64 H 0x00000000#32 h hφ hacc (ix1 j) = ∑ r : Fin 2000, H (ix2 r j) :=
  (Ideal.multiReduction_add_single H 0x00000000#32 h hφ hacc (ix1 j)).trans
    (Finset.sum_congr rfl fun r _ => congrArg H (funext fun a => Fin.ext (by
      match a with
      | ⟨0, _⟩ => rfl
      | ⟨1, _⟩ => rfl)))

/-! ## The tile moments -/

/-- The tile moments at \`(0, 0, j)\`: the column sum of the hidden tile, \`∑ r, H (r, j)\`. -/
theorem moments_sum_apply (v24 : FVec Ideal S2000x64 .f32) (v27 : FVec Ideal S2000x24 .bf16) (v30 : FVec Ideal S24x64 .bf16)
    (v33 : Vec Ideal S1x2000x24 .f32) (v36 : Vec Ideal S1x24x64 .f32) (v41 : Vec Ideal S1x2000x24 .f32)
    (v44 : Vec Ideal S1x24x64 .f32) (v49 : Vec Ideal S1x64 .f32) (j : Fin 64) :
    k0_pay2 (F := Ideal) v24 v27 v30 v33 v36 v41 v44 v49 (ix3 (0 : Fin 1) (0 : Fin 2) j)
      = ∑ r : Fin 2000, k0_pay1 (F := Ideal) v24 v27 v30 v33 v36 v41 v44 v49 (ix2 r j) := by
  unfold k0_pay2
  generalize k0_pay1 (F := Ideal) v24 v27 v30 v33 v36 v41 v44 v49 = H
  refine (shapeCast_ab_1ab_apply _ _ (0 : Fin 1) (0 : Fin 2) j).trans ?_
  refine (concatenate_pair_apply_left (t := S2x64) (s₁ := S1x64) (s₂ := S1x64) (0 : Fin 2) _ _ _ (ix2 (0 : Fin 2) j) rfl (ix2 (0 : Fin 1) j) (fun b => by
    match b with
    | ⟨0, _⟩ => rfl
    | ⟨1, _⟩ => rfl)).trans ?_
  refine (shapeCast_a_1a_apply _ _ (0 : Fin 1) j).trans ?_
  exact colsum_apply H _ _ _ j

/-- The tile moments at \`(0, 1, j)\`: the column sum of the squares of the hidden tile, \`∑ r, H (r, j) · H (r, j)\`. -/
theorem moments_sq_apply (v24 : FVec Ideal S2000x64 .f32) (v27 : FVec Ideal S2000x24 .bf16) (v30 : FVec Ideal S24x64 .bf16)
    (v33 : Vec Ideal S1x2000x24 .f32) (v36 : Vec Ideal S1x24x64 .f32) (v41 : Vec Ideal S1x2000x24 .f32)
    (v44 : Vec Ideal S1x24x64 .f32) (v49 : Vec Ideal S1x64 .f32) (j : Fin 64) :
    k0_pay2 (F := Ideal) v24 v27 v30 v33 v36 v41 v44 v49 (ix3 (0 : Fin 1) (1 : Fin 2) j)
      = ∑ r : Fin 2000, k0_pay1 (F := Ideal) v24 v27 v30 v33 v36 v41 v44 v49 (ix2 r j)
          * k0_pay1 (F := Ideal) v24 v27 v30 v33 v36 v41 v44 v49 (ix2 r j) := by
  unfold k0_pay2
  generalize k0_pay1 (F := Ideal) v24 v27 v30 v33 v36 v41 v44 v49 = H
  refine (shapeCast_ab_1ab_apply _ _ (0 : Fin 1) (1 : Fin 2) j).trans ?_
  refine (concatenate_pair_apply_right (t := S2x64) (s₁ := S1x64) (s₂ := S1x64) (0 : Fin 2) _ _ _ (ix2 (1 : Fin 2) j) rfl rfl (ix2 (0 : Fin 1) j) (fun b hb => by
    match b with
    | ⟨0, _⟩ => exact absurd rfl hb
    | ⟨1, _⟩ => rfl) rfl).trans ?_
  refine (shapeCast_a_1a_apply _ _ (0 : Fin 1) j).trans ?_
  exact colsum_apply (mulf H H) _ _ _ j

/-! ## The hidden rows -/

/-- One block product of the hidden rows: a \`[1, 2000, 24]\` block times a \`[1, 24, 64]\` block, both read without their
    unit axis (the format changes are the identity on extended reals), accumulated onto the zero splat, reads at
    \`(r, j)\` the sum \`∑ f, T (0, r, f) · W (0, f, j)\`. -/
theorem block_dot_apply (T : Vec Ideal S1x2000x24 .f32) (W : Vec Ideal S1x24x64 .f32)
    (hT : S1x2000x24.ShapeCasts S2000x24) (hW : S1x24x64.ShapeCasts S24x64) (hb : FTy.bits .bf16 < FTy.bits .f32)
    (r : Fin 2000) (j : Fin 64) :
    matmul (F := Ideal) dot_S2000x24_S24x64_S2000x64_1_0_0_1_n_n none
        (truncf (F := Ideal) .bf16 (shapeCast S2000x24 T hT) hb) (truncf (F := Ideal) .bf16 (shapeCast S24x64 W hW) hb)
        (constant (F := Ideal) S2000x64 .f32 0x00000000#32) (ix2 r j)
      = ∑ f : Fin 24, T (ix3 (0 : Fin 1) r f) * W (ix3 (0 : Fin 1) f j) := by
  have hd : dot_S2000x24_S24x64_S2000x64_1_0_0_1_n_n = DotDims.plain 2000 24 64 := rfl
  rw [hd]
  refine (matmul_plain_zero_apply none _ _ r j).trans ?_
  refine Finset.sum_congr rfl fun f _ => ?_
  show shapeCast S2000x24 T hT (ix2 r f) * shapeCast S24x64 W hW (ix2 f j) = _
  rw [shapeCast_1ab_ab_apply, shapeCast_1ab_ab_apply]

/-- The block product at \`(r, j)\`: \`∑ f, T (0, r, f) · W (0, f, j)\`. -/
abbrev blockDot (T : Vec Ideal S1x2000x24 .f32) (W : Vec Ideal S1x24x64 .f32) (r : Fin 2000) (j : Fin 64) : EReal :=
  ∑ f : Fin 24, T (ix3 (0 : Fin 1) r f) * W (ix3 (0 : Fin 1) f j)

/-- The first three block products added one after another onto the zero start. -/
theorem pay3_apply (T0 : Vec Ideal S1x2000x24 .f32) (W0 : Vec Ideal S1x24x64 .f32) (T1 : Vec Ideal S1x2000x24 .f32)
    (W1 : Vec Ideal S1x24x64 .f32) (T2 : Vec Ideal S1x2000x24 .f32) (W2 : Vec Ideal S1x24x64 .f32)
    (r : Fin 2000) (j : Fin 64) :
    k0_pay3 (F := Ideal) T0 W0 T1 W1 T2 W2 (ix2 r j)
      = ((Ideal.ofBits .f32 0x00000000#32 + blockDot T0 W0 r j) + blockDot T1 W1 r j) + blockDot T2 W2 r j := by
  unfold k0_pay3
  simp only [addf_apply, block_dot_apply]
  rfl

/-- THE HIDDEN ROWS at \`(r, j)\`: the six block products added one after another onto the zero start, then the bias
    row. The start is what the zero word denotes (\`hidden_apply'\` drops it). -/
theorem hidden_apply (T0 : Vec Ideal S1x2000x24 .f32) (W0 : Vec Ideal S1x24x64 .f32) (T1 : Vec Ideal S1x2000x24 .f32)
    (W1 : Vec Ideal S1x24x64 .f32) (T2 : Vec Ideal S1x2000x24 .f32) (W2 : Vec Ideal S1x24x64 .f32)
    (T3 : Vec Ideal S1x2000x24 .f32) (W3 : Vec Ideal S1x24x64 .f32) (T4 : Vec Ideal S1x2000x24 .f32)
    (W4 : Vec Ideal S1x24x64 .f32) (T5 : Vec Ideal S1x2000x24 .f32) (W5 : Vec Ideal S1x24x64 .f32)
    (b : Vec Ideal S1x64 .f32) (r : Fin 2000) (j : Fin 64) :
    k0_pay1 (F := Ideal) (k0_pay3 T0 W0 T1 W1 T2 W2) (k0_pay4 T3) (k0_pay5 W3) T4 W4 T5 W5 b (ix2 r j)
      = ((((((Ideal.ofBits .f32 0x00000000#32 + blockDot T0 W0 r j) + blockDot T1 W1 r j) + blockDot T2 W2 r j)
          + blockDot T3 W3 r j) + blockDot T4 W4 r j) + blockDot T5 W5 r j) + b (ix2 (0 : Fin 1) j) := by
  unfold k0_pay1 k0_pay4 k0_pay5
  simp only [addf_apply, block_dot_apply, pay3_apply, broadcastTo_1b_ab_apply, shapeCast_self]

/-- The hidden rows with the zero start dropped: \`((((((d₀ + d₁) + d₂) + d₃) + d₄) + d₅) + b (0, j)\`,
    \`dᵢ = ∑ f, Tᵢ (0, r, f) · Wᵢ (0, f, j)\`. -/
theorem hidden_apply' (T0 : Vec Ideal S1x2000x24 .f32) (W0 : Vec Ideal S1x24x64 .f32) (T1 : Vec Ideal S1x2000x24 .f32)
    (W1 : Vec Ideal S1x24x64 .f32) (T2 : Vec Ideal S1x2000x24 .f32) (W2 : Vec Ideal S1x24x64 .f32)
    (T3 : Vec Ideal S1x2000x24 .f32) (W3 : Vec Ideal S1x24x64 .f32) (T4 : Vec Ideal S1x2000x24 .f32)
    (W4 : Vec Ideal S1x24x64 .f32) (T5 : Vec Ideal S1x2000x24 .f32) (W5 : Vec Ideal S1x24x64 .f32)
    (b : Vec Ideal S1x64 .f32) (r : Fin 2000) (j : Fin 64) :
    k0_pay1 (F := Ideal) (k0_pay3 T0 W0 T1 W1 T2 W2) (k0_pay4 T3) (k0_pay5 W3) T4 W4 T5 W5 b (ix2 r j)
      = (((((blockDot T0 W0 r j + blockDot T1 W1 r j) + blockDot T2 W2 r j)
          + blockDot T3 W3 r j) + blockDot T4 W4 r j) + blockDot T5 W5 r j) + b (ix2 (0 : Fin 1) j) := by
  rw [hidden_apply, Ideal.ofBits_zero_f32, zero_add]

/-! ## The output rows -/

/-- A reciprocal square root of a vector reads, at an index, the reciprocal square root of the element. -/
theorem rsqrt_apply {s : Shape} {φ : FTy} (x : FVec Ideal s φ) (i : s.Idx) : rsqrt x i = Ideal.rsqrt (x i) := rfl

/-- The output product: a \`[10000, 64]\` tile times the \`[64, 6]\` mixing matrix (the format changes are the identity
    on extended reals), accumulated onto the zero splat, reads at \`(r, o)\` the sum \`∑ j, A (r, j) · W (j, o)\`. -/
theorem out_dot_apply (A : FVec Ideal S10000x64 .f32) (W : FVec Ideal S64x6 .f32)
    (hb : FTy.bits .bf16 < FTy.bits .f32) (r : Fin 10000) (o : Fin 6) :
    matmul (F := Ideal) dot_S10000x64_S64x6_S10000x6_1_0_0_1_n_n none
        (truncf (F := Ideal) .bf16 A hb) (truncf (F := Ideal) .bf16 W hb)
        (constant (F := Ideal) S10000x6 .f32 0x00000000#32) (ix2 r o)
      = ∑ j : Fin 64, A (ix2 r j) * W (ix2 j o) := by
  have hd : dot_S10000x64_S64x6_S10000x6_1_0_0_1_n_n = DotDims.plain 10000 64 6 := rfl
  rw [hd]
  exact matmul_plain_zero_apply none _ _ r o

/-- THE OUTPUT ROWS at \`(r, o)\`: with \`y j = max ((((x (r, j) - μ (0, j)) · rsqrt (σ² (0, j) + ε)) · γ (0, j)) + β (0, j)) 0\`
    the normalised, scaled, shifted and rectified hidden row, \`(∑ j, y j · M (j, o)) + c (0, o)\`; \`ε\` is the word
    \`0x3727C5AC\`, left as it is. -/
theorem out_apply (v0 : Vec Ideal S10000x64 .f32) (v2 v7 v13 v17 : Vec Ideal S1x64 .f32) (v24 : Vec Ideal S64x6 .f32)
    (v28 : Vec Ideal S1x6 .f32) (r : Fin 10000) (o : Fin 6) :
    k1_pay1 (F := Ideal) v0 v2 v7 v13 v17 v24 v28 (ix2 r o)
      = (∑ j : Fin 64, max ((((v0 (ix2 r j) - v7 (ix2 (0 : Fin 1) j))
            * Ideal.rsqrt (v2 (ix2 (0 : Fin 1) j) + Ideal.ofBits .f32 0x3727C5AC#32)) * v13 (ix2 (0 : Fin 1) j))
            + v17 (ix2 (0 : Fin 1) j)) 0 * v24 (ix2 j o)) + v28 (ix2 (0 : Fin 1) o) := by
  unfold k1_pay1
  simp only [addf_apply, out_dot_apply, maximumf_apply, mulf_apply, subf_apply, rsqrt_apply, broadcastTo_1b_ab_apply,
    shapeCast_self, broadcast_apply, Ideal.ofBits_def, Ideal.ofBits_zero_f32]

end Cert.KernelIdeal.Payloads
-- ==== Proof.KernelIdealValue.lean ====
/-
  What the kernel's arrays hold after each region, as whole-array functions of what the region found.

  Region 0.  A point `t` handles rows `2000 t … 2000 t + 1999`.  Row `n`, column `j` of the hidden array is
  `Σ_k Σ_f T (k, n, f) · W (k, f, j) + b (0, j)` over the stacked bases `T`, the weights `W` and the bias row `b`; the tile's
  two moments are the column sums of the hidden rows of the tile and of their squares.  Region 1.  A point handles
  10000 rows; row `n`, column `o` of the output is `Σ_j max(((h (n, j) − μ_j) · rsqrt(v_j + ε)) · γ_j + β_j, 0) · M (j, o) + c_o`.
  In both regions the blocks of an output tile its array, so the array after the run is that function everywhere.
-/
import proofs.«105403_j78039555768470_2_alg».proof.Proof.KernelIdealRun
import proofs.«105403_j78039555768470_2_alg».proof.Proof.KernelIdealPayloads
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Bodies Cert.KernelIdeal.Payloads
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Which block of each operand a point of region 0 touches -/

theorem idx0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The hidden rows -/

/-- One term of the mix: base `k` of row `n` against weight slab `k`, column `j`. -/
abbrev dotK (T : (⟨S6x500000x24, .f32⟩ : BufTy).Contents (Elt Ideal)) (W : (⟨S6x24x64, .f32⟩ : BufTy).Contents (Elt Ideal))
    (k : Fin 6) (n : Fin 500000) (j : Fin 64) : EReal :=
  ∑ f : Fin 24, T (ix3 k n f) * W (ix3 k f j)

/-- The hidden array, from the stacked bases, the weights and the bias row. -/
def hidF (T : (⟨S6x500000x24, .f32⟩ : BufTy).Contents (Elt Ideal)) (W : (⟨S6x24x64, .f32⟩ : BufTy).Contents (Elt Ideal))
    (B : (⟨S1x64, .f32⟩ : BufTy).Contents (Elt Ideal)) : (⟨S500000x64, .f32⟩ : BufTy).Contents (Elt Ideal) :=
  fun i => (((((dotK T W 0 (i 0) (i 1) + dotK T W 1 (i 0) (i 1)) + dotK T W 2 (i 0) (i 1)) + dotK T W 3 (i 0) (i 1))
    + dotK T W 4 (i 0) (i 1)) + dotK T W 5 (i 0) (i 1)) + B (ix2 (0 : Fin 1) (i 1))

/-- Slab `k` of a block of bases, and of the weights, read at an index. -/
theorem ldT (x0 : Vec Ideal S6x2000x24 .f32) (r : Fin 2000) (f : Fin 24) :
    View.ld x0 rT0 (ix3 (0 : Fin 1) r f) = x0 (ix3 (0 : Fin 6) r f) ∧ View.ld x0 rT1 (ix3 (0 : Fin 1) r f) = x0 (ix3 (1 : Fin 6) r f)
    ∧ View.ld x0 rT2 (ix3 (0 : Fin 1) r f) = x0 (ix3 (2 : Fin 6) r f) ∧ View.ld x0 rT3 (ix3 (0 : Fin 1) r f) = x0 (ix3 (3 : Fin 6) r f)
    ∧ View.ld x0 rT4 (ix3 (0 : Fin 1) r f) = x0 (ix3 (4 : Fin 6) r f) ∧ View.ld x0 rT5 (ix3 (0 : Fin 1) r f) = x0 (ix3 (5 : Fin 6) r f) := by
  refine ⟨?_, ?_, ?_, ?_, ?_, ?_⟩ <;>
  · refine congrArg x0 (funext fun a => Fin.ext ?_)
    match a with
    | ⟨0, _⟩ => rfl
    | ⟨1, _⟩ => show 0 + 1 * r.val = r.val; omega
    | ⟨2, _⟩ => show 0 + 1 * f.val = f.val; omega

theorem ldW (x1 : Vec Ideal S6x24x64 .f32) (f : Fin 24) (j : Fin 64) :
    View.ld x1 rW0 (ix3 (0 : Fin 1) f j) = x1 (ix3 (0 : Fin 6) f j) ∧ View.ld x1 rW1 (ix3 (0 : Fin 1) f j) = x1 (ix3 (1 : Fin 6) f j)
    ∧ View.ld x1 rW2 (ix3 (0 : Fin 1) f j) = x1 (ix3 (2 : Fin 6) f j) ∧ View.ld x1 rW3 (ix3 (0 : Fin 1) f j) = x1 (ix3 (3 : Fin 6) f j)
    ∧ View.ld x1 rW4 (ix3 (0 : Fin 1) f j) = x1 (ix3 (4 : Fin 6) f j) ∧ View.ld x1 rW5 (ix3 (0 : Fin 1) f j) = x1 (ix3 (5 : Fin 6) f j) := by
  refine ⟨?_, ?_, ?_, ?_, ?_, ?_⟩ <;>
  · refine congrArg x1 (funext fun a => Fin.ext ?_)
    match a with
    | ⟨0, _⟩ => rfl
    | ⟨1, _⟩ => show 0 + 1 * f.val = f.val; omega
    | ⟨2, _⟩ => show 0 + 1 * j.val = j.val; omega

/-- A tile's hidden rows at an index, from the tile's blocks. -/
theorem hidOut_apply (x0 : Vec Ideal S6x2000x24 .f32) (x1 : Vec Ideal S6x24x64 .f32) (x2 : Vec Ideal S1x64 .f32)
    (r : Fin 2000) (j : Fin 64) :
    hidOut x0 x1 x2 (ix2 r j)
      = ((((((∑ f : Fin 24, x0 (ix3 (0 : Fin 6) r f) * x1 (ix3 (0 : Fin 6) f j)) + ∑ f : Fin 24, x0 (ix3 (1 : Fin 6) r f) * x1 (ix3 (1 : Fin 6) f j))
          + ∑ f : Fin 24, x0 (ix3 (2 : Fin 6) r f) * x1 (ix3 (2 : Fin 6) f j)) + ∑ f : Fin 24, x0 (ix3 (3 : Fin 6) r f) * x1 (ix3 (3 : Fin 6) f j))
          + ∑ f : Fin 24, x0 (ix3 (4 : Fin 6) r f) * x1 (ix3 (4 : Fin 6) f j)) + ∑ f : Fin 24, x0 (ix3 (5 : Fin 6) r f) * x1 (ix3 (5 : Fin 6) f j))
        + x2 (ix2 (0 : Fin 1) j) := by
  unfold hidOut
  rw [View.canon_unit_zero hz2]
  rw [hidden_apply']
  have hb : View.ld x2 rBias = x2 := View.ld_unit_zero hz2 _ x2
  simp only [blockDot, (ldT x0 r _).1, (ldT x0 r _).2.1, (ldT x0 r _).2.2.1, (ldT x0 r _).2.2.2.1, (ldT x0 r _).2.2.2.2.1, (ldT x0 r _).2.2.2.2.2,
    (ldW x1 _ j).1, (ldW x1 _ j).2.1, (ldW x1 _ j).2.2.1, (ldW x1 _ j).2.2.2.1, (ldW x1 _ j).2.2.2.2.1, (ldW x1 _ j).2.2.2.2.2]
  exact congrArg (HAdd.hAdd _) (congrFun hb _)

/-! ### From a tile's block to the array -/

theorem lt250 (t : Fin cfg0.N) : t.val < 250 := lt_of_lt_of_eq t.isLt N_0

/-- Row `r` of point `t`'s block of bases is row `2000 t + r` of the stack. -/
theorem blk0_0_apply (c : Dev nD) (t : Fin cfg0.N) (k : Fin 6) (r : Fin 2000) (f : Fin 24) :
    blk0 V c 0 t (ix3 k r f)
      = V c main_v113 (ix3 k (⟨2000 * t.val + r.val, by have := lt250 t; have := r.isLt; omega⟩ : Fin 500000) f) := by
  show V c main_v113 (((cfg0.win 0).blk t).view.emb (ix3 k r f)) = _
  refine congrArg (V c main_v113) (funext fun a => Fin.ext ?_)
  obtain ⟨e0, e1, e2, -⟩ := idx0 t
  match a with
  | ⟨0, _⟩ => show win0_0.index t (0 : Fin 3) * 6 + 1 * k.val = k.val; omega
  | ⟨1, _⟩ => show win0_0.index t (1 : Fin 3) * 2000 + 1 * r.val = 2000 * t.val + r.val; omega
  | ⟨2, _⟩ => show win0_0.index t (2 : Fin 3) * 24 + 1 * f.val = f.val; omega

/-- Every point sees all of the weights and the whole bias row. -/
theorem blk0_1_apply (c : Dev nD) (t : Fin cfg0.N) (k : Fin 6) (f : Fin 24) (j : Fin 64) :
    blk0 V c 1 t (ix3 k f j) = V c main_arg2 (ix3 k f j) := by
  show V c main_arg2 (((cfg0.win 1).blk t).view.emb (ix3 k f j)) = _
  refine congrArg (V c main_arg2) (funext fun a => Fin.ext ?_)
  obtain ⟨-, -, -, e0, e1, e2, -⟩ := idx0 t
  match a with
  | ⟨0, _⟩ => show win0_1.index t (0 : Fin 3) * 6 + 1 * k.val = k.val; omega
  | ⟨1, _⟩ => show win0_1.index t (1 : Fin 3) * 24 + 1 * f.val = f.val; omega
  | ⟨2, _⟩ => show win0_1.index t (2 : Fin 3) * 64 + 1 * j.val = j.val; omega

theorem blk0_2_apply (c : Dev nD) (t : Fin cfg0.N) (j : Fin 64) :
    blk0 V c 2 t (ix2 (0 : Fin 1) j) = V c main_v114 (ix2 (0 : Fin 1) j) := by
  show V c main_v114 (((cfg0.win 2).blk t).view.emb (ix2 (0 : Fin 1) j)) = _
  refine congrArg (V c main_v114) (funext fun a => Fin.ext ?_)
  obtain ⟨-, -, -, -, -, -, e0, e1, -⟩ := idx0 t
  match a with
  | ⟨0, _⟩ => show win0_2.index t (0 : Fin 2) * 1 + 1 * 0 = 0; omega
  | ⟨1, _⟩ => show win0_2.index t (1 : Fin 2) * 64 + 1 * j.val = j.val; omega

/-- Where row `r`, column `j` of point `t`'s hidden block sits in the hidden array. -/
theorem emb0_3 (t : Fin cfg0.N) (r : Fin 2000) (j : Fin 64) :
    ((cfg0.win 3).blk t).view.emb (ix2 r j)
      = (ix2 (⟨2000 * t.val + r.val, by have := lt250 t; have := r.isLt; omega⟩ : Fin 500000) j : S500000x64.Idx) := by
  refine funext fun a => Fin.ext ?_
  obtain ⟨-, -, -, -, -, -, -, -, e0, e1, -⟩ := idx0 t
  match a with
  | ⟨0, _⟩ => show win0_3.index t (0 : Fin 2) * 2000 + 1 * r.val = 2000 * t.val + r.val; omega
  | ⟨1, _⟩ => show win0_3.index t (1 : Fin 2) * 64 + 1 * j.val = j.val; omega

/-- What point `t` writes back of the hidden rows is block `t` of `hidF` of the arrays the region found. -/
theorem flushedHid_eq (c : Dev nD) (t : Fin cfg0.N) :
    (dat0 V c).flushed 3 t = ((cfg0.win 3).blk t).view.read (Elt Ideal) (hidF (V c main_v113) (V c main_arg2) (V c main_v114)) := by
  show (cfg0.win 3).cut (grid0.coords t) ((dat0 V c).after 3 t) = _
  rw [after0_3]
  funext y
  obtain ⟨r, j, rfl⟩ : ∃ (r : Fin 2000) (j : Fin 64), y = ix2 r j := ⟨y 0, y 1, eq_ix2 y⟩
  show hidOut (blk0 V c 0 t) (blk0 V c 1 t) (blk0 V c 2 t) (ix2 r j)
    = hidF (V c main_v113) (V c main_arg2) (V c main_v114) (((cfg0.win 3).blk t).view.emb (ix2 r j))
  rw [hidOut_apply, emb0_3]
  simp only [blk0_0_apply, blk0_1_apply, blk0_2_apply]
  rfl

/-- An index of the hidden array is in point `t`'s block iff each coordinate is in the block's range. -/
theorem mem_blk0_3 (t : Fin cfg0.N) (i : S500000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v115_0).slice (win0_3.rect t)).set ↔ _
  rw [View.set_slice_whole, Rect.mem_set_unit]
  exact Iff.rfl

/-- Row `n` is in the block of point `n / 2000`. -/
theorem coverHidArr (i : S500000x64.Idx) :
    ∃ t : Fin cfg0.N, (cfg0.win 3).flush t = true ∧ i ∈ ((cfg0.win 3).blk t).view.set := by
  have hi0 : (i 0).val < 500000 := (i 0).isLt
  have hi1 : (i 1).val < 64 := (i 1).isLt
  refine ⟨⟨(i 0).val / 2000, by have h250 : cfg0.N = 250 := N_0; omega⟩, flush0_3 _, ?_⟩
  rw [mem_blk0_3]
  obtain ⟨-, -, -, -, -, -, -, -, e0, e1, -⟩ := idx0 ⟨(i 0).val / 2000, by have h250 : cfg0.N = 250 := N_0; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 64 ≤ (i 1).val ∧ (i 1).val < win0_3.index _ (1 : Fin 2) * 64 + 64
    rw [e1]; omega

/-- The hidden array after region 0. -/
theorem finalHid (c : Dev nD) :
    (dat0 V c).arrAt 3 cfg0.N = hidF (V c main_v113) (V c main_arg2) (V c main_v114) :=
  (dat0 V c).arrAt_eq_of_cover 3 _ (fun t _ => flushedHid_eq V c t) coverHidArr

/-! ## The tile moments -/

/-- A tile's hidden rows as point `t` leaves them are the rows of `hidF` the tile stands for. -/
theorem hidBlock_apply (c : Dev nD) (t : Fin cfg0.N) (r : Fin 2000) (j : Fin 64) :
    hidOut (blk0 V c 0 t) (blk0 V c 1 t) (blk0 V c 2 t) (ix2 r j)
      = hidF (V c main_v113) (V c main_arg2) (V c main_v114)
          (ix2 (⟨2000 * t.val + r.val, by have := lt250 t; have := r.isLt; omega⟩ : Fin 500000) j) := by
  rw [hidOut_apply]
  simp only [blk0_0_apply, blk0_1_apply, blk0_2_apply]
  rfl

/-- The moments array, from the hidden array: per tile of 2000 rows, the column sums and the column sums of squares. -/
def momF (H : (⟨S500000x64, .f32⟩ : BufTy).Contents (Elt Ideal)) : (⟨S250x2x64, .f32⟩ : BufTy).Contents (Elt Ideal) :=
  fun i => if (i 1).val = 0
    then ∑ r : Fin 2000, H (ix2 (⟨2000 * (i 0).val + r.val, by have h250 : (i 0).val < 250 := (i 0).isLt; have := r.isLt; omega⟩ : Fin 500000) (i 2))
    else ∑ r : Fin 2000, H (ix2 (⟨2000 * (i 0).val + r.val, by have h250 : (i 0).val < 250 := (i 0).isLt; have := r.isLt; omega⟩ : Fin 500000) (i 2))
          * H (ix2 (⟨2000 * (i 0).val + r.val, by have h250 : (i 0).val < 250 := (i 0).isLt; have := r.isLt; omega⟩ : Fin 500000) (i 2))

/-- The body's moments are sums over the body's own hidden rows. -/
theorem momOut_apply (x0 : Vec Ideal S6x2000x24 .f32) (x1 : Vec Ideal S6x24x64 .f32) (x2 : Vec Ideal S1x64 .f32) (j : Fin 64) :
    momOut x0 x1 x2 (ix3 (0 : Fin 1) (0 : Fin 2) j) = ∑ r : Fin 2000, hidOut x0 x1 x2 (ix2 r j)
    ∧ momOut x0 x1 x2 (ix3 (0 : Fin 1) (1 : Fin 2) j) = ∑ r : Fin 2000, hidOut x0 x1 x2 (ix2 r j) * hidOut x0 x1 x2 (ix2 r j) := by
  unfold momOut hidOut
  rw [View.canon_unit_zero hz3, View.canon_unit_zero hz2]
  exact ⟨moments_sum_apply _ _ _ _ _ _ _ _ j, moments_sq_apply _ _ _ _ _ _ _ _ j⟩

theorem emb0_4 (t : Fin cfg0.N) (a : Fin 2) (j : Fin 64) :
    ((cfg0.win 4).blk t).view.emb (ix3 (0 : Fin 1) a j)
      = (ix3 (⟨t.val, lt250 t⟩ : Fin 250) a j : S250x2x64.Idx) := by
  refine funext fun b => Fin.ext ?_
  obtain ⟨-, -, -, -, -, -, -, -, -, -, e0, e1, e2⟩ := idx0 t
  match b with
  | ⟨0, _⟩ => show win0_4.index t (0 : Fin 3) * 1 + 1 * 0 = t.val; omega
  | ⟨1, _⟩ => show win0_4.index t (1 : Fin 3) * 2 + 1 * a.val = a.val; omega
  | ⟨2, _⟩ => show win0_4.index t (2 : Fin 3) * 64 + 1 * j.val = j.val; omega

/-- What point `t` writes back of the moments is block `t` of `momF` of the hidden array. -/
theorem flushedMom_eq (c : Dev nD) (t : Fin cfg0.N) :
    (dat0 V c).flushed 4 t
      = ((cfg0.win 4).blk t).view.read (Elt Ideal) (momF (hidF (V c main_v113) (V c main_arg2) (V c main_v114))) := by
  show (cfg0.win 4).cut (grid0.coords t) ((dat0 V c).after 4 t) = _
  rw [after0_4]
  funext y
  obtain ⟨z, a, j, rfl⟩ : ∃ (z : Fin 1) (a : Fin 2) (j : Fin 64), y = ix3 z a j := ⟨y 0, y 1, y 2, eq_ix3 y⟩
  obtain rfl : z = 0 := Subsingleton.elim _ _
  show momOut (blk0 V c 0 t) (blk0 V c 1 t) (blk0 V c 2 t) (ix3 (0 : Fin 1) a j)
    = momF (hidF (V c main_v113) (V c main_arg2) (V c main_v114)) (((cfg0.win 4).blk t).view.emb (ix3 (0 : Fin 1) a j))
  rw [emb0_4]
  match a with
  | ⟨0, _⟩ =>
    refine ((momOut_apply _ _ _ j).1).trans ?_
    simp only [hidBlock_apply]
    exact (if_pos rfl).symm
  | ⟨1, _⟩ =>
    refine ((momOut_apply _ _ _ j).2).trans ?_
    simp only [hidBlock_apply]
    exact (if_neg (show ¬ ((1 : ℕ) = 0) from Nat.one_ne_zero)).symm

theorem mem_blk0_4 (t : Fin cfg0.N) (i : S250x2x64.Idx) :
    i ∈ ((cfg0.win 4).blk t).view.set ↔ ∀ a : Fin 3, win0_4.index t a * S1x2x64.size a ≤ (i a).val
      ∧ (i a).val < win0_4.index t a * S1x2x64.size a + S1x2x64.size a := by
  show i ∈ ((View.whole main_v115_1).slice (win0_4.rect t)).set ↔ _
  rw [View.set_slice_whole, Rect.mem_set_unit]
  exact Iff.rfl

theorem coverMomArr (i : S250x2x64.Idx) :
    ∃ t : Fin cfg0.N, (cfg0.win 4).flush t = true ∧ i ∈ ((cfg0.win 4).blk t).view.set := by
  have hi0 : (i 0).val < 250 := (i 0).isLt
  have hi1 : (i 1).val < 2 := (i 1).isLt
  have hi2 : (i 2).val < 64 := (i 2).isLt
  refine ⟨⟨(i 0).val, by have h250 : cfg0.N = 250 := N_0; omega⟩, flush0_4 _, ?_⟩
  rw [mem_blk0_4]
  obtain ⟨-, -, -, -, -, -, -, -, -, -, e0, e1, e2⟩ := idx0 ⟨(i 0).val, by have h250 : cfg0.N = 250 := N_0; omega⟩
  intro a
  match a with
  | ⟨0, _⟩ =>
    show win0_4.index _ (0 : Fin 3) * 1 ≤ (i 0).val ∧ (i 0).val < win0_4.index _ (0 : Fin 3) * 1 + 1
    rw [e0]; show (i 0).val * 1 ≤ (i 0).val ∧ (i 0).val < (i 0).val * 1 + 1; omega
  | ⟨1, _⟩ =>
    show win0_4.index _ (1 : Fin 3) * 2 ≤ (i 1).val ∧ (i 1).val < win0_4.index _ (1 : Fin 3) * 2 + 2
    rw [e1]; omega
  | ⟨2, _⟩ =>
    show win0_4.index _ (2 : Fin 3) * 64 ≤ (i 2).val ∧ (i 2).val < win0_4.index _ (2 : Fin 3) * 64 + 64
    rw [e2]; omega

/-- The moments array after region 0. -/
theorem finalMom (c : Dev nD) :
    (dat0 V c).arrAt 4 cfg0.N = momF (hidF (V c main_v113) (V c main_arg2) (V c main_v114)) :=
  (dat0 V c).arrAt_eq_of_cover 4 _ (fun t _ => flushedMom_eq V c t) coverMomArr

/-! ## Region 1: the output rows -/

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt50 (t : Fin cfg1.N) : t.val < 50 := lt_of_lt_of_eq t.isLt N_1

/-- The small constant under the root. -/
abbrev epsW : EReal := Ideal.ofBits .f32 0x3727C5AC#32

/-- The output array, from the hidden array `H`, the scale `g`, shift `be`, mean `mu`, variance `va` (rows 1 × 64), the mixing
    matrix `Wm` and its bias row `bm`. -/
def outF (H : (⟨S500000x64, .f32⟩ : BufTy).Contents (Elt Ideal)) (g be mu va : (⟨S1x64, .f32⟩ : BufTy).Contents (Elt Ideal))
    (Wm : (⟨S64x6, .f32⟩ : BufTy).Contents (Elt Ideal)) (bm : (⟨S1x6, .f32⟩ : BufTy).Contents (Elt Ideal)) :
    (⟨S500000x6, .f32⟩ : BufTy).Contents (Elt Ideal) :=
  fun i => (∑ j : Fin 64, max ((((H (ix2 (i 0) j) - mu (ix2 (0 : Fin 1) j)) * Ideal.rsqrt (va (ix2 (0 : Fin 1) j) + epsW))
      * g (ix2 (0 : Fin 1) j)) + be (ix2 (0 : Fin 1) j)) 0 * Wm (ix2 j (i 1))) + bm (ix2 (0 : Fin 1) (i 1))

theorem mixOut_apply (x0 : Vec Ideal S10000x64 .f32) (x1 x2 x3 x4 : Vec Ideal S1x64 .f32) (x5 : Vec Ideal S64x6 .f32)
    (x6 : Vec Ideal S1x6 .f32) (r : Fin 10000) (o : Fin 6) :
    mixOut x0 x1 x2 x3 x4 x5 x6 (ix2 r o)
      = (∑ j : Fin 64, max ((((x0 (ix2 r j) - x3 (ix2 (0 : Fin 1) j)) * Ideal.rsqrt (x4 (ix2 (0 : Fin 1) j) + epsW))
          * x1 (ix2 (0 : Fin 1) j)) + x2 (ix2 (0 : Fin 1) j)) 0 * x5 (ix2 j o)) + x6 (ix2 (0 : Fin 1) o) := by
  unfold mixOut
  rw [View.canon_unit_zero hz2]
  have h0 : View.ld x0 rRows = x0 := View.ld_unit_zero hz2 _ x0
  have h1 : View.ld x4 rRow64 = x4 := View.ld_unit_zero hz2 _ x4
  have h2 : View.ld x3 rRow64 = x3 := View.ld_unit_zero hz2 _ x3
  have h3 : View.ld x1 rRow64 = x1 := View.ld_unit_zero hz2 _ x1
  have h4 : View.ld x2 rRow64 = x2 := View.ld_unit_zero hz2 _ x2
  have h5 : View.ld x5 rMix = x5 := View.ld_unit_zero hz2 _ x5
  have h6 : View.ld x6 rRow6 = x6 := View.ld_unit_zero hz2 _ x6
  have e : k1_pay1 (F := Ideal) (View.ld x0 rRows) (View.ld x4 rRow64) (View.ld x3 rRow64) (View.ld x1 rRow64) (View.ld x2 rRow64) (View.ld x5 rMix) (View.ld x6 rRow6)
      = k1_pay1 (F := Ideal) x0 x4 x3 x1 x2 x5 x6 :=
    (((((((congrArg (fun z => k1_pay1 (F := Ideal) z (View.ld x4 rRow64) (View.ld x3 rRow64) (View.ld x1 rRow64) (View.ld x2 rRow64) (View.ld x5 rMix) (View.ld x6 rRow6)) (h0))).trans (congrArg (fun z => k1_pay1 (F := Ideal) x0 z (View.ld x3 rRow64) (View.ld x1 rRow64) (View.ld x2 rRow64) (View.ld x5 rMix) (View.ld x6 rRow6)) (h1))).trans (congrArg (fun z => k1_pay1 (F := Ideal) x0 x4 z (View.ld x1 rRow64) (View.ld x2 rRow64) (View.ld x5 rMix) (View.ld x6 rRow6)) (h2))).trans (congrArg (fun z => k1_pay1 (F := Ideal) x0 x4 x3 z (View.ld x2 rRow64) (View.ld x5 rMix) (View.ld x6 rRow6)) (h3))).trans (congrArg (fun z => k1_pay1 (F := Ideal) x0 x4 x3 x1 z (View.ld x5 rMix) (View.ld x6 rRow6)) (h4))).trans (congrArg (fun z => k1_pay1 (F := Ideal) x0 x4 x3 x1 x2 z (View.ld x6 rRow6)) (h5))).trans (congrArg (fun z => k1_pay1 (F := Ideal) x0 x4 x3 x1 x2 x5 z) (h6))
  exact (congrFun e _).trans (out_apply x0 x4 x3 x1 x2 x5 x6 r o)

theorem blk1_0_apply (c : Dev nD) (t : Fin cfg1.N) (r : Fin 10000) (j : Fin 64) :
    blk1 V c 0 t (ix2 r j)
      = V c main_v115_0 (ix2 (⟨10000 * t.val + r.val, by have := lt50 t; have := r.isLt; omega⟩ : Fin 500000) j) := by
  show V c main_v115_0 (((cfg1.win 0).blk t).view.emb (ix2 r j)) = _
  refine congrArg (V c main_v115_0) (funext fun a => Fin.ext ?_)
  obtain ⟨e0, e1, -⟩ := idx1 t
  match a with
  | ⟨0, _⟩ => show win1_0.index t (0 : Fin 2) * 10000 + 1 * r.val = 10000 * t.val + r.val; omega
  | ⟨1, _⟩ => show win1_0.index t (1 : Fin 2) * 64 + 1 * j.val = j.val; omega

theorem blk1_1_apply (c : Dev nD) (t : Fin cfg1.N) (j : Fin 64) :
    blk1 V c 1 t (ix2 (0 : Fin 1) j) = V c main_v127 (ix2 (0 : Fin 1) j) := by
  show V c main_v127 (((cfg1.win 1).blk t).view.emb (ix2 (0 : Fin 1) j)) = _
  refine congrArg (V c main_v127) (funext fun a => Fin.ext ?_)
  obtain ⟨-, -, e0, e1, -⟩ := idx1 t
  match a with
  | ⟨0, _⟩ => show win1_1.index t (0 : Fin 2) * 1 + 1 * 0 = 0; omega
  | ⟨1, _⟩ => show win1_1.index t (1 : Fin 2) * 64 + 1 * j.val = j.val; omega

theorem blk1_2_apply (c : Dev nD) (t : Fin cfg1.N) (j : Fin 64) :
    blk1 V c 2 t (ix2 (0 : Fin 1) j) = V c main_v128 (ix2 (0 : Fin 1) j) := by
  show V c main_v128 (((cfg1.win 2).blk t).view.emb (ix2 (0 : Fin 1) j)) = _
  refine congrArg (V c main_v128) (funext fun a => Fin.ext ?_)
  obtain ⟨-, -, -, -, e0, e1, -⟩ := idx1 t
  match a with
  | ⟨0, _⟩ => show win1_2.index t (0 : Fin 2) * 1 + 1 * 0 = 0; omega
  | ⟨1, _⟩ => show win1_2.index t (1 : Fin 2) * 64 + 1 * j.val = j.val; omega

theorem blk1_3_apply (c : Dev nD) (t : Fin cfg1.N) (j : Fin 64) :
    blk1 V c 3 t (ix2 (0 : Fin 1) j) = V c main_v129 (ix2 (0 : Fin 1) j) := by
  show V c main_v129 (((cfg1.win 3).blk t).view.emb (ix2 (0 : Fin 1) j)) = _
  refine congrArg (V c main_v129) (funext fun a => Fin.ext ?_)
  obtain ⟨-, -, -, -, -, -, e0, e1, -⟩ := idx1 t
  match a with
  | ⟨0, _⟩ => show win1_3.index t (0 : Fin 2) * 1 + 1 * 0 = 0; omega
  | ⟨1, _⟩ => show win1_3.index t (1 : Fin 2) * 64 + 1 * j.val = j.val; omega

theorem blk1_4_apply (c : Dev nD) (t : Fin cfg1.N) (j : Fin 64) :
    blk1 V c 4 t (ix2 (0 : Fin 1) j) = V c main_v130 (ix2 (0 : Fin 1) j) := by
  show V c main_v130 (((cfg1.win 4).blk t).view.emb (ix2 (0 : Fin 1) j)) = _
  refine congrArg (V c main_v130) (funext fun a => Fin.ext ?_)
  obtain ⟨-, -, -, -, -, -, -, -, e0, e1, -⟩ := idx1 t
  match a with
  | ⟨0, _⟩ => show win1_4.index t (0 : Fin 2) * 1 + 1 * 0 = 0; omega
  | ⟨1, _⟩ => show win1_4.index t (1 : Fin 2) * 64 + 1 * j.val = j.val; omega

theorem blk1_5_apply (c : Dev nD) (t : Fin cfg1.N) (j : Fin 64) (o : Fin 6) :
    blk1 V c 5 t (ix2 j o) = V c main_v131 (ix2 j o) := by
  show V c main_v131 (((cfg1.win 5).blk t).view.emb (ix2 j o)) = _
  refine congrArg (V c main_v131) (funext fun a => Fin.ext ?_)
  obtain ⟨-, -, -, -, -, -, -, -, -, -, e0, e1, -⟩ := idx1 t
  match a with
  | ⟨0, _⟩ => show win1_5.index t (0 : Fin 2) * 64 + 1 * j.val = j.val; omega
  | ⟨1, _⟩ => show win1_5.index t (1 : Fin 2) * 6 + 1 * o.val = o.val; omega

theorem blk1_6_apply (c : Dev nD) (t : Fin cfg1.N) (o : Fin 6) :
    blk1 V c 6 t (ix2 (0 : Fin 1) o) = V c main_v132 (ix2 (0 : Fin 1) o) := by
  show V c main_v132 (((cfg1.win 6).blk t).view.emb (ix2 (0 : Fin 1) o)) = _
  refine congrArg (V c main_v132) (funext fun a => Fin.ext ?_)
  obtain ⟨-, -, -, -, -, -, -, -, -, -, -, -, e0, e1, -⟩ := idx1 t
  match a with
  | ⟨0, _⟩ => show win1_6.index t (0 : Fin 2) * 1 + 1 * 0 = 0; omega
  | ⟨1, _⟩ => show win1_6.index t (1 : Fin 2) * 6 + 1 * o.val = o.val; omega

theorem emb1_7 (t : Fin cfg1.N) (r : Fin 10000) (o : Fin 6) :
    ((cfg1.win 7).blk t).view.emb (ix2 r o)
      = (ix2 (⟨10000 * t.val + r.val, by have := lt50 t; have := r.isLt; omega⟩ : Fin 500000) o : S500000x6.Idx) := by
  refine funext fun a => Fin.ext ?_
  obtain ⟨-, -, -, -, -, -, -, -, -, -, -, -, -, -, e0, e1⟩ := idx1 t
  match a with
  | ⟨0, _⟩ => show win1_7.index t (0 : Fin 2) * 10000 + 1 * r.val = 10000 * t.val + r.val; omega
  | ⟨1, _⟩ => show win1_7.index t (1 : Fin 2) * 6 + 1 * o.val = o.val; omega

/-- What point `t` of region 1 writes back is block `t` of `outF` of the arrays the region found. -/
theorem flushedOut_eq (c : Dev nD) (t : Fin cfg1.N) :
    (dat1 V c).flushed 7 t = ((cfg1.win 7).blk t).view.read (Elt Ideal)
      (outF (V c main_v115_0) (V c main_v127) (V c main_v128) (V c main_v129) (V c main_v130) (V c main_v131) (V c main_v132)) := by
  show (cfg1.win 7).cut (grid1.coords t) ((dat1 V c).after 7 t) = _
  rw [after1_7]
  funext y
  obtain ⟨r, o, rfl⟩ : ∃ (r : Fin 10000) (o : Fin 6), y = ix2 r o := ⟨y 0, y 1, eq_ix2 y⟩
  show mixOut (blk1 V c 0 t) (blk1 V c 1 t) (blk1 V c 2 t) (blk1 V c 3 t) (blk1 V c 4 t) (blk1 V c 5 t) (blk1 V c 6 t) (ix2 r o)
    = outF (V c main_v115_0) (V c main_v127) (V c main_v128) (V c main_v129) (V c main_v130) (V c main_v131) (V c main_v132)
        (((cfg1.win 7).blk t).view.emb (ix2 r o))
  rw [mixOut_apply, emb1_7]
  simp only [blk1_0_apply, blk1_1_apply, blk1_2_apply, blk1_3_apply, blk1_4_apply, blk1_5_apply, blk1_6_apply]
  rfl

theorem mem_blk1_7 (t : Fin cfg1.N) (i : S500000x6.Idx) :
    i ∈ ((cfg1.win 7).blk t).view.set ↔ ∀ a : Fin 2, win1_7.index t a * S10000x6.size a ≤ (i a).val
      ∧ (i a).val < win1_7.index t a * S10000x6.size a + S10000x6.size a := by
  show i ∈ ((View.whole main_v133).slice (win1_7.rect t)).set ↔ _
  rw [View.set_slice_whole, Rect.mem_set_unit]
  exact Iff.rfl

theorem coverOutArr (i : S500000x6.Idx) :
    ∃ t : Fin cfg1.N, (cfg1.win 7).flush t = true ∧ i ∈ ((cfg1.win 7).blk t).view.set := by
  have hi0 : (i 0).val < 500000 := (i 0).isLt
  have hi1 : (i 1).val < 6 := (i 1).isLt
  refine ⟨⟨(i 0).val / 10000, by have h50 : cfg1.N = 50 := N_1; omega⟩, flush1_7 _, ?_⟩
  rw [mem_blk1_7]
  obtain ⟨-, -, -, -, -, -, -, -, -, -, -, -, -, -, e0, e1⟩ := idx1 ⟨(i 0).val / 10000, by have h50 : cfg1.N = 50 := N_1; omega⟩
  intro a
  match a with
  | ⟨0, _⟩ =>
    show win1_7.index _ (0 : Fin 2) * 10000 ≤ (i 0).val ∧ (i 0).val < win1_7.index _ (0 : Fin 2) * 10000 + 10000
    rw [e0]; show (i 0).val / 10000 * 10000 ≤ (i 0).val ∧ (i 0).val < (i 0).val / 10000 * 10000 + 10000; omega
  | ⟨1, _⟩ =>
    show win1_7.index _ (1 : Fin 2) * 6 ≤ (i 1).val ∧ (i 1).val < win1_7.index _ (1 : Fin 2) * 6 + 6
    rw [e1]; omega

/-- The output array after region 1. -/
theorem finalOut (c : Dev nD) :
    (dat1 V c).arrAt 7 cfg1.N
      = outF (V c main_v115_0) (V c main_v127) (V c main_v128) (V c main_v129) (V c main_v130) (V c main_v131) (V c main_v132) :=
  (dat1 V c).arrAt_eq_of_cover 7 _ (fun t _ => flushedOut_eq V c t) coverOutArr

end Cert.KernelIdeal.KValue

end
-- ==== Proof.KernelIdealHost.lean ====
/-
  What the host stretches leave in the buffers the two regions read.

  Before region 0: the stack of the six Chebyshev bases (each base one slab of a 6 × 500000 × 24 array) and the bias as a
  1 × 64 row.  The long stretch that computes them is cut where one base is finished: the edge weights, then one
  propagation per base, then the stacking; each piece is read on an arbitrary valuation of the buffers, from the
  contents of the few buffers it reads, and leaves every buffer it does not write as it found it.
  Before region 1: the scale, shift, mixing matrix and mixing bias re-laid, and the mean and the variance, computed
  from the moments array by summing over the 250 tiles and dividing by the number of rows.
-/
import proofs.«105403_j78039555768470_2_alg».proof.Proof.KernelIdealRun
import proofs.«105403_j78039555768470_2_alg».proof.Proof.Bases
import Idealize.ShloMosaic.Lib.StableHlo.Run

set_option maxRecDepth 16384

noncomputable section

namespace Cert.KernelIdeal.KHost

open Cert.KernelIdeal Cert.KernelIdeal.Gen Cert.KernelIdeal.Run Cert.KernelIdeal.Bases
open Idealize.ShloMosaic Idealize.ShloMosaic.TcCoe Idealize.ShloMosaic.StableHlo Idealize.SL.Sem

variable {F : FTy → Type} [FloatOps F]

/-- Operations in sequence: first the one list, then the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## The long stretch, cut where a base is finished -/

abbrev sN : List (HloOp τ sig (Elt F)) :=
  [ StableHlo.nullary main_c (constantI S_ 32 0#32),
    StableHlo.unary main_c main_v14 (broadcastInDim S4000000 ![] bcast_S_S4000000 : (⟨S_, .i32⟩ : BufTy).Contents (Elt F) → (⟨S4000000, .i32⟩ : BufTy).Contents (Elt F)),
    StableHlo.binary main_v1 main_v14 main_v15 (cmpi .slt : (⟨S4000000, .i32⟩ : BufTy).Contents (Elt F) → (⟨S4000000, .i32⟩ : BufTy).Contents (Elt F) → (⟨S4000000, .i1⟩ : BufTy).Contents (Elt F)),
    StableHlo.nullary main_c_4 (constantI S_ 32 500000#32),
    StableHlo.unary main_c_4 main_v16 (broadcastInDim S4000000 ![] bcast_S_S4000000 : (⟨S_, .i32⟩ : BufTy).Contents (Elt F) → (⟨S4000000, .i32⟩ : BufTy).Contents (Elt F)),
    StableHlo.binary main_v1 main_v16 main_v17 (addi : (⟨S4000000, .i32⟩ : BufTy).Contents (Elt F) → (⟨S4000000, .i32⟩ : BufTy).Contents (Elt F) → (⟨S4000000, .i32⟩ : BufTy).Contents (Elt F)),
    StableHlo.ternary main_v15 main_v17 main_v1 main_v18 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v18 main_v19 (broadcastInDim S4000000x1 ![0] bcast_S4000000_S4000000x1_0 : (⟨S4000000, .i32⟩ : BufTy).Contents (Elt F) → (⟨S4000000x1, .i32⟩ : BufTy).Contents (Elt F)),
    StableHlo.binary main_v13 main_v19 main_v20 ((fun x i => Host.gather gather_S500000_S4000000x1_S4000000_n_0_n_n_0_1_1 x i) : (⟨S500000, .f32⟩ : BufTy).Contents (Elt F) → (⟨S4000000x1, .i32⟩ : BufTy).Contents (Elt F) → (⟨S4000000, .f32⟩ : BufTy).Contents (Elt F)),
    StableHlo.nullary main_c_5 (constantI S_ 32 0#32),
    StableHlo.unary main_c_5 main_v21 (broadcastInDim S4000000 ![] bcast_S_S4000000 : (⟨S_, .i32⟩ : BufTy).Contents (Elt F) → (⟨S4000000, .i32⟩ : BufTy).Contents (Elt F)),
    StableHlo.binary main_v3 main_v21 main_v22 (cmpi .slt : (⟨S4000000, .i32⟩ : BufTy).Contents (Elt F) → (⟨S4000000, .i32⟩ : BufTy).Contents (Elt F) → (⟨S4000000, .i1⟩ : BufTy).Contents (Elt F)),
    StableHlo.nullary main_c_6 (constantI S_ 32 500000#32),
    StableHlo.unary main_c_6 main_v23 (broadcastInDim S4000000 ![] bcast_S_S4000000 : (⟨S_, .i32⟩ : BufTy).Contents (Elt F) → (⟨S4000000, .i32⟩ : BufTy).Contents (Elt F)),
    StableHlo.binary main_v3 main_v23 main_v24 (addi : (⟨S4000000, .i32⟩ : BufTy).Contents (Elt F) → (⟨S4000000, .i32⟩ : BufTy).Contents (Elt F) → (⟨S4000000, .i32⟩ : BufTy).Contents (Elt F)),
    StableHlo.ternary main_v22 main_v24 main_v3 main_v25 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v25 main_v26 (broadcastInDim S4000000x1 ![0] bcast_S4000000_S4000000x1_0 : (⟨S4000000, .i32⟩ : BufTy).Contents (Elt F) → (⟨S4000000x1, .i32⟩ : BufTy).Contents (Elt F)),
    StableHlo.binary main_v13 main_v26 main_v27 ((fun x i => Host.gather gather_S500000_S4000000x1_S4000000_n_0_n_n_0_1_1 x i) : (⟨S500000, .f32⟩ : BufTy).Contents (Elt F) → (⟨S4000000x1, .i32⟩ : BufTy).Contents (Elt F) → (⟨S4000000, .f32⟩ : BufTy).Contents (Elt F)),
    StableHlo.binary main_v20 main_v27 main_v28 (mulf : (⟨S4000000, .f32⟩ : BufTy).Contents (Elt F) → (⟨S4000000, .f32⟩ : BufTy).Contents (Elt F) → (⟨S4000000, .f32⟩ : BufTy).Contents (Elt F)),
    StableHlo.unary main_v28 main_v29 (Host.negf : (⟨S4000000, .f32⟩ : BufTy).Contents (Elt F) → (⟨S4000000, .f32⟩ : BufTy).Contents (Elt F)) ]

abbrev sP1 : List (HloOp τ sig (Elt F)) :=
  [ StableHlo.unary main_v29 main_v30 (broadcastInDim S4000000x1 ![0] bcast_S4000000_S4000000x1_0 : (⟨S4000000, .f32⟩ : BufTy).Contents (Elt F) → (⟨S4000000x1, .f32⟩ : BufTy).Contents (Elt F)),
    StableHlo.nullary main_c_7 (constantI S_ 32 0#32),
    StableHlo.unary main_c_7 main_v31 (broadcastInDim S4000000 ![] bcast_S_S4000000 : (⟨S_, .i32⟩ : BufTy).Contents (Elt F) → (⟨S4000000, .i32⟩ : BufTy).Contents (Elt F)),
    StableHlo.binary main_v1 main_v31 main_v32 (cmpi .slt : (⟨S4000000, .i32⟩ : BufTy).Contents (Elt F) → (⟨S4000000, .i32⟩ : BufTy).Contents (Elt F) → (⟨S4000000, .i1⟩ : BufTy).Contents (Elt F)),
    StableHlo.nullary main_c_8 (constantI S_ 32 500000#32),
    StableHlo.unary main_c_8 main_v33 (broadcastInDim S4000000 ![] bcast_S_S4000000 : (⟨S_, .i32⟩ : BufTy).Contents (Elt F) → (⟨S4000000, .i32⟩ : BufTy).Contents (Elt F)),
    StableHlo.binary main_v1 main_v33 main_v34 (addi : (⟨S4000000, .i32⟩ : BufTy).Contents (Elt F) → (⟨S4000000, .i32⟩ : BufTy).Contents (Elt F) → (⟨S4000000, .i32⟩ : BufTy).Contents (Elt F)),
    StableHlo.ternary main_v32 main_v34 main_v1 main_v35 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v35 main_v36 (broadcastInDim S4000000x1 ![0] bcast_S4000000_S4000000x1_0 : (⟨S4000000, .i32⟩ : BufTy).Contents (Elt F) → (⟨S4000000x1, .i32⟩ : BufTy).Contents (Elt F)),
    StableHlo.binary main_arg0 main_v36 main_v37 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    StableHlo.unary main_v30 main_v38 (broadcastInDim S4000000x24 ![0, 1] bcast_S4000000x1_S4000000x24_0_1 : (⟨S4000000x1, .f32⟩ : BufTy).Contents (Elt F) → (⟨S4000000x24, .f32⟩ : BufTy).Contents (Elt F)),
    StableHlo.binary main_v38 main_v37 main_v39 (mulf : (⟨S4000000x24, .f32⟩ : BufTy).Contents (Elt F) → (⟨S4000000x24, .f32⟩ : BufTy).Contents (Elt F) → (⟨S4000000x24, .f32⟩ : BufTy).Contents (Elt F)),
    StableHlo.nullary main_cst_9 (constant S_ .f32 0x00000000#32),
    StableHlo.unary main_cst_9 main_v40 (broadcastInDim S500000x24 ![] bcast_S_S500000x24 : (⟨S_, .f32⟩ : BufTy).Contents (Elt F) → (⟨S500000x24, .f32⟩ : BufTy).Contents (Elt F)),
    StableHlo.unary main_v3 main_v41 (broadcastInDim S4000000x1 ![0] bcast_S4000000_S4000000x1_0 : (⟨S4000000, .i32⟩ : BufTy).Contents (Elt F) → (⟨S4000000x1, .i32⟩ : BufTy).Contents (Elt F)),
    StableHlo.ternary main_v40 main_v41 main_v39 main_v42 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)) ]

abbrev sP2 : List (HloOp τ sig (Elt F)) :=
  [ StableHlo.unary main_v29 main_v43 (broadcastInDim S4000000x1 ![0] bcast_S4000000_S4000000x1_0 : (⟨S4000000, .f32⟩ : BufTy).Contents (Elt F) → (⟨S4000000x1, .f32⟩ : BufTy).Contents (Elt F)),
    StableHlo.nullary main_c_10 (constantI S_ 32 0#32),
    StableHlo.unary main_c_10 main_v44 (broadcastInDim S4000000 ![] bcast_S_S4000000 : (⟨S_, .i32⟩ : BufTy).Contents (Elt F) → (⟨S4000000, .i32⟩ : BufTy).Contents (Elt F)),
    StableHlo.binary main_v1 main_v44 main_v45 (cmpi .slt : (⟨S4000000, .i32⟩ : BufTy).Contents (Elt F) → (⟨S4000000, .i32⟩ : BufTy).Contents (Elt F) → (⟨S4000000, .i1⟩ : BufTy).Contents (Elt F)),
    StableHlo.nullary main_c_11 (constantI S_ 32 500000#32),
    StableHlo.unary main_c_11 main_v46 (broadcastInDim S4000000 ![] bcast_S_S4000000 : (⟨S_, .i32⟩ : BufTy).Contents (Elt F) → (⟨S4000000, .i32⟩ : BufTy).Contents (Elt F)),
    StableHlo.binary main_v1 main_v46 main_v47 (addi : (⟨S4000000, .i32⟩ : BufTy).Contents (Elt F) → (⟨S4000000, .i32⟩ : BufTy).Contents (Elt F) → (⟨S4000000, .i32⟩ : BufTy).Contents (Elt F)),
    StableHlo.ternary main_v45 main_v47 main_v1 main_v48 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v48 main_v49 (broadcastInDim S4000000x1 ![0] bcast_S4000000_S4000000x1_0 : (⟨S4000000, .i32⟩ : BufTy).Contents (Elt F) → (⟨S4000000x1, .i32⟩ : BufTy).Contents (Elt F)),
    StableHlo.binary main_v42 main_v49 main_v50 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    StableHlo.unary main_v43 main_v51 (broadcastInDim S4000000x24 ![0, 1] bcast_S4000000x1_S4000000x24_0_1 : (⟨S4000000x1, .f32⟩ : BufTy).Contents (Elt F) → (⟨S4000000x24, .f32⟩ : BufTy).Contents (Elt F)),
    StableHlo.binary main_v51 main_v50 main_v52 (mulf : (⟨S4000000x24, .f32⟩ : BufTy).Contents (Elt F) → (⟨S4000000x24, .f32⟩ : BufTy).Contents (Elt F) → (⟨S4000000x24, .f32⟩ : BufTy).Contents (Elt F)),
    StableHlo.nullary main_cst_12 (constant S_ .f32 0x00000000#32),
    StableHlo.unary main_cst_12 main_v53 (broadcastInDim S500000x24 ![] bcast_S_S500000x24 : (⟨S_, .f32⟩ : BufTy).Contents (Elt F) → (⟨S500000x24, .f32⟩ : BufTy).Contents (Elt F)),
    StableHlo.unary main_v3 main_v54 (broadcastInDim S4000000x1 ![0] bcast_S4000000_S4000000x1_0 : (⟨S4000000, .i32⟩ : BufTy).Contents (Elt F) → (⟨S4000000x1, .i32⟩ : BufTy).Contents (Elt F)),
    StableHlo.ternary main_v53 main_v54 main_v52 main_v55 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    StableHlo.nullary main_cst_13 (constant S_ .f32 0x40000000#32),
    StableHlo.unary main_cst_13 main_v56 (broadcastInDim S500000x24 ![] bcast_S_S500000x24 : (⟨S_, .f32⟩ : BufTy).Contents (Elt F) → (⟨S500000x24, .f32⟩ : BufTy).Contents (Elt F)),
    StableHlo.binary main_v56 main_v55 main_v57 (mulf : (⟨S500000x24, .f32⟩ : BufTy).Contents (Elt F) → (⟨S500000x24, .f32⟩ : BufTy).Contents (Elt F) → (⟨S500000x24, .f32⟩ : BufTy).Contents (Elt F)),
    StableHlo.binary main_v57 main_arg0 main_v58 (subf : (⟨S500000x24, .f32⟩ : BufTy).Contents (Elt F) → (⟨S500000x24, .f32⟩ : BufTy).Contents (Elt F) → (⟨S500000x24, .f32⟩ : BufTy).Contents (Elt F)) ]

abbrev sP3 : List (HloOp τ sig (Elt F)) :=
  [ StableHlo.unary main_v29 main_v59 (broadcastInDim S4000000x1 ![0] bcast_S4000000_S4000000x1_0 : (⟨S4000000, .f32⟩ : BufTy).Contents (Elt F) → (⟨S4000000x1, .f32⟩ : BufTy).Contents (Elt F)),
    StableHlo.nullary main_c_14 (constantI S_ 32 0#32),
    StableHlo.unary main_c_14 main_v60 (broadcastInDim S4000000 ![] bcast_S_S4000000 : (⟨S_, .i32⟩ : BufTy).Contents (Elt F) → (⟨S4000000, .i32⟩ : BufTy).Contents (Elt F)),
    StableHlo.binary main_v1 main_v60 main_v61 (cmpi .slt : (⟨S4000000, .i32⟩ : BufTy).Contents (Elt F) → (⟨S4000000, .i32⟩ : BufTy).Contents (Elt F) → (⟨S4000000, .i1⟩ : BufTy).Contents (Elt F)),
    StableHlo.nullary main_c_15 (constantI S_ 32 500000#32),
    StableHlo.unary main_c_15 main_v62 (broadcastInDim S4000000 ![] bcast_S_S4000000 : (⟨S_, .i32⟩ : BufTy).Contents (Elt F) → (⟨S4000000, .i32⟩ : BufTy).Contents (Elt F)),
    StableHlo.binary main_v1 main_v62 main_v63 (addi : (⟨S4000000, .i32⟩ : BufTy).Contents (Elt F) → (⟨S4000000, .i32⟩ : BufTy).Contents (Elt F) → (⟨S4000000, .i32⟩ : BufTy).Contents (Elt F)),
    StableHlo.ternary main_v61 main_v63 main_v1 main_v64 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v64 main_v65 (broadcastInDim S4000000x1 ![0] bcast_S4000000_S4000000x1_0 : (⟨S4000000, .i32⟩ : BufTy).Contents (Elt F) → (⟨S4000000x1, .i32⟩ : BufTy).Contents (Elt F)),
    StableHlo.binary main_v58 main_v65 main_v66 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    StableHlo.unary main_v59 main_v67 (broadcastInDim S4000000x24 ![0, 1] bcast_S4000000x1_S4000000x24_0_1 : (⟨S4000000x1, .f32⟩ : BufTy).Contents (Elt F) → (⟨S4000000x24, .f32⟩ : BufTy).Contents (Elt F)),
    StableHlo.binary main_v67 main_v66 main_v68 (mulf : (⟨S4000000x24, .f32⟩ : BufTy).Contents (Elt F) → (⟨S4000000x24, .f32⟩ : BufTy).Contents (Elt F) → (⟨S4000000x24, .f32⟩ : BufTy).Contents (Elt F)),
    StableHlo.nullary main_cst_16 (constant S_ .f32 0x00000000#32),
    StableHlo.unary main_cst_16 main_v69 (broadcastInDim S500000x24 ![] bcast_S_S500000x24 : (⟨S_, .f32⟩ : BufTy).Contents (Elt F) → (⟨S500000x24, .f32⟩ : BufTy).Contents (Elt F)),
    StableHlo.unary main_v3 main_v70 (broadcastInDim S4000000x1 ![0] bcast_S4000000_S4000000x1_0 : (⟨S4000000, .i32⟩ : BufTy).Contents (Elt F) → (⟨S4000000x1, .i32⟩ : BufTy).Contents (Elt F)),
    StableHlo.ternary main_v69 main_v70 main_v68 main_v71 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    StableHlo.nullary main_cst_17 (constant S_ .f32 0x40000000#32),
    StableHlo.unary main_cst_17 main_v72 (broadcastInDim S500000x24 ![] bcast_S_S500000x24 : (⟨S_, .f32⟩ : BufTy).Contents (Elt F) → (⟨S500000x24, .f32⟩ : BufTy).Contents (Elt F)),
    StableHlo.binary main_v72 main_v71 main_v73 (mulf : (⟨S500000x24, .f32⟩ : BufTy).Contents (Elt F) → (⟨S500000x24, .f32⟩ : BufTy).Contents (Elt F) → (⟨S500000x24, .f32⟩ : BufTy).Contents (Elt F)),
    StableHlo.binary main_v73 main_v42 main_v74 (subf : (⟨S500000x24, .f32⟩ : BufTy).Contents (Elt F) → (⟨S500000x24, .f32⟩ : BufTy).Contents (Elt F) → (⟨S500000x24, .f32⟩ : BufTy).Contents (Elt F)) ]

abbrev sP4 : List (HloOp τ sig (Elt F)) :=
  [ StableHlo.unary main_v29 main_v75 (broadcastInDim S4000000x1 ![0] bcast_S4000000_S4000000x1_0 : (⟨S4000000, .f32⟩ : BufTy).Contents (Elt F) → (⟨S4000000x1, .f32⟩ : BufTy).Contents (Elt F)),
    StableHlo.nullary main_c_18 (constantI S_ 32 0#32),
    StableHlo.unary main_c_18 main_v76 (broadcastInDim S4000000 ![] bcast_S_S4000000 : (⟨S_, .i32⟩ : BufTy).Contents (Elt F) → (⟨S4000000, .i32⟩ : BufTy).Contents (Elt F)),
    StableHlo.binary main_v1 main_v76 main_v77 (cmpi .slt : (⟨S4000000, .i32⟩ : BufTy).Contents (Elt F) → (⟨S4000000, .i32⟩ : BufTy).Contents (Elt F) → (⟨S4000000, .i1⟩ : BufTy).Contents (Elt F)),
    StableHlo.nullary main_c_19 (constantI S_ 32 500000#32),
    StableHlo.unary main_c_19 main_v78 (broadcastInDim S4000000 ![] bcast_S_S4000000 : (⟨S_, .i32⟩ : BufTy).Contents (Elt F) → (⟨S4000000, .i32⟩ : BufTy).Contents (Elt F)),
    StableHlo.binary main_v1 main_v78 main_v79 (addi : (⟨S4000000, .i32⟩ : BufTy).Contents (Elt F) → (⟨S4000000, .i32⟩ : BufTy).Contents (Elt F) → (⟨S4000000, .i32⟩ : BufTy).Contents (Elt F)),
    StableHlo.ternary main_v77 main_v79 main_v1 main_v80 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v80 main_v81 (broadcastInDim S4000000x1 ![0] bcast_S4000000_S4000000x1_0 : (⟨S4000000, .i32⟩ : BufTy).Contents (Elt F) → (⟨S4000000x1, .i32⟩ : BufTy).Contents (Elt F)),
    StableHlo.binary main_v74 main_v81 main_v82 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    StableHlo.unary main_v75 main_v83 (broadcastInDim S4000000x24 ![0, 1] bcast_S4000000x1_S4000000x24_0_1 : (⟨S4000000x1, .f32⟩ : BufTy).Contents (Elt F) → (⟨S4000000x24, .f32⟩ : BufTy).Contents (Elt F)),
    StableHlo.binary main_v83 main_v82 main_v84 (mulf : (⟨S4000000x24, .f32⟩ : BufTy).Contents (Elt F) → (⟨S4000000x24, .f32⟩ : BufTy).Contents (Elt F) → (⟨S4000000x24, .f32⟩ : BufTy).Contents (Elt F)),
    StableHlo.nullary main_cst_20 (constant S_ .f32 0x00000000#32),
    StableHlo.unary main_cst_20 main_v85 (broadcastInDim S500000x24 ![] bcast_S_S500000x24 : (⟨S_, .f32⟩ : BufTy).Contents (Elt F) → (⟨S500000x24, .f32⟩ : BufTy).Contents (Elt F)),
    StableHlo.unary main_v3 main_v86 (broadcastInDim S4000000x1 ![0] bcast_S4000000_S4000000x1_0 : (⟨S4000000, .i32⟩ : BufTy).Contents (Elt F) → (⟨S4000000x1, .i32⟩ : BufTy).Contents (Elt F)),
    StableHlo.ternary main_v85 main_v86 main_v84 main_v87 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    StableHlo.nullary main_cst_21 (constant S_ .f32 0x40000000#32),
    StableHlo.unary main_cst_21 main_v88 (broadcastInDim S500000x24 ![] bcast_S_S500000x24 : (⟨S_, .f32⟩ : BufTy).Contents (Elt F) → (⟨S500000x24, .f32⟩ : BufTy).Contents (Elt F)),
    StableHlo.binary main_v88 main_v87 main_v89 (mulf : (⟨S500000x24, .f32⟩ : BufTy).Contents (Elt F) → (⟨S500000x24, .f32⟩ : BufTy).Contents (Elt F) → (⟨S500000x24, .f32⟩ : BufTy).Contents (Elt F)),
    StableHlo.binary main_v89 main_v58 main_v90 (subf : (⟨S500000x24, .f32⟩ : BufTy).Contents (Elt F) → (⟨S500000x24, .f32⟩ : BufTy).Contents (Elt F) → (⟨S500000x24, .f32⟩ : BufTy).Contents (Elt F)) ]

abbrev sP5 : List (HloOp τ sig (Elt F)) :=
  [ StableHlo.unary main_v29 main_v91 (broadcastInDim S4000000x1 ![0] bcast_S4000000_S4000000x1_0 : (⟨S4000000, .f32⟩ : BufTy).Contents (Elt F) → (⟨S4000000x1, .f32⟩ : BufTy).Contents (Elt F)),
    StableHlo.nullary main_c_22 (constantI S_ 32 0#32),
    StableHlo.unary main_c_22 main_v92 (broadcastInDim S4000000 ![] bcast_S_S4000000 : (⟨S_, .i32⟩ : BufTy).Contents (Elt F) → (⟨S4000000, .i32⟩ : BufTy).Contents (Elt F)),
    StableHlo.binary main_v1 main_v92 main_v93 (cmpi .slt : (⟨S4000000, .i32⟩ : BufTy).Contents (Elt F) → (⟨S4000000, .i32⟩ : BufTy).Contents (Elt F) → (⟨S4000000, .i1⟩ : BufTy).Contents (Elt F)),
    StableHlo.nullary main_c_23 (constantI S_ 32 500000#32),
    StableHlo.unary main_c_23 main_v94 (broadcastInDim S4000000 ![] bcast_S_S4000000 : (⟨S_, .i32⟩ : BufTy).Contents (Elt F) → (⟨S4000000, .i32⟩ : BufTy).Contents (Elt F)),
    StableHlo.binary main_v1 main_v94 main_v95 (addi : (⟨S4000000, .i32⟩ : BufTy).Contents (Elt F) → (⟨S4000000, .i32⟩ : BufTy).Contents (Elt F) → (⟨S4000000, .i32⟩ : BufTy).Contents (Elt F)),
    StableHlo.ternary main_v93 main_v95 main_v1 main_v96 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v96 main_v97 (broadcastInDim S4000000x1 ![0] bcast_S4000000_S4000000x1_0 : (⟨S4000000, .i32⟩ : BufTy).Contents (Elt F) → (⟨S4000000x1, .i32⟩ : BufTy).Contents (Elt F)),
    StableHlo.binary main_v90 main_v97 main_v98 ((fun x i => Host.gather gather_S500000x24_S4000000x1_S4000000x24_1_0_n_n_0_1_124 x i) : (⟨S500000x24, .f32⟩ : BufTy).Contents (Elt F) → (⟨S4000000x1, .i32⟩ : BufTy).Contents (Elt F) → (⟨S4000000x24, .f32⟩ : BufTy).Contents (Elt F)),
    StableHlo.unary main_v91 main_v99 (broadcastInDim S4000000x24 ![0, 1] bcast_S4000000x1_S4000000x24_0_1 : (⟨S4000000x1, .f32⟩ : BufTy).Contents (Elt F) → (⟨S4000000x24, .f32⟩ : BufTy).Contents (Elt F)),
    StableHlo.binary main_v99 main_v98 main_v100 (mulf : (⟨S4000000x24, .f32⟩ : BufTy).Contents (Elt F) → (⟨S4000000x24, .f32⟩ : BufTy).Contents (Elt F) → (⟨S4000000x24, .f32⟩ : BufTy).Contents (Elt F)),
    StableHlo.nullary main_cst_24 (constant S_ .f32 0x00000000#32),
    StableHlo.unary main_cst_24 main_v101 (broadcastInDim S500000x24 ![] bcast_S_S500000x24 : (⟨S_, .f32⟩ : BufTy).Contents (Elt F) → (⟨S500000x24, .f32⟩ : BufTy).Contents (Elt F)),
    StableHlo.unary main_v3 main_v102 (broadcastInDim S4000000x1 ![0] bcast_S4000000_S4000000x1_0 : (⟨S4000000, .i32⟩ : BufTy).Contents (Elt F) → (⟨S4000000x1, .i32⟩ : BufTy).Contents (Elt F)),
    StableHlo.ternary main_v101 main_v102 main_v100 main_v103 ((fun x i u => Host.scatterAdd scatter_S500000x24_S4000000x1_S4000000x24_1_0_0_1 x i u) : (⟨S500000x24, .f32⟩ : BufTy).Contents (Elt F) → (⟨S4000000x1, .i32⟩ : BufTy).Contents (Elt F) → (⟨S4000000x24, .f32⟩ : BufTy).Contents (Elt F) → (⟨S500000x24, .f32⟩ : BufTy).Contents (Elt F)),
    StableHlo.nullary main_cst_25 (constant S_ .f32 0x40000000#32),
    StableHlo.unary main_cst_25 main_v104 (broadcastInDim S500000x24 ![] bcast_S_S500000x24 : (⟨S_, .f32⟩ : BufTy).Contents (Elt F) → (⟨S500000x24, .f32⟩ : BufTy).Contents (Elt F)),
    StableHlo.binary main_v104 main_v103 main_v105 (mulf : (⟨S500000x24, .f32⟩ : BufTy).Contents (Elt F) → (⟨S500000x24, .f32⟩ : BufTy).Contents (Elt F) → (⟨S500000x24, .f32⟩ : BufTy).Contents (Elt F)),
    StableHlo.binary main_v105 main_v74 main_v106 (subf : (⟨S500000x24, .f32⟩ : BufTy).Contents (Elt F) → (⟨S500000x24, .f32⟩ : BufTy).Contents (Elt F) → (⟨S500000x24, .f32⟩ : BufTy).Contents (Elt F)) ]

abbrev sS : List (HloOp τ sig (Elt F)) :=
  [ StableHlo.unary main_arg0 main_v107 (broadcastInDim S1x500000x24 ![1, 2] bcast_S500000x24_S1x500000x24_1_2 : (⟨S500000x24, .f32⟩ : BufTy).Contents (Elt F) → (⟨S1x500000x24, .f32⟩ : BufTy).Contents (Elt F)),
    StableHlo.unary main_v42 main_v108 (broadcastInDim S1x500000x24 ![1, 2] bcast_S500000x24_S1x500000x24_1_2 : (⟨S500000x24, .f32⟩ : BufTy).Contents (Elt F) → (⟨S1x500000x24, .f32⟩ : BufTy).Contents (Elt F)),
    StableHlo.unary main_v58 main_v109 (broadcastInDim S1x500000x24 ![1, 2] bcast_S500000x24_S1x500000x24_1_2 : (⟨S500000x24, .f32⟩ : BufTy).Contents (Elt F) → (⟨S1x500000x24, .f32⟩ : BufTy).Contents (Elt F)),
    StableHlo.unary main_v74 main_v110 (broadcastInDim S1x500000x24 ![1, 2] bcast_S500000x24_S1x500000x24_1_2 : (⟨S500000x24, .f32⟩ : BufTy).Contents (Elt F) → (⟨S1x500000x24, .f32⟩ : BufTy).Contents (Elt F)),
    StableHlo.unary main_v90 main_v111 (broadcastInDim S1x500000x24 ![1, 2] bcast_S500000x24_S1x500000x24_1_2 : (⟨S500000x24, .f32⟩ : BufTy).Contents (Elt F) → (⟨S1x500000x24, .f32⟩ : BufTy).Contents (Elt F)),
    StableHlo.unary main_v106 main_v112 (broadcastInDim S1x500000x24 ![1, 2] bcast_S500000x24_S1x500000x24_1_2 : (⟨S500000x24, .f32⟩ : BufTy).Contents (Elt F) → (⟨S1x500000x24, .f32⟩ : BufTy).Contents (Elt F)),
    StableHlo.nary ![main_v107, main_v108, main_v109, main_v110, main_v111, main_v112] main_v113 (fun u => concatenate S6x500000x24 0 [⟨S1x500000x24, u 0⟩, ⟨S1x500000x24, u 1⟩, ⟨S1x500000x24, u 2⟩, ⟨S1x500000x24, u 3⟩, ⟨S1x500000x24, u 4⟩, ⟨S1x500000x24, u 5⟩] concatenates_S1x500000x24_S1x500000x24_S1x500000x24_S1x500000x24_S1x500000x24_S1x500000x24_S6x500000x24_d0),
    StableHlo.reshape main_arg3 main_v114 rfl shapeCasts_S64_S1x64 ]

set_option maxRecDepth 65536 in
theorem split : (hostOps0_2 : List (HloOp τ sig (Elt F))) = sN ++ (sP1 ++ (sP2 ++ (sP3 ++ (sP4 ++ (sP5 ++ sS))))) := rfl

/-! ## A piece leaves what it does not write -/

theorem keep_sN {r : Ref sig .tc} (hr : r ∉ ([main_c, main_v14, main_v15, main_c_4, main_v16, main_v17, main_v18, main_v19, main_v20, main_c_5, main_v21, main_v22, main_c_6, main_v23, main_v24, main_v25, main_v26, main_v27, main_v28, main_v29] : List (Ref sig .tc)))
    (W : Valuation τ sig (Elt F)) : StableHlo.after (sN (F := F)) W (Proc.devRef .tc r) = W (Proc.devRef .tc r) :=
  StableHlo.after_of_writes_sub _ W (by
    simp only [sN, List.Forall, StableHlo.nullary_writes, StableHlo.unary_writes, StableHlo.binary_writes, StableHlo.ternary_writes,
      StableHlo.reshape_writes, StableHlo.nary_writes]
    repeat' apply And.intro
    all_goals exact Finset.singleton_subset_iff.mpr (List.mem_toFinset.mpr (List.mem_map.mpr ⟨_, by decide, rfl⟩))) hr

theorem keep_sP1 {r : Ref sig .tc} (hr : r ∉ ([main_v30, main_c_7, main_v31, main_v32, main_c_8, main_v33, main_v34, main_v35, main_v36, main_v37, main_v38, main_v39, main_cst_9, main_v40, main_v41, main_v42] : List (Ref sig .tc)))
    (W : Valuation τ sig (Elt F)) : StableHlo.after (sP1 (F := F)) W (Proc.devRef .tc r) = W (Proc.devRef .tc r) :=
  StableHlo.after_of_writes_sub _ W (by
    simp only [sP1, List.Forall, StableHlo.nullary_writes, StableHlo.unary_writes, StableHlo.binary_writes, StableHlo.ternary_writes,
      StableHlo.reshape_writes, StableHlo.nary_writes]
    repeat' apply And.intro
    all_goals exact Finset.singleton_subset_iff.mpr (List.mem_toFinset.mpr (List.mem_map.mpr ⟨_, by decide, rfl⟩))) hr

theorem keep_sP2 {r : Ref sig .tc} (hr : r ∉ ([main_v43, main_c_10, main_v44, main_v45, main_c_11, main_v46, main_v47, main_v48, main_v49, main_v50, main_v51, main_v52, main_cst_12, main_v53, main_v54, main_v55, main_cst_13, main_v56, main_v57, main_v58] : List (Ref sig .tc)))
    (W : Valuation τ sig (Elt F)) : StableHlo.after (sP2 (F := F)) W (Proc.devRef .tc r) = W (Proc.devRef .tc r) :=
  StableHlo.after_of_writes_sub _ W (by
    simp only [sP2, List.Forall, StableHlo.nullary_writes, StableHlo.unary_writes, StableHlo.binary_writes, StableHlo.ternary_writes,
      StableHlo.reshape_writes, StableHlo.nary_writes]
    repeat' apply And.intro
    all_goals exact Finset.singleton_subset_iff.mpr (List.mem_toFinset.mpr (List.mem_map.mpr ⟨_, by decide, rfl⟩))) hr

theorem keep_sP3 {r : Ref sig .tc} (hr : r ∉ ([main_v59, main_c_14, main_v60, main_v61, main_c_15, main_v62, main_v63, main_v64, main_v65, main_v66, main_v67, main_v68, main_cst_16, main_v69, main_v70, main_v71, main_cst_17, main_v72, main_v73, main_v74] : List (Ref sig .tc)))
    (W : Valuation τ sig (Elt F)) : StableHlo.after (sP3 (F := F)) W (Proc.devRef .tc r) = W (Proc.devRef .tc r) :=
  StableHlo.after_of_writes_sub _ W (by
    simp only [sP3, List.Forall, StableHlo.nullary_writes, StableHlo.unary_writes, StableHlo.binary_writes, StableHlo.ternary_writes,
      StableHlo.reshape_writes, StableHlo.nary_writes]
    repeat' apply And.intro
    all_goals exact Finset.singleton_subset_iff.mpr (List.mem_toFinset.mpr (List.mem_map.mpr ⟨_, by decide, rfl⟩))) hr

theorem keep_sP4 {r : Ref sig .tc} (hr : r ∉ ([main_v75, main_c_18, main_v76, main_v77, main_c_19, main_v78, main_v79, main_v80, main_v81, main_v82, main_v83, main_v84, main_cst_20, main_v85, main_v86, main_v87, main_cst_21, main_v88, main_v89, main_v90] : List (Ref sig .tc)))
    (W : Valuation τ sig (Elt F)) : StableHlo.after (sP4 (F := F)) W (Proc.devRef .tc r) = W (Proc.devRef .tc r) :=
  StableHlo.after_of_writes_sub _ W (by
    simp only [sP4, List.Forall, StableHlo.nullary_writes, StableHlo.unary_writes, StableHlo.binary_writes, StableHlo.ternary_writes,
      StableHlo.reshape_writes, StableHlo.nary_writes]
    repeat' apply And.intro
    all_goals exact Finset.singleton_subset_iff.mpr (List.mem_toFinset.mpr (List.mem_map.mpr ⟨_, by decide, rfl⟩))) hr

theorem keep_sP5 {r : Ref sig .tc} (hr : r ∉ ([main_v91, main_c_22, main_v92, main_v93, main_c_23, main_v94, main_v95, main_v96, main_v97, main_v98, main_v99, main_v100, main_cst_24, main_v101, main_v102, main_v103, main_cst_25, main_v104, main_v105, main_v106] : List (Ref sig .tc)))
    (W : Valuation τ sig (Elt F)) : StableHlo.after (sP5 (F := F)) W (Proc.devRef .tc r) = W (Proc.devRef .tc r) :=
  StableHlo.after_of_writes_sub _ W (by
    simp only [sP5, List.Forall, StableHlo.nullary_writes, StableHlo.unary_writes, StableHlo.binary_writes, StableHlo.ternary_writes,
      StableHlo.reshape_writes, StableHlo.nary_writes]
    repeat' apply And.intro
    all_goals exact Finset.singleton_subset_iff.mpr (List.mem_toFinset.mpr (List.mem_map.mpr ⟨_, by decide, rfl⟩))) hr

theorem keep_sS {r : Ref sig .tc} (hr : r ∉ ([main_v107, main_v108, main_v109, main_v110, main_v111, main_v112, main_v113, main_v114] : List (Ref sig .tc)))
    (W : Valuation τ sig (Elt F)) : StableHlo.after (sS (F := F)) W (Proc.devRef .tc r) = W (Proc.devRef .tc r) :=
  StableHlo.after_of_writes_sub _ W (by
    simp only [sS, List.Forall, StableHlo.nullary_writes, StableHlo.unary_writes, StableHlo.binary_writes, StableHlo.ternary_writes,
      StableHlo.reshape_writes, StableHlo.nary_writes]
    repeat' apply And.intro
    all_goals exact Finset.singleton_subset_iff.mpr (List.mem_toFinset.mpr (List.mem_map.mpr ⟨_, by decide, rfl⟩))) hr

/-! ## What each piece computes -/

/-- The first two stretches: sources, targets, and the inverse square roots of the degrees. -/
theorem res_head (W : Valuation τ sig (Elt F)) :
    StableHlo.after (hostOps0_1 (F := F)) (StableHlo.after hostOps0 W) (Proc.devRef .tc main_v13) = disF (W (Proc.devRef .tc main_arg1))
    ∧ StableHlo.after (hostOps0_1 (F := F)) (StableHlo.after hostOps0 W) (Proc.devRef .tc main_v1) = rowE (W (Proc.devRef .tc main_arg1))
    ∧ StableHlo.after (hostOps0_1 (F := F)) (StableHlo.after hostOps0 W) (Proc.devRef .tc main_v3) = colE (W (Proc.devRef .tc main_arg1))
    ∧ StableHlo.after (hostOps0_1 (F := F)) (StableHlo.after hostOps0 W) (Proc.devRef .tc main_arg0) = W (Proc.devRef .tc main_arg0)
    ∧ StableHlo.after (hostOps0_1 (F := F)) (StableHlo.after hostOps0 W) (Proc.devRef .tc main_arg3) = W (Proc.devRef .tc main_arg3)
    ∧ StableHlo.after (hostOps0_1 (F := F)) (StableHlo.after hostOps0 W) (Proc.devRef .tc main_arg2) = W (Proc.devRef .tc main_arg2) := by
  refine ⟨?_, ?_, ?_, ?_, ?_, ?_⟩ <;> (after_results_simp; try rfl)

/-- The edge weights. -/
theorem res_sN (W : Valuation τ sig (Elt F)) (e : (⟨S2x4000000, .i32⟩ : BufTy).Contents (Elt F))
    (hd : W (Proc.devRef .tc main_v13) = disF e) (hr : W (Proc.devRef .tc main_v1) = rowE e) (hc : W (Proc.devRef .tc main_v3) = colE e) :
    StableHlo.after (sN (F := F)) W (Proc.devRef .tc main_v29) = normF e := by
  after_results_simp
  rw [hd, hr, hc]
  rfl

set_option maxHeartbeats 4000000 in
theorem res_sP1 (W : Valuation τ sig (Elt F)) (x : (⟨S500000x24, .f32⟩ : BufTy).Contents (Elt F)) (e : (⟨S2x4000000, .i32⟩ : BufTy).Contents (Elt F))
    (hn : W (Proc.devRef .tc main_v29) = normF e) (hr : W (Proc.devRef .tc main_v1) = rowE e) (hc : W (Proc.devRef .tc main_v3) = colE e)
    (hp : W (Proc.devRef .tc main_arg0) = x) :
    StableHlo.after (sP1 (F := F)) W (Proc.devRef .tc main_v42) = T1F x e := by
  after_results_simp
  rw [hn, hr, hc, hp]
  rfl

set_option maxHeartbeats 4000000 in
theorem res_sP2 (W : Valuation τ sig (Elt F)) (x : (⟨S500000x24, .f32⟩ : BufTy).Contents (Elt F)) (e : (⟨S2x4000000, .i32⟩ : BufTy).Contents (Elt F))
    (hn : W (Proc.devRef .tc main_v29) = normF e) (hr : W (Proc.devRef .tc main_v1) = rowE e) (hc : W (Proc.devRef .tc main_v3) = colE e)
    (hp : W (Proc.devRef .tc main_v42) = T1F x e) (hq : W (Proc.devRef .tc main_arg0) = x) :
    StableHlo.after (sP2 (F := F)) W (Proc.devRef .tc main_v58) = T2F x e := by
  after_results_simp
  rw [hn, hr, hc, hp, hq]
  rfl

set_option maxHeartbeats 4000000 in
theorem res_sP3 (W : Valuation τ sig (Elt F)) (x : (⟨S500000x24, .f32⟩ : BufTy).Contents (Elt F)) (e : (⟨S2x4000000, .i32⟩ : BufTy).Contents (Elt F))
    (hn : W (Proc.devRef .tc main_v29) = normF e) (hr : W (Proc.devRef .tc main_v1) = rowE e) (hc : W (Proc.devRef .tc main_v3) = colE e)
    (hp : W (Proc.devRef .tc main_v58) = T2F x e) (hq : W (Proc.devRef .tc main_v42) = T1F x e) :
    StableHlo.after (sP3 (F := F)) W (Proc.devRef .tc main_v74) = T3F x e := by
  after_results_simp
  rw [hn, hr, hc, hp, hq]
  rfl

set_option maxHeartbeats 4000000 in
theorem res_sP4 (W : Valuation τ sig (Elt F)) (x : (⟨S500000x24, .f32⟩ : BufTy).Contents (Elt F)) (e : (⟨S2x4000000, .i32⟩ : BufTy).Contents (Elt F))
    (hn : W (Proc.devRef .tc main_v29) = normF e) (hr : W (Proc.devRef .tc main_v1) = rowE e) (hc : W (Proc.devRef .tc main_v3) = colE e)
    (hp : W (Proc.devRef .tc main_v74) = T3F x e) (hq : W (Proc.devRef .tc main_v58) = T2F x e) :
    StableHlo.after (sP4 (F := F)) W (Proc.devRef .tc main_v90) = T4F x e := by
  after_results_simp
  rw [hn, hr, hc, hp, hq]
  rfl

set_option maxHeartbeats 4000000 in
theorem res_sP5 (W : Valuation τ sig (Elt F)) (x : (⟨S500000x24, .f32⟩ : BufTy).Contents (Elt F)) (e : (⟨S2x4000000, .i32⟩ : BufTy).Contents (Elt F))
    (hn : W (Proc.devRef .tc main_v29) = normF e) (hr : W (Proc.devRef .tc main_v1) = rowE e) (hc : W (Proc.devRef .tc main_v3) = colE e)
    (hp : W (Proc.devRef .tc main_v90) = T4F x e) (hq : W (Proc.devRef .tc main_v74) = T3F x e) :
    StableHlo.after (sP5 (F := F)) W (Proc.devRef .tc main_v106) = T5F x e := by
  after_results_simp
  rw [hn, hr, hc, hp, hq]
  rfl

/-- The six bases stacked. -/
def stackF (x : (⟨S500000x24, .f32⟩ : BufTy).Contents (Elt F)) (e : (⟨S2x4000000, .i32⟩ : BufTy).Contents (Elt F)) :
    (⟨S6x500000x24, .f32⟩ : BufTy).Contents (Elt F) :=
  concatenate S6x500000x24 0
    [⟨S1x500000x24, broadcastInDim S1x500000x24 ![1, 2] bcast_S500000x24_S1x500000x24_1_2 x⟩,
     ⟨S1x500000x24, broadcastInDim S1x500000x24 ![1, 2] bcast_S500000x24_S1x500000x24_1_2 (T1F x e)⟩,
     ⟨S1x500000x24, broadcastInDim S1x500000x24 ![1, 2] bcast_S500000x24_S1x500000x24_1_2 (T2F x e)⟩,
     ⟨S1x500000x24, broadcastInDim S1x500000x24 ![1, 2] bcast_S500000x24_S1x500000x24_1_2 (T3F x e)⟩,
     ⟨S1x500000x24, broadcastInDim S1x500000x24 ![1, 2] bcast_S500000x24_S1x500000x24_1_2 (T4F x e)⟩,
     ⟨S1x500000x24, broadcastInDim S1x500000x24 ![1, 2] bcast_S500000x24_S1x500000x24_1_2 (T5F x e)⟩]
    concatenates_S1x500000x24_S1x500000x24_S1x500000x24_S1x500000x24_S1x500000x24_S1x500000x24_S6x500000x24_d0

theorem res_sS (W : Valuation τ sig (Elt F)) (x : (⟨S500000x24, .f32⟩ : BufTy).Contents (Elt F)) (e : (⟨S2x4000000, .i32⟩ : BufTy).Contents (Elt F))
    (h0 : W (Proc.devRef .tc main_arg0) = x) (h1 : W (Proc.devRef .tc main_v42) = T1F x e) (h2 : W (Proc.devRef .tc main_v58) = T2F x e)
    (h3 : W (Proc.devRef .tc main_v74) = T3F x e) (h4 : W (Proc.devRef .tc main_v90) = T4F x e) (h5 : W (Proc.devRef .tc main_v106) = T5F x e) :
    StableHlo.after (sS (F := F)) W (Proc.devRef .tc main_v113) = stackF x e
    ∧ StableHlo.after (sS (F := F)) W (Proc.devRef .tc main_v114)
        = shapeCast _ (W (Proc.devRef .tc main_arg3)) shapeCasts_S64_S1x64 := by
  constructor
  · unfold stackF
    rw [← h5, ← h4, ← h3, ← h2, ← h1, ← h0]
    rfl
  · after_results_simp
    try rfl

/-! ## Region 0's entry -/

set_option maxHeartbeats 4000000 in
/-- At region 0's entry the stack buffer holds the six bases of the launched `x` and `e`, the bias-row buffer the launched
    bias re-laid as a row, and the weights are as launched. -/
theorem entry0 (m : (ℓ : Loc nD τ sig) → Buf (Elt F) ℓ) (ρ : Dev nD → PrngReg) (c : Dev nD) :
    W3 m ρ c (Proc.devRef .tc main_v113)
        = stackF (m ((c.tc : Thread nD τ).loc main_arg0)) (m ((c.tc : Thread nD τ).loc main_arg1))
    ∧ W3 m ρ c (Proc.devRef .tc main_v114) = shapeCast _ (m ((c.tc : Thread nD τ).loc main_arg3)) shapeCasts_S64_S1x64
    ∧ W3 m ρ c (Proc.devRef .tc main_arg2) = m ((c.tc : Thread nD τ).loc main_arg2) := by
  obtain ⟨hB_d, hB_r, hB_c, hB_x, hB_b, hB_w⟩ := res_head (F := F) (W0 m ρ c)
  show StableHlo.after (hostOps0_2 (F := F)) (StableHlo.after hostOps0_1 (StableHlo.after hostOps0 (W0 m ρ c))) _ = _
    ∧ StableHlo.after (hostOps0_2 (F := F)) (StableHlo.after hostOps0_1 (StableHlo.after hostOps0 (W0 m ρ c))) _ = _
    ∧ StableHlo.after (hostOps0_2 (F := F)) (StableHlo.after hostOps0_1 (StableHlo.after hostOps0 (W0 m ρ c))) _ = _
  rw [split]
  simp only [after_append]
  generalize hx : W0 m ρ c (Proc.devRef .tc main_arg0) = x at *
  generalize he : W0 m ρ c (Proc.devRef .tc main_arg1) = e at *
  generalize hbb : W0 m ρ c (Proc.devRef .tc main_arg3) = bb at *
  generalize hww : W0 m ρ c (Proc.devRef .tc main_arg2) = ww at *
  generalize StableHlo.after (hostOps0_1 (F := F)) (StableHlo.after hostOps0 (W0 m ρ c)) = B at *
  -- sN
  have hN_n : StableHlo.after (sN (F := F)) B (Proc.devRef .tc main_v29) = normF e := res_sN B e hB_d hB_r hB_c
  have hN_r : StableHlo.after (sN (F := F)) B (Proc.devRef .tc main_v1) = rowE e := (keep_sN (by decide) B).trans hB_r
  have hN_c : StableHlo.after (sN (F := F)) B (Proc.devRef .tc main_v3) = colE e := (keep_sN (by decide) B).trans hB_c
  have hN_x : StableHlo.after (sN (F := F)) B (Proc.devRef .tc main_arg0) = x := (keep_sN (by decide) B).trans hB_x
  have hN_b : StableHlo.after (sN (F := F)) B (Proc.devRef .tc main_arg3) = bb := (keep_sN (by decide) B).trans hB_b
  have hN_w : StableHlo.after (sN (F := F)) B (Proc.devRef .tc main_arg2) = ww := (keep_sN (by decide) B).trans hB_w
  generalize StableHlo.after (sN (F := F)) B = N at *
  -- sP1
  have hP1_t1 : StableHlo.after (sP1 (F := F)) N (Proc.devRef .tc main_v42) = T1F x e := res_sP1 N x e hN_n hN_r hN_c hN_x
  have hP1_n : StableHlo.after (sP1 (F := F)) N (Proc.devRef .tc main_v29) = normF e := (keep_sP1 (by decide) N).trans hN_n
  have hP1_r : StableHlo.after (sP1 (F := F)) N (Proc.devRef .tc main_v1) = rowE e := (keep_sP1 (by decide) N).trans hN_r
  have hP1_c : StableHlo.after (sP1 (F := F)) N (Proc.devRef .tc main_v3) = colE e := (keep_sP1 (by decide) N).trans hN_c
  have hP1_x : StableHlo.after (sP1 (F := F)) N (Proc.devRef .tc main_arg0) = x := (keep_sP1 (by decide) N).trans hN_x
  have hP1_b : StableHlo.after (sP1 (F := F)) N (Proc.devRef .tc main_arg3) = bb := (keep_sP1 (by decide) N).trans hN_b
  have hP1_w : StableHlo.after (sP1 (F := F)) N (Proc.devRef .tc main_arg2) = ww := (keep_sP1 (by decide) N).trans hN_w
  generalize StableHlo.after (sP1 (F := F)) N = P1 at *
  -- sP2
  have hP2_t2 : StableHlo.after (sP2 (F := F)) P1 (Proc.devRef .tc main_v58) = T2F x e := res_sP2 P1 x e hP1_n hP1_r hP1_c hP1_t1 hP1_x
  have hP2_n : StableHlo.after (sP2 (F := F)) P1 (Proc.devRef .tc main_v29) = normF e := (keep_sP2 (by decide) P1).trans hP1_n
  have hP2_r : StableHlo.after (sP2 (F := F)) P1 (Proc.devRef .tc main_v1) = rowE e := (keep_sP2 (by decide) P1).trans hP1_r
  have hP2_c : StableHlo.after (sP2 (F := F)) P1 (Proc.devRef .tc main_v3) = colE e := (keep_sP2 (by decide) P1).trans hP1_c
  have hP2_t1 : StableHlo.after (sP2 (F := F)) P1 (Proc.devRef .tc main_v42) = T1F x e := (keep_sP2 (by decide) P1).trans hP1_t1
  have hP2_x : StableHlo.after (sP2 (F := F)) P1 (Proc.devRef .tc main_arg0) = x := (keep_sP2 (by decide) P1).trans hP1_x
  have hP2_b : StableHlo.after (sP2 (F := F)) P1 (Proc.devRef .tc main_arg3) = bb := (keep_sP2 (by decide) P1).trans hP1_b
  have hP2_w : StableHlo.after (sP2 (F := F)) P1 (Proc.devRef .tc main_arg2) = ww := (keep_sP2 (by decide) P1).trans hP1_w
  generalize StableHlo.after (sP2 (F := F)) P1 = P2 at *
  -- sP3
  have hP3_t3 : StableHlo.after (sP3 (F := F)) P2 (Proc.devRef .tc main_v74) = T3F x e := res_sP3 P2 x e hP2_n hP2_r hP2_c hP2_t2 hP2_t1
  have hP3_n : StableHlo.after (sP3 (F := F)) P2 (Proc.devRef .tc main_v29) = normF e := (keep_sP3 (by decide) P2).trans hP2_n
  have hP3_r : StableHlo.after (sP3 (F := F)) P2 (Proc.devRef .tc main_v1) = rowE e := (keep_sP3 (by decide) P2).trans hP2_r
  have hP3_c : StableHlo.after (sP3 (F := F)) P2 (Proc.devRef .tc main_v3) = colE e := (keep_sP3 (by decide) P2).trans hP2_c
  have hP3_t1 : StableHlo.after (sP3 (F := F)) P2 (Proc.devRef .tc main_v42) = T1F x e := (keep_sP3 (by decide) P2).trans hP2_t1
  have hP3_t2 : StableHlo.after (sP3 (F := F)) P2 (Proc.devRef .tc main_v58) = T2F x e := (keep_sP3 (by decide) P2).trans hP2_t2
  have hP3_x : StableHlo.after (sP3 (F := F)) P2 (Proc.devRef .tc main_arg0) = x := (keep_sP3 (by decide) P2).trans hP2_x
  have hP3_b : StableHlo.after (sP3 (F := F)) P2 (Proc.devRef .tc main_arg3) = bb := (keep_sP3 (by decide) P2).trans hP2_b
  have hP3_w : StableHlo.after (sP3 (F := F)) P2 (Proc.devRef .tc main_arg2) = ww := (keep_sP3 (by decide) P2).trans hP2_w
  generalize StableHlo.after (sP3 (F := F)) P2 = P3 at *
  -- sP4
  have hP4_t4 : StableHlo.after (sP4 (F := F)) P3 (Proc.devRef .tc main_v90) = T4F x e := res_sP4 P3 x e hP3_n hP3_r hP3_c hP3_t3 hP3_t2
  have hP4_n : StableHlo.after (sP4 (F := F)) P3 (Proc.devRef .tc main_v29) = normF e := (keep_sP4 (by decide) P3).trans hP3_n
  have hP4_r : StableHlo.after (sP4 (F := F)) P3 (Proc.devRef .tc main_v1) = rowE e := (keep_sP4 (by decide) P3).trans hP3_r
  have hP4_c : StableHlo.after (sP4 (F := F)) P3 (Proc.devRef .tc main_v3) = colE e := (keep_sP4 (by decide) P3).trans hP3_c
  have hP4_t1 : StableHlo.after (sP4 (F := F)) P3 (Proc.devRef .tc main_v42) = T1F x e := (keep_sP4 (by decide) P3).trans hP3_t1
  have hP4_t2 : StableHlo.after (sP4 (F := F)) P3 (Proc.devRef .tc main_v58) = T2F x e := (keep_sP4 (by decide) P3).trans hP3_t2
  have hP4_t3 : StableHlo.after (sP4 (F := F)) P3 (Proc.devRef .tc main_v74) = T3F x e := (keep_sP4 (by decide) P3).trans hP3_t3
  have hP4_x : StableHlo.after (sP4 (F := F)) P3 (Proc.devRef .tc main_arg0) = x := (keep_sP4 (by decide) P3).trans hP3_x
  have hP4_b : StableHlo.after (sP4 (F := F)) P3 (Proc.devRef .tc main_arg3) = bb := (keep_sP4 (by decide) P3).trans hP3_b
  have hP4_w : StableHlo.after (sP4 (F := F)) P3 (Proc.devRef .tc main_arg2) = ww := (keep_sP4 (by decide) P3).trans hP3_w
  generalize StableHlo.after (sP4 (F := F)) P3 = P4 at *
  -- sP5
  have hP5_t5 : StableHlo.after (sP5 (F := F)) P4 (Proc.devRef .tc main_v106) = T5F x e := res_sP5 P4 x e hP4_n hP4_r hP4_c hP4_t4 hP4_t3
  have hP5_t1 : StableHlo.after (sP5 (F := F)) P4 (Proc.devRef .tc main_v42) = T1F x e := (keep_sP5 (by decide) P4).trans hP4_t1
  have hP5_t2 : StableHlo.after (sP5 (F := F)) P4 (Proc.devRef .tc main_v58) = T2F x e := (keep_sP5 (by decide) P4).trans hP4_t2
  have hP5_t3 : StableHlo.after (sP5 (F := F)) P4 (Proc.devRef .tc main_v74) = T3F x e := (keep_sP5 (by decide) P4).trans hP4_t3
  have hP5_t4 : StableHlo.after (sP5 (F := F)) P4 (Proc.devRef .tc main_v90) = T4F x e := (keep_sP5 (by decide) P4).trans hP4_t4
  have hP5_x : StableHlo.after (sP5 (F := F)) P4 (Proc.devRef .tc main_arg0) = x := (keep_sP5 (by decide) P4).trans hP4_x
  have hP5_b : StableHlo.after (sP5 (F := F)) P4 (Proc.devRef .tc main_arg3) = bb := (keep_sP5 (by decide) P4).trans hP4_b
  have hP5_w : StableHlo.after (sP5 (F := F)) P4 (Proc.devRef .tc main_arg2) = ww := (keep_sP5 (by decide) P4).trans hP4_w
  generalize StableHlo.after (sP5 (F := F)) P4 = P5 at *
  -- sS
  have hS_w : StableHlo.after (sS (F := F)) P5 (Proc.devRef .tc main_arg2) = ww := (keep_sS (by decide) P5).trans hP5_w
  obtain ⟨hs, hv⟩ := res_sS P5 x e hP5_x hP5_t1 hP5_t2 hP5_t3 hP5_t4 hP5_t5
  refine ⟨?_, ?_, ?_⟩
  · rw [hs]; subst hx; subst he; rfl
  · rw [hv, hP5_b]; subst hbb; rfl
  · rw [hS_w]; subst hww; rfl

/-! ## Region 1's entry -/

/-- The moments summed over the 250 tiles. -/
def sumTiles (M : (⟨S250x2x64, .f32⟩ : BufTy).Contents (Elt F)) : (⟨S2x64, .f32⟩ : BufTy).Contents (Elt F) :=
  Host.reduceAdd M (constant S_ .f32 0x00000000#32) reducesTo_S250x2x64_S2x64_d0 h_S_

/-- The mean: the summed first moment over the number of rows. -/
def meanV (M : (⟨S250x2x64, .f32⟩ : BufTy).Contents (Elt F)) : (⟨S64, .f32⟩ : BufTy).Contents (Elt F) :=
  Host.divf (shapeCast _ (extractStridedSlice S1x64 ![0, 0] (sumTiles M) slices_S2x64_S1x64_0_0) shapeCasts_S1x64_S64)
    (broadcastInDim S64 ![] bcast_S_S64 (constant S_ .f32 0x48F42400#32))

/-- The mean of squares. -/
def meanSqV (M : (⟨S250x2x64, .f32⟩ : BufTy).Contents (Elt F)) : (⟨S64, .f32⟩ : BufTy).Contents (Elt F) :=
  Host.divf (shapeCast _ (extractStridedSlice S1x64 ![1, 0] (sumTiles M) slices_S2x64_S1x64_1_0) shapeCasts_S1x64_S64)
    (broadcastInDim S64 ![] bcast_S_S64 (constant S_ .f32 0x48F42400#32))

/-- The variance: the mean of squares less the square of the mean. -/
def varV (M : (⟨S250x2x64, .f32⟩ : BufTy).Contents (Elt F)) : (⟨S64, .f32⟩ : BufTy).Contents (Elt F) :=
  subf (meanSqV M) (mulf (meanV M) (meanV M))

/-- The second host stretch, on an arbitrary valuation. -/
theorem res_tail (W : Valuation τ sig (Elt F)) :
    StableHlo.after (hostOps1 (F := F)) W (Proc.devRef .tc main_v127) = shapeCast _ (W (Proc.devRef .tc main_arg4)) shapeCasts_S64_S1x64
    ∧ StableHlo.after (hostOps1 (F := F)) W (Proc.devRef .tc main_v128) = shapeCast _ (W (Proc.devRef .tc main_arg5)) shapeCasts_S64_S1x64
    ∧ StableHlo.after (hostOps1 (F := F)) W (Proc.devRef .tc main_v129) = shapeCast _ (meanV (W (Proc.devRef .tc main_v115_1))) shapeCasts_S64_S1x64
    ∧ StableHlo.after (hostOps1 (F := F)) W (Proc.devRef .tc main_v130) = shapeCast _ (varV (W (Proc.devRef .tc main_v115_1))) shapeCasts_S64_S1x64
    ∧ StableHlo.after (hostOps1 (F := F)) W (Proc.devRef .tc main_v131) = shapeCast _ (W (Proc.devRef .tc main_arg6)) shapeCasts_S1x64x6_S64x6
    ∧ StableHlo.after (hostOps1 (F := F)) W (Proc.devRef .tc main_v132) = shapeCast _ (W (Proc.devRef .tc main_arg7)) shapeCasts_S6_S1x6
    ∧ StableHlo.after (hostOps1 (F := F)) W (Proc.devRef .tc main_v115_0) = W (Proc.devRef .tc main_v115_0) := by
  refine ⟨?_, ?_, ?_, ?_, ?_, ?_, ?_⟩ <;> (after_results_simp; try rfl)

theorem W4_main_arg4 (m : (ℓ : Loc nD τ sig) → Buf (Elt F) ℓ) (ρ : Dev nD → PrngReg) (c : Dev nD) :
    W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg4) := rfl

theorem W4_main_arg5 (m : (ℓ : Loc nD τ sig) → Buf (Elt F) ℓ) (ρ : Dev nD → PrngReg) (c : Dev nD) :
    W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg5) := rfl

theorem W4_main_arg6 (m : (ℓ : Loc nD τ sig) → Buf (Elt F) ℓ) (ρ : Dev nD → PrngReg) (c : Dev nD) :
    W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg6) := rfl

theorem W4_main_arg7 (m : (ℓ : Loc nD τ sig) → Buf (Elt F) ℓ) (ρ : Dev nD → PrngReg) (c : Dev nD) :
    W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg7) := rfl

end Cert.KernelIdeal.KHost

end
-- ==== Proof.KernelIdealOut.lean ====
/-
  The kernel program's result array, as one function of the launched arguments.

  With `x`, `e`, `W`, `b`, `γ`, `β`, `M`, `c` the launched arrays: the hidden array is `hidF` of the stacked bases of `x` and `e`,
  the weights and the bias row; the moments array is `momF` of it; mean and variance are read off the moments summed over
  the tiles; the result is `outF` of the hidden array, the four rows and the mixing matrix and bias.
-/
import proofs.«105403_j78039555768470_2_alg».proof.Proof.KernelIdealValue
import proofs.«105403_j78039555768470_2_alg».proof.Proof.KernelIdealHost

set_option maxRecDepth 16384

noncomputable section

namespace Cert.KernelIdeal.KOut

open Cert.KernelIdeal Cert.KernelIdeal.Gen Cert.KernelIdeal.Bodies Cert.KernelIdeal.Run Cert.KernelIdeal.KValue Cert.KernelIdeal.KHost
open Cert.KernelIdeal.Bases
open Idealize.ShloMosaic Idealize.ShloMosaic.TcCoe Idealize.SL.Sem

variable (m : (ℓ : Loc nD τ sig) → Buf (Elt Ideal) ℓ) (ρ : Dev nD → PrngReg)

/-- The hidden array of the launched arguments. -/
abbrev hidK (c : Dev nD) : (⟨S500000x64, .f32⟩ : BufTy).Contents (Elt Ideal) :=
  hidF (stackF (m ((c.tc : Thread nD τ).loc main_arg0)) (m ((c.tc : Thread nD τ).loc main_arg1)))
    (m ((c.tc : Thread nD τ).loc main_arg2)) (shapeCast _ (m ((c.tc : Thread nD τ).loc main_arg3)) shapeCasts_S64_S1x64)

/-- The hidden and the moments arrays after region 0. -/
theorem region0_out (c : Dev nD) :
    W4 m ρ c (Proc.devRef .tc main_v115_0) = hidK m c ∧ W4 m ρ c (Proc.devRef .tc main_v115_1) = momF (hidK m c) := by
  obtain ⟨h113, h114, h2⟩ := entry0 (F := Ideal) m ρ c
  have hH : (dat0 (V3 m ρ) c).arrAt 3 cfg0.N = hidK m c := by
    rw [finalHid (V3 m ρ) c]
    show hidF (W3 m ρ c (Proc.devRef .tc main_v113)) (W3 m ρ c (Proc.devRef .tc main_arg2)) (W3 m ρ c (Proc.devRef .tc main_v114)) = _
    rw [h113, h114, h2]
  have hM : (dat0 (V3 m ρ) c).arrAt 4 cfg0.N = momF (hidK m c) := by
    rw [finalMom (V3 m ρ) c]
    show momF (hidF (W3 m ρ c (Proc.devRef .tc main_v113)) (W3 m ρ c (Proc.devRef .tc main_arg2)) (W3 m ρ c (Proc.devRef .tc main_v114))) = _
    rw [h113, h114, h2]
  exact ⟨(W4_arr m ρ c 3).trans hH, (W4_arr m ρ c 4).trans hM⟩

/-- The kernel program's result array. -/
theorem result_eq (c : Dev nD) :
    W6 m ρ c (Proc.devRef .tc main_v133)
      = outF (hidK m c)
          (shapeCast _ (m ((c.tc : Thread nD τ).loc main_arg4)) shapeCasts_S64_S1x64)
          (shapeCast _ (m ((c.tc : Thread nD τ).loc main_arg5)) shapeCasts_S64_S1x64)
          (shapeCast _ (meanV (momF (hidK m c))) shapeCasts_S64_S1x64)
          (shapeCast _ (varV (momF (hidK m c))) shapeCasts_S64_S1x64)
          (shapeCast _ (m ((c.tc : Thread nD τ).loc main_arg6)) shapeCasts_S1x64x6_S64x6)
          (shapeCast _ (m ((c.tc : Thread nD τ).loc main_arg7)) shapeCasts_S6_S1x6) := by
  obtain ⟨hH, hM⟩ := region0_out m ρ c
  obtain ⟨t127, t128, t129, t130, t131, t132, t115⟩ := res_tail (F := Ideal) (W4 m ρ c)
  refine (W6_arr m ρ c 7).trans ?_
  rw [finalOut (V5 m ρ) c]
  show outF (W5 m ρ c (Proc.devRef .tc main_v115_0)) (W5 m ρ c (Proc.devRef .tc main_v127)) (W5 m ρ c (Proc.devRef .tc main_v128))
      (W5 m ρ c (Proc.devRef .tc main_v129)) (W5 m ρ c (Proc.devRef .tc main_v130)) (W5 m ρ c (Proc.devRef .tc main_v131))
      (W5 m ρ c (Proc.devRef .tc main_v132)) = _
  show outF (StableHlo.after hostOps1 (W4 m ρ c) (Proc.devRef .tc main_v115_0)) (StableHlo.after hostOps1 (W4 m ρ c) (Proc.devRef .tc main_v127))
      (StableHlo.after hostOps1 (W4 m ρ c) (Proc.devRef .tc main_v128)) (StableHlo.after hostOps1 (W4 m ρ c) (Proc.devRef .tc main_v129))
      (StableHlo.after hostOps1 (W4 m ρ c) (Proc.devRef .tc main_v130)) (StableHlo.after hostOps1 (W4 m ρ c) (Proc.devRef .tc main_v131))
      (StableHlo.after hostOps1 (W4 m ρ c) (Proc.devRef .tc main_v132)) = _
  rw [t115, t127, t128, t129, t130, t131, t132, hH, hM, W4_main_arg4, W4_main_arg5, W4_main_arg6, W4_main_arg7]

end Cert.KernelIdeal.KOut

end
-- ==== Proof.LibMoments.lean ====
/-
  Pure mathematics on the extended reals \`[-∞, +∞]\`, for a batch normalisation over many rows whose mean and
  variance are computed in two ways.

  * A finite sum of (coercions of) reals is the coercion of the real sum (\`coe_finset_sum\`).
  * \`IsReal x\`: the extended real \`x\` is (the coercion of) a real. The reals are closed under \`0\`, \`1\`, \`+\`, \`-\`,
    \`*\`, negation, \`max\`, \`min\`, finite sums, the reciprocal square root of a positive real, and division by a
    nonzero real; so an accumulating scatter of reals into reals is real at every index, and a gather of an
    array that satisfies a predicate everywhere satisfies it everywhere.
  * A sum over \`a * b\` rows is the sum over \`a\` tiles of the sums over the \`b\` rows of each tile
    (\`sum_fin_mul\`; at \`250 × 2000 = 500000\`, \`sum_fin_500000\`).
  * The mean of the squared deviations from the mean is the mean of the squares minus the square of the mean:
    over the reals (\`variance_real\`), and, for real-valued data, on the extended reals with the quotient
    \`Ideal.div\` by the real count (\`variance_ereal\`).
-/
import Idealize.ShloMosaic.PureOps.Ideal
import Idealize.ShloMosaic.PureOps.Ideal.Laws
import Mathlib.Data.EReal.Inv
import Mathlib.Data.Fintype.BigOperators
import Mathlib.Logic.Equiv.Fin.Basic
import Mathlib.Tactic

noncomputable section

open Idealize.ShloMosaic

namespace Cert.LibMoments

open scoped BigOperators

/-! ## Sums of reals stay real -/

/-- A finite sum of coercions of reals into the extended reals is the coercion of the real sum:
    \`∑ i ∈ s, (f i : EReal) = ((∑ i ∈ s, f i : ℝ) : EReal)\`. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite type: \`∑ i, (f i : EReal) = ((∑ i, f i : ℝ) : EReal)\`. -/
theorem coe_fintype_sum {ι : Type*} [Fintype ι] (f : ι → ℝ) :
    (∑ i, ((f i : ℝ) : EReal)) = ((∑ i, f i : ℝ) : EReal) :=
  coe_finset_sum Finset.univ f

/-! ## The predicate "is a real" -/

/-- An extended real is REAL when it is the coercion of a real number (it is neither \`⊤\` nor \`⊥\`). -/
def IsReal (x : EReal) : Prop := ∃ r : ℝ, x = (r : EReal)

namespace IsReal

/-- The coercion of a real is real. -/
theorem coe (r : ℝ) : IsReal (r : EReal) := ⟨r, rfl⟩

/-- \`0\` is real. -/
theorem zero : IsReal (0 : EReal) := ⟨0, rfl⟩

/-- \`1\` is real. -/
theorem one : IsReal (1 : EReal) := ⟨1, rfl⟩

/-- A real is neither infinity. -/
theorem ne_top {x : EReal} (hx : IsReal x) : x ≠ ⊤ := by
  obtain ⟨a, rfl⟩ := hx; exact EReal.coe_ne_top a

/-- A real is neither infinity. -/
theorem ne_bot {x : EReal} (hx : IsReal x) : x ≠ ⊥ := by
  obtain ⟨a, rfl⟩ := hx; exact EReal.coe_ne_bot a

/-- An extended real that is neither infinity is real. -/
theorem of_ne {x : EReal} (ht : x ≠ ⊤) (hb : x ≠ ⊥) : IsReal x :=
  ⟨x.toReal, (EReal.coe_toReal ht hb).symm⟩

/-- The sum of two reals is real. -/
theorem add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- The negation of a real is real. -/
theorem neg {x : EReal} (hx : IsReal x) : IsReal (-x) := by
  obtain ⟨a, rfl⟩ := hx
  exact ⟨-a, (EReal.coe_neg a).symm⟩

/-- The maximum of two reals is real. -/
theorem max {x y : EReal} (hx : IsReal x) (hy : IsReal y) : IsReal (max x y) := by
  rcases le_total x y with h | h
  · rw [max_eq_right h]; exact hy
  · rw [max_eq_left h]; exact hx

/-- The minimum of two reals is real. -/
theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A sum of reals over a whole finite type is real. -/
theorem fintype_sum {ι : Type*} [Fintype ι] (f : ι → EReal) (h : ∀ i, IsReal (f i)) : IsReal (∑ i, f i) :=
  sum Finset.univ f fun i _ => h i

end IsReal

/-! ## The reciprocal square root and the quotient by a real constant -/

/-- The reciprocal square root of a positive real \`r\` is the real \`(√r)⁻¹\`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The quotient of a real \`a\` by a nonzero real \`c\` is the real \`a / c\`. -/
theorem div_coe_coe (a : ℝ) {c : ℝ} (hc : c ≠ 0) : Ideal.div (a : EReal) (c : EReal) = ((a / c : ℝ) : EReal) := by
  rw [Ideal.div_coe hc, ← EReal.coe_mul, mul_one_div]

namespace IsReal

/-- The reciprocal square root of a positive real is real. -/
theorem rsqrt_of_pos {x : EReal} (hx : IsReal x) (h : 0 < x) : IsReal (Ideal.rsqrt x) := by
  obtain ⟨r, rfl⟩ := hx
  rw [rsqrt_coe_of_pos (EReal.coe_pos.mp h)]
  exact coe _

/-- The reciprocal square root of a real that is at least \`1\` is real. -/
theorem rsqrt {x : EReal} (hx : IsReal x) (h : (1 : EReal) ≤ x) : IsReal (Ideal.rsqrt x) :=
  hx.rsqrt_of_pos (lt_of_lt_of_le zero_lt_one h)

/-- The quotient of a real by a nonzero real constant is real. -/
theorem div_const {x : EReal} (hx : IsReal x) {c : ℝ} (hc : c ≠ 0) : IsReal (Ideal.div x (c : EReal)) := by
  obtain ⟨a, rfl⟩ := hx
  rw [div_coe_coe a hc]
  exact coe _

/-- An accumulating scatter — each operand element plus the sum of the update elements that land on it — of real
    updates into a real operand is real at every index. -/
theorem hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (sum _ _ fun j _ => hu j)

end IsReal

/-- A gather reads the operand at some index, so whatever holds of the operand at every index holds of the
    gathered array at every index. -/
theorem gather_of_forall {s si t : Shape} {α : Type} {w : Nat} (d : GatherDims s si t) (x : s.Idx → α) (idx : IVec si w)
    (P : α → Prop) (h : ∀ i, P (x i)) (j : t.Idx) : P (Host.gather d x idx j) :=
  h _

/-- In particular a gather of an array of reals is an array of reals. -/
theorem IsReal.gather {s si t : Shape} {w : Nat} (d : GatherDims s si t) (x : s.Idx → EReal) (idx : IVec si w)
    (h : ∀ i, IsReal (x i)) (j : t.Idx) : IsReal (Host.gather d x idx j) :=
  gather_of_forall d x idx IsReal h j

/-! ## Regrouping a sum over \`a * b\` rows into \`a\` tiles of \`b\` rows -/

/-- Row \`r\` of tile \`t\`, among \`a\` tiles of \`b\` rows, is a row below \`a * b\`. -/
theorem tile_row_lt {a b : ℕ} (t : Fin a) (r : Fin b) : b * t.val + r.val < a * b := by
  have ht := t.isLt
  have hr := r.isLt
  calc b * t.val + r.val < b * t.val + b := by omega
    _ = b * (t.val + 1) := by ring
    _ ≤ b * a := Nat.mul_le_mul_left _ ht
    _ = a * b := Nat.mul_comm _ _

/-- A sum over \`a * b\` rows is the sum over the \`a\` tiles of the sum over the \`b\` rows of each tile, row \`r\` of tile \`t\`
    being row \`b * t + r\`. -/
theorem sum_fin_mul {M : Type*} [AddCommMonoid M] (a b : ℕ) (f : Fin (a * b) → M) :
    ∑ n : Fin (a * b), f n = ∑ t : Fin a, ∑ r : Fin b, f ⟨b * t.val + r.val, tile_row_lt t r⟩ := by
  rw [← Fintype.sum_equiv finProdFinEquiv (fun p : Fin a × Fin b => f (finProdFinEquiv p)) f (fun _ => rfl),
    Fintype.sum_prod_type]
  refine Finset.sum_congr rfl fun t _ => Finset.sum_congr rfl fun r _ => ?_
  congr 1
  apply Fin.ext
  simp only [finProdFinEquiv_apply_val]
  exact Nat.add_comm _ _

/-- The case of \`500000 = 250 × 2000\` rows: the sum over all rows is the sum over 250 tiles of the sums over the 2000
    rows of each tile. -/
theorem sum_fin_500000 {M : Type*} [AddCommMonoid M] (f : Fin 500000 → M) :
    ∑ n : Fin 500000, f n = ∑ t : Fin 250, ∑ r : Fin 2000, f ⟨2000 * t.val + r.val, by omega⟩ :=
  sum_fin_mul 250 2000 f

/-! ## The two variance formulas -/

/-- Over the reals, with \`N\` the number of data points and \`μ = (∑ x) / N\` their mean, the mean of the squared
    deviations from the mean is the mean of the squares minus the square of the mean:
    \`(∑ (x - μ)²) / N = (∑ x²) / N - μ · μ\`. -/
theorem variance_real {ι : Type*} [Fintype ι] (x : ι → ℝ) (N : ℝ) (hN : N = (Fintype.card ι : ℝ)) (hN0 : N ≠ 0) :
    (∑ i, (x i - (∑ i, x i) / N) ^ 2) / N
      = (∑ i, (x i) ^ 2) / N - ((∑ i, x i) / N) * ((∑ i, x i) / N) := by
  set S : ℝ := ∑ i, x i with hS
  set Q : ℝ := ∑ i, (x i) ^ 2 with hQ
  have h1 : ∑ i, (x i - S / N) ^ 2 = Q - 2 * (S / N) * S + N * (S / N) ^ 2 := by
    have h2 : ∀ i, (x i - S / N) ^ 2 = (x i) ^ 2 - 2 * (S / N) * x i + (S / N) ^ 2 := fun i => by ring
    simp only [h2, Finset.sum_add_distrib, Finset.sum_sub_distrib, ← Finset.mul_sum, Finset.sum_const,
      Finset.card_univ, nsmul_eq_mul, ← hN, ← hS, ← hQ]
  rw [h1]
  field_simp
  ring

/-- The same with the squares written as products, the shape the extended-real statement below reduces to. -/
theorem variance_real_mul {ι : Type*} [Fintype ι] (x : ι → ℝ) (N : ℝ) (hN : N = (Fintype.card ι : ℝ)) (hN0 : N ≠ 0) :
    (∑ i, (x i - (∑ i, x i) / N) * (x i - (∑ i, x i) / N)) / N
      = (∑ i, x i * x i) / N - ((∑ i, x i) / N) * ((∑ i, x i) / N) := by
  have h := variance_real x N hN hN0
  simp only [pow_two] at h
  exact h

/-- On the extended reals, for data \`h\` that are all real and \`N\` their (nonzero) number, with the mean
    \`μ = (0 + ∑ h) / N\` taken by the quotient \`Ideal.div\`: the mean of the squared deviations is the mean of the squares
    minus the square of the mean, \`(0 + ∑ (h - μ) · (h - μ)) / N = (0 + ∑ h · h) / N - μ · μ\`. (The leading \`0 +\` is the
    initial value of the sums.) -/
theorem variance_ereal {ι : Type*} [Fintype ι] (h : ι → EReal) (hh : ∀ i, IsReal (h i)) (N : ℝ)
    (hN : N = (Fintype.card ι : ℝ)) (hN0 : N ≠ 0) :
    Ideal.div (0 + ∑ i, (h i - Ideal.div (0 + ∑ i, h i) (N : EReal)) * (h i - Ideal.div (0 + ∑ i, h i) (N : EReal))) (N : EReal)
      = Ideal.div (0 + ∑ i, h i * h i) (N : EReal)
        - Ideal.div (0 + ∑ i, h i) (N : EReal) * Ideal.div (0 + ∑ i, h i) (N : EReal) := by
  choose x hx using hh
  obtain rfl : h = fun i => ((x i : ℝ) : EReal) := funext hx
  simp only [zero_add]
  rw [coe_fintype_sum, div_coe_coe _ hN0]
  simp only [← EReal.coe_sub, ← EReal.coe_mul]
  rw [coe_fintype_sum, coe_fintype_sum, div_coe_coe _ hN0, div_coe_coe _ hN0, ← EReal.coe_sub]
  exact congrArg _ (variance_real_mul x N hN hN0)

/-- The same for data indexed by \`Fin n\`, \`n ≠ 0\`, the count being the real \`n\`. -/
theorem variance_ereal_fin {n : ℕ} (hn : n ≠ 0) (h : Fin n → EReal) (hh : ∀ i, IsReal (h i)) :
    Ideal.div (0 + ∑ i, (h i - Ideal.div (0 + ∑ i, h i) ((n : ℝ) : EReal))
        * (h i - Ideal.div (0 + ∑ i, h i) ((n : ℝ) : EReal))) ((n : ℝ) : EReal)
      = Ideal.div (0 + ∑ i, h i * h i) ((n : ℝ) : EReal)
        - Ideal.div (0 + ∑ i, h i) ((n : ℝ) : EReal) * Ideal.div (0 + ∑ i, h i) ((n : ℝ) : EReal) :=
  variance_ereal h hh (n : ℝ) (by rw [Fintype.card_fin]) (Nat.cast_ne_zero.mpr hn)

/-- The case of \`500000\` data points, the count being the real \`500000\`. -/
theorem variance_ereal_500000 (h : Fin 500000 → EReal) (hh : ∀ i, IsReal (h i)) :
    Ideal.div (0 + ∑ i, (h i - Ideal.div (0 + ∑ i, h i) ((500000 : ℝ) : EReal))
        * (h i - Ideal.div (0 + ∑ i, h i) ((500000 : ℝ) : EReal))) ((500000 : ℝ) : EReal)
      = Ideal.div (0 + ∑ i, h i * h i) ((500000 : ℝ) : EReal)
        - Ideal.div (0 + ∑ i, h i) ((500000 : ℝ) : EReal) * Ideal.div (0 + ∑ i, h i) ((500000 : ℝ) : EReal) :=
  variance_ereal h hh (500000 : ℝ) (by rw [Fintype.card_fin]; norm_num) (by norm_num)

end Cert.LibMoments
-- ==== Proof.BasesReal.lean ====
/-
  The graph's Chebyshev bases on the extended reals: every stage of the chain is real-valued when the node features
  are, and the layout operations around them read at an index.

  * The degree of a node is a finite sum of ones, so it is real and non-negative; its maximum with one is at least one,
    so the inverse square root of that maximum is real; an edge's weight is minus a product of two such numbers; a
    propagation adds finitely many products of reals; a step is twice a propagation less a base. Hence all five bases
    are real at every index when the features are (\`bases_real\`).
  * The stack of the six bases along a new leading axis reads, at \`(k, n, f)\`, base \`k\` at \`(n, f)\` (\`stack_apply_0\` …
    \`stack_apply_5\`, \`stack_apply\`).
  * Leading unit axes added or dropped, a row cut out of a two-row array, and the sum over the 250 tiles, each read at
    an index.
-/
import proofs.«105403_j78039555768470_2_alg».proof.Proof.Bases
import proofs.«105403_j78039555768470_2_alg».proof.Proof.LibMoments
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.BasesReal

open Cert.KernelIdeal Cert.KernelIdeal.Gen Cert.KernelIdeal.Bases Cert.LibMoments

open scoped BigOperators

/-! ## The constants -/

/-- The word \`0x3F800000\` denotes \`1\`. -/
theorem ofBits_one : Ideal.ofBits .f32 0x3F800000#32 = 1 := by
  simp [Ideal.ofBits, Ideal.ieee, -EReal.coe_mul]; norm_num

/-- The word \`0x40000000\` denotes \`2\`. -/
theorem ofBits_two : Ideal.ofBits .f32 0x40000000#32 = ((2 : ℝ) : EReal) := by
  simp [Ideal.ofBits, Ideal.ieee, -EReal.coe_mul]; norm_num

/-! ## Reading through a broadcast and a splat -/

/-- A \`broadcast_in_dim\` reads its operand at some index, so it is real everywhere when the operand is. -/
theorem isReal_broadcastInDim {s t : Shape} (dims : Fin s.rank → Fin t.rank) (h : s.BroadcastsInDim t dims)
    (x : s.Idx → EReal) (hx : ∀ k, IsReal (x k)) (j : t.Idx) : IsReal (broadcastInDim t dims h x j) :=
  hx _

/-- A splat of a word that denotes a real is real everywhere. -/
theorem isReal_constant {s : Shape} (w : BitVec 32) (hw : IsReal (Ideal.ofBits .f32 w)) (i : s.Idx) :
    IsReal (constant (F := Ideal) s .f32 w i) :=
  hw

/-- The zero word denotes a real. -/
theorem isReal_zero_word : IsReal (Ideal.ofBits .f32 0x00000000#32) := by
  rw [Ideal.ofBits_zero_f32]; exact IsReal.zero

/-- The word of \`1\` denotes a real. -/
theorem isReal_one_word : IsReal (Ideal.ofBits .f32 0x3F800000#32) := by
  rw [ofBits_one]; exact IsReal.one

/-- The word of \`2\` denotes a real. -/
theorem isReal_two_word : IsReal (Ideal.ofBits .f32 0x40000000#32) := by
  rw [ofBits_two]; exact IsReal.coe 2

/-! ## The operations of the chain, at any shape

Each closure property is stated for arrays of ANY shape, where the operation unfolds to the extended reals' own; the
chain's stages, at their literal shapes, only cite them. -/

/-- A \`broadcast_in_dim\` of a splat reads the splat's value everywhere. -/
theorem splat_apply {s t : Shape} (dims : Fin s.rank → Fin t.rank) (h : s.BroadcastsInDim t dims) (w : BitVec 32)
    (j : t.Idx) : broadcastInDim t dims h (constant (F := Ideal) s .f32 w) j = Ideal.ofBits .f32 w :=
  rfl

/-- An accumulating scatter of real updates into a real operand is real at every index. -/
theorem isReal_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) d x idx upd i) :=
  IsReal.hostScatterAdd d x idx upd hx hu i

/-- An accumulating scatter of non-negative updates into a non-negative operand is non-negative at every index. -/
theorem scatterAdd_nonneg {s si su : Shape} {w : Nat} (d : ScatterDims s si su) (x : FVec Ideal s .f32) (idx : IVec si w)
    (upd : FVec Ideal su .f32) (hx : ∀ i, 0 ≤ x i) (hu : ∀ j, 0 ≤ upd j) (i : s.Idx) :
    0 ≤ Host.scatterAdd (F := Ideal) d x idx upd i := by
  show 0 ≤ Ideal.hostScatterAdd d x idx upd i
  unfold Ideal.hostScatterAdd
  exact add_nonneg (hx i) (Finset.sum_nonneg fun j _ => hu j)

/-- A product of arrays is real where both factors are. -/
theorem isReal_mulf {s : Shape} (a b : FVec Ideal s .f32) (i : s.Idx) (ha : IsReal (a i)) (hb : IsReal (b i)) :
    IsReal (mulf a b i) :=
  ha.mul hb

/-- A difference of arrays is real where both terms are. -/
theorem isReal_subf {s : Shape} (a b : FVec Ideal s .f32) (i : s.Idx) (ha : IsReal (a i)) (hb : IsReal (b i)) :
    IsReal (subf a b i) :=
  ha.sub hb

/-- A negation of an array is real where the array is. -/
theorem isReal_negf {s : Shape} (a : FVec Ideal s .f32) (i : s.Idx) (ha : IsReal (a i)) :
    IsReal (Host.negf (F := Ideal) a i) :=
  ha.neg

/-- A selection between two arrays is real where both are. -/
theorem isReal_select {s : Shape} (c : IVec s 1) (a b : s.Idx → EReal) (i : s.Idx) (ha : IsReal (a i)) (hb : IsReal (b i)) :
    IsReal (select c a b i) := by
  show IsReal (if c i = 1 then a i else b i)
  split
  · exact ha
  · exact hb

/-- The inverse square root of the maximum of a real and one is real. -/
theorem isReal_rsqrt_max {s : Shape} (x y : FVec Ideal s .f32) (i : s.Idx) (hx : IsReal (x i)) (hy : y i = 1) :
    IsReal (Host.rsqrt (F := Ideal) (maximumf x y) i) := by
  show IsReal (Ideal.rsqrt (max (x i) (y i)))
  rw [hy]
  exact (hx.max IsReal.one).rsqrt (le_max_right _ _)

/-! ## The chain is real -/

/-- The degree — one per edge, summed at the edge's target, from a zero start — is real. -/
theorem degF_real (e : (⟨S2x4000000, .i32⟩ : BufTy).Contents (Elt Ideal)) (i : S500000.Idx) :
    IsReal (degF (F := Ideal) e i) := by
  delta degF
  exact isReal_scatterAdd _ _ _ _
    (fun k => by rw [splat_apply]; exact isReal_zero_word)
    (fun k => by rw [splat_apply]; exact isReal_one_word) i

/-- The degree is not negative. -/
theorem degF_nonneg (e : (⟨S2x4000000, .i32⟩ : BufTy).Contents (Elt Ideal)) (i : S500000.Idx) :
    0 ≤ degF (F := Ideal) e i := by
  delta degF
  exact scatterAdd_nonneg _ _ _ _
    (fun k => by rw [splat_apply, Ideal.ofBits_zero_f32])
    (fun k => by rw [splat_apply, ofBits_one]; exact zero_le_one) i
/-- The inverse square root of the degree, zero at an isolated node, is real. -/
theorem disF_real (e : (⟨S2x4000000, .i32⟩ : BufTy).Contents (Elt Ideal)) (i : S500000.Idx) :
    IsReal (disF (F := Ideal) e i) := by
  delta disF
  refine isReal_select _ _ _ i (isReal_rsqrt_max _ _ i (degF_real e i) ?_) ?_
  · rw [splat_apply, ofBits_one]
  · show IsReal (broadcastInDim S500000 ![] bcast_S_S500000 (constant (F := Ideal) S_ .f32 0x00000000#32) i)
    rw [splat_apply]; exact isReal_zero_word

/-- An edge's weight, minus the product of the two ends' inverse square roots, is real. -/
theorem normF_real (e : (⟨S2x4000000, .i32⟩ : BufTy).Contents (Elt Ideal)) (j : S4000000.Idx) :
    IsReal (normF (F := Ideal) e j) := by
  delta normF
  exact isReal_negf _ j (isReal_mulf _ _ j (IsReal.gather _ _ _ (disF_real e) j) (IsReal.gather _ _ _ (disF_real e) j))

/-- One propagation of a real array is real. -/
theorem propF_real (e : (⟨S2x4000000, .i32⟩ : BufTy).Contents (Elt Ideal))
    (h : (⟨S500000x24, .f32⟩ : BufTy).Contents (Elt Ideal)) (hh : ∀ i, IsReal (h i)) (i : S500000x24.Idx) :
    IsReal (propF (F := Ideal) e h i) := by
  delta propF
  refine isReal_scatterAdd _ _ _ _ ?_ ?_ i
  · intro k; rw [splat_apply]; exact isReal_zero_word
  · intro k
    refine isReal_mulf _ _ k ?_ ?_
    · refine isReal_broadcastInDim _ _ _ ?_ k
      intro k'
      exact isReal_broadcastInDim _ _ _ (normF_real e) k'
    · exact IsReal.gather _ _ _ hh k

/-- One step — twice a propagation less the base before the last — of real arrays is real. -/
theorem stepF_real (e : (⟨S2x4000000, .i32⟩ : BufTy).Contents (Elt Ideal))
    (h h' : (⟨S500000x24, .f32⟩ : BufTy).Contents (Elt Ideal)) (hh : ∀ i, IsReal (h i)) (hh' : ∀ i, IsReal (h' i))
    (i : S500000x24.Idx) : IsReal (stepF (F := Ideal) e h h' i) := by
  delta stepF
  refine isReal_subf _ _ i ?_ (hh' i)
  refine isReal_mulf _ _ i ?_ (propF_real e h hh i)
  rw [splat_apply]; exact isReal_two_word

/-- ALL FIVE BASES ARE REAL at every index when the node features are. -/
theorem bases_real (x : (⟨S500000x24, .f32⟩ : BufTy).Contents (Elt Ideal))
    (e : (⟨S2x4000000, .i32⟩ : BufTy).Contents (Elt Ideal)) (hx : ∀ i, IsReal (x i)) :
    (∀ i, IsReal (T1F (F := Ideal) x e i)) ∧ (∀ i, IsReal (T2F (F := Ideal) x e i)) ∧ (∀ i, IsReal (T3F (F := Ideal) x e i))
      ∧ (∀ i, IsReal (T4F (F := Ideal) x e i)) ∧ (∀ i, IsReal (T5F (F := Ideal) x e i)) := by
  have h1 : ∀ i, IsReal (T1F (F := Ideal) x e i) := fun i => by delta T1F; exact propF_real e x hx i
  have h2 : ∀ i, IsReal (T2F (F := Ideal) x e i) := fun i => by delta T2F; exact stepF_real e _ _ h1 hx i
  have h3 : ∀ i, IsReal (T3F (F := Ideal) x e i) := fun i => by delta T3F; exact stepF_real e _ _ h2 h1 i
  have h4 : ∀ i, IsReal (T4F (F := Ideal) x e i) := fun i => by delta T4F; exact stepF_real e _ _ h3 h2 i
  have h5 : ∀ i, IsReal (T5F (F := Ideal) x e i) := fun i => by delta T5F; exact stepF_real e _ _ h4 h3 i
  exact ⟨h1, h2, h3, h4, h5⟩

/-! ## The stack of the six bases read at an index -/

/-- An array given a new leading unit axis reads, at \`(0, n, f)\`, the array at \`(n, f)\`. -/
theorem lead_apply {a b : Nat} (h : (⟨2, ![a, b]⟩ : Shape).BroadcastsInDim ⟨3, ![1, a, b]⟩ (![1, 2] : Fin 2 → Fin 3))
    (u : (⟨2, ![a, b]⟩ : Shape).Idx → EReal) (z : Fin 1) (n : Fin a) (f : Fin b) :
    broadcastInDim ⟨3, ![1, a, b]⟩ ![1, 2] h u (ix3 z n f) = u (ix2 n f) := by
  refine broadcastInDim_apply _ h u (ix3 z n f) (ix2 n f) fun ax => ?_
  match ax with
  | ⟨0, _⟩ =>
    show n.val = if a = 1 then 0 else n.val
    split
    · have := n.isLt; omega
    · rfl
  | ⟨1, _⟩ =>
    show f.val = if b = 1 then 0 else f.val
    split
    · have := f.isLt; omega
    · rfl

/-- The six arrays stacked along a new leading axis. -/
abbrev stack6 (u0 u1 u2 u3 u4 u5 : S500000x24.Idx → EReal) : S6x500000x24.Idx → EReal :=
  concatenate S6x500000x24 0 [⟨S1x500000x24, broadcastInDim S1x500000x24 ![1, 2] bcast_S500000x24_S1x500000x24_1_2 u0⟩,
        ⟨S1x500000x24, broadcastInDim S1x500000x24 ![1, 2] bcast_S500000x24_S1x500000x24_1_2 u1⟩,
        ⟨S1x500000x24, broadcastInDim S1x500000x24 ![1, 2] bcast_S500000x24_S1x500000x24_1_2 u2⟩,
        ⟨S1x500000x24, broadcastInDim S1x500000x24 ![1, 2] bcast_S500000x24_S1x500000x24_1_2 u3⟩,
        ⟨S1x500000x24, broadcastInDim S1x500000x24 ![1, 2] bcast_S500000x24_S1x500000x24_1_2 u4⟩,
        ⟨S1x500000x24, broadcastInDim S1x500000x24 ![1, 2] bcast_S500000x24_S1x500000x24_1_2 u5⟩]
      concatenates_S1x500000x24_S1x500000x24_S1x500000x24_S1x500000x24_S1x500000x24_S1x500000x24_S6x500000x24_d0

/-- The stack at \`(0, n, f)\` is array 0 at \`(n, f)\`. -/
theorem stack_apply_0 (u0 u1 u2 u3 u4 u5 : S500000x24.Idx → EReal) (n : Fin 500000) (f : Fin 24) :
    stack6 u0 u1 u2 u3 u4 u5 (ix3 (0 : Fin 6) n f) = u0 (ix2 n f) := by
  refine (concatenate_apply_piece (t := S6x500000x24) (0 : Fin 3) _ _ (ix3 (0 : Fin 6) n f) 0 (by show (0 : Nat) < 6; decide) S1x500000x24
    (broadcastInDim S1x500000x24 ![1, 2] bcast_S500000x24_S1x500000x24_1_2 u0) rfl rfl 0 rfl
    (ix3 (0 : Fin 1) n f) (fun b hb => ?_) rfl).trans ?_
  · match b with
    | ⟨0, _⟩ => exact absurd rfl hb
    | ⟨1, _⟩ => rfl
    | ⟨2, _⟩ => rfl
  · exact lead_apply _ u0 0 n f

/-- The stack at \`(1, n, f)\` is array 1 at \`(n, f)\`. -/
theorem stack_apply_1 (u0 u1 u2 u3 u4 u5 : S500000x24.Idx → EReal) (n : Fin 500000) (f : Fin 24) :
    stack6 u0 u1 u2 u3 u4 u5 (ix3 (1 : Fin 6) n f) = u1 (ix2 n f) := by
  refine (concatenate_apply_piece (t := S6x500000x24) (0 : Fin 3) _ _ (ix3 (1 : Fin 6) n f) 1 (by show (1 : Nat) < 6; decide) S1x500000x24
    (broadcastInDim S1x500000x24 ![1, 2] bcast_S500000x24_S1x500000x24_1_2 u1) rfl rfl 1 rfl
    (ix3 (0 : Fin 1) n f) (fun b hb => ?_) rfl).trans ?_
  · match b with
    | ⟨0, _⟩ => exact absurd rfl hb
    | ⟨1, _⟩ => rfl
    | ⟨2, _⟩ => rfl
  · exact lead_apply _ u1 0 n f

/-- The stack at \`(2, n, f)\` is array 2 at \`(n, f)\`. -/
theorem stack_apply_2 (u0 u1 u2 u3 u4 u5 : S500000x24.Idx → EReal) (n : Fin 500000) (f : Fin 24) :
    stack6 u0 u1 u2 u3 u4 u5 (ix3 (2 : Fin 6) n f) = u2 (ix2 n f) := by
  refine (concatenate_apply_piece (t := S6x500000x24) (0 : Fin 3) _ _ (ix3 (2 : Fin 6) n f) 2 (by show (2 : Nat) < 6; decide) S1x500000x24
    (broadcastInDim S1x500000x24 ![1, 2] bcast_S500000x24_S1x500000x24_1_2 u2) rfl rfl 2 rfl
    (ix3 (0 : Fin 1) n f) (fun b hb => ?_) rfl).trans ?_
  · match b with
    | ⟨0, _⟩ => exact absurd rfl hb
    | ⟨1, _⟩ => rfl
    | ⟨2, _⟩ => rfl
  · exact lead_apply _ u2 0 n f

/-- The stack at \`(3, n, f)\` is array 3 at \`(n, f)\`. -/
theorem stack_apply_3 (u0 u1 u2 u3 u4 u5 : S500000x24.Idx → EReal) (n : Fin 500000) (f : Fin 24) :
    stack6 u0 u1 u2 u3 u4 u5 (ix3 (3 : Fin 6) n f) = u3 (ix2 n f) := by
  refine (concatenate_apply_piece (t := S6x500000x24) (0 : Fin 3) _ _ (ix3 (3 : Fin 6) n f) 3 (by show (3 : Nat) < 6; decide) S1x500000x24
    (broadcastInDim S1x500000x24 ![1, 2] bcast_S500000x24_S1x500000x24_1_2 u3) rfl rfl 3 rfl
    (ix3 (0 : Fin 1) n f) (fun b hb => ?_) rfl).trans ?_
  · match b with
    | ⟨0, _⟩ => exact absurd rfl hb
    | ⟨1, _⟩ => rfl
    | ⟨2, _⟩ => rfl
  · exact lead_apply _ u3 0 n f

/-- The stack at \`(4, n, f)\` is array 4 at \`(n, f)\`. -/
theorem stack_apply_4 (u0 u1 u2 u3 u4 u5 : S500000x24.Idx → EReal) (n : Fin 500000) (f : Fin 24) :
    stack6 u0 u1 u2 u3 u4 u5 (ix3 (4 : Fin 6) n f) = u4 (ix2 n f) := by
  refine (concatenate_apply_piece (t := S6x500000x24) (0 : Fin 3) _ _ (ix3 (4 : Fin 6) n f) 4 (by show (4 : Nat) < 6; decide) S1x500000x24
    (broadcastInDim S1x500000x24 ![1, 2] bcast_S500000x24_S1x500000x24_1_2 u4) rfl rfl 4 rfl
    (ix3 (0 : Fin 1) n f) (fun b hb => ?_) rfl).trans ?_
  · match b with
    | ⟨0, _⟩ => exact absurd rfl hb
    | ⟨1, _⟩ => rfl
    | ⟨2, _⟩ => rfl
  · exact lead_apply _ u4 0 n f

/-- The stack at \`(5, n, f)\` is array 5 at \`(n, f)\`. -/
theorem stack_apply_5 (u0 u1 u2 u3 u4 u5 : S500000x24.Idx → EReal) (n : Fin 500000) (f : Fin 24) :
    stack6 u0 u1 u2 u3 u4 u5 (ix3 (5 : Fin 6) n f) = u5 (ix2 n f) := by
  refine (concatenate_apply_piece (t := S6x500000x24) (0 : Fin 3) _ _ (ix3 (5 : Fin 6) n f) 5 (by show (5 : Nat) < 6; decide) S1x500000x24
    (broadcastInDim S1x500000x24 ![1, 2] bcast_S500000x24_S1x500000x24_1_2 u5) rfl rfl 5 rfl
    (ix3 (0 : Fin 1) n f) (fun b hb => ?_) rfl).trans ?_
  · match b with
    | ⟨0, _⟩ => exact absurd rfl hb
    | ⟨1, _⟩ => rfl
    | ⟨2, _⟩ => rfl
  · exact lead_apply _ u5 0 n f

/-! ## Layout reads around the regions -/

/-- A \`[64]\` vector viewed \`[1, 64]\` reads, at \`(0, j)\`, the vector at \`j\`. -/
theorem cast_64_1x64_apply (v : S64.Idx → EReal) (j : Fin 64) :
    shapeCast S1x64 v shapeCasts_S64_S1x64 (ix2 (0 : Fin 1) j) = v (ix1 j) :=
  shapeCast_a_1a_apply v _ 0 j

/-- A \`[1, 64]\` array viewed \`[64]\` reads, at \`j\`, the array at \`(0, j)\`. -/
theorem cast_1x64_64_apply (v : S1x64.Idx → EReal) (j : Fin 64) :
    shapeCast S64 v shapeCasts_S1x64_S64 (ix1 j) = v (ix2 (0 : Fin 1) j) :=
  shapeCast_1a_a_apply v _ j

/-- A \`[1, 64, 6]\` array viewed \`[64, 6]\` reads, at \`(j, o)\`, the array at \`(0, j, o)\`. -/
theorem cast_1x64x6_64x6_apply (w : S1x64x6.Idx → EReal) (j : Fin 64) (o : Fin 6) :
    shapeCast S64x6 w shapeCasts_S1x64x6_S64x6 (ix2 j o) = w (ix3 (0 : Fin 1) j o) :=
  shapeCast_1ab_ab_apply w _ j o

/-- A \`[6]\` vector viewed \`[1, 6]\` reads, at \`(0, o)\`, the vector at \`o\`. -/
theorem cast_6_1x6_apply (c : S6.Idx → EReal) (o : Fin 6) :
    shapeCast S1x6 c shapeCasts_S6_S1x6 (ix2 (0 : Fin 1) o) = c (ix1 o) :=
  shapeCast_a_1a_apply c _ 0 o

/-- The first row cut out of a \`[2, 64]\` array reads, at \`(0, j)\`, the array at \`(0, j)\`. -/
theorem row0_apply (M : S2x64.Idx → EReal) (j : Fin 64) :
    extractStridedSlice S1x64 ![0, 0] M slices_S2x64_S1x64_0_0 (ix2 (0 : Fin 1) j) = M (ix2 (0 : Fin 2) j) :=
  slice2_axis0_apply 0 M _ 0 j 0 rfl

/-- The second row cut out of a \`[2, 64]\` array reads, at \`(0, j)\`, the array at \`(1, j)\`. -/
theorem row1_apply (M : S2x64.Idx → EReal) (j : Fin 64) :
    extractStridedSlice S1x64 ![1, 0] M slices_S2x64_S1x64_1_0 (ix2 (0 : Fin 1) j) = M (ix2 (1 : Fin 2) j) :=
  slice2_axis0_apply 1 M _ 0 j 1 rfl

/-- The host's sum at any shapes: the exact sum from the initial value's one element. -/
theorem host_reduceAdd_apply {s t u : Shape} {axes : List (Fin s.rank)} (x : FVec Ideal s .f32) (init : u.Idx → Ideal .f32)
    (h : s.ReducesTo axes t) (hu : 0 < u.numel) (j : t.Idx) :
    Host.reduceAdd (F := Ideal) x init h hu j = Ideal.hostReduceAdd h x (init (Shape.Idx.first hu)) j :=
  rfl

/-- The sum over the 250 tiles of a \`[250, 2, 64]\` array, from the zero start, reads at \`(a, j)\` the start plus
    \`∑ t, M (t, a, j)\`. -/
theorem tiles_sum_apply (M : S250x2x64.Idx → EReal) (a : Fin 2) (j : Fin 64) :
    Host.reduceAdd (F := Ideal) M (constant (F := Ideal) S_ .f32 0x00000000#32) reducesTo_S250x2x64_S2x64_d0 h_S_ (ix2 a j)
      = Ideal.ofBits .f32 0x00000000#32 + ∑ t : Fin 250, M (ix3 t a j) := by
  have hR : S250x2x64.Reduces [0] S2x64 := by decide
  rw [host_reduceAdd_apply]
  refine (Ideal.hostReduceAdd_single reducesTo_S250x2x64_S2x64_d0 hR M _ (ix2 a j)).trans ?_
  refine congrArg₂ (· + ·) rfl (Finset.sum_congr rfl fun t _ => congrArg M (funext fun ax => Fin.ext (by
    match ax with
    | ⟨0, _⟩ => rfl
    | ⟨1, _⟩ => rfl
    | ⟨2, _⟩ => rfl)))

/-- The same with the zero start dropped: \`∑ t, M (t, a, j)\`. -/
theorem tiles_sum_apply' (M : S250x2x64.Idx → EReal) (a : Fin 2) (j : Fin 64) :
    Host.reduceAdd (F := Ideal) M (constant (F := Ideal) S_ .f32 0x00000000#32) reducesTo_S250x2x64_S2x64_d0 h_S_ (ix2 a j)
      = ∑ t : Fin 250, M (ix3 t a j) := by
  rw [tiles_sum_apply, Ideal.ofBits_zero_f32, zero_add]

end Cert.KernelIdeal.BasesReal
-- ==== Proof.RefFnRead.lean ====
/-
  The reference's last stages read at an index, on the extended reals.

  At the ideal values a float is an extended real and every operation is exact: a host sum along the rows is the initial
  value plus the sum over the 500000 rows, a host quotient is `Ideal.div`, a `dot_general` over one contracted axis is the
  sum over that axis of the products, a broadcast reads its operand at the coordinates it keeps, a reshape and a slice
  read their operand at the same row-major position. So: the column mean is `(0 + Σ_n H[n,j]) / 500000`, the column
  variance `(0 + Σ_n (H[n,j] - mean_j)·(H[n,j] - mean_j)) / 500000`, the result at `(n, o)` is
  `Σ_j max (((H[n,j] - mean_j) · rsqrt (var_j + ε)) · γ_j + β_j) 0 · Wmix[0,j,o] + bmix_o`, and the hidden rows at `(n, j)` are
  `((((d₀ + d₁) + d₂) + d₃) + d₄) + d₅ + b_j` with `d_k = Σ_f T_k[n,f] · W[k,f,j]`.
-/
import proofs.«105403_j78039555768470_2_alg».proof.Proof.RefFn
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.HandRun

open Cert.ReferenceIdeal Cert.ReferenceIdeal.Gen Idealize.ShloMosaic Idealize.ShloMosaic.ValueIdx
open scoped BigOperators

/-! ## Constants -/

/-- The pattern `0x48F42400` denotes the real `500000`. -/
theorem ofBits_500000 : Ideal.ofBits .f32 0x48F42400#32 = ((500000 : ℝ) : EReal) := by
  simp [Ideal.ofBits, Ideal.ieee, -EReal.coe_mul]; norm_num

/-! ## Broadcasts -/

/-- A vector of 64 columns laid over the rows reads, at row `n` and column `j`, its `j`-th entry. -/
theorem overRows_apply {F : FTy → Type} [FloatOps F] (v : (⟨S64, .f32⟩ : BufTy).Contents (Elt F)) (n : Fin 500000) (j : Fin 64) :
    overRows v (ix2 n j) = v (ix1 j) := by
  unfold overRows
  refine (broadcastInDim_apply _ bcast_S1x64_S500000x64_0_1 _ (ix2 n j) (ix2 (0 : Fin 1) j) (fun a => match a with
      | ⟨0, _⟩ => by show 0 = if (1 : Nat) = 1 then 0 else n.val; rw [if_pos rfl]
      | ⟨1, _⟩ => by show j.val = if (64 : Nat) = 1 then 0 else j.val; rw [if_neg (by decide)])).trans ?_
  exact broadcastInDim_apply _ bcast_S64_S1x64_1 v (ix2 (0 : Fin 1) j) (ix1 j) (fun a => match a with
      | ⟨0, _⟩ => by show j.val = if (64 : Nat) = 1 then 0 else j.val; rw [if_neg (by decide)])

/-- A vector of 6 columns laid over the rows reads, at row `n` and column `o`, its `o`-th entry. -/
theorem overRows6_apply {F : FTy → Type} [FloatOps F] (v : (⟨S6, .f32⟩ : BufTy).Contents (Elt F)) (n : Fin 500000) (o : Fin 6) :
    broadcastInDim S500000x6 ![0, 1] bcast_S1x6_S500000x6_0_1 (broadcastInDim S1x6 ![1] bcast_S6_S1x6_1 v) (ix2 n o) = v (ix1 o) := by
  refine (broadcastInDim_apply _ bcast_S1x6_S500000x6_0_1 _ (ix2 n o) (ix2 (0 : Fin 1) o) (fun a => match a with
      | ⟨0, _⟩ => by show 0 = if (1 : Nat) = 1 then 0 else n.val; rw [if_pos rfl]
      | ⟨1, _⟩ => by show o.val = if (6 : Nat) = 1 then 0 else o.val; rw [if_neg (by decide)])).trans ?_
  exact broadcastInDim_apply _ bcast_S6_S1x6_1 v (ix2 (0 : Fin 1) o) (ix1 o) (fun a => match a with
      | ⟨0, _⟩ => by show o.val = if (6 : Nat) = 1 then 0 else o.val; rw [if_neg (by decide)])

/-! ## The column sums, means and variances -/

/-- A host sum along the rows, from the zero constant, at column `j`: zero plus the sum over the rows. -/
theorem colSum_apply (H : (⟨S500000x64, .f32⟩ : BufTy).Contents (Elt Ideal)) (j : Fin 64) :
    Host.reduceAdd (F := Ideal) H (constant S_ .f32 0x00000000#32) reducesTo_S500000x64_S64_d0 h_S_ (ix1 j)
      = 0 + ∑ n : Fin 500000, H (ix2 n j) := by
  simp only [Host.reduceAdd, Ideal.hostReduceAdd_def]
  rw [Ideal.hostReduceAdd_single reducesTo_S500000x64_S64_d0 (by decide)]
  show Ideal.ofBits .f32 0x00000000#32 + _ = _
  rw [Ideal.ofBits_zero_f32]
  refine congrArg (0 + ·) (Finset.sum_congr rfl fun k _ => ?_)
  exact congrArg H (funext fun a => Fin.ext (by match a with | ⟨0, _⟩ => rfl | ⟨1, _⟩ => rfl))

/-- The column mean. -/
theorem colMean_apply (H : (⟨S500000x64, .f32⟩ : BufTy).Contents (Elt Ideal)) (j : Fin 64) :
    colMean (F := Ideal) H (ix1 j) = Ideal.div (0 + ∑ n : Fin 500000, H (ix2 n j)) ((500000 : ℝ) : EReal) := by
  unfold colMean
  rw [hostDivf_apply, broadcastInDim_scalar_apply, constant_apply, ofBits_500000, colSum_apply]

/-- The column variance: the mean of the squared deviations from the column mean, the square written as a product. -/
theorem colVar_apply (H : (⟨S500000x64, .f32⟩ : BufTy).Contents (Elt Ideal)) (j : Fin 64) :
    colVar (F := Ideal) H (ix1 j)
      = Ideal.div (0 + ∑ n : Fin 500000, (H (ix2 n j) - colMean H (ix1 j)) * (H (ix2 n j) - colMean H (ix1 j)))
          ((500000 : ℝ) : EReal) := by
  unfold colVar
  rw [hostDivf_apply, broadcastInDim_scalar_apply, constant_apply, ofBits_500000, colSum_apply]
  have e : ∀ n : Fin 500000, mulf (subf H (overRows (colMean H))) (subf H (overRows (colMean H))) (ix2 n j)
      = (H (ix2 n j) - colMean H (ix1 j)) * (H (ix2 n j) - colMean H (ix1 j)) := fun n => by
    rw [mulf_apply, subf_apply, overRows_apply]
  rw [Fintype.sum_congr _ _ e]

/-! ## The normalised rows and the result -/

/-- The normalised, scaled and shifted hidden rows cut below at zero, at row `n` and column `j`. -/
theorem normRelu_apply (H : (⟨S500000x64, .f32⟩ : BufTy).Contents (Elt Ideal)) (g be : (⟨S64, .f32⟩ : BufTy).Contents (Elt Ideal)) (n : Fin 500000) (j : Fin 64) :
    normRelu (F := Ideal) H g be (ix2 n j)
      = max ((((H (ix2 n j) - colMean H (ix1 j)) * Ideal.rsqrt (colVar H (ix1 j) + Ideal.ofBits .f32 0x3727C5AC#32))
          * g (ix1 j)) + be (ix1 j)) 0 := by
  unfold normRelu
  rw [maximumf_apply, addf_apply, mulf_apply, mulf_apply, subf_apply, overRows_apply, overRows_apply, overRows_apply,
    overRows_apply, broadcastInDim_scalar_apply, constant_apply, Ideal.ofBits_zero_f32]
  rfl

theorem lhs64_0 (i : S500000x6.Idx) (q : dot_S500000x64_S64x6_S500000x6_1_0_0_1_n_n.contr.Idx) : (dot_S500000x64_S64x6_S500000x6_1_0_0_1_n_n.lhsIdx i q 0).val = (i 0).val := by
  unfold DotDims.lhsIdx
  rw [dif_neg (show ¬(0 : Fin S500000x64.rank) ∈ dot_S500000x64_S64x6_S500000x6_1_0_0_1_n_n.lhsBatch by decide), dif_pos (show (0 : Fin S500000x64.rank) ∈ dot_S500000x64_S64x6_S500000x6_1_0_0_1_n_n.lhsNonContracting by decide)]
  rfl
theorem lhs64_1 (i : S500000x6.Idx) (q : dot_S500000x64_S64x6_S500000x6_1_0_0_1_n_n.contr.Idx) : (dot_S500000x64_S64x6_S500000x6_1_0_0_1_n_n.lhsIdx i q 1).val = (q ⟨0, by decide⟩).val :=
  dot_S500000x64_S64x6_S500000x6_1_0_0_1_n_n.lhsIdx_val_of_single rfl i q
theorem rhs64_0 (i : S500000x6.Idx) (q : dot_S500000x64_S64x6_S500000x6_1_0_0_1_n_n.contr.Idx) : (dot_S500000x64_S64x6_S500000x6_1_0_0_1_n_n.rhsIdx i q 0).val = (q ⟨0, by decide⟩).val :=
  dot_S500000x64_S64x6_S500000x6_1_0_0_1_n_n.rhsIdx_val_of_single rfl i q
theorem rhs64_1 (i : S500000x6.Idx) (q : dot_S500000x64_S64x6_S500000x6_1_0_0_1_n_n.contr.Idx) : (dot_S500000x64_S64x6_S500000x6_1_0_0_1_n_n.rhsIdx i q 1).val = (i 1).val := by
  unfold DotDims.rhsIdx
  rw [dif_neg (show ¬(1 : Fin S64x6.rank) ∈ dot_S500000x64_S64x6_S500000x6_1_0_0_1_n_n.rhsBatch by decide), dif_pos (show (1 : Fin S64x6.rank) ∈ dot_S500000x64_S64x6_S500000x6_1_0_0_1_n_n.rhsNonContracting by decide)]
  rfl

/-- The product with the mixing weights at row `n`, column `o`: the sum over the 64 columns. -/
theorem dot64_apply (A : FVec Ideal S500000x64 .f32) (B : FVec Ideal S64x6 .f32) (n : Fin 500000) (o : Fin 6) :
    Host.dotGeneral (F := Ideal) dot_S500000x64_S64x6_S500000x6_1_0_0_1_n_n none A B (ix2 n o) = ∑ j : Fin 64, A (ix2 n j) * B (ix2 j o) := by
  simp only [Host.dotGeneral]
  rw [Ideal.dotGeneral_apply, ← Equiv.sum_comp (contrEquiv1 dot_S500000x64_S64x6_S500000x6_1_0_0_1_n_n 64 rfl rfl).symm]
  refine Finset.sum_congr rfl fun k _ => ?_
  have hk := contrEquiv1_symm_val dot_S500000x64_S64x6_S500000x6_1_0_0_1_n_n 64 rfl rfl k
  have el : dot_S500000x64_S64x6_S500000x6_1_0_0_1_n_n.lhsIdx (ix2 n o) ((contrEquiv1 dot_S500000x64_S64x6_S500000x6_1_0_0_1_n_n 64 rfl rfl).symm k) = ix2 n k := funext fun a => Fin.ext (by
    match a with
    | ⟨0, _⟩ => exact lhs64_0 _ _
    | ⟨1, _⟩ => exact (lhs64_1 _ _).trans hk)
  have er : dot_S500000x64_S64x6_S500000x6_1_0_0_1_n_n.rhsIdx (ix2 n o) ((contrEquiv1 dot_S500000x64_S64x6_S500000x6_1_0_0_1_n_n 64 rfl rfl).symm k) = ix2 k o := funext fun a => Fin.ext (by
    match a with
    | ⟨0, _⟩ => exact (rhs64_0 _ _).trans hk
    | ⟨1, _⟩ => exact rhs64_1 _ _)
  rw [el, er]

/-- The mixing weights reshaped to 64 × 6 read, at `(j, o)`, the weights at `(0, j, o)`. -/
theorem wmix_apply (Wm : (⟨S1x64x6, .f32⟩ : BufTy).Contents (Elt Ideal)) (j : Fin 64) (o : Fin 6) :
    shapeCast S64x6 Wm shapeCasts_S1x64x6_S64x6 (ix2 j o) = Wm (ix3 (0 : Fin 1) j o) :=
  shapeCast_apply Wm shapeCasts_S1x64x6_S64x6 (ix2 j o) (ix3 (0 : Fin 1) j o)
    (by rewrite [Shape.rowMajor_val_three, Shape.rowMajor_val_two]; show (0 * 64 + j.val) * 6 + o.val = j.val * 6 + o.val; omega)

/-- The result at row `n`, column `o`. -/
theorem tailOut_apply (H : (⟨S500000x64, .f32⟩ : BufTy).Contents (Elt Ideal)) (g be : (⟨S64, .f32⟩ : BufTy).Contents (Elt Ideal)) (Wm : (⟨S1x64x6, .f32⟩ : BufTy).Contents (Elt Ideal))
    (bm : (⟨S6, .f32⟩ : BufTy).Contents (Elt Ideal)) (n : Fin 500000) (o : Fin 6) :
    tailOut (F := Ideal) H g be Wm bm (ix2 n o)
      = (∑ j : Fin 64, max ((((H (ix2 n j) - colMean H (ix1 j)) * Ideal.rsqrt (colVar H (ix1 j) + Ideal.ofBits .f32 0x3727C5AC#32))
          * g (ix1 j)) + be (ix1 j)) 0 * Wm (ix3 (0 : Fin 1) j o)) + bm (ix1 o) := by
  unfold tailOut
  rw [addf_apply, overRows6_apply, dot64_apply]
  refine congrArg (· + bm (ix1 o)) (Finset.sum_congr rfl fun j _ => ?_)
  rw [normRelu_apply, wmix_apply]

/-! ## The hidden rows -/

theorem lhs24_0 (i : S500000x64.Idx) (q : dot_S500000x24_S24x64_S500000x64_1_0_0_1_n_n.contr.Idx) : (dot_S500000x24_S24x64_S500000x64_1_0_0_1_n_n.lhsIdx i q 0).val = (i 0).val := by
  unfold DotDims.lhsIdx
  rw [dif_neg (show ¬(0 : Fin S500000x24.rank) ∈ dot_S500000x24_S24x64_S500000x64_1_0_0_1_n_n.lhsBatch by decide), dif_pos (show (0 : Fin S500000x24.rank) ∈ dot_S500000x24_S24x64_S500000x64_1_0_0_1_n_n.lhsNonContracting by decide)]
  rfl
theorem lhs24_1 (i : S500000x64.Idx) (q : dot_S500000x24_S24x64_S500000x64_1_0_0_1_n_n.contr.Idx) : (dot_S500000x24_S24x64_S500000x64_1_0_0_1_n_n.lhsIdx i q 1).val = (q ⟨0, by decide⟩).val :=
  dot_S500000x24_S24x64_S500000x64_1_0_0_1_n_n.lhsIdx_val_of_single rfl i q
theorem rhs24_0 (i : S500000x64.Idx) (q : dot_S500000x24_S24x64_S500000x64_1_0_0_1_n_n.contr.Idx) : (dot_S500000x24_S24x64_S500000x64_1_0_0_1_n_n.rhsIdx i q 0).val = (q ⟨0, by decide⟩).val :=
  dot_S500000x24_S24x64_S500000x64_1_0_0_1_n_n.rhsIdx_val_of_single rfl i q
theorem rhs24_1 (i : S500000x64.Idx) (q : dot_S500000x24_S24x64_S500000x64_1_0_0_1_n_n.contr.Idx) : (dot_S500000x24_S24x64_S500000x64_1_0_0_1_n_n.rhsIdx i q 1).val = (i 1).val := by
  unfold DotDims.rhsIdx
  rw [dif_neg (show ¬(1 : Fin S24x64.rank) ∈ dot_S500000x24_S24x64_S500000x64_1_0_0_1_n_n.rhsBatch by decide), dif_pos (show (1 : Fin S24x64.rank) ∈ dot_S500000x24_S24x64_S500000x64_1_0_0_1_n_n.rhsNonContracting by decide)]
  rfl

/-- A base times a 24 × 64 matrix at row `n`, column `j`: the sum over the 24 features. -/
theorem dotW_apply (A : FVec Ideal S500000x24 .f32) (B : FVec Ideal S24x64 .f32) (n : Fin 500000) (j : Fin 64) :
    dotW (F := Ideal) A B (ix2 n j) = ∑ f : Fin 24, A (ix2 n f) * B (ix2 f j) := by
  unfold dotW
  simp only [Host.dotGeneral]
  rw [Ideal.dotGeneral_apply, ← Equiv.sum_comp (contrEquiv1 dot_S500000x24_S24x64_S500000x64_1_0_0_1_n_n 24 rfl rfl).symm]
  refine Finset.sum_congr rfl fun k _ => ?_
  have hk := contrEquiv1_symm_val dot_S500000x24_S24x64_S500000x64_1_0_0_1_n_n 24 rfl rfl k
  have el : dot_S500000x24_S24x64_S500000x64_1_0_0_1_n_n.lhsIdx (ix2 n j) ((contrEquiv1 dot_S500000x24_S24x64_S500000x64_1_0_0_1_n_n 24 rfl rfl).symm k) = ix2 n k := funext fun a => Fin.ext (by
    match a with
    | ⟨0, _⟩ => exact lhs24_0 _ _
    | ⟨1, _⟩ => exact (lhs24_1 _ _).trans hk)
  have er : dot_S500000x24_S24x64_S500000x64_1_0_0_1_n_n.rhsIdx (ix2 n j) ((contrEquiv1 dot_S500000x24_S24x64_S500000x64_1_0_0_1_n_n 24 rfl rfl).symm k) = ix2 k j := funext fun a => Fin.ext (by
    match a with
    | ⟨0, _⟩ => exact (rhs24_0 _ _).trans hk
    | ⟨1, _⟩ => exact rhs24_1 _ _)
  rw [el, er]

/-- The `0`-th slice of the weights at row `f`, column `j`, is the weights at `(0, f, j)`. -/
theorem wSlice0_apply (W : (⟨S6x24x64, .f32⟩ : BufTy).Contents (Elt Ideal)) (f : Fin 24) (j : Fin 64) :
    wSlice0 (F := Ideal) W (ix2 f j) = W (ix3 (0 : Fin 6) f j) := by
  unfold wSlice0
  refine (shapeCast_apply _ shapeCasts_S1x24x64_S24x64 (ix2 f j) (ix3 (0 : Fin 1) f j)
    (by rewrite [Shape.rowMajor_val_three, Shape.rowMajor_val_two]; show (0 * 24 + f.val) * 64 + j.val = f.val * 64 + j.val; omega)).trans ?_
  exact extractStridedSlice_apply ![0, 0, 0] W slices_S6x24x64_S1x24x64_0_0_0 (ix3 (0 : Fin 1) f j) (ix3 (0 : Fin 6) f j) (fun a => match a with
    | ⟨0, _⟩ => by show (0 : Nat) = 0 + 0; rfl
    | ⟨1, _⟩ => by show f.val = 0 + f.val; omega
    | ⟨2, _⟩ => by show j.val = 0 + j.val; omega)

/-- The `1`-th slice of the weights at row `f`, column `j`, is the weights at `(1, f, j)`. -/
theorem wSlice1_apply (W : (⟨S6x24x64, .f32⟩ : BufTy).Contents (Elt Ideal)) (f : Fin 24) (j : Fin 64) :
    wSlice1 (F := Ideal) W (ix2 f j) = W (ix3 (1 : Fin 6) f j) := by
  unfold wSlice1
  refine (shapeCast_apply _ shapeCasts_S1x24x64_S24x64 (ix2 f j) (ix3 (0 : Fin 1) f j)
    (by rewrite [Shape.rowMajor_val_three, Shape.rowMajor_val_two]; show (0 * 24 + f.val) * 64 + j.val = f.val * 64 + j.val; omega)).trans ?_
  exact extractStridedSlice_apply ![1, 0, 0] W slices_S6x24x64_S1x24x64_1_0_0 (ix3 (0 : Fin 1) f j) (ix3 (1 : Fin 6) f j) (fun a => match a with
    | ⟨0, _⟩ => by show (1 : Nat) = 1 + 0; rfl
    | ⟨1, _⟩ => by show f.val = 0 + f.val; omega
    | ⟨2, _⟩ => by show j.val = 0 + j.val; omega)

/-- The `2`-th slice of the weights at row `f`, column `j`, is the weights at `(2, f, j)`. -/
theorem wSlice2_apply (W : (⟨S6x24x64, .f32⟩ : BufTy).Contents (Elt Ideal)) (f : Fin 24) (j : Fin 64) :
    wSlice2 (F := Ideal) W (ix2 f j) = W (ix3 (2 : Fin 6) f j) := by
  unfold wSlice2
  refine (shapeCast_apply _ shapeCasts_S1x24x64_S24x64 (ix2 f j) (ix3 (0 : Fin 1) f j)
    (by rewrite [Shape.rowMajor_val_three, Shape.rowMajor_val_two]; show (0 * 24 + f.val) * 64 + j.val = f.val * 64 + j.val; omega)).trans ?_
  exact extractStridedSlice_apply ![2, 0, 0] W slices_S6x24x64_S1x24x64_2_0_0 (ix3 (0 : Fin 1) f j) (ix3 (2 : Fin 6) f j) (fun a => match a with
    | ⟨0, _⟩ => by show (2 : Nat) = 2 + 0; rfl
    | ⟨1, _⟩ => by show f.val = 0 + f.val; omega
    | ⟨2, _⟩ => by show j.val = 0 + j.val; omega)

/-- The `3`-th slice of the weights at row `f`, column `j`, is the weights at `(3, f, j)`. -/
theorem wSlice3_apply (W : (⟨S6x24x64, .f32⟩ : BufTy).Contents (Elt Ideal)) (f : Fin 24) (j : Fin 64) :
    wSlice3 (F := Ideal) W (ix2 f j) = W (ix3 (3 : Fin 6) f j) := by
  unfold wSlice3
  refine (shapeCast_apply _ shapeCasts_S1x24x64_S24x64 (ix2 f j) (ix3 (0 : Fin 1) f j)
    (by rewrite [Shape.rowMajor_val_three, Shape.rowMajor_val_two]; show (0 * 24 + f.val) * 64 + j.val = f.val * 64 + j.val; omega)).trans ?_
  exact extractStridedSlice_apply ![3, 0, 0] W slices_S6x24x64_S1x24x64_3_0_0 (ix3 (0 : Fin 1) f j) (ix3 (3 : Fin 6) f j) (fun a => match a with
    | ⟨0, _⟩ => by show (3 : Nat) = 3 + 0; rfl
    | ⟨1, _⟩ => by show f.val = 0 + f.val; omega
    | ⟨2, _⟩ => by show j.val = 0 + j.val; omega)

/-- The `4`-th slice of the weights at row `f`, column `j`, is the weights at `(4, f, j)`. -/
theorem wSlice4_apply (W : (⟨S6x24x64, .f32⟩ : BufTy).Contents (Elt Ideal)) (f : Fin 24) (j : Fin 64) :
    wSlice4 (F := Ideal) W (ix2 f j) = W (ix3 (4 : Fin 6) f j) := by
  unfold wSlice4
  refine (shapeCast_apply _ shapeCasts_S1x24x64_S24x64 (ix2 f j) (ix3 (0 : Fin 1) f j)
    (by rewrite [Shape.rowMajor_val_three, Shape.rowMajor_val_two]; show (0 * 24 + f.val) * 64 + j.val = f.val * 64 + j.val; omega)).trans ?_
  exact extractStridedSlice_apply ![4, 0, 0] W slices_S6x24x64_S1x24x64_4_0_0 (ix3 (0 : Fin 1) f j) (ix3 (4 : Fin 6) f j) (fun a => match a with
    | ⟨0, _⟩ => by show (4 : Nat) = 4 + 0; rfl
    | ⟨1, _⟩ => by show f.val = 0 + f.val; omega
    | ⟨2, _⟩ => by show j.val = 0 + j.val; omega)

/-- The `5`-th slice of the weights at row `f`, column `j`, is the weights at `(5, f, j)`. -/
theorem wSlice5_apply (W : (⟨S6x24x64, .f32⟩ : BufTy).Contents (Elt Ideal)) (f : Fin 24) (j : Fin 64) :
    wSlice5 (F := Ideal) W (ix2 f j) = W (ix3 (5 : Fin 6) f j) := by
  unfold wSlice5
  refine (shapeCast_apply _ shapeCasts_S1x24x64_S24x64 (ix2 f j) (ix3 (0 : Fin 1) f j)
    (by rewrite [Shape.rowMajor_val_three, Shape.rowMajor_val_two]; show (0 * 24 + f.val) * 64 + j.val = f.val * 64 + j.val; omega)).trans ?_
  exact extractStridedSlice_apply ![5, 0, 0] W slices_S6x24x64_S1x24x64_5_0_0 (ix3 (0 : Fin 1) f j) (ix3 (5 : Fin 6) f j) (fun a => match a with
    | ⟨0, _⟩ => by show (5 : Nat) = 5 + 0; rfl
    | ⟨1, _⟩ => by show f.val = 0 + f.val; omega
    | ⟨2, _⟩ => by show j.val = 0 + j.val; omega)

/-- The hidden rows at row `n`, column `j`: the six sums added in order, then the bias. -/
theorem hidRef_apply (T0 T1 T2 T3 T4 T5 : (⟨S500000x24, .f32⟩ : BufTy).Contents (Elt Ideal)) (W : (⟨S6x24x64, .f32⟩ : BufTy).Contents (Elt Ideal)) (b : (⟨S64, .f32⟩ : BufTy).Contents (Elt Ideal))
    (n : Fin 500000) (j : Fin 64) :
    hidRef (F := Ideal) T0 T1 T2 T3 T4 T5 W b (ix2 n j)
      = ((((((∑ f : Fin 24, T0 (ix2 n f) * W (ix3 (0 : Fin 6) f j)) + (∑ f : Fin 24, T1 (ix2 n f) * W (ix3 (1 : Fin 6) f j)))
          + (∑ f : Fin 24, T2 (ix2 n f) * W (ix3 (2 : Fin 6) f j))) + (∑ f : Fin 24, T3 (ix2 n f) * W (ix3 (3 : Fin 6) f j)))
          + (∑ f : Fin 24, T4 (ix2 n f) * W (ix3 (4 : Fin 6) f j))) + (∑ f : Fin 24, T5 (ix2 n f) * W (ix3 (5 : Fin 6) f j)))
        + b (ix1 j) := by
  unfold hidRef
  simp only [addf_apply, overRows_apply, dotW_apply, wSlice0_apply, wSlice1_apply, wSlice2_apply, wSlice3_apply, wSlice4_apply,
    wSlice5_apply]

end Cert.ReferenceIdeal.HandRun

end
-- ==== Proof.KernelStats.lean ====
/-
  The kernel's mean and variance, read off the moments array, on the extended reals.

  The moments array holds, per tile of 2000 rows and per column, the sum of the hidden entries and the sum of their
  squares. Summing a moment over the 250 tiles gives the sum over all 500000 rows; the mean is the summed first moment
  over 500000, the variance the summed second moment over 500000 less the square of the mean (\`meanV_apply\`,
  \`varV_apply\`). For a hidden array of reals that is the mean of the squared deviations from the mean
  (\`varV_centered\`).
-/
import proofs.«105403_j78039555768470_2_alg».proof.Proof.KernelIdealValue
import proofs.«105403_j78039555768470_2_alg».proof.Proof.KernelIdealHost
import proofs.«105403_j78039555768470_2_alg».proof.Proof.BasesReal
import proofs.«105403_j78039555768470_2_alg».proof.Proof.LibMoments
import Idealize.ShloMosaic.Lib.ValueIdx

noncomputable section

open Idealize.ShloMosaic Idealize.ShloMosaic.ValueIdx

namespace Cert.KernelIdeal.KStats

open Cert.KernelIdeal Cert.KernelIdeal.Gen Cert.KernelIdeal.KValue Cert.KernelIdeal.KHost Cert.KernelIdeal.BasesReal
  Cert.LibMoments

open scoped BigOperators

/-! ## The constant and the quotient -/

/-- The word \`0x48F42400\` denotes \`500000\`. -/
theorem ofBits_500000 : Ideal.ofBits .f32 0x48F42400#32 = ((500000 : ℝ) : EReal) := by
  simp [Ideal.ofBits, Ideal.ieee, -EReal.coe_mul]; norm_num

/-- A quotient of arrays reads, at an index, the quotient of the elements (at any shape). -/
theorem host_divf_apply {s : Shape} (a b : FVec Ideal s .f32) (i : s.Idx) :
    Host.divf (F := Ideal) a b i = Ideal.div (a i) (b i) :=
  rfl

/-! ## The moments array at an index -/

/-- The first moment of tile \`t\` at column \`j\`: the sum of the tile's hidden entries. -/
theorem momF_sum_apply (H : (⟨S500000x64, .f32⟩ : BufTy).Contents (Elt Ideal)) (t : Fin 250) (j : Fin 64) :
    momF H (ix3 t (0 : Fin 2) j) = ∑ r : Fin 2000, H (ix2 (⟨2000 * t.val + r.val, by omega⟩ : Fin 500000) j) :=
  if_pos rfl

/-- The second moment of tile \`t\` at column \`j\`: the sum of the squares of the tile's hidden entries. -/
theorem momF_sq_apply (H : (⟨S500000x64, .f32⟩ : BufTy).Contents (Elt Ideal)) (t : Fin 250) (j : Fin 64) :
    momF H (ix3 t (1 : Fin 2) j) = ∑ r : Fin 2000, H (ix2 (⟨2000 * t.val + r.val, by omega⟩ : Fin 500000) j)
      * H (ix2 (⟨2000 * t.val + r.val, by omega⟩ : Fin 500000) j) :=
  if_neg (by show ¬ ((1 : Fin 2).val = 0); decide)

/-- The moments summed over the tiles, first row: the sum of the hidden entries of the column over all rows. -/
theorem sumTiles_sum_apply (H : (⟨S500000x64, .f32⟩ : BufTy).Contents (Elt Ideal)) (j : Fin 64) :
    sumTiles (F := Ideal) (momF H) (ix2 (0 : Fin 2) j) = 0 + ∑ n : Fin 500000, H (ix2 n j) := by
  delta sumTiles
  rw [tiles_sum_apply, Ideal.ofBits_zero_f32]
  refine congrArg (fun z => (0 : EReal) + z) ?_
  refine (Finset.sum_congr rfl fun t _ => momF_sum_apply H t j).trans ?_
  exact (sum_fin_500000 fun n => H (ix2 n j)).symm

/-- The moments summed over the tiles, second row: the sum of the squares of the column's hidden entries. -/
theorem sumTiles_sq_apply (H : (⟨S500000x64, .f32⟩ : BufTy).Contents (Elt Ideal)) (j : Fin 64) :
    sumTiles (F := Ideal) (momF H) (ix2 (1 : Fin 2) j) = 0 + ∑ n : Fin 500000, H (ix2 n j) * H (ix2 n j) := by
  delta sumTiles
  rw [tiles_sum_apply, Ideal.ofBits_zero_f32]
  refine congrArg (fun z => (0 : EReal) + z) ?_
  refine (Finset.sum_congr rfl fun t _ => momF_sq_apply H t j).trans ?_
  exact (sum_fin_500000 fun n => H (ix2 n j) * H (ix2 n j)).symm

/-! ## The mean and the variance -/

/-- THE MEAN at column \`j\`: the sum of the column's hidden entries over \`500000\`. -/
theorem meanV_apply (H : (⟨S500000x64, .f32⟩ : BufTy).Contents (Elt Ideal)) (j : Fin 64) :
    meanV (F := Ideal) (momF H) (ix1 j) = Ideal.div (0 + ∑ n : Fin 500000, H (ix2 n j)) ((500000 : ℝ) : EReal) := by
  delta meanV
  rw [host_divf_apply, splat_apply, ofBits_500000, cast_1x64_64_apply, row0_apply, sumTiles_sum_apply]

/-- The mean of squares at column \`j\`: the sum of the squares of the column's hidden entries over \`500000\`. -/
theorem meanSqV_apply (H : (⟨S500000x64, .f32⟩ : BufTy).Contents (Elt Ideal)) (j : Fin 64) :
    meanSqV (F := Ideal) (momF H) (ix1 j)
      = Ideal.div (0 + ∑ n : Fin 500000, H (ix2 n j) * H (ix2 n j)) ((500000 : ℝ) : EReal) := by
  delta meanSqV
  rw [host_divf_apply, splat_apply, ofBits_500000, cast_1x64_64_apply, row1_apply, sumTiles_sq_apply]

/-- THE VARIANCE at column \`j\`: the mean of squares less the square of the mean. -/
theorem varV_apply (H : (⟨S500000x64, .f32⟩ : BufTy).Contents (Elt Ideal)) (j : Fin 64) :
    varV (F := Ideal) (momF H) (ix1 j)
      = Ideal.div (0 + ∑ n : Fin 500000, H (ix2 n j) * H (ix2 n j)) ((500000 : ℝ) : EReal)
        - meanV (F := Ideal) (momF H) (ix1 j) * meanV (F := Ideal) (momF H) (ix1 j) := by
  delta varV
  rw [subf_apply, mulf_apply, meanSqV_apply]

/-- For a hidden array of reals the variance is the mean of the squared deviations from the mean
    \`μ = (0 + ∑ n, H (n, j)) / 500000\`. -/
theorem varV_centered (H : (⟨S500000x64, .f32⟩ : BufTy).Contents (Elt Ideal)) (hH : ∀ i, IsReal (H i)) (j : Fin 64) :
    varV (F := Ideal) (momF H) (ix1 j)
      = Ideal.div (0 + ∑ n : Fin 500000,
            (H (ix2 n j) - Ideal.div (0 + ∑ n : Fin 500000, H (ix2 n j)) ((500000 : ℝ) : EReal))
              * (H (ix2 n j) - Ideal.div (0 + ∑ n : Fin 500000, H (ix2 n j)) ((500000 : ℝ) : EReal)))
          ((500000 : ℝ) : EReal) := by
  rw [varV_apply, meanV_apply]
  exact (variance_ereal_500000 (fun n => H (ix2 n j)) fun n => hH _).symm

end Cert.KernelIdeal.KStats
-- ==== Proof.Bridge.lean ====
/-
  The two programs compute the same array.

  Hidden rows.  At row `n`, column `j` both are `Σ_k Σ_f T_k (n, f) · W (k, f, j) + b_j` with the six products summed in the same
  order: the kernel reads base `k` as slab `k` of the stack and the bias as a row, the reference reads the bases and the
  weight slabs one by one.  Under finite inputs every base entry is a real, so every hidden entry is.
  Statistics.  The kernel's mean is the sum over the 250 tiles of the tiles' column sums over the number of rows, which is
  the reference's sum over all rows; the kernel's variance is the mean of squares less the square of the mean, which for
  real entries is the reference's mean of squared deviations.  The last stage is then the same expression on both sides.
-/
import proofs.«105403_j78039555768470_2_alg».proof.Proof.KernelIdealOut
import proofs.«105403_j78039555768470_2_alg».proof.Proof.BasesReal
import proofs.«105403_j78039555768470_2_alg».proof.Proof.LibMoments
import proofs.«105403_j78039555768470_2_alg».proof.Proof.RefFnRead
import proofs.«105403_j78039555768470_2_alg».proof.Proof.KernelStats

set_option maxRecDepth 16384

noncomputable section

namespace Cert.Bridge

open Idealize.ShloMosaic Idealize.ShloMosaic.ValueIdx
open Cert.LibMoments
open Cert.KernelIdeal.Bases Cert.KernelIdeal.BasesReal Cert.KernelIdeal.KValue Cert.KernelIdeal.KHost

/-- The kernel's and the reference's hidden arrays, of the same arguments. -/
abbrev Hk (x : (⟨Cert.KernelIdeal.S500000x24, .f32⟩ : BufTy).Contents (Elt Ideal)) (e : (⟨Cert.KernelIdeal.S2x4000000, .i32⟩ : BufTy).Contents (Elt Ideal))
    (W : (⟨Cert.KernelIdeal.S6x24x64, .f32⟩ : BufTy).Contents (Elt Ideal)) (b : (⟨Cert.KernelIdeal.S64, .f32⟩ : BufTy).Contents (Elt Ideal)) :
    (⟨Cert.KernelIdeal.S500000x64, .f32⟩ : BufTy).Contents (Elt Ideal) :=
  hidF (stackF x e) W (shapeCast _ b Cert.KernelIdeal.Gen.shapeCasts_S64_S1x64)

abbrev Hr (x : (⟨Cert.KernelIdeal.S500000x24, .f32⟩ : BufTy).Contents (Elt Ideal)) (e : (⟨Cert.KernelIdeal.S2x4000000, .i32⟩ : BufTy).Contents (Elt Ideal))
    (W : (⟨Cert.KernelIdeal.S6x24x64, .f32⟩ : BufTy).Contents (Elt Ideal)) (b : (⟨Cert.KernelIdeal.S64, .f32⟩ : BufTy).Contents (Elt Ideal)) :
    (⟨Cert.ReferenceIdeal.S500000x64, .f32⟩ : BufTy).Contents (Elt Ideal) :=
  Cert.ReferenceIdeal.HandRun.hidRef x (T1F x e) (T2F x e) (T3F x e) (T4F x e) (T5F x e) W b

/-- The same six products in the same order, the same bias. -/
theorem hid_apply_eq (x e W b) (n : Fin 500000) (j : Fin 64) : Hk x e W b (ix2 n j) = Hr x e W b (ix2 n j) := by
  show hidF (stack6 x (T1F x e) (T2F x e) (T3F x e) (T4F x e) (T5F x e)) W (shapeCast _ b Cert.KernelIdeal.Gen.shapeCasts_S64_S1x64) (ix2 n j) = _
  unfold hidF
  simp only [dotK, stack_apply_0, stack_apply_1, stack_apply_2, stack_apply_3, stack_apply_4, stack_apply_5]
  refine Eq.trans ?_ (Cert.ReferenceIdeal.HandRun.hidRef_apply x (T1F x e) (T2F x e) (T3F x e) (T4F x e) (T5F x e) W b n j).symm
  exact congrArg (HAdd.hAdd _) (cast_64_1x64_apply b j)

theorem hid_eq (x e W b) : Hk x e W b = Hr x e W b :=
  funext fun i => by
    obtain ⟨n, j, rfl⟩ : ∃ (n : Fin 500000) (j : Fin 64), i = ix2 n j := ⟨i 0, i 1, eq_ix2 i⟩
    exact hid_apply_eq x e W b n j

/-- Finite inputs give finite hidden rows. -/
theorem hid_real (x e W b) (hx : ∀ i, IsReal (x i)) (hW : ∀ i, IsReal (W i)) (hb : ∀ i, IsReal (b i))
    (n : Fin 500000) (j : Fin 64) : IsReal (Hr x e W b (ix2 n j)) := by
  obtain ⟨h1, h2, h3, h4, h5⟩ := bases_real x e hx
  rw [show Hr x e W b (ix2 n j) = _ from
    Cert.ReferenceIdeal.HandRun.hidRef_apply x (T1F x e) (T2F x e) (T3F x e) (T4F x e) (T5F x e) W b n j]
  refine IsReal.add (IsReal.add (IsReal.add (IsReal.add (IsReal.add (IsReal.add ?_ ?_) ?_) ?_) ?_) ?_) (hb _)
  · exact IsReal.fintype_sum _ fun f => IsReal.mul (hx _) (hW _)
  · exact IsReal.fintype_sum _ fun f => IsReal.mul (h1 _) (hW _)
  · exact IsReal.fintype_sum _ fun f => IsReal.mul (h2 _) (hW _)
  · exact IsReal.fintype_sum _ fun f => IsReal.mul (h3 _) (hW _)
  · exact IsReal.fintype_sum _ fun f => IsReal.mul (h4 _) (hW _)
  · exact IsReal.fintype_sum _ fun f => IsReal.mul (h5 _) (hW _)

/-! ## The last stage -/

open Cert.KernelIdeal.KStats

/-- With the hidden rows real, the kernel's output expression is the reference's, index by index. -/
theorem out_apply_eq (H : (⟨Cert.KernelIdeal.S500000x64, .f32⟩ : BufTy).Contents (Elt Ideal)) (hH : ∀ i, IsReal (H i))
    (g be : (⟨Cert.KernelIdeal.S64, .f32⟩ : BufTy).Contents (Elt Ideal)) (Wm : (⟨Cert.KernelIdeal.S1x64x6, .f32⟩ : BufTy).Contents (Elt Ideal))
    (bm : (⟨Cert.KernelIdeal.S6, .f32⟩ : BufTy).Contents (Elt Ideal)) (n : Fin 500000) (o : Fin 6) :
    outF H (shapeCast _ g Cert.KernelIdeal.Gen.shapeCasts_S64_S1x64) (shapeCast _ be Cert.KernelIdeal.Gen.shapeCasts_S64_S1x64)
        (shapeCast _ (meanV (momF H)) Cert.KernelIdeal.Gen.shapeCasts_S64_S1x64)
        (shapeCast _ (varV (momF H)) Cert.KernelIdeal.Gen.shapeCasts_S64_S1x64)
        (shapeCast _ Wm Cert.KernelIdeal.Gen.shapeCasts_S1x64x6_S64x6) (shapeCast _ bm Cert.KernelIdeal.Gen.shapeCasts_S6_S1x6) (ix2 n o)
      = Cert.ReferenceIdeal.HandRun.tailOut H g be Wm bm (ix2 n o) := by
  have hμ : ∀ j : Fin 64, shapeCast _ (meanV (F := Ideal) (momF H)) Cert.KernelIdeal.Gen.shapeCasts_S64_S1x64 (ix2 (0 : Fin 1) j)
      = Cert.ReferenceIdeal.HandRun.colMean H (ix1 j) := fun j =>
    (cast_64_1x64_apply _ j).trans ((meanV_apply H j).trans (Cert.ReferenceIdeal.HandRun.colMean_apply H j).symm)
  have hv : ∀ j : Fin 64, shapeCast _ (varV (F := Ideal) (momF H)) Cert.KernelIdeal.Gen.shapeCasts_S64_S1x64 (ix2 (0 : Fin 1) j)
      = Cert.ReferenceIdeal.HandRun.colVar H (ix1 j) := fun j => by
    refine (cast_64_1x64_apply _ j).trans ((varV_centered H hH j).trans ?_)
    rw [Cert.ReferenceIdeal.HandRun.colVar_apply, Cert.ReferenceIdeal.HandRun.colMean_apply]
  rw [Cert.ReferenceIdeal.HandRun.tailOut_apply]
  unfold outF
  simp only [hμ, hv]
  refine congrArg₂ (· + ·) (Finset.sum_congr rfl fun j _ => ?_) (cast_6_1x6_apply bm o)
  rw [cast_64_1x64_apply g j, cast_64_1x64_apply be j, cast_1x64x6_64x6_apply Wm j o]

end Cert.Bridge

end
-- ==== Proof.PreReal.lean ====
/-
  The precondition read back: when the predicate "every entry of every float argument has absolute value below
  `+∞`" evaluates to true, every entry of every float argument is a real number.

  The predicate is a conjunction of seven conjuncts, one per float argument, each the `and`-reduction over all
  axes of the entrywise comparison `|x| < +∞`. A reduction by `and` that gives `1` met only `1`s; the comparison
  `max x (-x) < ⊤` on the extended reals excludes `x = ⊤` and `x = ⊥` (for `-⊥ = ⊤`), so `x` is a real.
-/
import proofs.«105403_j78039555768470_2_alg».proof.Pre_finite_inputs
import proofs.«105403_j78039555768470_2_alg».proof.Proof.LibMoments
import Idealize.ShloMosaic.Lib.ReduceAll
import Idealize.ShloMosaic.Lib.ValueIdx
import Idealize.ShloMosaic.Lib.IdealHost
import Idealize.ShloMosaic.PureOps.Ideal

noncomputable section

namespace Cert.Pre_finite_inputs.PreReal

open Idealize.ShloMosaic Cert.LibMoments Cert.Pre_finite_inputs

/-- The shape of rank zero has one index. -/
instance subsingleton_scalar_idx : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value `max x (-x)` compares below `+∞` is a real. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | top => simp at hlt
  | coe r => exact IsReal.coe r

/-- One conjunct of the predicate: if the `and`-reduction over all axes of `|x| < +∞` is `1`, every entry of `x`
    is a real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, IsReal (x i) := fun i => by
  have e := Host.reduce_andi_all _ _ hr hu ValueIdx.ix0 h i
  exact isReal_of_abs_lt_inf (x i) e

variable [Facts]

/-- The precondition gives that every entry of each of the seven float arguments is a real. -/
theorem real_of_pre (x : FVec Ideal S500000x24 .f32) (e : IVec S2x4000000 32) (W : FVec Ideal S6x24x64 .f32)
    (b : FVec Ideal S64 .f32) (g : FVec Ideal S64 .f32) (be : FVec Ideal S64 .f32) (Wm : FVec Ideal S1x64x6 .f32)
    (bm : FVec Ideal S6 .f32) (h : fn (F := Ideal) x e W b g be Wm bm = fun _ => 1#1) :
    (∀ i, IsReal (x i)) ∧ (∀ i, IsReal (W i)) ∧ (∀ i, IsReal (b i)) ∧ (∀ i, IsReal (g i)) ∧ (∀ i, IsReal (be i))
      ∧ (∀ i, IsReal (Wm i)) ∧ (∀ i, IsReal (bm i)) := by
  have h0 := congrFun h ValueIdx.ix0
  dsimp only [fn, fn_part1] at h0
  obtain ⟨h6, hbm⟩ := IntOp.andi_eq_one.1 h0
  obtain ⟨h5, hWm⟩ := IntOp.andi_eq_one.1 h6
  obtain ⟨h4, hbe⟩ := IntOp.andi_eq_one.1 h5
  obtain ⟨h3, hg⟩ := IntOp.andi_eq_one.1 h4
  obtain ⟨h2, hb⟩ := IntOp.andi_eq_one.1 h3
  obtain ⟨hx, hW⟩ := IntOp.andi_eq_one.1 h2
  exact ⟨all_real x _ _ _ hx, all_real W _ _ _ hW, all_real b _ _ _ hb, all_real g _ _ _ hg,
    all_real be _ _ _ hbe, all_real Wm _ _ _ hWm, all_real bm _ _ _ hbm⟩

end Cert.Pre_finite_inputs.PreReal

end
-- ==== Proof.BridgeFinal.lean ====
/-
  The two results agree: under the precondition (every float input finite) the kernel program's result array is the
  reference's result function of the same arguments.
-/
import proofs.«105403_j78039555768470_2_alg».proof.Proof.Bridge
import proofs.«105403_j78039555768470_2_alg».proof.Proof.PreReal
import proofs.«105403_j78039555768470_2_alg».proof.Proof.RefValue

set_option maxRecDepth 16384

noncomputable section

namespace Cert.Bridge

open Idealize.ShloMosaic Idealize.ShloMosaic.ValueIdx
open Cert.LibMoments
open Cert.KernelIdeal.Bases Cert.KernelIdeal.BasesReal Cert.KernelIdeal.KValue Cert.KernelIdeal.KHost

set_option maxHeartbeats 400000 in
/-- The kernel's closed form is the reference's, for arrays whose float entries are all real. -/
theorem agree_pure (x : (⟨Cert.KernelIdeal.S500000x24, .f32⟩ : BufTy).Contents (Elt Ideal)) (e : (⟨Cert.KernelIdeal.S2x4000000, .i32⟩ : BufTy).Contents (Elt Ideal))
    (W : (⟨Cert.KernelIdeal.S6x24x64, .f32⟩ : BufTy).Contents (Elt Ideal)) (b g be : (⟨Cert.KernelIdeal.S64, .f32⟩ : BufTy).Contents (Elt Ideal))
    (Wm : (⟨Cert.KernelIdeal.S1x64x6, .f32⟩ : BufTy).Contents (Elt Ideal)) (bm : (⟨Cert.KernelIdeal.S6, .f32⟩ : BufTy).Contents (Elt Ideal))
    (hx : ∀ i, IsReal (x i)) (hW : ∀ i, IsReal (W i)) (hb : ∀ i, IsReal (b i)) :
    outF (Hk x e W b) (shapeCast _ g Cert.KernelIdeal.Gen.shapeCasts_S64_S1x64) (shapeCast _ be Cert.KernelIdeal.Gen.shapeCasts_S64_S1x64)
        (shapeCast _ (meanV (momF (Hk x e W b))) Cert.KernelIdeal.Gen.shapeCasts_S64_S1x64)
        (shapeCast _ (varV (momF (Hk x e W b))) Cert.KernelIdeal.Gen.shapeCasts_S64_S1x64)
        (shapeCast _ Wm Cert.KernelIdeal.Gen.shapeCasts_S1x64x6_S64x6) (shapeCast _ bm Cert.KernelIdeal.Gen.shapeCasts_S6_S1x6)
      = Cert.ReferenceIdeal.HandRun.tailOut (Hr x e W b) g be Wm bm := by
  have hH : ∀ i, IsReal (Hr x e W b i) := fun i => by
    obtain ⟨n, j, rfl⟩ : ∃ (n : Fin 500000) (j : Fin 64), i = ix2 n j := ⟨i 0, i 1, eq_ix2 i⟩
    exact hid_real x e W b hx hW hb n j
  have hE : Hk x e W b = Hr x e W b := hid_eq x e W b
  generalize Hk x e W b = H1 at *
  subst hE
  funext i
  obtain ⟨n, o, rfl⟩ : ∃ (n : Fin 500000) (o : Fin 6), i = ix2 n o := ⟨i 0, i 1, eq_ix2 i⟩
  exact out_apply_eq _ hH g be Wm bm n o

/-- The reference's result function, unfolded once. -/
theorem refOut_eq (x : (⟨Cert.KernelIdeal.S500000x24, .f32⟩ : BufTy).Contents (Elt Ideal)) (e : (⟨Cert.KernelIdeal.S2x4000000, .i32⟩ : BufTy).Contents (Elt Ideal))
    (W : (⟨Cert.KernelIdeal.S6x24x64, .f32⟩ : BufTy).Contents (Elt Ideal)) (b g be : (⟨Cert.KernelIdeal.S64, .f32⟩ : BufTy).Contents (Elt Ideal))
    (Wm : (⟨Cert.KernelIdeal.S1x64x6, .f32⟩ : BufTy).Contents (Elt Ideal)) (bm : (⟨Cert.KernelIdeal.S6, .f32⟩ : BufTy).Contents (Elt Ideal)) :
    Cert.ReferenceIdeal.HandRun.refOut (F := Ideal) x e W b g be Wm bm = Cert.ReferenceIdeal.HandRun.tailOut (Hr x e W b) g be Wm bm := rfl

open Cert.KernelIdeal.KOut Cert.KernelIdeal.Run in
set_option maxHeartbeats 400000 in
/-- Under the precondition (every float input finite) the kernel program's result array is the reference's result
    function of the same arguments. -/
theorem result_agree [Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hp : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) = fun _ => 1#1) :
    W6 m ρ c (Proc.devRef .tc Cert.KernelIdeal.main_v133)
      = Cert.ReferenceIdeal.HandRun.refOut (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) := by
  obtain ⟨hx, hW, hb, -, -, -, -⟩ := Cert.Pre_finite_inputs.PreReal.real_of_pre _ _ _ _ _ _ _ _ hp
  refine (result_eq m ρ c).trans ?_
  refine (agree_pure _ _ _ _ _ _ _ _ hx hW hb).trans ?_
  exact (refOut_eq _ _ _ _ _ _ _ _).symm

end Cert.Bridge

end
-- ==== Proof.lean ====
/-
  The certificate of the graph-network layer (Chebyshev mix, batch normalisation, rectification, linear mix): the
  kernel program, its reading over the extended reals, and the reference's.

  Frames.  Each of the three programs runs to the end from any launch memory, faults nowhere, and leaves its eight
  argument arrays as launched: the two kernel programs by the run of their host stretches and two kernel regions, the
  reference by the run of its host operations; no operation and no region writes an argument.
  The kernel's reading over the extended reals rewrites nothing, so there is nothing for it to preserve.
  Values.  Over the extended reals, from finite inputs, both programs compute the same bases, the same hidden rows
  (the same six products, summed in the same order up to an initial zero), the same mean (a sum over 500000 rows is
  the sum over 250 tiles of the sums over 2000 rows), the same variance (the mean of squares less the square of the
  mean is the mean of squared deviations, for finite numbers) and hence the same output rows.
-/
import proofs.«105403_j78039555768470_2_alg».proof.Defs
import proofs.«105403_j78039555768470_2_alg».proof.Proof.Gen.Kernel
import proofs.«105403_j78039555768470_2_alg».proof.Proof.Gen.KernelIdeal
import proofs.«105403_j78039555768470_2_alg».proof.Proof.Gen.ReferenceIdeal
import proofs.«105403_j78039555768470_2_alg».proof.Proof.Gen.Pre_finite_inputs
import proofs.«105403_j78039555768470_2_alg».proof.Proof.KernelRun
import proofs.«105403_j78039555768470_2_alg».proof.Proof.KernelIdealRun
import proofs.«105403_j78039555768470_2_alg».proof.Proof.RefRun
import proofs.«105403_j78039555768470_2_alg».proof.Proof.RefValue
import proofs.«105403_j78039555768470_2_alg».proof.Proof.BridgeFinal
import Idealize.ShloMosaic.Adequacy
import Idealize.ShloMosaic.Init

noncomputable section

namespace Cert.Proof

open Idealize.ShloMosaic Idealize.SL.Sem

theorem frame_kernel : Cert.frame_Kernel := fun m ρ _ => Cert.Kernel.Run.frame m ρ

theorem frame_kernelIdeal : Cert.frame_KernelIdeal := fun m ρ _ => Cert.KernelIdeal.Run.frame m ρ

theorem frame_reference : Cert.frame_ReferenceIdeal := fun m ρ _ => Cert.ReferenceIdeal.HandRun.frame m ρ

theorem preserves : Cert.preserves_Kernel_KernelIdeal := trivial

theorem algebraic : Cert.algebraic_KernelIdeal_ReferenceIdeal := by
  intro m ρ m' ρ' hpre hagree
  refine ⟨fun c => Cert.KernelIdeal.Run.W6 m ρ c (Proc.devRef .tc Cert.KernelIdeal.main_v133), ?_, ?_⟩
  · exact (θ_run (Cert.KernelIdeal.defs (F := Ideal)) _ _).mono (fun s h c => ⟨
      h c _ (Cert.KernelIdeal.Run.mem_uc Cert.KernelIdeal.main_v133 (by decide)),
      (h c _ (Cert.KernelIdeal.Run.mem_uc Cert.KernelIdeal.main_arg0 (by decide))).trans (Cert.KernelIdeal.Run.W6_main_arg0 m ρ c),
      (h c _ (Cert.KernelIdeal.Run.mem_uc Cert.KernelIdeal.main_arg1 (by decide))).trans (Cert.KernelIdeal.Run.W6_main_arg1 m ρ c),
      (h c _ (Cert.KernelIdeal.Run.mem_uc Cert.KernelIdeal.main_arg2 (by decide))).trans (Cert.KernelIdeal.Run.W6_main_arg2 m ρ c),
      (h c _ (Cert.KernelIdeal.Run.mem_uc Cert.KernelIdeal.main_arg3 (by decide))).trans (Cert.KernelIdeal.Run.W6_main_arg3 m ρ c),
      (h c _ (Cert.KernelIdeal.Run.mem_uc Cert.KernelIdeal.main_arg4 (by decide))).trans (Cert.KernelIdeal.Run.W6_main_arg4 m ρ c),
      (h c _ (Cert.KernelIdeal.Run.mem_uc Cert.KernelIdeal.main_arg5 (by decide))).trans (Cert.KernelIdeal.Run.W6_main_arg5 m ρ c),
      (h c _ (Cert.KernelIdeal.Run.mem_uc Cert.KernelIdeal.main_arg6 (by decide))).trans (Cert.KernelIdeal.Run.W6_main_arg6 m ρ c),
      (h c _ (Cert.KernelIdeal.Run.mem_uc Cert.KernelIdeal.main_arg7 (by decide))).trans (Cert.KernelIdeal.Run.W6_main_arg7 m ρ c)⟩)
      (Cert.KernelIdeal.Run.run_all m ρ)
  · refine (θ_run (Cert.ReferenceIdeal.defs (F := Ideal)) _ _).mono (fun s h c => ⟨(h c).1.trans ?_, (h c).2⟩)
      (Cert.ReferenceIdeal.HandRun.run (F := Ideal) m' ρ')
    obtain ⟨a0, a1, a2, a3, a4, a5, a6, a7⟩ := hagree c
    rw [a0, a1, a2, a3, a4, a5, a6, a7]
    exact (Cert.Bridge.result_agree m ρ c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
